-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3000x3000 : Shape := ⟨2, ![3000, 3000]⟩
abbrev S3000x256 : Shape := ⟨2, ![3000, 256]⟩
abbrev S256x128 : Shape := ⟨2, ![256, 128]⟩
abbrev S128x64 : Shape := ⟨2, ![128, 64]⟩
abbrev S_ : Shape := ⟨0, ![]⟩

class Facts : Prop where
  bcast_S_S3000x3000 : S_.BroadcastsInDim S3000x3000 (![] : Fin 0 → Fin S3000x3000.rank)
  reducesTo_S3000x3000_S_d0_1 : S3000x3000.ReducesTo [0, 1] S_
  h_S_ : 0 < S_.numel
  bcast_S_S3000x256 : S_.BroadcastsInDim S3000x256 (![] : Fin 0 → Fin S3000x256.rank)
  reducesTo_S3000x256_S_d0_1 : S3000x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_

variable [Facts]

def fn_part5 {F : FTy → Type} [FloatOps F] (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  main_v88

def fn_part4 {F : FTy → Type} [FloatOps F] (main_arg14 : FVec F S128x64 .f32) (main_arg15 : FVec F S3000x256 .f32) (main_arg16 : FVec F S256x128 .f32) (main_arg17 : FVec F S128x64 .f32) (main_v63 : IVec S_ 1) (main_v67 : IVec S_ 1) : IVec S_ 1 :=
  let main_v68 : IVec S_ 1 := andi main_v63 main_v67
  let main_v69 : FVec F S128x64 .f32 := Host.absf main_arg14
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S3000x256 .f32 := Host.absf main_arg15
  let main_cst_28 : FVec F S_ .f32 := constant S_ .f32 0x7F800000#32
  let main_v75 : FVec F S3000x256 .f32 := broadcastInDim S3000x256 ![] bcast_S_S3000x256 main_cst_28
  let main_v76 : IVec S3000x256 1 := cmpf .olt main_v74 main_v75
  let main_c_29 : IVec S_ 1 := constantI S_ 1 1#1
  let main_v77 : IVec S_ 1 := (fun x v => Host.reduce IntOp.andi x v reducesTo_S3000x256_S_d0_1 h_S_) main_v76 main_c_29
  let main_v78 : IVec S_ 1 := andi main_v73 main_v77
  let main_v79 : FVec F S256x128 .f32 := Host.absf main_arg16
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128x64 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128x64 .f32) (main_arg12 : FVec F S3000x256 .f32) (main_arg13 : FVec F S256x128 .f32) (main_arg14 : FVec F S128x64 .f32) (main_arg15 : FVec F S3000x256 .f32) (main_arg16 : FVec F S256x128 .f32) (main_arg17 : FVec F S128x64 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S3000x256 .f32 := Host.absf main_arg12
  let main_cst_22 : FVec F S_ .f32 := constant S_ .f32 0x7F800000#32
  let main_v60 : FVec F S3000x256 .f32 := broadcastInDim S3000x256 ![] bcast_S_S3000x256 main_cst_22
  let main_v61 : IVec S3000x256 1 := cmpf .olt main_v59 main_v60
  let main_c_23 : IVec S_ 1 := constantI S_ 1 1#1
  let main_v62 : IVec S_ 1 := (fun x v => Host.reduce IntOp.andi x v reducesTo_S3000x256_S_d0_1 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_arg15 main_arg16 main_arg17 main_v63 main_v67

def fn_part2 {F : FTy → Type} [FloatOps F] (main_arg7 : FVec F S256x128 .f32) (main_arg8 : FVec F S128x64 .f32) (main_arg9 : FVec F S3000x256 .f32) (main_arg10 : FVec F S256x128 .f32) (main_arg11 : FVec F S128x64 .f32) (main_arg12 : FVec F S3000x256 .f32) (main_arg13 : FVec F S256x128 .f32) (main_arg14 : FVec F S128x64 .f32) (main_arg15 : FVec F S3000x256 .f32) (main_arg16 : FVec F S256x128 .f32) (main_arg17 : FVec F S128x64 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S3000x256 .f32 := Host.absf main_arg9
  let main_cst_16 : FVec F S_ .f32 := constant S_ .f32 0x7F800000#32
  let main_v45 : FVec F S3000x256 .f32 := broadcastInDim S3000x256 ![] bcast_S_S3000x256 main_cst_16
  let main_v46 : IVec S3000x256 1 := cmpf .olt main_v44 main_v45
  let main_c_17 : IVec S_ 1 := constantI S_ 1 1#1
  let main_v47 : IVec S_ 1 := (fun x v => Host.reduce IntOp.andi x v reducesTo_S3000x256_S_d0_1 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_v48 main_v49 main_v50

def fn_part1 {F : FTy → Type} [FloatOps F] (main_arg4 : FVec F S3000x3000 .f32) (main_arg5 : FVec F S3000x3000 .f32) (main_arg6 : FVec F S3000x256 .f32) (main_arg7 : FVec F S256x128 .f32) (main_arg8 : FVec F S128x64 .f32) (main_arg9 : FVec F S3000x256 .f32) (main_arg10 : FVec F S256x128 .f32) (main_arg11 : FVec F S128x64 .f32) (main_arg12 : FVec F S3000x256 .f32) (main_arg13 : FVec F S256x128 .f32) (main_arg14 : FVec F S128x64 .f32) (main_arg15 : FVec F S3000x256 .f32) (main_arg16 : FVec F S256x128 .f32) (main_arg17 : FVec F S128x64 .f32) (main_v13 : IVec S_ 1) (main_v16 : IVec S3000x3000 1) : IVec S_ 1 :=
  let main_c_5 : IVec S_ 1 := constantI S_ 1 1#1
  let main_v17 : IVec S_ 1 := (fun x v => Host.reduce IntOp.andi x v reducesTo_S3000x3000_S_d0_1 h_S_) main_v16 main_c_5
  let main_v18 : IVec S_ 1 := andi main_v13 main_v17
  let main_v19 : FVec F S3000x3000 .f32 := Host.absf main_arg4
  let main_cst_6 : FVec F S_ .f32 := constant S_ .f32 0x7F800000#32
  let main_v20 : FVec F S3000x3000 .f32 := broadcastInDim S3000x3000 ![] bcast_S_S3000x3000 main_cst_6
  let main_v21 : IVec S3000x3000 1 := cmpf .olt main_v19 main_v20
  let main_c_7 : IVec S_ 1 := constantI S_ 1 1#1
  let main_v22 : IVec S_ 1 := (fun x v => Host.reduce IntOp.andi x v reducesTo_S3000x3000_S_d0_1 h_S_) main_v21 main_c_7
  let main_v23 : IVec S_ 1 := andi main_v18 main_v22
  let main_v24 : FVec F S3000x3000 .f32 := Host.absf main_arg5
  let main_cst_8 : FVec F S_ .f32 := constant S_ .f32 0x7F800000#32
  let main_v25 : FVec F S3000x3000 .f32 := broadcastInDim S3000x3000 ![] bcast_S_S3000x3000 main_cst_8
  let main_v26 : IVec S3000x3000 1 := cmpf .olt main_v24 main_v25
  let main_c_9 : IVec S_ 1 := constantI S_ 1 1#1
  let main_v27 : IVec S_ 1 := (fun x v => Host.reduce IntOp.andi x v reducesTo_S3000x3000_S_d0_1 h_S_) main_v26 main_c_9
  let main_v28 : IVec S_ 1 := andi main_v23 main_v27
  let main_v29 : FVec F S3000x256 .f32 := Host.absf main_arg6
  let main_cst_10 : FVec F S_ .f32 := constant S_ .f32 0x7F800000#32
  let main_v30 : FVec F S3000x256 .f32 := broadcastInDim S3000x256 ![] bcast_S_S3000x256 main_cst_10
  let main_v31 : IVec S3000x256 1 := cmpf .olt main_v29 main_v30
  let main_c_11 : IVec S_ 1 := constantI S_ 1 1#1
  let main_v32 : IVec S_ 1 := (fun x v => Host.reduce IntOp.andi x v reducesTo_S3000x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S3000x3000 .f32) (main_arg1 : FVec F S3000x3000 .f32) (main_arg2 : FVec F S3000x3000 .f32) (main_arg3 : FVec F S3000x3000 .f32) (main_arg4 : FVec F S3000x3000 .f32) (main_arg5 : FVec F S3000x3000 .f32) (main_arg6 : FVec F S3000x256 .f32) (main_arg7 : FVec F S256x128 .f32) (main_arg8 : FVec F S128x64 .f32) (main_arg9 : FVec F S3000x256 .f32) (main_arg10 : FVec F S256x128 .f32) (main_arg11 : FVec F S128x64 .f32) (main_arg12 : FVec F S3000x256 .f32) (main_arg13 : FVec F S256x128 .f32) (main_arg14 : FVec F S128x64 .f32) (main_arg15 : FVec F S3000x256 .f32) (main_arg16 : FVec F S256x128 .f32) (main_arg17 : FVec F S128x64 .f32) : IVec S_ 1 :=
  let main_v0 : FVec F S3000x3000 .f32 := Host.absf main_arg0
  let main_cst : FVec F S_ .f32 := constant S_ .f32 0x7F800000#32
  let main_v1 : FVec F S3000x3000 .f32 := broadcastInDim S3000x3000 ![] bcast_S_S3000x3000 main_cst
  let main_v2 : IVec S3000x3000 1 := cmpf .olt main_v0 main_v1
  let main_c : IVec S_ 1 := constantI S_ 1 1#1
  let main_v3 : IVec S_ 1 := (fun x v => Host.reduce IntOp.andi x v reducesTo_S3000x3000_S_d0_1 h_S_) main_v2 main_c
  let main_v4 : FVec F S3000x3000 .f32 := Host.absf main_arg1
  let main_cst_0 : FVec F S_ .f32 := constant S_ .f32 0x7F800000#32
  let main_v5 : FVec F S3000x3000 .f32 := broadcastInDim S3000x3000 ![] bcast_S_S3000x3000 main_cst_0
  let main_v6 : IVec S3000x3000 1 := cmpf .olt main_v4 main_v5
  let main_c_1 : IVec S_ 1 := constantI S_ 1 1#1
  let main_v7 : IVec S_ 1 := (fun x v => Host.reduce IntOp.andi x v reducesTo_S3000x3000_S_d0_1 h_S_) main_v6 main_c_1
  let main_v8 : IVec S_ 1 := andi main_v3 main_v7
  let main_v9 : FVec F S3000x3000 .f32 := Host.absf main_arg2
  let main_cst_2 : FVec F S_ .f32 := constant S_ .f32 0x7F800000#32
  let main_v10 : FVec F S3000x3000 .f32 := broadcastInDim S3000x3000 ![] bcast_S_S3000x3000 main_cst_2
  let main_v11 : IVec S3000x3000 1 := cmpf .olt main_v9 main_v10
  let main_c_3 : IVec S_ 1 := constantI S_ 1 1#1
  let main_v12 : IVec S_ 1 := (fun x v => Host.reduce IntOp.andi x v reducesTo_S3000x3000_S_d0_1 h_S_) main_v11 main_c_3
  let main_v13 : IVec S_ 1 := andi main_v8 main_v12
  let main_v14 : FVec F S3000x3000 .f32 := Host.absf main_arg3
  let main_cst_4 : FVec F S_ .f32 := constant S_ .f32 0x7F800000#32
  let main_v15 : FVec F S3000x3000 .f32 := broadcastInDim S3000x3000 ![] bcast_S_S3000x3000 main_cst_4
  let main_v16 : IVec S3000x3000 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S3000x3000 : Shape := ⟨2, ![3000, 3000]⟩
abbrev S3000x256 : Shape := ⟨2, ![3000, 256]⟩
abbrev S256x128 : Shape := ⟨2, ![256, 128]⟩
abbrev S128x64 : Shape := ⟨2, ![128, 64]⟩
abbrev S_ : Shape := ⟨0, ![]⟩
abbrev S128x128 : Shape := ⟨2, ![128, 128]⟩
abbrev S3000x512 : Shape := ⟨2, ![3000, 512]⟩
abbrev S200x3000 : Shape := ⟨2, ![200, 3000]⟩
abbrev S200x512 : Shape := ⟨2, ![200, 512]⟩
abbrev S3000x128 : Shape := ⟨2, ![3000, 128]⟩
abbrev S200x128 : Shape := ⟨2, ![200, 128]⟩
abbrev S200x256 : Shape := ⟨2, ![200, 256]⟩
abbrev S1x3000x128 : Shape := ⟨3, ![1, 3000, 128]⟩
abbrev S4x3000x128 : Shape := ⟨3, ![4, 3000, 128]⟩
abbrev S4x128x3000 : Shape := ⟨3, ![4, 128, 3000]⟩
abbrev S4x3000x3000 : Shape := ⟨3, ![4, 3000, 3000]⟩
abbrev S1x600x128 : Shape := ⟨3, ![1, 600, 128]⟩
abbrev S1x128x384 : Shape := ⟨3, ![1, 128, 384]⟩
abbrev S1x600x384 : Shape := ⟨3, ![1, 600, 384]⟩
abbrev S600x128 : Shape := ⟨2, ![600, 128]⟩
abbrev S128x384 : Shape := ⟨2, ![128, 384]⟩
abbrev S600x384 : Shape := ⟨2, ![600, 384]⟩

abbrev nBuf : Space → Nat
  | .hbm => 57
  | .vmem => 92
  | .smem => 0
  | _ => 0

abbrev bufTy : (tb : Table) → Fin (tcTables nBuf tb) → BufTy
  | .hbm, ⟨0, _⟩ => ⟨S3000x3000, .f32⟩
  | .hbm, ⟨1, _⟩ => ⟨S3000x3000, .f32⟩
  | .hbm, ⟨2, _⟩ => ⟨S3000x3000, .f32⟩
  | .hbm, ⟨3, _⟩ => ⟨S3000x3000, .f32⟩
  | .hbm, ⟨4, _⟩ => ⟨S3000x3000, .f32⟩
  | .hbm, ⟨5, _⟩ => ⟨S3000x3000, .f32⟩
  | .hbm, ⟨6, _⟩ => ⟨S3000x256, .f32⟩
  | .hbm, ⟨7, _⟩ => ⟨S256x128, .f32⟩
  | .hbm, ⟨8, _⟩ => ⟨S128x64, .f32⟩
  | .hbm, ⟨9, _⟩ => ⟨S3000x256, .f32⟩
  | .hbm, ⟨10, _⟩ => ⟨S256x128, .f32⟩
  | .hbm, ⟨11, _⟩ => ⟨S128x64, .f32⟩
  | .hbm, ⟨12, _⟩ => ⟨S3000x256, .f32⟩
  | .hbm, ⟨13, _⟩ => ⟨S256x128, .f32⟩
  | .hbm, ⟨14, _⟩ => ⟨S128x64, .f32⟩
  | .hbm, ⟨15, _⟩ => ⟨S3000x256, .f32⟩
  | .hbm, ⟨16, _⟩ => ⟨S256x128, .f32⟩
  | .hbm, ⟨17, _⟩ => ⟨S128x64, .f32⟩
  | .hbm, ⟨18, _⟩ => ⟨S_, .i32⟩
  | .hbm, ⟨19, _⟩ => ⟨S_, .f32⟩
  | .hbm, ⟨20, _⟩ => ⟨S128x128, .f32⟩
  | .hbm, ⟨21, _⟩ => ⟨S_, .i32⟩
  | .hbm, ⟨22, _⟩ => ⟨S_, .f32⟩
  | .hbm, ⟨23, _⟩ => ⟨S128x128, .f32⟩
  | .hbm, ⟨24, _⟩ => ⟨S_, .i32⟩
  | .hbm, ⟨25, _⟩ => ⟨S_, .f32⟩
  | .hbm, ⟨26, _⟩ => ⟨S128x128, .f32⟩
  | .hbm, ⟨27, _⟩ => ⟨S_, .i32⟩
  | .hbm, ⟨28, _⟩ => ⟨S_, .f32⟩
  | .hbm, ⟨29, _⟩ => ⟨S128x128, .f32⟩
  | .hbm, ⟨30, _⟩ => ⟨S3000x512, .f32⟩
  | .hbm, ⟨31, _⟩ => ⟨S3000x512, .f32⟩
  | .hbm, ⟨32, _⟩ => ⟨S3000x512, .f32⟩
  | .hbm, ⟨33, _⟩ => ⟨S3000x512, .f32⟩
  | .hbm, ⟨34, _⟩ => ⟨S3000x128, .f32⟩
  | .hbm, ⟨35, _⟩ => ⟨S3000x3000, .bf16⟩
  | .hbm, ⟨36, _⟩ => ⟨S3000x128, .f32⟩
  | .hbm, ⟨37, _⟩ => ⟨S3000x128, .f32⟩
  | .hbm, ⟨38, _⟩ => ⟨S3000x128, .f32⟩
  | .hbm, ⟨39, _⟩ => ⟨S3000x3000, .bf16⟩
  | .hbm, ⟨40, _⟩ => ⟨S3000x128, .f32⟩
  | .hbm, ⟨41, _⟩ => ⟨S3000x128, .f32⟩
  | .hbm, ⟨42, _⟩ => ⟨S3000x128, .f32⟩
  | .hbm, ⟨43, _⟩ => ⟨S3000x3000, .bf16⟩
  | .hbm, ⟨44, _⟩ => ⟨S3000x128, .f32⟩
  | .hbm, ⟨45, _⟩ => ⟨S3000x128, .f32⟩
  | .hbm, ⟨46, _⟩ => ⟨S3000x128, .f32⟩
  | .hbm, ⟨47, _⟩ => ⟨S3000x3000, .bf16⟩
  | .hbm, ⟨48, _⟩ => ⟨S3000x128, .f32⟩
  | .hbm, ⟨49, _⟩ => ⟨S3000x128, .f32⟩
  | .hbm, ⟨50, _⟩ => ⟨S1x3000x128, .f32⟩
  | .hbm, ⟨51, _⟩ => ⟨S1x3000x128, .f32⟩
  | .hbm, ⟨52, _⟩ => ⟨S1x3000x128, .f32⟩
  | .hbm, ⟨53, _⟩ => ⟨S1x3000x128, .f32⟩
  | .hbm, ⟨54, _⟩ => ⟨S4x3000x128, .f32⟩
  | .hbm, ⟨55, _⟩ => ⟨S4x128x3000, .f32⟩
  | .hbm, ⟨56, _⟩ => ⟨S4x3000x3000, .f32⟩
  | .local _ .vmem, ⟨0, _⟩ => ⟨S200x3000, .f32⟩
  | .local _ .vmem, ⟨1, _⟩ => ⟨S200x3000, .f32⟩
  | .local _ .vmem, ⟨2, _⟩ => ⟨S3000x512, .f32⟩
  | .local _ .vmem, ⟨3, _⟩ => ⟨S200x512, .f32⟩
  | .local _ .vmem, ⟨4, _⟩ => ⟨S200x512, .f32⟩
  | .local _ .vmem, ⟨5, _⟩ => ⟨S200x3000, .f32⟩
  | .local _ .vmem, ⟨6, _⟩ => ⟨S200x3000, .f32⟩
  | .local _ .vmem, ⟨7, _⟩ => ⟨S3000x512, .f32⟩
  | .local _ .vmem, ⟨8, _⟩ => ⟨S200x512, .f32⟩
  | .local _ .vmem, ⟨9, _⟩ => ⟨S200x512, .f32⟩
  | .local _ .vmem, ⟨10, _⟩ => ⟨S200x3000, .f32⟩
  | .local _ .vmem, ⟨11, _⟩ => ⟨S200x3000, .f32⟩
  | .local _ .vmem, ⟨12, _⟩ => ⟨S3000x256, .f32⟩
  | .local _ .vmem, ⟨13, _⟩ => ⟨S256x128, .f32⟩
  | .local _ .vmem, ⟨14, _⟩ => ⟨S200x128, .f32⟩
  | .local _ .vmem, ⟨15, _⟩ => ⟨S200x128, .f32⟩
  | .local _ .vmem, ⟨16, _⟩ => ⟨S200x3000, .bf16⟩
  | .local _ .vmem, ⟨17, _⟩ => ⟨S200x3000, .bf16⟩
  | .local _ .vmem, ⟨18, _⟩ => ⟨S200x3000, .bf16⟩
  | .local _ .vmem, ⟨19, _⟩ => ⟨S200x3000, .bf16⟩
  | .local _ .vmem, ⟨20, _⟩ => ⟨S3000x128, .f32⟩
  | .local _ .vmem, ⟨21, _⟩ => ⟨S128x128, .f32⟩
  | .local _ .vmem, ⟨22, _⟩ => ⟨S200x128, .f32⟩
  | .local _ .vmem, ⟨23, _⟩ => ⟨S200x128, .f32⟩
  | .local _ .vmem, ⟨24, _⟩ => ⟨S200x3000, .bf16⟩
  | .local _ .vmem, ⟨25, _⟩ => ⟨S200x3000, .bf16⟩
  | .local _ .vmem, ⟨26, _⟩ => ⟨S3000x128, .f32⟩
  | .local _ .vmem, ⟨27, _⟩ => ⟨S200x128, .f32⟩
  | .local _ .vmem, ⟨28, _⟩ => ⟨S200x128, .f32⟩
  | .local _ .vmem, ⟨29, _⟩ => ⟨S200x3000, .f32⟩
  | .local _ .vmem, ⟨30, _⟩ => ⟨S200x3000, .f32⟩
  | .local _ .vmem, ⟨31, _⟩ => ⟨S3000x256, .f32⟩
  | .local _ .vmem, ⟨32, _⟩ => ⟨S256x128, .f32⟩
  | .local _ .vmem, ⟨33, _⟩ => ⟨S200x128, .f32⟩
  | .local _ .vmem, ⟨34, _⟩ => ⟨S200x128, .f32⟩
  | .local _ .vmem, ⟨35, _⟩ => ⟨S200x3000, .bf16⟩
  | .local _ .vmem, ⟨36, _⟩ => ⟨S200x3000, .bf16⟩
  | .local _ .vmem, ⟨37, _⟩ => ⟨S200x3000, .bf16⟩
  | .local _ .vmem, ⟨38, _⟩ => ⟨S200x3000, .bf16⟩
  | .local _ .vmem, ⟨39, _⟩ => ⟨S3000x128, .f32⟩
  | .local _ .vmem, ⟨40, _⟩ => ⟨S128x128, .f32⟩
  | .local _ .vmem, ⟨41, _⟩ => ⟨S200x128, .f32⟩
  | .local _ .vmem, ⟨42, _⟩ => ⟨S200x128, .f32⟩
  | .local _ .vmem, ⟨43, _⟩ => ⟨S200x3000, .bf16⟩
  | .local _ .vmem, ⟨44, _⟩ => ⟨S200x3000, .bf16⟩
  | .local _ .vmem, ⟨45, _⟩ => ⟨S3000x128, .f32⟩
  | .local _ .vmem, ⟨46, _⟩ => ⟨S200x128, .f32⟩
  | .local _ .vmem, ⟨47, _⟩ => ⟨S200x128, .f32⟩
  | .local _ .vmem, ⟨48, _⟩ => ⟨S200x3000, .f32⟩
  | .local _ .vmem, ⟨49, _⟩ => ⟨S200x3000, .f32⟩
  | .local _ .vmem, ⟨50, _⟩ => ⟨S3000x256, .f32⟩
  | .local _ .vmem, ⟨51, _⟩ => ⟨S256x128, .f32⟩
  | .local _ .vmem, ⟨52, _⟩ => ⟨S200x128, .f32⟩
  | .local _ .vmem, ⟨53, _⟩ => ⟨S200x128, .f32⟩
  | .local _ .vmem, ⟨54, _⟩ => ⟨S200x3000, .bf16⟩
  | .local _ .vmem, ⟨55, _⟩ => ⟨S200x3000, .bf16⟩
  | .local _ .vmem, ⟨56, _⟩ => ⟨S200x3000, .bf16⟩
  | .local _ .vmem, ⟨57, _⟩ => ⟨S200x3000, .bf16⟩
  | .local _ .vmem, ⟨58, _⟩ => ⟨S3000x128, .f32⟩
  | .local _ .vmem, ⟨59, _⟩ => ⟨S128x128, .f32⟩
  | .local _ .vmem, ⟨60, _⟩ => ⟨S200x128, .f32⟩
  | .local _ .vmem, ⟨61, _⟩ => ⟨S200x128, .f32⟩
  | .local _ .vmem, ⟨62, _⟩ => ⟨S200x3000, .bf16⟩
  | .local _ .vmem, ⟨63, _⟩ => ⟨S200x3000, .bf16⟩
  | .local _ .vmem, ⟨64, _⟩ => ⟨S3000x128, .f32⟩
  | .local _ .vmem, ⟨65, _⟩ => ⟨S200x128, .f32⟩
  | .local _ .vmem, ⟨66, _⟩ => ⟨S200x128, .f32⟩
  | .local _ .vmem, ⟨67, _⟩ => ⟨S200x3000, .f32⟩
  | .local _ .vmem, ⟨68, _⟩ => ⟨S200x3000, .f32⟩
  | .local _ .vmem, ⟨69, _⟩ => ⟨S3000x256, .f32⟩
  | .local _ .vmem, ⟨70, _⟩ => ⟨S256x128, .f32⟩
  | .local _ .vmem, ⟨71, _⟩ => ⟨S200x128, .f32⟩
  | .local _ .vmem, ⟨72, _⟩ => ⟨S200x128, .f32⟩
  | .local _ .vmem, ⟨73, _⟩ => ⟨S200x3000, .bf16⟩
  | .local _ .vmem, ⟨74, _⟩ => ⟨S200x3000, .bf16⟩
  | .local _ .vmem, ⟨75, _⟩ => ⟨S200x3000, .bf16⟩
  | .local _ .vmem, ⟨76, _⟩ => ⟨S200x3000, .bf16⟩
  | .local _ .vmem, ⟨77, _⟩ => ⟨S3000x128, .f32⟩
  | .local _ .vmem, ⟨78, _⟩ => ⟨S128x128, .f32⟩
  | .local _ .vmem, ⟨79, _⟩ => ⟨S200x128, .f32⟩
  | .local _ .vmem, ⟨80, _⟩ => ⟨S200x128, .f32⟩
  | .local _ .vmem, ⟨81, _⟩ => ⟨S200x3000, .bf16⟩
  | .local _ .vmem, ⟨82, _⟩ => ⟨S200x3000, .bf16⟩
  | .local _ .vmem, ⟨83, _⟩ => ⟨S3000x128, .f32⟩
  | .local _ .vmem, ⟨84, _⟩ => ⟨S200x128, .f32⟩
  | .local _ .vmem, ⟨85, _⟩ => ⟨S200x128, .f32⟩
  | .local _ .vmem, ⟨86, _⟩ => ⟨S1x600x128, .f32⟩
  | .local _ .vmem, ⟨87, _⟩ => ⟨S1x600x128, .f32⟩
  | .local _ .vmem, ⟨88, _⟩ => ⟨S1x128x384, .f32⟩
  | .local _ .vmem, ⟨89, _⟩ => ⟨S1x128x384, .f32⟩
  | .local _ .vmem, ⟨90, _⟩ => ⟨S1x600x384, .f32⟩
  | .local _ .vmem, ⟨91, _⟩ => ⟨S1x600x384, .f32⟩
  | _, _ => ⟨S3000x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_call0_v0 : Ref sig .tc := ⟨.hbm, 19, rfl⟩
abbrev main_v0 : Ref sig .tc := ⟨.hbm, 20, rfl⟩
abbrev main_c_0 : Ref sig .tc := ⟨.hbm, 21, rfl⟩
abbrev main_call1_v0 : Ref sig .tc := ⟨.hbm, 22, rfl⟩
abbrev main_v1 : Ref sig .tc := ⟨.hbm, 23, rfl⟩
abbrev main_c_1 : Ref sig .tc := ⟨.hbm, 24, rfl⟩
abbrev main_call2_v0 : Ref sig .tc := ⟨.hbm, 25, rfl⟩
abbrev main_v2 : Ref sig .tc := ⟨.hbm, 26, rfl⟩
abbrev main_c_2 : Ref sig .tc := ⟨.hbm, 27, rfl⟩
abbrev main_call3_v0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8_0 : Ref sig .tc := ⟨.hbm, 34, rfl⟩
abbrev main_v8_1 : Ref sig .tc := ⟨.hbm, 35, rfl⟩
abbrev main_v9 : Ref sig .tc := ⟨.hbm, 36, rfl⟩
abbrev main_v10 : Ref sig .tc := ⟨.hbm, 37, rfl⟩
abbrev main_v11_0 : Ref sig .tc := ⟨.hbm, 38, rfl⟩
abbrev main_v11_1 : Ref sig .tc := ⟨.hbm, 39, rfl⟩
abbrev main_v12 : Ref sig .tc := ⟨.hbm, 40, rfl⟩
abbrev main_v13 : Ref sig .tc := ⟨.hbm, 41, rfl⟩
abbrev main_v14_0 : Ref sig .tc := ⟨.hbm, 42, rfl⟩
abbrev main_v14_1 : Ref sig .tc := ⟨.hbm, 43, rfl⟩
abbrev main_v15 : Ref sig .tc := ⟨.hbm, 44, rfl⟩
abbrev main_v16 : Ref sig .tc := ⟨.hbm, 45, rfl⟩
abbrev main_v17_0 : Ref sig .tc := ⟨.hbm, 46, rfl⟩
abbrev main_v17_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc5_stg4_0 : Ref sig .tc := ⟨.vmem, 35, rfl⟩
abbrev cc5_stg4_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg3_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc8_stg4_0 : Ref sig .tc := ⟨.vmem, 54, rfl⟩
abbrev cc8_stg4_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg2_0 : Ref sig .tc := ⟨.vmem, 59, rfl⟩
abbrev cc9_stg3_0 : Ref sig .tc := ⟨.vmem, 60, rfl⟩
abbrev cc9_stg3_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg2_0 : Ref sig .tc := ⟨.vmem, 65, rfl⟩
abbrev cc10_stg2_1 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg2_0 : Ref sig .tc := ⟨.vmem, 70, rfl⟩
abbrev cc11_stg3_0 : Ref sig .tc := ⟨.vmem, 71, rfl⟩
abbrev cc11_stg3_1 : Ref sig .tc := ⟨.vmem, 72, rfl⟩
abbrev cc11_stg4_0 : Ref sig .tc := ⟨.vmem, 73, rfl⟩
abbrev cc11_stg4_1 : Ref sig .tc := ⟨.vmem, 74, rfl⟩
abbrev cc12_stg0_0 : Ref sig .tc := ⟨.vmem, 75, rfl⟩
abbrev cc12_stg0_1 : Ref sig .tc := ⟨.vmem, 76, rfl⟩
abbrev cc12_stg1_0 : Ref sig .tc := ⟨.vmem, 77, rfl⟩
abbrev cc12_stg2_0 : Ref sig .tc := ⟨.vmem, 78, rfl⟩
abbrev cc12_stg3_0 : Ref sig .tc := ⟨.vmem, 79, rfl⟩
abbrev cc12_stg3_1 : Ref sig .tc := ⟨.vmem, 80, rfl⟩
abbrev cc13_stg0_0 : Ref sig .tc := ⟨.vmem, 81, rfl⟩
abbrev cc13_stg0_1 : Ref sig .tc := ⟨.vmem, 82, rfl⟩
abbrev cc13_stg1_0 : Ref sig .tc := ⟨.vmem, 83, rfl⟩
abbrev cc13_stg2_0 : Ref sig .tc := ⟨.vmem, 84, rfl⟩
abbrev cc13_stg2_1 : Ref sig .tc := ⟨.vmem, 85, rfl⟩
abbrev cc14_stg0_0 : Ref sig .tc := ⟨.vmem, 86, rfl⟩
abbrev cc14_stg0_1 : Ref sig .tc := ⟨.vmem, 87, rfl⟩
abbrev cc14_stg1_0 : Ref sig .tc := ⟨.vmem, 88, rfl⟩
abbrev cc14_stg1_1 : Ref sig .tc := ⟨.vmem, 89, rfl⟩
abbrev cc14_stg2_0 : Ref sig .tc := ⟨.vmem, 90, rfl⟩
abbrev cc14_stg2_1 : Ref sig .tc := ⟨.vmem, 91, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem3_1 : DmaSem sig := 34
abbrev cc5_sem4_0 : DmaSem sig := 35
abbrev cc5_sem4_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem3_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc8_sem4_0 : DmaSem sig := 54
abbrev cc8_sem4_1 : DmaSem sig := 55
abbrev cc9_sem0_0 : DmaSem sig := 56
abbrev cc9_sem0_1 : DmaSem sig := 57
abbrev cc9_sem1_0 : DmaSem sig := 58
abbrev cc9_sem2_0 : DmaSem sig := 59
abbrev cc9_sem3_0 : DmaSem sig := 60
abbrev cc9_sem3_1 : DmaSem sig := 61
abbrev cc10_sem0_0 : DmaSem sig := 62
abbrev cc10_sem0_1 : DmaSem sig := 63
abbrev cc10_sem1_0 : DmaSem sig := 64
abbrev cc10_sem2_0 : DmaSem sig := 65
abbrev cc10_sem2_1 : DmaSem sig := 66
abbrev cc11_sem0_0 : DmaSem sig := 67
abbrev cc11_sem0_1 : DmaSem sig := 68
abbrev cc11_sem1_0 : DmaSem sig := 69
abbrev cc11_sem2_0 : DmaSem sig := 70
abbrev cc11_sem3_0 : DmaSem sig := 71
abbrev cc11_sem3_1 : DmaSem sig := 72
abbrev cc11_sem4_0 : DmaSem sig := 73
abbrev cc11_sem4_1 : DmaSem sig := 74
abbrev cc12_sem0_0 : DmaSem sig := 75
abbrev cc12_sem0_1 : DmaSem sig := 76
abbrev cc12_sem1_0 : DmaSem sig := 77
abbrev cc12_sem2_0 : DmaSem sig := 78
abbrev cc12_sem3_0 : DmaSem sig := 79
abbrev cc12_sem3_1 : DmaSem sig := 80
abbrev cc13_sem0_0 : DmaSem sig := 81
abbrev cc13_sem0_1 : DmaSem sig := 82
abbrev cc13_sem1_0 : DmaSem sig := 83
abbrev cc13_sem2_0 : DmaSem sig := 84
abbrev cc13_sem2_1 : DmaSem sig := 85
abbrev cc14_sem0_0 : DmaSem sig := 86
abbrev cc14_sem0_1 : DmaSem sig := 87
abbrev cc14_sem1_0 : DmaSem sig := 88
abbrev cc14_sem1_1 : DmaSem sig := 89
abbrev cc14_sem2_0 : DmaSem sig := 90
abbrev cc14_sem2_1 : DmaSem sig := 91

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x3000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3000x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x3000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S200x3000 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x3000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S200x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![15], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x3000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3000x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S200x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![15], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x3000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S3000x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S200x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S200x3000 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![15], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S200x3000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S3000x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S200x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![15], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S200x3000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S3000x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S200x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![15], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S200x3000 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S3000x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S200x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S200x3000 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![15], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S200x3000 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S3000x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S200x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![15], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S200x3000 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S3000x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S200x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![15], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S200x3000 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S3000x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S256x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S200x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S200x3000 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![15], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S200x3000 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S3000x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S200x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![15], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S200x3000 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S3000x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S200x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨3, ![4, 5, 8], ![false, false, false]⟩

def cc14_transform_0 (i : grid14.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc14_transform_1 (i : grid14.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc14_transform_2 (i : grid14.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage14_0 : Fin 2 → Memref sig .tc .vmem S1x600x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true, false]

abbrev stage14_1 : Fin 2 → Memref sig .tc .vmem S1x128x384 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true, false, true]

abbrev stage14_2 : Fin 2 → Memref sig .tc .vmem S1x600x384 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true, true]

class Facts₀ : Prop where
  pads_S128x64_S128x128_000_0640 : S128x64.Pads (![0, 0] : Fin 2 → Nat) ![0, 64] ![0, 0] S128x128
  h_S_ : 0 < S_.numel
  concatenates_S3000x256_S3000x256_S3000x512_d1 : Shape.Concatenates [S3000x256, S3000x256] S3000x512 1
  inb_S200x3000_S200x3000_0_0 : ∀ a, (![0, 0] : Fin 2 → Nat) a + S200x3000.size a ≤ S200x3000.size a
  h_S200x3000 : 0 < S200x3000.numel
  bitsLt_bf16_f32 : FTy.bits .bf16 < FTy.bits .f32
  inb_S3000x512_S3000x512_0_0 : ∀ a, (![0, 0] : Fin 2 → Nat) a + S3000x512.size a ≤ S3000x512.size a
  h_S3000x512 : 0 < S3000x512.numel
  shapeCasts_S3000x512_S3000x512 : S3000x512.ShapeCasts S3000x512
  inb_S200x512_S200x512_0_0 : ∀ a, (![0, 0] : Fin 2 → Nat) a + S200x512.size a ≤ S200x512.size a
  h_S200x512 : 0 < S200x512.numel
  packedbf16_S200x3000_S200x3000_0_0 : (Rect.unit (s := S200x3000) ![0, 0] S200x3000.size inb_S200x3000_S200x3000_0_0).PackedRows (EltTy.packing .bf16)
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  inb_S256x128_S256x128_0_0 : ∀ a, (![0, 0] : Fin 2 → Nat) a + S256x128.size a ≤ S256x128.size a
  h_S256x128 : 0 < S256x128.numel
  inb_S200x128_S200x128_0_0 : ∀ a, (![0, 0] : Fin 2 → Nat) a + S200x128.size a ≤ S200x128.size a
  h_S200x128 : 0 < S200x128.numel
  shapeCasts_S200x3000_S200x3000 : S200x3000.ShapeCasts S200x3000
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S3000x128_S1x3000x128_1_2 : S3000x128.BroadcastsInDim S1x3000x128 (![1, 2] : Fin 2 → Fin S1x3000x128.rank)
  concatenates_S1x3000x128_S1x3000x128_S1x3000x128_S1x3000x128_S4x3000x128_d0 : Shape.Concatenates [S1x3000x128, S1x3000x128, S1x3000x128, S1x3000x128] S4x3000x128 0
  transposes_S4x3000x128_S4x128x3000_0_2_1 : S4x3000x128.Transposes [0, 2, 1] S4x128x3000
  inb_S1x600x128_S1x600x128_0_0_0 : ∀ a, (![0, 0, 0] : Fin 3 → Nat) a + S1x600x128.size a ≤ S1x600x128.size a
  h_S1x600x128 : 0 < S1x600x128.numel
  shapeCasts_S1x600x128_S600x128 : S1x600x128.ShapeCasts S600x128
  inb_S1x128x384_S1x128x384_0_0_0 : ∀ a, (![0, 0, 0] : Fin 3 → Nat) a + S1x128x384.size a ≤ S1x128x384.size a
  h_S1x128x384 : 0 < S1x128x384.numel
  shapeCasts_S1x128x384_S128x384 : S1x128x384.ShapeCasts S128x384
  inb_S1x600x384_S1x600x384_0_0_0 : ∀ a, (![0, 0, 0] : Fin 3 → Nat) a + S1x600x384.size a ≤ S1x600x384.size a
  h_S1x600x384 : 0 < S1x600x384.numel
  shapeCasts_S1x600x384_S600x384 : S1x600x384.ShapeCasts S600x384
  shapeCasts_S600x384_S1x600x384 : S600x384.ShapeCasts S1x600x384
  dot_S200x3000_S3000x512_S200x512_1_0_0_1_n_n_wf : DotDims.WF S200x3000 S3000x512 S200x512 [1] [0] [0] [1] [] []
  dot_S200x3000_S3000x256_S200x256_1_0_0_1_n_n_wf : DotDims.WF S200x3000 S3000x256 S200x256 [1] [0] [0] [1] [] []
  dot_S200x256_S256x128_S200x128_1_0_0_1_n_n_wf : DotDims.WF S200x256 S256x128 S200x128 [1] [0] [0] [1] [] []
  dot_S200x3000_S3000x128_S200x128_1_0_0_1_n_n_wf : DotDims.WF S200x3000 S3000x128 S200x128 [1] [0] [0] [1] [] []
  dot_S200x128_S128x128_S200x128_1_0_0_1_n_n_wf : DotDims.WF S200x128 S128x128 S200x128 [1] [0] [0] [1] [] []
  dot_S600x128_S128x384_S600x384_1_0_0_1_n_n_wf : DotDims.WF S600x128 S128x384 S600x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x3000.size a ≤ S3000x3000.size a
  hwx0_0 : ∀ i : grid0.Coords, EltTy.bits .f32 = 32 ∨ (Rect.block (s := S3000x3000) S200x3000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3000x512.size a ≤ S3000x512.size a
  hwx0_1 : ∀ i : grid0.Coords, EltTy.bits .f32 = 32 ∨ (Rect.block (s := S3000x512) S3000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x512.size a ≤ S3000x512.size a
  hwx0_2 : ∀ i : grid0.Coords, EltTy.bits .f32 = 32 ∨ (Rect.block (s := S3000x512) S200x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x3000.size a ≤ S3000x3000.size a
  hwx1_0 : ∀ i : grid1.Coords, EltTy.bits .f32 = 32 ∨ (Rect.block (s := S3000x3000) S200x3000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3000x512.size a ≤ S3000x512.size a
  hwx1_1 : ∀ i : grid1.Coords, EltTy.bits .f32 = 32 ∨ (Rect.block (s := S3000x512) S3000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x512.size a ≤ S3000x512.size a
  hwx1_2 : ∀ i : grid1.Coords, EltTy.bits .f32 = 32 ∨ (Rect.block (s := S3000x512) S200x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x3000.size a ≤ S3000x3000.size a
  hwx2_0 : ∀ i : grid2.Coords, EltTy.bits .f32 = 32 ∨ (Rect.block (s := S3000x3000) S200x3000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3000x256.size a ≤ S3000x512.size a
  hwx2_1 : ∀ i : grid2.Coords, EltTy.bits .f32 = 32 ∨ (Rect.block (s := S3000x512) S3000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x128.size a ≤ S3000x128.size a
  hwx2_3 : ∀ i : grid2.Coords, EltTy.bits .f32 = 32 ∨ (Rect.block (s := S3000x128) S200x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x3000.size a ≤ S3000x3000.size a
  hwx2_4 : ∀ i : grid2.Coords, EltTy.bits .bf16 = 32 ∨ (Rect.block (s := S3000x3000) S200x3000.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x3000.size a ≤ S3000x3000.size a
  hwx3_0 : ∀ i : grid3.Coords, EltTy.bits .bf16 = 32 ∨ (Rect.block (s := S3000x3000) S200x3000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S3000x128.size a ≤ S3000x128.size a
  hwx3_1 : ∀ i : grid3.Coords, EltTy.bits .f32 = 32 ∨ (Rect.block (s := S3000x128) S3000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x128.size a ≤ S3000x128.size a
  hwx3_3 : ∀ i : grid3.Coords, EltTy.bits .f32 = 32 ∨ (Rect.block (s := S3000x128) S200x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x3000.size a ≤ S3000x3000.size a
  hwx4_0 : ∀ i : grid4.Coords, EltTy.bits .bf16 = 32 ∨ (Rect.block (s := S3000x3000) S200x3000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3000x128.size a ≤ S3000x128.size a
  hwx4_1 : ∀ i : grid4.Coords, EltTy.bits .f32 = 32 ∨ (Rect.block (s := S3000x128) S3000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S200x128.size a ≤ S3000x128.size a
  hwx4_2 : ∀ i : grid4.Coords, EltTy.bits .f32 = 32 ∨ (Rect.block (s := S3000x128) S200x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x3000.size a ≤ S3000x3000.size a
  hwx5_0 : ∀ i : grid5.Coords, EltTy.bits .f32 = 32 ∨ (Rect.block (s := S3000x3000) S200x3000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S3000x256.size a ≤ S3000x512.size a
  hwx5_1 : ∀ i : grid5.Coords, EltTy.bits .f32 = 32 ∨ (Rect.block (s := S3000x512) S3000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S256x128.size a
  hwx5_2 : ∀ i : grid5.Coords, EltTy.bits .f32 = 32 ∨ (Rect.block (s := S256x128) S256x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S200x128.size a ≤ S3000x128.size a
  hwx5_3 : ∀ i : grid5.Coords, EltTy.bits .f32 = 32 ∨ (Rect.block (s := S3000x128) S200x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S200x3000.size a ≤ S3000x3000.size a
  hwx5_4 : ∀ i : grid5.Coords, EltTy.bits .bf16 = 32 ∨ (Rect.block (s := S3000x3000) S200x3000.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S200x3000.size a ≤ S3000x3000.size a
  hwx6_0 : ∀ i : grid6.Coords, EltTy.bits .bf16 = 32 ∨ (Rect.block (s := S3000x3000) S200x3000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S3000x128.size a ≤ S3000x128.size a
  hwx6_1 : ∀ i : grid6.Coords, EltTy.bits .f32 = 32 ∨ (Rect.block (s := S3000x128) S3000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S200x128.size a ≤ S3000x128.size a
  hwx6_3 : ∀ i : grid6.Coords, EltTy.bits .f32 = 32 ∨ (Rect.block (s := S3000x128) S200x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S200x3000.size a ≤ S3000x3000.size a
  hwx7_0 : ∀ i : grid7.Coords, EltTy.bits .bf16 = 32 ∨ (Rect.block (s := S3000x3000) S200x3000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S3000x128.size a ≤ S3000x128.size a
  hwx7_1 : ∀ i : grid7.Coords, EltTy.bits .f32 = 32 ∨ (Rect.block (s := S3000x128) S3000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S200x128.size a ≤ S3000x128.size a
  hwx7_2 : ∀ i : grid7.Coords, EltTy.bits .f32 = 32 ∨ (Rect.block (s := S3000x128) S200x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S200x3000.size a ≤ S3000x3000.size a
  hwx8_0 : ∀ i : grid8.Coords, EltTy.bits .f32 = 32 ∨ (Rect.block (s := S3000x3000) S200x3000.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S3000x256.size a ≤ S3000x512.size a
  hwx8_1 : ∀ i : grid8.Coords, EltTy.bits .f32 = 32 ∨ (Rect.block (s := S3000x512) S3000x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x128.size a ≤ S256x128.size a
  hwx8_2 : ∀ i : grid8.Coords, EltTy.bits .f32 = 32 ∨ (Rect.block (s := S256x128) S256x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S200x128.size a ≤ S3000x128.size a
  hwx8_3 : ∀ i : grid8.Coords, EltTy.bits .f32 = 32 ∨ (Rect.block (s := S3000x128) S200x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S200x3000.size a ≤ S3000x3000.size a
  hwx8_4 : ∀ i : grid8.Coords, EltTy.bits .bf16 = 32 ∨ (Rect.block (s := S3000x3000) S200x3000.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S200x3000.size a ≤ S3000x3000.size a
  hwx9_0 : ∀ i : grid9.Coords, EltTy.bits .bf16 = 32 ∨ (Rect.block (s := S3000x3000) S200x3000.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S3000x128.size a ≤ S3000x128.size a
  hwx9_1 : ∀ i : grid9.Coords, EltTy.bits .f32 = 32 ∨ (Rect.block (s := S3000x128) S3000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S200x128.size a ≤ S3000x128.size a
  hwx9_3 : ∀ i : grid9.Coords, EltTy.bits .f32 = 32 ∨ (Rect.block (s := S3000x128) S200x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S200x3000.size a ≤ S3000x3000.size a
  hwx10_0 : ∀ i : grid10.Coords, EltTy.bits .bf16 = 32 ∨ (Rect.block (s := S3000x3000) S200x3000.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S3000x128.size a ≤ S3000x128.size a
  hwx10_1 : ∀ i : grid10.Coords, EltTy.bits .f32 = 32 ∨ (Rect.block (s := S3000x128) S3000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S200x128.size a ≤ S3000x128.size a
  hwx10_2 : ∀ i : grid10.Coords, EltTy.bits .f32 = 32 ∨ (Rect.block (s := S3000x128) S200x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S200x3000.size a ≤ S3000x3000.size a
  hwx11_0 : ∀ i : grid11.Coords, EltTy.bits .f32 = 32 ∨ (Rect.block (s := S3000x3000) S200x3000.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S3000x256.size a ≤ S3000x512.size a
  hwx11_1 : ∀ i : grid11.Coords, EltTy.bits .f32 = 32 ∨ (Rect.block (s := S3000x512) S3000x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S256x128.size a ≤ S256x128.size a
  hwx11_2 : ∀ i : grid11.Coords, EltTy.bits .f32 = 32 ∨ (Rect.block (s := S256x128) S256x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S200x128.size a ≤ S3000x128.size a
  hwx11_3 : ∀ i : grid11.Coords, EltTy.bits .f32 = 32 ∨ (Rect.block (s := S3000x128) S200x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S200x3000.size a ≤ S3000x3000.size a
  hwx11_4 : ∀ i : grid11.Coords, EltTy.bits .bf16 = 32 ∨ (Rect.block (s := S3000x3000) S200x3000.size (cc11_transform_4 i) (hinb11_4 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S200x3000.size a ≤ S3000x3000.size a
  hwx12_0 : ∀ i : grid12.Coords, EltTy.bits .bf16 = 32 ∨ (Rect.block (s := S3000x3000) S200x3000.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S3000x128.size a ≤ S3000x128.size a
  hwx12_1 : ∀ i : grid12.Coords, EltTy.bits .f32 = 32 ∨ (Rect.block (s := S3000x128) S3000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S200x128.size a ≤ S3000x128.size a
  hwx12_3 : ∀ i : grid12.Coords, EltTy.bits .f32 = 32 ∨ (Rect.block (s := S3000x128) S200x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S200x3000.size a ≤ S3000x3000.size a
  hwx13_0 : ∀ i : grid13.Coords, EltTy.bits .bf16 = 32 ∨ (Rect.block (s := S3000x3000) S200x3000.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S3000x128.size a ≤ S3000x128.size a
  hwx13_1 : ∀ i : grid13.Coords, EltTy.bits .f32 = 32 ∨ (Rect.block (s := S3000x128) S3000x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S200x128.size a ≤ S3000x128.size a
  hwx13_2 : ∀ i : grid13.Coords, EltTy.bits .f32 = 32 ∨ (Rect.block (s := S3000x128) S200x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1x600x128.size a ≤ S4x3000x128.size a
  hwx14_0 : ∀ i : grid14.Coords, EltTy.bits .f32 = 32 ∨ (Rect.block (s := S4x3000x128) S1x600x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hstart14_1 : ∀ (i : grid14.Coords) a, cc14_transform_1 i a * S1x128x384.size a < S4x128x3000.size a
  hwx14_1 : ∀ i : grid14.Coords, EltTy.bits .f32 = 32 ∨ (Rect.unit (s := S4x128x3000) (fun a => cc14_transform_1 i a * S1x128x384.size a) (fun a => (Pipeline.Clip.of (cc14_transform_1 i a) (S1x128x384.size a) (S4x128x3000.size a)).extent (S1x128x384.size a)) fun a => Pipeline.Clip.inb (Pipeline.Clip.ok_of (hstart14_1 i a))).WholeWords (EltTy.packing .f32)
  hwxs14_1 : ∀ i : grid14.Coords, EltTy.bits .f32 = 32 ∨ (Rect.unit (s := S1x128x384) (fun _ => 0) (fun a => (Pipeline.Clip.of (cc14_transform_1 i a) (S1x128x384.size a) (S4x128x3000.size a)).extent (S1x128x384.size a)) fun a => (Nat.zero_add _).trans_le (Pipeline.Clip.extent_le (Pipeline.Clip.ok_of (hstart14_1 i a)))).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hstart14_2 : ∀ (i : grid14.Coords) a, cc14_transform_2 i a * S1x600x384.size a < S4x3000x3000.size a
  hwx14_2 : ∀ i : grid14.Coords, EltTy.bits .f32 = 32 ∨ (Rect.unit (s := S4x3000x3000) (fun a => cc14_transform_2 i a * S1x600x384.size a) (fun a => (Pipeline.Clip.of (cc14_transform_2 i a) (S1x600x384.size a) (S4x3000x3000.size a)).extent (S1x600x384.size a)) fun a => Pipeline.Clip.inb (Pipeline.Clip.ok_of (hstart14_2 i a))).WholeWords (EltTy.packing .f32)
  hwxs14_2 : ∀ i : grid14.Coords, EltTy.bits .f32 = 32 ∨ (Rect.unit (s := S1x600x384) (fun _ => 0) (fun a => (Pipeline.Clip.of (cc14_transform_2 i a) (S1x600x384.size a) (S4x3000x3000.size a)).extent (S1x600x384.size a)) fun a => (Nat.zero_add _).trans_le (Pipeline.Clip.extent_le (Pipeline.Clip.ok_of (hstart14_2 i a)))).WholeWords (EltTy.packing .f32)

variable [Facts₀]

def dot_S200x3000_S3000x512_S200x512_1_0_0_1_n_n : DotDims S200x3000 S3000x512 S200x512 where
  lhsContracting := [1]
  rhsContracting := [0]
  lhsNonContracting := [0]
  rhsNonContracting := [1]
  lhsBatch := []
  rhsBatch := []
  wf := dot_S200x3000_S3000x512_S200x512_1_0_0_1_n_n_wf
def dot_S200x3000_S3000x256_S200x256_1_0_0_1_n_n : DotDims S200x3000 S3000x256 S200x256 where
  lhsContracting := [1]
  rhsContracting := [0]
  lhsNonContracting := [0]
  rhsNonContracting := [1]
  lhsBatch := []
  rhsBatch := []
  wf := dot_S200x3000_S3000x256_S200x256_1_0_0_1_n_n_wf
def dot_S200x256_S256x128_S200x128_1_0_0_1_n_n : DotDims S200x256 S256x128 S200x128 where
  lhsContracting := [1]
  rhsContracting := [0]
  lhsNonContracting := [0]
  rhsNonContracting := [1]
  lhsBatch := []
  rhsBatch := []
  wf := dot_S200x256_S256x128_S200x128_1_0_0_1_n_n_wf
def dot_S200x3000_S3000x128_S200x128_1_0_0_1_n_n : DotDims S200x3000 S3000x128 S200x128 where
  lhsContracting := [1]
  rhsContracting := [0]
  lhsNonContracting := [0]
  rhsNonContracting := [1]
  lhsBatch := []
  rhsBatch := []
  wf := dot_S200x3000_S3000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S600x128_S128x384_S600x384_1_0_0_1_n_n : DotDims S600x128 S128x384 S600x384 where
  lhsContracting := [1]
  rhsContracting := [0]
  lhsNonContracting := [0]
  rhsNonContracting := [1]
  lhsBatch := []
  rhsBatch := []
  wf := dot_S600x128_S128x384_S600x384_1_0_0_1_n_n_wf

abbrev win0_0 : Pipeline.Window sig grid0 :=
  Pipeline.Window.ofSpec (Memref.whole main_arg0) S200x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S200x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x3000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S3000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S200x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S200x3000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S3000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8_0) S200x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8_1) S200x3000.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v8_1) S200x3000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8_0) S3000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v0) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S200x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v8_1) S200x3000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S3000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v10) S200x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg3) S200x3000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S3000x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S256x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v11_0) S200x128.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v11_1) S200x3000.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v11_1) S200x3000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11_0) S3000x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v1) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v12) S200x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v11_1) S200x3000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12) S3000x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v13) S200x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_arg4) S200x3000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v6) S3000x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg13) S256x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v14_0) S200x128.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v14_1) S200x3000.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v14_1) S200x3000.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v14_0) S3000x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v2) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v15) S200x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v14_1) S200x3000.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v15) S3000x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v16) S200x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_arg5) S200x3000.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v7) S3000x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg16) S256x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v17_0) S200x128.size cc11_transform_3 reads11_3 true false 2 stage11_3 sem11_3
    hrank11 hreads11_3 hinb11_3 nbuf11_3 (Memref.isWhole_whole _) hwx11_3 hstage11_3

abbrev win11_4 : Pipeline.Window sig grid11 :=
  Pipeline.Window.ofSpec (Memref.whole main_v17_1) S200x3000.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v17_1) S200x3000.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v17_0) S3000x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v3) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v18) S200x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v17_1) S200x3000.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v18) S3000x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v19) S200x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v24) S1x600x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpecClip (Memref.whole main_v25) S1x128x384.size cc14_transform_1 reads14_1 false false 2 stage14_1 sem14_1
    hrank14 hreads14_1 hstart14_1 nbuf14_1 (Memref.isWhole_whole _) hwx14_1 hwxs14_1 hstage14_1

abbrev win14_2 : Pipeline.Window sig grid14 :=
  Pipeline.Window.ofSpecClip (Memref.whole main_v26) S1x600x384.size cc14_transform_2 reads14_2 true false 2 stage14_2 sem14_2
    hrank14 hreads14_2 hstart14_2 nbuf14_2 (Memref.isWhole_whole _) hwx14_2 hwxs14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

class Facts : Prop extends Facts₀ where

variable [Facts]
-- ==== ReferenceIdeal.lean ====
abbrev S3000x3000 : Shape := ⟨2, ![3000, 3000]⟩
abbrev S3000x256 : Shape := ⟨2, ![3000, 256]⟩
abbrev S256x128 : Shape := ⟨2, ![256, 128]⟩
abbrev S128x64 : Shape := ⟨2, ![128, 64]⟩
abbrev S3000x128 : Shape := ⟨2, ![3000, 128]⟩
abbrev S3000x64 : Shape := ⟨2, ![3000, 64]⟩
abbrev S64x3000 : Shape := ⟨2, ![64, 3000]⟩
abbrev S_ : Shape := ⟨0, ![]⟩
abbrev S1x3000x3000 : Shape := ⟨3, ![1, 3000, 3000]⟩
abbrev S4x3000x3000 : Shape := ⟨3, ![4, 3000, 3000]⟩

abbrev nBuf : Space → Nat
  | .hbm => 95
  | .vmem => 0
  | .smem => 0
  | _ => 0

abbrev bufTy : (tb : Table) → Fin (tcTables nBuf tb) → BufTy
  | .hbm, ⟨0, _⟩ => ⟨S3000x3000, .f32⟩
  | .hbm, ⟨1, _⟩ => ⟨S3000x3000, .f32⟩
  | .hbm, ⟨2, _⟩ => ⟨S3000x3000, .f32⟩
  | .hbm, ⟨3, _⟩ => ⟨S3000x3000, .f32⟩
  | .hbm, ⟨4, _⟩ => ⟨S3000x3000, .f32⟩
  | .hbm, ⟨5, _⟩ => ⟨S3000x3000, .f32⟩
  | .hbm, ⟨6, _⟩ => ⟨S3000x256, .f32⟩
  | .hbm, ⟨7, _⟩ => ⟨S256x128, .f32⟩
  | .hbm, ⟨8, _⟩ => ⟨S128x64, .f32⟩
  | .hbm, ⟨9, _⟩ => ⟨S3000x256, .f32⟩
  | .hbm, ⟨10, _⟩ => ⟨S256x128, .f32⟩
  | .hbm, ⟨11, _⟩ => ⟨S128x64, .f32⟩
  | .hbm, ⟨12, _⟩ => ⟨S3000x256, .f32⟩
  | .hbm, ⟨13, _⟩ => ⟨S256x128, .f32⟩
  | .hbm, ⟨14, _⟩ => ⟨S128x64, .f32⟩
  | .hbm, ⟨15, _⟩ => ⟨S3000x256, .f32⟩
  | .hbm, ⟨16, _⟩ => ⟨S256x128, .f32⟩
  | .hbm, ⟨17, _⟩ => ⟨S128x64, .f32⟩
  | .hbm, ⟨18, _⟩ => ⟨S3000x256, .f32⟩
  | .hbm, ⟨19, _⟩ => ⟨S3000x256, .f32⟩
  | .hbm, ⟨20, _⟩ => ⟨S3000x256, .f32⟩
  | .hbm, ⟨21, _⟩ => ⟨S3000x128, .f32⟩
  | .hbm, ⟨22, _⟩ => ⟨S3000x128, .f32⟩
  | .hbm, ⟨23, _⟩ => ⟨S3000x128, .f32⟩
  | .hbm, ⟨24, _⟩ => ⟨S3000x64, .f32⟩
  | .hbm, ⟨25, _⟩ => ⟨S3000x64, .f32⟩
  | .hbm, ⟨26, _⟩ => ⟨S64x3000, .f32⟩
  | .hbm, ⟨27, _⟩ => ⟨S3000x3000, .f32⟩
  | .hbm, ⟨28, _⟩ => ⟨S3000x3000, .f32⟩
  | .hbm, ⟨29, _⟩ => ⟨S3000x3000, .f32⟩
  | .hbm, ⟨30, _⟩ => ⟨S_, .f32⟩
  | .hbm, ⟨31, _⟩ => ⟨S3000x3000, .f32⟩
  | .hbm, ⟨32, _⟩ => ⟨S3000x3000, .f32⟩
  | .hbm, ⟨33, _⟩ => ⟨S_, .f32⟩
  | .hbm, ⟨34, _⟩ => ⟨S3000x3000, .f32⟩
  | .hbm, ⟨35, _⟩ => ⟨S3000x3000, .f32⟩
  | .hbm, ⟨36, _⟩ => ⟨S3000x256, .f32⟩
  | .hbm, ⟨37, _⟩ => ⟨S3000x256, .f32⟩
  | .hbm, ⟨38, _⟩ => ⟨S3000x256, .f32⟩
  | .hbm, ⟨39, _⟩ => ⟨S3000x128, .f32⟩
  | .hbm, ⟨40, _⟩ => ⟨S3000x128, .f32⟩
  | .hbm, ⟨41, _⟩ => ⟨S3000x128, .f32⟩
  | .hbm, ⟨42, _⟩ => ⟨S3000x64, .f32⟩
  | .hbm, ⟨43, _⟩ => ⟨S3000x64, .f32⟩
  | .hbm, ⟨44, _⟩ => ⟨S64x3000, .f32⟩
  | .hbm, ⟨45, _⟩ => ⟨S3000x3000, .f32⟩
  | .hbm, ⟨46, _⟩ => ⟨S3000x3000, .f32⟩
  | .hbm, ⟨47, _⟩ => ⟨S3000x3000, .f32⟩
  | .hbm, ⟨48, _⟩ => ⟨S_, .f32⟩
  | .hbm, ⟨49, _⟩ => ⟨S3000x3000, .f32⟩
  | .hbm, ⟨50, _⟩ => ⟨S3000x3000, .f32⟩
  | .hbm, ⟨51, _⟩ => ⟨S_, .f32⟩
  | .hbm, ⟨52, _⟩ => ⟨S3000x3000, .f32⟩
  | .hbm, ⟨53, _⟩ => ⟨S3000x3000, .f32⟩
  | .hbm, ⟨54, _⟩ => ⟨S3000x256, .f32⟩
  | .hbm, ⟨55, _⟩ => ⟨S3000x256, .f32⟩
  | .hbm, ⟨56, _⟩ => ⟨S3000x256, .f32⟩
  | .hbm, ⟨57, _⟩ => ⟨S3000x128, .f32⟩
  | .hbm, ⟨58, _⟩ => ⟨S3000x128, .f32⟩
  | .hbm, ⟨59, _⟩ => ⟨S3000x128, .f32⟩
  | .hbm, ⟨60, _⟩ => ⟨S3000x64, .f32⟩
  | .hbm, ⟨61, _⟩ => ⟨S3000x64, .f32⟩
  | .hbm, ⟨62, _⟩ => ⟨S64x3000, .f32⟩
  | .hbm, ⟨63, _⟩ => ⟨S3000x3000, .f32⟩
  | .hbm, ⟨64, _⟩ => ⟨S3000x3000, .f32⟩
  | .hbm, ⟨65, _⟩ => ⟨S3000x3000, .f32⟩
  | .hbm, ⟨66, _⟩ => ⟨S_, .f32⟩
  | .hbm, ⟨67, _⟩ => ⟨S3000x3000, .f32⟩
  | .hbm, ⟨68, _⟩ => ⟨S3000x3000, .f32⟩
  | .hbm, ⟨69, _⟩ => ⟨S_, .f32⟩
  | .hbm, ⟨70, _⟩ => ⟨S3000x3000, .f32⟩
  | .hbm, ⟨71, _⟩ => ⟨S3000x3000, .f32⟩
  | .hbm, ⟨72, _⟩ => ⟨S3000x256, .f32⟩
  | .hbm, ⟨73, _⟩ => ⟨S3000x256, .f32⟩
  | .hbm, ⟨74, _⟩ => ⟨S3000x256, .f32⟩
  | .hbm, ⟨75, _⟩ => ⟨S3000x128, .f32⟩
  | .hbm, ⟨76, _⟩ => ⟨S3000x128, .f32⟩
  | .hbm, ⟨77, _⟩ => ⟨S3000x128, .f32⟩
  | .hbm, ⟨78, _⟩ => ⟨S3000x64, .f32⟩
  | .hbm, ⟨79, _⟩ => ⟨S3000x64, .f32⟩
  | .hbm, ⟨80, _⟩ => ⟨S64x3000, .f32⟩
  | .hbm, ⟨81, _⟩ => ⟨S3000x3000, .f32⟩
  | .hbm, ⟨82, _⟩ => ⟨S3000x3000, .f32⟩
  | .hbm, ⟨83, _⟩ => ⟨S3000x3000, .f32⟩
  | .hbm, ⟨84, _⟩ => ⟨S_, .f32⟩
  | .hbm, ⟨85, _⟩ => ⟨S3000x3000, .f32⟩
  | .hbm, ⟨86, _⟩ => ⟨S3000x3000, .f32⟩
  | .hbm, ⟨87, _⟩ => ⟨S_, .f32⟩
  | .hbm, ⟨88, _⟩ => ⟨S3000x3000, .f32⟩
  | .hbm, ⟨89, _⟩ => ⟨S3000x3000, .f32⟩
  | .hbm, ⟨90, _⟩ => ⟨S1x3000x3000, .f32⟩
  | .hbm, ⟨91, _⟩ => ⟨S1x3000x3000, .f32⟩
  | .hbm, ⟨92, _⟩ => ⟨S1x3000x3000, .f32⟩
  | .hbm, ⟨93, _⟩ => ⟨S1x3000x3000, .f32⟩
  | .hbm, ⟨94, _⟩ => ⟨S4x3000x3000, .f32⟩
  | _, _ => ⟨S3000x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_5 : Ref sig .tc := ⟨.hbm, 84, rfl⟩
abbrev main_v60 : Ref sig .tc := ⟨.hbm, 85, rfl⟩
abbrev main_v61 : Ref sig .tc := ⟨.hbm, 86, rfl⟩
abbrev main_cst_6 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  transposes_S3000x64_S64x3000_1_0 : S3000x64.Transposes [1, 0] S64x3000
  bcast_S_S3000x3000 : S_.BroadcastsInDim S3000x3000 (![] : Fin 0 → Fin S3000x3000.rank)
  bcast_S3000x3000_S1x3000x3000_1_2 : S3000x3000.BroadcastsInDim S1x3000x3000 (![1, 2] : Fin 2 → Fin S1x3000x3000.rank)
  concatenates_S1x3000x3000_S1x3000x3000_S1x3000x3000_S1x3000x3000_S4x3000x3000_d0 : Shape.Concatenates [S1x3000x3000, S1x3000x3000, S1x3000x3000, S1x3000x3000] S4x3000x3000 0
  dot_S3000x3000_S3000x256_S3000x256_1_0_0_1_n_n_wf : DotDims.WF S3000x3000 S3000x256 S3000x256 [1] [0] [0] [1] [] []
  dot_S3000x256_S256x128_S3000x128_1_0_0_1_n_n_wf : DotDims.WF S3000x256 S256x128 S3000x128 [1] [0] [0] [1] [] []
  dot_S3000x3000_S3000x128_S3000x128_1_0_0_1_n_n_wf : DotDims.WF S3000x3000 S3000x128 S3000x128 [1] [0] [0] [1] [] []
  dot_S3000x128_S128x64_S3000x64_1_0_0_1_n_n_wf : DotDims.WF S3000x128 S128x64 S3000x64 [1] [0] [0] [1] [] []
  dot_S3000x3000_S3000x64_S3000x64_1_0_0_1_n_n_wf : DotDims.WF S3000x3000 S3000x64 S3000x64 [1] [0] [0] [1] [] []
  dot_S3000x64_S64x3000_S3000x3000_1_0_0_1_n_n_wf : DotDims.WF S3000x64 S64x3000 S3000x3000 [1] [0] [0] [1] [] []

variable [Facts₀]

def dot_S3000x3000_S3000x256_S3000x256_1_0_0_1_n_n : DotDims S3000x3000 S3000x256 S3000x256 where
  lhsContracting := [1]
  rhsContracting := [0]
  lhsNonContracting := [0]
  rhsNonContracting := [1]
  lhsBatch := []
  rhsBatch := []
  wf := dot_S3000x3000_S3000x256_S3000x256_1_0_0_1_n_n_wf
def dot_S3000x256_S256x128_S3000x128_1_0_0_1_n_n : DotDims S3000x256 S256x128 S3000x128 where
  lhsContracting := [1]
  rhsContracting := [0]
  lhsNonContracting := [0]
  rhsNonContracting := [1]
  lhsBatch := []
  rhsBatch := []
  wf := dot_S3000x256_S256x128_S3000x128_1_0_0_1_n_n_wf
def dot_S3000x3000_S3000x128_S3000x128_1_0_0_1_n_n : DotDims S3000x3000 S3000x128 S3000x128 where
  lhsContracting := [1]
  rhsContracting := [0]
  lhsNonContracting := [0]
  rhsNonContracting := [1]
  lhsBatch := []
  rhsBatch := []
  wf := dot_S3000x3000_S3000x128_S3000x128_1_0_0_1_n_n_wf
def dot_S3000x128_S128x64_S3000x64_1_0_0_1_n_n : DotDims S3000x128 S128x64 S3000x64 where
  lhsContracting := [1]
  rhsContracting := [0]
  lhsNonContracting := [0]
  rhsNonContracting := [1]
  lhsBatch := []
  rhsBatch := []
  wf := dot_S3000x128_S128x64_S3000x64_1_0_0_1_n_n_wf
def dot_S3000x3000_S3000x64_S3000x64_1_0_0_1_n_n : DotDims S3000x3000 S3000x64 S3000x64 where
  lhsContracting := [1]
  rhsContracting := [0]
  lhsNonContracting := [0]
  rhsNonContracting := [1]
  lhsBatch := []
  rhsBatch := []
  wf := dot_S3000x3000_S3000x64_S3000x64_1_0_0_1_n_n_wf
def dot_S3000x64_S64x3000_S3000x3000_1_0_0_1_n_n : DotDims S3000x64 S64x3000 S3000x3000 where
  lhsContracting := [1]
  rhsContracting := [0]
  lhsNonContracting := [0]
  rhsNonContracting := [1]
  lhsBatch := []
  rhsBatch := []
  wf := dot_S3000x64_S64x3000_S3000x3000_1_0_0_1_n_n_wf

class Facts : Prop extends Facts₀ where

variable [Facts]
-- ==== Proof.KB.Reg0.lean ====
/-
  Region 0 (a row block times the whole weight matrix, then tanh): what each staging buffer holds around the body at
  a grid point, the body's triple over whole staging buffers, the pipeline's proof data and the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the previous point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the previous point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 0's whole buffer as one rectangle. -/
abbrev r0_0 : Rect S200x3000 := Rect.unit (s := S200x3000) ![0, 0] S200x3000.size inb_S200x3000_S200x3000_0_0

/-- Input window 1's whole buffer as one rectangle. -/
abbrev r0_1 : Rect S3000x512 := Rect.unit (s := S3000x512) ![0, 0] S3000x512.size inb_S3000x512_S3000x512_0_0

/-- Output window 2's whole buffer as one rectangle. -/
abbrev r0_2 : Rect S200x512 := Rect.unit (s := S200x512) ![0, 0] S200x512.size inb_S200x512_S200x512_0_0

/-- Output window 2's staging buffer after the body, from the input windows' blocks: its one whole store. -/
def out0_2 (x0 : Vec F S200x3000 .f32) (x1 : Vec F S3000x512 .f32) : Vec F S200x512 .f32 :=
  View.canon [⟨r0_2, k0_pay1 (View.ld x0 r0_0) (View.ld x1 r0_1)⟩]

/-- The one store covers the buffer. -/
theorem cover0_2 (p0 : Vec F S200x512 .f32) (y : S200x512.Idx) :
    ∃ pc ∈ ([⟨r0_2, p0⟩] : List (View.Piece (Elt F) S200x512 .f32)), y ∈ pc.1.set :=
  View.cover_of_tiled [⟨r0_2, p0⟩] S200x512.size (by rfl) y

set_option maxHeartbeats 1000000 in
/-- The body on whole staging buffers, the inputs' at given contents and the outputs' at anything, runs to the
    continuation with the inputs' as they were and each output's at its store's value. -/
theorem sound_kernel0 (c : Dev nD) (E : Set ℕ) (i : grid0.Coords)
    (arg0 : Memref sig .tc .vmem S200x3000 .f32) (harg0 : arg0.IsWhole) (arg1 : Memref sig .tc .vmem S3000x512 .f32) (harg1 : arg1.IsWhole) (arg2 : Memref sig .tc .vmem S200x512 .f32) (harg2 : arg2.IsWhole)
    (x0 : Vec F S200x3000 .f32) (x1 : Vec F S3000x512 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_tanh_kernel i arg0 harg0 arg1 harg1 arg2 harg2) K := by
  simp only [cc0__proj_tanh_kernel_eq_skeleton]; unfold cc0__proj_tanh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 (F := F) _)

/-- The proof data of pipeline 0 on core `c`: the arrays as the region finds them; after the body at point `t` each
    input's buffer at its block and each output's at its store's value of the input blocks; the scoped rest and the
    generator register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Region 1 (a row block times the whole weight matrix, then tanh): what each staging buffer holds around the body at
  a grid point, the body's triple over whole staging buffers, the pipeline's proof data and the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the previous point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the previous point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 0's whole buffer as one rectangle. -/
abbrev r1_0 : Rect S200x3000 := Rect.unit (s := S200x3000) ![0, 0] S200x3000.size inb_S200x3000_S200x3000_0_0

/-- Input window 1's whole buffer as one rectangle. -/
abbrev r1_1 : Rect S3000x512 := Rect.unit (s := S3000x512) ![0, 0] S3000x512.size inb_S3000x512_S3000x512_0_0

/-- Output window 2's whole buffer as one rectangle. -/
abbrev r1_2 : Rect S200x512 := Rect.unit (s := S200x512) ![0, 0] S200x512.size inb_S200x512_S200x512_0_0

/-- Output window 2's staging buffer after the body, from the input windows' blocks: its one whole store. -/
def out1_2 (x0 : Vec F S200x3000 .f32) (x1 : Vec F S3000x512 .f32) : Vec F S200x512 .f32 :=
  View.canon [⟨r1_2, k1_pay1 (View.ld x0 r1_0) (View.ld x1 r1_1)⟩]

/-- The one store covers the buffer. -/
theorem cover1_2 (p0 : Vec F S200x512 .f32) (y : S200x512.Idx) :
    ∃ pc ∈ ([⟨r1_2, p0⟩] : List (View.Piece (Elt F) S200x512 .f32)), y ∈ pc.1.set :=
  View.cover_of_tiled [⟨r1_2, p0⟩] S200x512.size (by rfl) y

set_option maxHeartbeats 1000000 in
/-- The body on whole staging buffers, the inputs' at given contents and the outputs' at anything, runs to the
    continuation with the inputs' as they were and each output's at its store's value. -/
theorem sound_kernel1 (c : Dev nD) (E : Set ℕ) (i : grid1.Coords)
    (arg0 : Memref sig .tc .vmem S200x3000 .f32) (harg0 : arg0.IsWhole) (arg1 : Memref sig .tc .vmem S3000x512 .f32) (harg1 : arg1.IsWhole) (arg2 : Memref sig .tc .vmem S200x512 .f32) (harg2 : arg2.IsWhole)
    (x0 : Vec F S200x3000 .f32) (x1 : Vec F S3000x512 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__proj_tanh_kernel i arg0 harg0 arg1 harg1 arg2 harg2) K := by
  simp only [cc1__proj_tanh_kernel_eq_skeleton]; unfold cc1__proj_tanh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 (F := F) _)

/-- The proof data of pipeline 1 on core `c`: the arrays as the region finds them; after the body at point `t` each
    input's buffer at its block and each output's at its store's value of the input blocks; the scoped rest and the
    generator register ride along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  Region 2 (a row block of the adjacency times the features, times the weights, then tanh; the adjacency block is
  also written out in the narrower format): staging contents around the body, the body's triple, the proof data and
  the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved since the previous point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved since the previous point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 0's whole buffer as one rectangle. -/
abbrev r2_0 : Rect S200x3000 := Rect.unit (s := S200x3000) ![0, 0] S200x3000.size inb_S200x3000_S200x3000_0_0

/-- Input window 1's whole buffer as one rectangle. -/
abbrev r2_1 : Rect S3000x256 := Rect.unit (s := S3000x256) ![0, 0] S3000x256.size inb_S3000x256_S3000x256_0_0

/-- Input window 2's whole buffer as one rectangle. -/
abbrev r2_2 : Rect S256x128 := Rect.unit (s := S256x128) ![0, 0] S256x128.size inb_S256x128_S256x128_0_0

/-- Output window 3's whole buffer as one rectangle. -/
abbrev r2_3 : Rect S200x128 := Rect.unit (s := S200x128) ![0, 0] S200x128.size inb_S200x128_S200x128_0_0

/-- Output window 3's staging buffer after the body, from the input windows' blocks: its one whole store. -/
def out2_3 (x0 : Vec F S200x3000 .f32) (x1 : Vec F S3000x256 .f32) (x2 : Vec F S256x128 .f32) : Vec F S200x128 .f32 :=
  View.canon [⟨r2_3, k2_pay2 (View.ld x0 r2_0) (View.ld x1 r2_1) (View.ld x2 r2_2)⟩]

/-- The one store covers the buffer. -/
theorem cover2_3 (p0 : Vec F S200x128 .f32) (y : S200x128.Idx) :
    ∃ pc ∈ ([⟨r2_3, p0⟩] : List (View.Piece (Elt F) S200x128 .f32)), y ∈ pc.1.set :=
  View.cover_of_tiled [⟨r2_3, p0⟩] S200x128.size (by rfl) y

/-- Output window 4's whole buffer as one rectangle. -/
abbrev r2_4 : Rect S200x3000 := Rect.unit (s := S200x3000) ![0, 0] S200x3000.size inb_S200x3000_S200x3000_0_0

/-- Output window 4's staging buffer after the body, from the input windows' blocks: its one whole store. -/
def out2_4 (x0 : Vec F S200x3000 .f32) : Vec F S200x3000 .bf16 :=
  View.canon [⟨r2_4, k2_pay1 (View.ld x0 r2_0)⟩]

/-- The one store covers the buffer. -/
theorem cover2_4 (p0 : Vec F S200x3000 .bf16) (y : S200x3000.Idx) :
    ∃ pc ∈ ([⟨r2_4, p0⟩] : List (View.Piece (Elt F) S200x3000 .bf16)), y ∈ pc.1.set :=
  View.cover_of_tiled [⟨r2_4, p0⟩] S200x3000.size (by rfl) y

set_option maxHeartbeats 1000000 in
/-- The body on whole staging buffers, the inputs' at given contents and the outputs' at anything, runs to the
    continuation with the inputs' as they were and each output's at its store's value. -/
theorem sound_kernel2 (c : Dev nD) (E : Set ℕ) (i : grid2.Coords)
    (arg0 : Memref sig .tc .vmem S200x3000 .f32) (harg0 : arg0.IsWhole) (arg1 : Memref sig .tc .vmem S3000x256 .f32) (harg1 : arg1.IsWhole) (arg2 : Memref sig .tc .vmem S256x128 .f32) (harg2 : arg2.IsWhole) (arg3 : Memref sig .tc .vmem S200x128 .f32) (harg3 : arg3.IsWhole) (arg4 : Memref sig .tc .vmem S200x3000 .bf16) (harg4 : arg4.IsWhole)
    (x0 : Vec F S200x3000 .f32) (x1 : Vec F S3000x256 .f32) (x2 : Vec F S256x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2) ∗ owns (c : Thread nD τ) arg4 fullShare (out2_4 x0)) -∗ K ⟨⟩))
      ⊢ wp frame (wpE (defs₀ (F := F)) Variants.none c none) E (cc2__spmm_proj_cache_kernel i arg0 harg0 arg1 harg1 arg2 harg2 arg3 harg3 arg4 harg4) K := by
  simp only [cc2__spmm_proj_cache_kernel_eq_skeleton]; unfold cc2__spmm_proj_cache_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 (F := F) _)
  iexists _; isplitr
  swap; · iexact H4
  ipureintro
  exact View.read_writes_eq_canon _ _ _ (cover2_4 (F := F) _)

/-- The proof data of pipeline 2 on core `c`: the arrays as the region finds them; after the body at point `t` each
    input's buffer at its block and each output's at its store's value of the input blocks; the scoped rest and the
    generator register ride along untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/-
  Region 3 (a row block of the adjacency times the features, times the widened weights): staging contents around
  the body, the body's triple, the proof data and the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where it is not
    fetched its block index has not moved since the previous point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: where it is not
    fetched its block index has not moved since the previous point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: where it is not
    fetched its block index has not moved since the previous point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 0's whole buffer as one rectangle. -/
abbrev r3_0 : Rect S200x3000 := Rect.unit (s := S200x3000) ![0, 0] S200x3000.size inb_S200x3000_S200x3000_0_0

/-- Input window 1's whole buffer as one rectangle. -/
abbrev r3_1 : Rect S3000x128 := Rect.unit (s := S3000x128) ![0, 0] S3000x128.size inb_S3000x128_S3000x128_0_0

/-- Input window 2's whole buffer as one rectangle. -/
abbrev r3_2 : Rect S128x128 := Rect.unit (s := S128x128) ![0, 0] S128x128.size inb_S128x128_S128x128_0_0

/-- Output window 3's whole buffer as one rectangle. -/
abbrev r3_3 : Rect S200x128 := Rect.unit (s := S200x128) ![0, 0] S200x128.size inb_S200x128_S200x128_0_0

/-- Output window 3's staging buffer after the body, from the input windows' blocks: its one whole store. -/
def out3_3 (x0 : Vec F S200x3000 .bf16) (x1 : Vec F S3000x128 .f32) (x2 : Vec F S128x128 .f32) : Vec F S200x128 .f32 :=
  View.canon [⟨r3_3, k3_pay1 (View.ld x0 r3_0) (View.ld x1 r3_1) (View.ld x2 r3_2)⟩]

/-- The one store covers the buffer. -/
theorem cover3_3 (p0 : Vec F S200x128 .f32) (y : S200x128.Idx) :
    ∃ pc ∈ ([⟨r3_3, p0⟩] : List (View.Piece (Elt F) S200x128 .f32)), y ∈ pc.1.set :=
  View.cover_of_tiled [⟨r3_3, p0⟩] S200x128.size (by rfl) y

set_option maxHeartbeats 1000000 in
/-- The body on whole staging buffers, the inputs' at given contents and the outputs' at anything, runs to the
    continuation with the inputs' as they were and each output's at its store's value. -/
theorem sound_kernel3 (c : Dev nD) (E : Set ℕ) (i : grid3.Coords)
    (arg0 : Memref sig .tc .vmem S200x3000 .bf16) (harg0 : arg0.IsWhole) (arg1 : Memref sig .tc .vmem S3000x128 .f32) (harg1 : arg1.IsWhole) (arg2 : Memref sig .tc .vmem S128x128 .f32) (harg2 : arg2.IsWhole) (arg3 : Memref sig .tc .vmem S200x128 .f32) (harg3 : arg3.IsWhole)
    (x0 : Vec F S200x3000 .bf16) (x1 : Vec F S3000x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__spmm_proj_kernel i arg0 harg0 arg1 harg1 arg2 harg2 arg3 harg3) K := by
  simp only [cc3__spmm_proj_kernel_eq_skeleton]; unfold cc3__spmm_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 (F := F) _)

/-- The proof data of pipeline 3 on core `c`: the arrays as the region finds them; after the body at point `t` each
    input's buffer at its block and each output's at its store's value of the input blocks; the scoped rest and the
    generator register ride along untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
/-
  Region 4 (a row block of the adjacency times the features): staging contents around the body, the body's
  triple, the proof data and the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it is not
    fetched its block index has not moved since the previous point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: where it is not
    fetched its block index has not moved since the previous point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 0's whole buffer as one rectangle. -/
abbrev r4_0 : Rect S200x3000 := Rect.unit (s := S200x3000) ![0, 0] S200x3000.size inb_S200x3000_S200x3000_0_0

/-- Input window 1's whole buffer as one rectangle. -/
abbrev r4_1 : Rect S3000x128 := Rect.unit (s := S3000x128) ![0, 0] S3000x128.size inb_S3000x128_S3000x128_0_0

/-- Output window 2's whole buffer as one rectangle. -/
abbrev r4_2 : Rect S200x128 := Rect.unit (s := S200x128) ![0, 0] S200x128.size inb_S200x128_S200x128_0_0

/-- Output window 2's staging buffer after the body, from the input windows' blocks: its one whole store. -/
def out4_2 (x0 : Vec F S200x3000 .bf16) (x1 : Vec F S3000x128 .f32) : Vec F S200x128 .f32 :=
  View.canon [⟨r4_2, k4_pay1 (View.ld x0 r4_0) (View.ld x1 r4_1)⟩]

/-- The one store covers the buffer. -/
theorem cover4_2 (p0 : Vec F S200x128 .f32) (y : S200x128.Idx) :
    ∃ pc ∈ ([⟨r4_2, p0⟩] : List (View.Piece (Elt F) S200x128 .f32)), y ∈ pc.1.set :=
  View.cover_of_tiled [⟨r4_2, p0⟩] S200x128.size (by rfl) y

set_option maxHeartbeats 1000000 in
/-- The body on whole staging buffers, the inputs' at given contents and the outputs' at anything, runs to the
    continuation with the inputs' as they were and each output's at its store's value. -/
theorem sound_kernel4 (c : Dev nD) (E : Set ℕ) (i : grid4.Coords)
    (arg0 : Memref sig .tc .vmem S200x3000 .bf16) (harg0 : arg0.IsWhole) (arg1 : Memref sig .tc .vmem S3000x128 .f32) (harg1 : arg1.IsWhole) (arg2 : Memref sig .tc .vmem S200x128 .f32) (harg2 : arg2.IsWhole)
    (x0 : Vec F S200x3000 .bf16) (x1 : Vec F S3000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__spmm_kernel i arg0 harg0 arg1 harg1 arg2 harg2) K := by
  simp only [cc4__spmm_kernel_eq_skeleton]; unfold cc4__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 (F := F) _)

/-- The proof data of pipeline 4 on core `c`: the arrays as the region finds them; after the body at point `t` each
    input's buffer at its block and each output's at its store's value of the input blocks; the scoped rest and the
    generator register ride along untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Reg5.lean ====
/-
  Region 5 (a row block of the adjacency times the features, times the weights, then tanh; the adjacency block is
  also written out in the narrower format): staging contents around the body, the body's triple, the proof data and
  the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: where it is not
    fetched its block index has not moved since the previous point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: where it is not
    fetched its block index has not moved since the previous point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: where it is not
    fetched its block index has not moved since the previous point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 0's whole buffer as one rectangle. -/
abbrev r5_0 : Rect S200x3000 := Rect.unit (s := S200x3000) ![0, 0] S200x3000.size inb_S200x3000_S200x3000_0_0

/-- Input window 1's whole buffer as one rectangle. -/
abbrev r5_1 : Rect S3000x256 := Rect.unit (s := S3000x256) ![0, 0] S3000x256.size inb_S3000x256_S3000x256_0_0

/-- Input window 2's whole buffer as one rectangle. -/
abbrev r5_2 : Rect S256x128 := Rect.unit (s := S256x128) ![0, 0] S256x128.size inb_S256x128_S256x128_0_0

/-- Output window 3's whole buffer as one rectangle. -/
abbrev r5_3 : Rect S200x128 := Rect.unit (s := S200x128) ![0, 0] S200x128.size inb_S200x128_S200x128_0_0

/-- Output window 3's staging buffer after the body, from the input windows' blocks: its one whole store. -/
def out5_3 (x0 : Vec F S200x3000 .f32) (x1 : Vec F S3000x256 .f32) (x2 : Vec F S256x128 .f32) : Vec F S200x128 .f32 :=
  View.canon [⟨r5_3, k5_pay2 (View.ld x0 r5_0) (View.ld x1 r5_1) (View.ld x2 r5_2)⟩]

/-- The one store covers the buffer. -/
theorem cover5_3 (p0 : Vec F S200x128 .f32) (y : S200x128.Idx) :
    ∃ pc ∈ ([⟨r5_3, p0⟩] : List (View.Piece (Elt F) S200x128 .f32)), y ∈ pc.1.set :=
  View.cover_of_tiled [⟨r5_3, p0⟩] S200x128.size (by rfl) y

/-- Output window 4's whole buffer as one rectangle. -/
abbrev r5_4 : Rect S200x3000 := Rect.unit (s := S200x3000) ![0, 0] S200x3000.size inb_S200x3000_S200x3000_0_0

/-- Output window 4's staging buffer after the body, from the input windows' blocks: its one whole store. -/
def out5_4 (x0 : Vec F S200x3000 .f32) : Vec F S200x3000 .bf16 :=
  View.canon [⟨r5_4, k5_pay1 (View.ld x0 r5_0)⟩]

/-- The one store covers the buffer. -/
theorem cover5_4 (p0 : Vec F S200x3000 .bf16) (y : S200x3000.Idx) :
    ∃ pc ∈ ([⟨r5_4, p0⟩] : List (View.Piece (Elt F) S200x3000 .bf16)), y ∈ pc.1.set :=
  View.cover_of_tiled [⟨r5_4, p0⟩] S200x3000.size (by rfl) y

set_option maxHeartbeats 1000000 in
/-- The body on whole staging buffers, the inputs' at given contents and the outputs' at anything, runs to the
    continuation with the inputs' as they were and each output's at its store's value. -/
theorem sound_kernel5 (c : Dev nD) (E : Set ℕ) (i : grid5.Coords)
    (arg0 : Memref sig .tc .vmem S200x3000 .f32) (harg0 : arg0.IsWhole) (arg1 : Memref sig .tc .vmem S3000x256 .f32) (harg1 : arg1.IsWhole) (arg2 : Memref sig .tc .vmem S256x128 .f32) (harg2 : arg2.IsWhole) (arg3 : Memref sig .tc .vmem S200x128 .f32) (harg3 : arg3.IsWhole) (arg4 : Memref sig .tc .vmem S200x3000 .bf16) (harg4 : arg4.IsWhole)
    (x0 : Vec F S200x3000 .f32) (x1 : Vec F S3000x256 .f32) (x2 : Vec F S256x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2) ∗ owns (c : Thread nD τ) arg4 fullShare (out5_4 x0)) -∗ K ⟨⟩))
      ⊢ wp frame (wpE (defs₀ (F := F)) Variants.none c none) E (cc5__spmm_proj_cache_kernel i arg0 harg0 arg1 harg1 arg2 harg2 arg3 harg3 arg4 harg4) K := by
  simp only [cc5__spmm_proj_cache_kernel_eq_skeleton]; unfold cc5__spmm_proj_cache_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 (F := F) _)
  iexists _; isplitr
  swap; · iexact H4
  ipureintro
  exact View.read_writes_eq_canon _ _ _ (cover5_4 (F := F) _)

/-- The proof data of pipeline 5 on core `c`: the arrays as the region finds them; after the body at point `t` each
    input's buffer at its block and each output's at its store's value of the input blocks; the scoped rest and the
    generator register ride along untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6.lean ====
/-
  Region 6 (a row block of the adjacency times the features, times the widened weights): staging contents around
  the body, the body's triple, the proof data and the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: where it is not
    fetched its block index has not moved since the previous point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: where it is not
    fetched its block index has not moved since the previous point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: where it is not
    fetched its block index has not moved since the previous point. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 0's whole buffer as one rectangle. -/
abbrev r6_0 : Rect S200x3000 := Rect.unit (s := S200x3000) ![0, 0] S200x3000.size inb_S200x3000_S200x3000_0_0

/-- Input window 1's whole buffer as one rectangle. -/
abbrev r6_1 : Rect S3000x128 := Rect.unit (s := S3000x128) ![0, 0] S3000x128.size inb_S3000x128_S3000x128_0_0

/-- Input window 2's whole buffer as one rectangle. -/
abbrev r6_2 : Rect S128x128 := Rect.unit (s := S128x128) ![0, 0] S128x128.size inb_S128x128_S128x128_0_0

/-- Output window 3's whole buffer as one rectangle. -/
abbrev r6_3 : Rect S200x128 := Rect.unit (s := S200x128) ![0, 0] S200x128.size inb_S200x128_S200x128_0_0

/-- Output window 3's staging buffer after the body, from the input windows' blocks: its one whole store. -/
def out6_3 (x0 : Vec F S200x3000 .bf16) (x1 : Vec F S3000x128 .f32) (x2 : Vec F S128x128 .f32) : Vec F S200x128 .f32 :=
  View.canon [⟨r6_3, k6_pay1 (View.ld x0 r6_0) (View.ld x1 r6_1) (View.ld x2 r6_2)⟩]

/-- The one store covers the buffer. -/
theorem cover6_3 (p0 : Vec F S200x128 .f32) (y : S200x128.Idx) :
    ∃ pc ∈ ([⟨r6_3, p0⟩] : List (View.Piece (Elt F) S200x128 .f32)), y ∈ pc.1.set :=
  View.cover_of_tiled [⟨r6_3, p0⟩] S200x128.size (by rfl) y

set_option maxHeartbeats 1000000 in
/-- The body on whole staging buffers, the inputs' at given contents and the outputs' at anything, runs to the
    continuation with the inputs' as they were and each output's at its store's value. -/
theorem sound_kernel6 (c : Dev nD) (E : Set ℕ) (i : grid6.Coords)
    (arg0 : Memref sig .tc .vmem S200x3000 .bf16) (harg0 : arg0.IsWhole) (arg1 : Memref sig .tc .vmem S3000x128 .f32) (harg1 : arg1.IsWhole) (arg2 : Memref sig .tc .vmem S128x128 .f32) (harg2 : arg2.IsWhole) (arg3 : Memref sig .tc .vmem S200x128 .f32) (harg3 : arg3.IsWhole)
    (x0 : Vec F S200x3000 .bf16) (x1 : Vec F S3000x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__spmm_proj_kernel i arg0 harg0 arg1 harg1 arg2 harg2 arg3 harg3) K := by
  simp only [cc6__spmm_proj_kernel_eq_skeleton]; unfold cc6__spmm_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 (F := F) _)

/-- The proof data of pipeline 6 on core `c`: the arrays as the region finds them; after the body at point `t` each
    input's buffer at its block and each output's at its store's value of the input blocks; the scoped rest and the
    generator register ride along untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Reg7.lean ====
/-
  Region 7 (a row block of the adjacency times the features): staging contents around the body, the body's
  triple, the proof data and the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not: where it is not
    fetched its block index has not moved since the previous point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not: where it is not
    fetched its block index has not moved since the previous point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 0's whole buffer as one rectangle. -/
abbrev r7_0 : Rect S200x3000 := Rect.unit (s := S200x3000) ![0, 0] S200x3000.size inb_S200x3000_S200x3000_0_0

/-- Input window 1's whole buffer as one rectangle. -/
abbrev r7_1 : Rect S3000x128 := Rect.unit (s := S3000x128) ![0, 0] S3000x128.size inb_S3000x128_S3000x128_0_0

/-- Output window 2's whole buffer as one rectangle. -/
abbrev r7_2 : Rect S200x128 := Rect.unit (s := S200x128) ![0, 0] S200x128.size inb_S200x128_S200x128_0_0

/-- Output window 2's staging buffer after the body, from the input windows' blocks: its one whole store. -/
def out7_2 (x0 : Vec F S200x3000 .bf16) (x1 : Vec F S3000x128 .f32) : Vec F S200x128 .f32 :=
  View.canon [⟨r7_2, k7_pay1 (View.ld x0 r7_0) (View.ld x1 r7_1)⟩]

/-- The one store covers the buffer. -/
theorem cover7_2 (p0 : Vec F S200x128 .f32) (y : S200x128.Idx) :
    ∃ pc ∈ ([⟨r7_2, p0⟩] : List (View.Piece (Elt F) S200x128 .f32)), y ∈ pc.1.set :=
  View.cover_of_tiled [⟨r7_2, p0⟩] S200x128.size (by rfl) y

set_option maxHeartbeats 1000000 in
/-- The body on whole staging buffers, the inputs' at given contents and the outputs' at anything, runs to the
    continuation with the inputs' as they were and each output's at its store's value. -/
theorem sound_kernel7 (c : Dev nD) (E : Set ℕ) (i : grid7.Coords)
    (arg0 : Memref sig .tc .vmem S200x3000 .bf16) (harg0 : arg0.IsWhole) (arg1 : Memref sig .tc .vmem S3000x128 .f32) (harg1 : arg1.IsWhole) (arg2 : Memref sig .tc .vmem S200x128 .f32) (harg2 : arg2.IsWhole)
    (x0 : Vec F S200x3000 .bf16) (x1 : Vec F S3000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out7_2 x0 x1)) -∗ K ⟨⟩))
      ⊢ wp frame (wpE (defs₀ (F := F)) Variants.none c none) E (cc7__spmm_kernel i arg0 harg0 arg1 harg1 arg2 harg2) K := by
  simp only [cc7__spmm_kernel_eq_skeleton]; unfold cc7__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 (F := F) _)

/-- The proof data of pipeline 7 on core `c`: the arrays as the region finds them; after the body at point `t` each
    input's buffer at its block and each output's at its store's value of the input blocks; the scoped rest and the
    generator register ride along untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' buffers hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Reg8.lean ====
/-
  Region 8 (a row block of the adjacency times the features, times the weights, then tanh; the adjacency block is
  also written out in the narrower format): staging contents around the body, the body's triple, the proof data and
  the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not: where it is not
    fetched its block index has not moved since the previous point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not: where it is not
    fetched its block index has not moved since the previous point. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not: where it is not
    fetched its block index has not moved since the previous point. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 0's whole buffer as one rectangle. -/
abbrev r8_0 : Rect S200x3000 := Rect.unit (s := S200x3000) ![0, 0] S200x3000.size inb_S200x3000_S200x3000_0_0

/-- Input window 1's whole buffer as one rectangle. -/
abbrev r8_1 : Rect S3000x256 := Rect.unit (s := S3000x256) ![0, 0] S3000x256.size inb_S3000x256_S3000x256_0_0

/-- Input window 2's whole buffer as one rectangle. -/
abbrev r8_2 : Rect S256x128 := Rect.unit (s := S256x128) ![0, 0] S256x128.size inb_S256x128_S256x128_0_0

/-- Output window 3's whole buffer as one rectangle. -/
abbrev r8_3 : Rect S200x128 := Rect.unit (s := S200x128) ![0, 0] S200x128.size inb_S200x128_S200x128_0_0

/-- Output window 3's staging buffer after the body, from the input windows' blocks: its one whole store. -/
def out8_3 (x0 : Vec F S200x3000 .f32) (x1 : Vec F S3000x256 .f32) (x2 : Vec F S256x128 .f32) : Vec F S200x128 .f32 :=
  View.canon [⟨r8_3, k8_pay2 (View.ld x0 r8_0) (View.ld x1 r8_1) (View.ld x2 r8_2)⟩]

/-- The one store covers the buffer. -/
theorem cover8_3 (p0 : Vec F S200x128 .f32) (y : S200x128.Idx) :
    ∃ pc ∈ ([⟨r8_3, p0⟩] : List (View.Piece (Elt F) S200x128 .f32)), y ∈ pc.1.set :=
  View.cover_of_tiled [⟨r8_3, p0⟩] S200x128.size (by rfl) y

/-- Output window 4's whole buffer as one rectangle. -/
abbrev r8_4 : Rect S200x3000 := Rect.unit (s := S200x3000) ![0, 0] S200x3000.size inb_S200x3000_S200x3000_0_0

/-- Output window 4's staging buffer after the body, from the input windows' blocks: its one whole store. -/
def out8_4 (x0 : Vec F S200x3000 .f32) : Vec F S200x3000 .bf16 :=
  View.canon [⟨r8_4, k8_pay1 (View.ld x0 r8_0)⟩]

/-- The one store covers the buffer. -/
theorem cover8_4 (p0 : Vec F S200x3000 .bf16) (y : S200x3000.Idx) :
    ∃ pc ∈ ([⟨r8_4, p0⟩] : List (View.Piece (Elt F) S200x3000 .bf16)), y ∈ pc.1.set :=
  View.cover_of_tiled [⟨r8_4, p0⟩] S200x3000.size (by rfl) y

set_option maxHeartbeats 1000000 in
/-- The body on whole staging buffers, the inputs' at given contents and the outputs' at anything, runs to the
    continuation with the inputs' as they were and each output's at its store's value. -/
theorem sound_kernel8 (c : Dev nD) (E : Set ℕ) (i : grid8.Coords)
    (arg0 : Memref sig .tc .vmem S200x3000 .f32) (harg0 : arg0.IsWhole) (arg1 : Memref sig .tc .vmem S3000x256 .f32) (harg1 : arg1.IsWhole) (arg2 : Memref sig .tc .vmem S256x128 .f32) (harg2 : arg2.IsWhole) (arg3 : Memref sig .tc .vmem S200x128 .f32) (harg3 : arg3.IsWhole) (arg4 : Memref sig .tc .vmem S200x3000 .bf16) (harg4 : arg4.IsWhole)
    (x0 : Vec F S200x3000 .f32) (x1 : Vec F S3000x256 .f32) (x2 : Vec F S256x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out8_3 x0 x1 x2) ∗ owns (c : Thread nD τ) arg4 fullShare (out8_4 x0)) -∗ K ⟨⟩))
      ⊢ wp frame (wpE (defs₀ (F := F)) Variants.none c none) E (cc8__spmm_proj_cache_kernel i arg0 harg0 arg1 harg1 arg2 harg2 arg3 harg3 arg4 harg4) K := by
  simp only [cc8__spmm_proj_cache_kernel_eq_skeleton]; unfold cc8__spmm_proj_cache_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover8_3 (F := F) _)
  iexists _; isplitr
  swap; · iexact H4
  ipureintro
  exact View.read_writes_eq_canon _ _ _ (cover8_4 (F := F) _)

/-- The proof data of pipeline 8 on core `c`: the arrays as the region finds them; after the body at point `t` each
    input's buffer at its block and each output's at its store's value of the input blocks; the scoped rest and the
    generator register ride along untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
    | ⟨4, _⟩ => out8_4 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]
theorem after8_4 (c : Dev nD) (t : Fin cfg8.N) : (dat8 V c).after 4 t = out8_4 (iblk8 V c 0 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' buffers hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KB.Reg9.lean ====
/-
  Region 9 (a row block of the adjacency times the features, times the widened weights): staging contents around
  the body, the body's triple, the proof data and the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not: where it is not
    fetched its block index has not moved since the previous point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not: where it is not
    fetched its block index has not moved since the previous point. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not: where it is not
    fetched its block index has not moved since the previous point. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 0's whole buffer as one rectangle. -/
abbrev r9_0 : Rect S200x3000 := Rect.unit (s := S200x3000) ![0, 0] S200x3000.size inb_S200x3000_S200x3000_0_0

/-- Input window 1's whole buffer as one rectangle. -/
abbrev r9_1 : Rect S3000x128 := Rect.unit (s := S3000x128) ![0, 0] S3000x128.size inb_S3000x128_S3000x128_0_0

/-- Input window 2's whole buffer as one rectangle. -/
abbrev r9_2 : Rect S128x128 := Rect.unit (s := S128x128) ![0, 0] S128x128.size inb_S128x128_S128x128_0_0

/-- Output window 3's whole buffer as one rectangle. -/
abbrev r9_3 : Rect S200x128 := Rect.unit (s := S200x128) ![0, 0] S200x128.size inb_S200x128_S200x128_0_0

/-- Output window 3's staging buffer after the body, from the input windows' blocks: its one whole store. -/
def out9_3 (x0 : Vec F S200x3000 .bf16) (x1 : Vec F S3000x128 .f32) (x2 : Vec F S128x128 .f32) : Vec F S200x128 .f32 :=
  View.canon [⟨r9_3, k9_pay1 (View.ld x0 r9_0) (View.ld x1 r9_1) (View.ld x2 r9_2)⟩]

/-- The one store covers the buffer. -/
theorem cover9_3 (p0 : Vec F S200x128 .f32) (y : S200x128.Idx) :
    ∃ pc ∈ ([⟨r9_3, p0⟩] : List (View.Piece (Elt F) S200x128 .f32)), y ∈ pc.1.set :=
  View.cover_of_tiled [⟨r9_3, p0⟩] S200x128.size (by rfl) y

set_option maxHeartbeats 1000000 in
/-- The body on whole staging buffers, the inputs' at given contents and the outputs' at anything, runs to the
    continuation with the inputs' as they were and each output's at its store's value. -/
theorem sound_kernel9 (c : Dev nD) (E : Set ℕ) (i : grid9.Coords)
    (arg0 : Memref sig .tc .vmem S200x3000 .bf16) (harg0 : arg0.IsWhole) (arg1 : Memref sig .tc .vmem S3000x128 .f32) (harg1 : arg1.IsWhole) (arg2 : Memref sig .tc .vmem S128x128 .f32) (harg2 : arg2.IsWhole) (arg3 : Memref sig .tc .vmem S200x128 .f32) (harg3 : arg3.IsWhole)
    (x0 : Vec F S200x3000 .bf16) (x1 : Vec F S3000x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__spmm_proj_kernel i arg0 harg0 arg1 harg1 arg2 harg2 arg3 harg3) K := by
  simp only [cc9__spmm_proj_kernel_eq_skeleton]; unfold cc9__spmm_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 (F := F) _)

/-- The proof data of pipeline 9 on core `c`: the arrays as the region finds them; after the body at point `t` each
    input's buffer at its block and each output's at its store's value of the input blocks; the scoped rest and the
    generator register ride along untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.KB.Reg10.lean ====
/-
  Region 10 (a row block of the adjacency times the features): staging contents around the body, the body's
  triple, the proof data and the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not: where it is not
    fetched its block index has not moved since the previous point. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not: where it is not
    fetched its block index has not moved since the previous point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 0's whole buffer as one rectangle. -/
abbrev r10_0 : Rect S200x3000 := Rect.unit (s := S200x3000) ![0, 0] S200x3000.size inb_S200x3000_S200x3000_0_0

/-- Input window 1's whole buffer as one rectangle. -/
abbrev r10_1 : Rect S3000x128 := Rect.unit (s := S3000x128) ![0, 0] S3000x128.size inb_S3000x128_S3000x128_0_0

/-- Output window 2's whole buffer as one rectangle. -/
abbrev r10_2 : Rect S200x128 := Rect.unit (s := S200x128) ![0, 0] S200x128.size inb_S200x128_S200x128_0_0

/-- Output window 2's staging buffer after the body, from the input windows' blocks: its one whole store. -/
def out10_2 (x0 : Vec F S200x3000 .bf16) (x1 : Vec F S3000x128 .f32) : Vec F S200x128 .f32 :=
  View.canon [⟨r10_2, k10_pay1 (View.ld x0 r10_0) (View.ld x1 r10_1)⟩]

/-- The one store covers the buffer. -/
theorem cover10_2 (p0 : Vec F S200x128 .f32) (y : S200x128.Idx) :
    ∃ pc ∈ ([⟨r10_2, p0⟩] : List (View.Piece (Elt F) S200x128 .f32)), y ∈ pc.1.set :=
  View.cover_of_tiled [⟨r10_2, p0⟩] S200x128.size (by rfl) y

set_option maxHeartbeats 1000000 in
/-- The body on whole staging buffers, the inputs' at given contents and the outputs' at anything, runs to the
    continuation with the inputs' as they were and each output's at its store's value. -/
theorem sound_kernel10 (c : Dev nD) (E : Set ℕ) (i : grid10.Coords)
    (arg0 : Memref sig .tc .vmem S200x3000 .bf16) (harg0 : arg0.IsWhole) (arg1 : Memref sig .tc .vmem S3000x128 .f32) (harg1 : arg1.IsWhole) (arg2 : Memref sig .tc .vmem S200x128 .f32) (harg2 : arg2.IsWhole)
    (x0 : Vec F S200x3000 .bf16) (x1 : Vec F S3000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out10_2 x0 x1)) -∗ K ⟨⟩))
      ⊢ wp frame (wpE (defs₀ (F := F)) Variants.none c none) E (cc10__spmm_kernel i arg0 harg0 arg1 harg1 arg2 harg2) K := by
  simp only [cc10__spmm_kernel_eq_skeleton]; unfold cc10__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 (F := F) _)

/-- The proof data of pipeline 10 on core `c`: the arrays as the region finds them; after the body at point `t` each
    input's buffer at its block and each output's at its store's value of the input blocks; the scoped rest and the
    generator register ride along untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' buffers hold their blocks, so the body's triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.KB.Reg11.lean ====
/-
  Region 11 (a row block of the adjacency times the features, times the weights, then tanh; the adjacency block is
  also written out in the narrower format): staging contents around the body, the body's triple, the proof data and
  the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not: where it is not
    fetched its block index has not moved since the previous point. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not: where it is not
    fetched its block index has not moved since the previous point. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not: where it is not
    fetched its block index has not moved since the previous point. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 0's whole buffer as one rectangle. -/
abbrev r11_0 : Rect S200x3000 := Rect.unit (s := S200x3000) ![0, 0] S200x3000.size inb_S200x3000_S200x3000_0_0

/-- Input window 1's whole buffer as one rectangle. -/
abbrev r11_1 : Rect S3000x256 := Rect.unit (s := S3000x256) ![0, 0] S3000x256.size inb_S3000x256_S3000x256_0_0

/-- Input window 2's whole buffer as one rectangle. -/
abbrev r11_2 : Rect S256x128 := Rect.unit (s := S256x128) ![0, 0] S256x128.size inb_S256x128_S256x128_0_0

/-- Output window 3's whole buffer as one rectangle. -/
abbrev r11_3 : Rect S200x128 := Rect.unit (s := S200x128) ![0, 0] S200x128.size inb_S200x128_S200x128_0_0

/-- Output window 3's staging buffer after the body, from the input windows' blocks: its one whole store. -/
def out11_3 (x0 : Vec F S200x3000 .f32) (x1 : Vec F S3000x256 .f32) (x2 : Vec F S256x128 .f32) : Vec F S200x128 .f32 :=
  View.canon [⟨r11_3, k11_pay2 (View.ld x0 r11_0) (View.ld x1 r11_1) (View.ld x2 r11_2)⟩]

/-- The one store covers the buffer. -/
theorem cover11_3 (p0 : Vec F S200x128 .f32) (y : S200x128.Idx) :
    ∃ pc ∈ ([⟨r11_3, p0⟩] : List (View.Piece (Elt F) S200x128 .f32)), y ∈ pc.1.set :=
  View.cover_of_tiled [⟨r11_3, p0⟩] S200x128.size (by rfl) y

/-- Output window 4's whole buffer as one rectangle. -/
abbrev r11_4 : Rect S200x3000 := Rect.unit (s := S200x3000) ![0, 0] S200x3000.size inb_S200x3000_S200x3000_0_0

/-- Output window 4's staging buffer after the body, from the input windows' blocks: its one whole store. -/
def out11_4 (x0 : Vec F S200x3000 .f32) : Vec F S200x3000 .bf16 :=
  View.canon [⟨r11_4, k11_pay1 (View.ld x0 r11_0)⟩]

/-- The one store covers the buffer. -/
theorem cover11_4 (p0 : Vec F S200x3000 .bf16) (y : S200x3000.Idx) :
    ∃ pc ∈ ([⟨r11_4, p0⟩] : List (View.Piece (Elt F) S200x3000 .bf16)), y ∈ pc.1.set :=
  View.cover_of_tiled [⟨r11_4, p0⟩] S200x3000.size (by rfl) y

set_option maxHeartbeats 1000000 in
/-- The body on whole staging buffers, the inputs' at given contents and the outputs' at anything, runs to the
    continuation with the inputs' as they were and each output's at its store's value. -/
theorem sound_kernel11 (c : Dev nD) (E : Set ℕ) (i : grid11.Coords)
    (arg0 : Memref sig .tc .vmem S200x3000 .f32) (harg0 : arg0.IsWhole) (arg1 : Memref sig .tc .vmem S3000x256 .f32) (harg1 : arg1.IsWhole) (arg2 : Memref sig .tc .vmem S256x128 .f32) (harg2 : arg2.IsWhole) (arg3 : Memref sig .tc .vmem S200x128 .f32) (harg3 : arg3.IsWhole) (arg4 : Memref sig .tc .vmem S200x3000 .bf16) (harg4 : arg4.IsWhole)
    (x0 : Vec F S200x3000 .f32) (x1 : Vec F S3000x256 .f32) (x2 : Vec F S256x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out11_3 x0 x1 x2) ∗ owns (c : Thread nD τ) arg4 fullShare (out11_4 x0)) -∗ K ⟨⟩))
      ⊢ wp frame (wpE (defs₀ (F := F)) Variants.none c none) E (cc11__spmm_proj_cache_kernel i arg0 harg0 arg1 harg1 arg2 harg2 arg3 harg3 arg4 harg4) K := by
  simp only [cc11__spmm_proj_cache_kernel_eq_skeleton]; unfold cc11__spmm_proj_cache_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover11_3 (F := F) _)
  iexists _; isplitr
  swap; · iexact H4
  ipureintro
  exact View.read_writes_eq_canon _ _ _ (cover11_4 (F := F) _)

/-- The proof data of pipeline 11 on core `c`: the arrays as the region finds them; after the body at point `t` each
    input's buffer at its block and each output's at its store's value of the input blocks; the scoped rest and the
    generator register ride along untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
    | ⟨4, _⟩ => out11_4 (iblk11 V c 0 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]
theorem after11_4 (c : Dev nD) (t : Fin cfg11.N) : (dat11 V c).after 4 t = out11_4 (iblk11 V c 0 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' buffers hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.KB.Reg12.lean ====
/-
  Region 12 (a row block of the adjacency times the features, times the widened weights): staging contents around
  the body, the body's triple, the proof data and the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not: where it is not
    fetched its block index has not moved since the previous point. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not: where it is not
    fetched its block index has not moved since the previous point. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not: where it is not
    fetched its block index has not moved since the previous point. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 0's whole buffer as one rectangle. -/
abbrev r12_0 : Rect S200x3000 := Rect.unit (s := S200x3000) ![0, 0] S200x3000.size inb_S200x3000_S200x3000_0_0

/-- Input window 1's whole buffer as one rectangle. -/
abbrev r12_1 : Rect S3000x128 := Rect.unit (s := S3000x128) ![0, 0] S3000x128.size inb_S3000x128_S3000x128_0_0

/-- Input window 2's whole buffer as one rectangle. -/
abbrev r12_2 : Rect S128x128 := Rect.unit (s := S128x128) ![0, 0] S128x128.size inb_S128x128_S128x128_0_0

/-- Output window 3's whole buffer as one rectangle. -/
abbrev r12_3 : Rect S200x128 := Rect.unit (s := S200x128) ![0, 0] S200x128.size inb_S200x128_S200x128_0_0

/-- Output window 3's staging buffer after the body, from the input windows' blocks: its one whole store. -/
def out12_3 (x0 : Vec F S200x3000 .bf16) (x1 : Vec F S3000x128 .f32) (x2 : Vec F S128x128 .f32) : Vec F S200x128 .f32 :=
  View.canon [⟨r12_3, k12_pay1 (View.ld x0 r12_0) (View.ld x1 r12_1) (View.ld x2 r12_2)⟩]

/-- The one store covers the buffer. -/
theorem cover12_3 (p0 : Vec F S200x128 .f32) (y : S200x128.Idx) :
    ∃ pc ∈ ([⟨r12_3, p0⟩] : List (View.Piece (Elt F) S200x128 .f32)), y ∈ pc.1.set :=
  View.cover_of_tiled [⟨r12_3, p0⟩] S200x128.size (by rfl) y

set_option maxHeartbeats 1000000 in
/-- The body on whole staging buffers, the inputs' at given contents and the outputs' at anything, runs to the
    continuation with the inputs' as they were and each output's at its store's value. -/
theorem sound_kernel12 (c : Dev nD) (E : Set ℕ) (i : grid12.Coords)
    (arg0 : Memref sig .tc .vmem S200x3000 .bf16) (harg0 : arg0.IsWhole) (arg1 : Memref sig .tc .vmem S3000x128 .f32) (harg1 : arg1.IsWhole) (arg2 : Memref sig .tc .vmem S128x128 .f32) (harg2 : arg2.IsWhole) (arg3 : Memref sig .tc .vmem S200x128 .f32) (harg3 : arg3.IsWhole)
    (x0 : Vec F S200x3000 .bf16) (x1 : Vec F S3000x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out12_3 x0 x1 x2)) -∗ K ⟨⟩))
      ⊢ wp frame (wpE (defs₀ (F := F)) Variants.none c none) E (cc12__spmm_proj_kernel i arg0 harg0 arg1 harg1 arg2 harg2 arg3 harg3) K := by
  simp only [cc12__spmm_proj_kernel_eq_skeleton]; unfold cc12__spmm_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 (F := F) _)

/-- The proof data of pipeline 12 on core `c`: the arrays as the region finds them; after the body at point `t` each
    input's buffer at its block and each output's at its store's value of the input blocks; the scoped rest and the
    generator register ride along untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' buffers hold their blocks, so the body's triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.KB.Reg13.lean ====
/-
  Region 13 (a row block of the adjacency times the features): staging contents around the body, the body's
  triple, the proof data and the body obligation.
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not: where it is not
    fetched its block index has not moved since the previous point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not: where it is not
    fetched its block index has not moved since the previous point. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 0's whole buffer as one rectangle. -/
abbrev r13_0 : Rect S200x3000 := Rect.unit (s := S200x3000) ![0, 0] S200x3000.size inb_S200x3000_S200x3000_0_0

/-- Input window 1's whole buffer as one rectangle. -/
abbrev r13_1 : Rect S3000x128 := Rect.unit (s := S3000x128) ![0, 0] S3000x128.size inb_S3000x128_S3000x128_0_0

/-- Output window 2's whole buffer as one rectangle. -/
abbrev r13_2 : Rect S200x128 := Rect.unit (s := S200x128) ![0, 0] S200x128.size inb_S200x128_S200x128_0_0

/-- Output window 2's staging buffer after the body, from the input windows' blocks: its one whole store. -/
def out13_2 (x0 : Vec F S200x3000 .bf16) (x1 : Vec F S3000x128 .f32) : Vec F S200x128 .f32 :=
  View.canon [⟨r13_2, k13_pay1 (View.ld x0 r13_0) (View.ld x1 r13_1)⟩]

/-- The one store covers the buffer. -/
theorem cover13_2 (p0 : Vec F S200x128 .f32) (y : S200x128.Idx) :
    ∃ pc ∈ ([⟨r13_2, p0⟩] : List (View.Piece (Elt F) S200x128 .f32)), y ∈ pc.1.set :=
  View.cover_of_tiled [⟨r13_2, p0⟩] S200x128.size (by rfl) y

set_option maxHeartbeats 1000000 in
/-- The body on whole staging buffers, the inputs' at given contents and the outputs' at anything, runs to the
    continuation with the inputs' as they were and each output's at its store's value. -/
theorem sound_kernel13 (c : Dev nD) (E : Set ℕ) (i : grid13.Coords)
    (arg0 : Memref sig .tc .vmem S200x3000 .bf16) (harg0 : arg0.IsWhole) (arg1 : Memref sig .tc .vmem S3000x128 .f32) (harg1 : arg1.IsWhole) (arg2 : Memref sig .tc .vmem S200x128 .f32) (harg2 : arg2.IsWhole)
    (x0 : Vec F S200x3000 .bf16) (x1 : Vec F S3000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out13_2 x0 x1)) -∗ K ⟨⟩))
      ⊢ wp frame (wpE (defs₀ (F := F)) Variants.none c none) E (cc13__spmm_kernel i arg0 harg0 arg1 harg1 arg2 harg2) K := by
  simp only [cc13__spmm_kernel_eq_skeleton]; unfold cc13__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 (F := F) _)

/-- The proof data of pipeline 13 on core `c`: the arrays as the region finds them; after the body at point `t` each
    input's buffer at its block and each output's at its store's value of the input blocks; the scoped rest and the
    generator register ride along untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' buffers hold their blocks, so the body's triple applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.KB.Reg14.lean ====
/-
  Region 14 (the four decoders at once: sigmoid of z zᵀ, by row blocks of 600 and column blocks of 384): what each
  staging buffer holds around the body at a grid point. 8 · 384 = 3072 exceeds the 3000 columns, so the last column
  block of the transposed operand and of the result overhangs its array by 72 columns: its transfers are cut, and the
  staging columns past the array's end hold words nothing names. The row-block window is uncut and holds its block;
  the column-block window holds its block on the columns inside the array; the result's buffer ends at the logistic
  of the product of the two, which on the columns inside the array reads only columns inside the array of the
  second operand — where the float instance says so of its product (column locality, a hypothesis here).
-/
import proofs.«161112_j49297634623838_2_alg».proof.Proof.Gen.Kernel.Launch
import proofs.«161112_j49297634623838_2_alg».proof.Proof.Gen.Kernel.Skeleton
import proofs.«161112_j49297634623838_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it: its part inside the array. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The row-block window's current staging buffer holds its block at every point, fetched there or not. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The whole result buffer as one rectangle. -/
abbrev r14_2 : Rect S1x600x384 := Rect.unit (s := S1x600x384) ![0, 0, 0] S1x600x384.size inb_S1x600x384_S1x600x384_0_0_0

/-- The whole input buffers as rectangles. -/
abbrev r14_0 : Rect S1x600x128 := Rect.unit (s := S1x600x128) ![0, 0, 0] S1x600x128.size inb_S1x600x128_S1x600x128_0_0_0
abbrev r14_1 : Rect S1x128x384 := Rect.unit (s := S1x128x384) ![0, 0, 0] S1x128x384.size inb_S1x128x384_S1x128x384_0_0_0

/-- The result window's staging buffer after the body, from what the two input buffers hold: its one whole store of
    the body's value at the two whole loads. -/
def out14_2 (x0 : Vec F S1x600x128 .f32) (x1 : Vec F S1x128x384 .f32) : Vec F S1x600x384 .f32 :=
  View.canon [⟨r14_2, k14_pay1 (View.ld x0 r14_0) (View.ld x1 r14_1)⟩]

/-- The one store covers the buffer. -/
theorem cover14_2 (p0 : Vec F S1x600x384 .f32) (y : S1x600x384.Idx) :
    ∃ pc ∈ ([⟨r14_2, p0⟩] : List (View.Piece (Elt F) S1x600x384 .f32)), y ∈ pc.1.set :=
  View.cover_of_tiled [⟨r14_2, p0⟩] S1x600x384.size (by rfl) y

set_option maxHeartbeats 1000000 in
/-- The body on whole staging buffers, the inputs' at contents x0, x1 and the result's at anything, runs to the
    continuation with the inputs' as they were and the result's at out14_2 x0 x1. -/
theorem sound_kernel14 (c : Dev nD) (E : Set ℕ) (i : grid14.Coords)
    (arg0 : Memref sig .tc .vmem S1x600x128 .f32) (harg0 : arg0.IsWhole) (arg1 : Memref sig .tc .vmem S1x128x384 .f32) (harg1 : arg1.IsWhole)
    (arg2 : Memref sig .tc .vmem S1x600x384 .f32) (harg2 : arg2.IsWhole)
    (x0 : Vec F S1x600x128 .f32) (x1 : Vec F S1x128x384 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out14_2 x0 x1)) -∗ K ⟨⟩))
      ⊢ wp frame (wpE (defs₀ (F := F)) Variants.none c none) E (cc14__final_kernel i arg0 harg0 arg1 harg1 arg2 harg2) K := by
  simp only [cc14__final_kernel_eq_skeleton]; unfold cc14__final_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 (F := F) _)

/-- The column-block window's block at point t filled out to the staging buffer's shape: the block on the columns
    inside the array, the zero word past the array's end (a word the proof picks; nothing reads it). -/
def blk14_1 (c : Dev nD) (t : Fin cfg14.N) : S1x128x384.Idx → Elt F .f32 :=
  win14_1.fill (grid14.coords t) (fun _ => Scalar.ofBits .f32 0#32) (iblk14 V c 1 t)

/-- The proof data of pipeline 14 on core c: the arrays as the region finds them; after the body at point t the
    row-block window's buffer at its block, the column-block window's at its block filled out, the result's at
    out14_2 of the two; the scoped rest and the generator register ride along untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => blk14_1 V c t
    | ⟨2, _⟩ => out14_2 (iblk14 V c 0 t) (blk14_1 V c t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = blk14_1 V c t := by dsimp only [dat14]
theorem after14_2 (c : Dev nD) (t : Fin cfg14.N) : (dat14 V c).after 2 t = out14_2 (iblk14 V c 0 t) (blk14_1 V c t) := by dsimp only [dat14]

/-- What the body finds: the row-block window's buffer at its block, -/
theorem before14_0 (c : Dev nD) (t : Fin cfg14.N) (d) : (dat14 V c).before 0 t d = iblk14 V c 0 t :=
  before14_0_of V (dat14 V c) (A_eq14 V c 0) (after14_0 V c) t d

/-- the column-block window's just fetched: its block on the columns inside the array, d past the array's end, -/
theorem before14_1 (c : Dev nD) (t : Fin cfg14.N) (d) :
    (dat14 V c).before 1 t d = win14_1.fill (grid14.coords t) d (iblk14 V c 1 t) := by
  rw [(dat14 V c).before_fetched 1 t (fetch14_1 t) d]
  unfold Dat.fetched Dat.blockOf iblk14
  rw [A_eq14]

/-- the result's at contents nothing names: every point writes its block back, so each point starts afresh. -/
theorem before14_2 (c : Dev nD) (t : Fin cfg14.N) (d) : (dat14 V c).before 2 t d = d :=
  (dat14 V c).before_out_reset 2 rfl t
    (by by_cases h0 : t.val = 0
        · exact .inl h0
        · exact .inr ⟨h0, flush14_2 _⟩) d

/-- COLUMN LOCALITY of the body's value: on the result columns the write-back moves (those inside the array) it reads
    the second operand's buffer only on the columns its fetch moved (the same columns). True of an instance whose
    product at an element reads the right operand's column of that element only. -/
def ColLocal14 (F : FTy → Type) [FloatOps F] : Prop :=
  ∀ (i : grid14.Coords) (x0 : Vec F S1x600x128 .f32) (x1 x1' : Vec F S1x128x384 .f32),
    win14_1.cut i x1 = win14_1.cut i x1' → win14_2.cut i (out14_2 x0 x1) = win14_2.cut i (out14_2 x0 x1')

/-- What the body is called with at point t, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns: the uncut window's buffer stated whole, the two cut windows' on the part their transfers move. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ (∃ d, owns (c : Thread nD τ) (st14_1 t) fullShare (win14_1.fill (grid14.coords t) d (win14_1.cut (grid14.coords t) ((dat14 V c).after 1 t))))
    ∗ (∃ d, owns (c : Thread nD τ) (st14_2 t) fullShare (win14_2.fill (grid14.coords t) d (win14_2.cut (grid14.coords t) ((dat14 V c).after 2 t)))))

/-- The body at any point: the inputs' buffers hold their blocks (the cut one's filled out with words nothing names),
    so the body's triple applies; what it leaves agrees with the proof data on the moved parts — the second input's
    by cutting what was filled, the result's by column locality —; the invariant and the core's dues pass through
    unread. -/
theorem sound_body14 (hloc : ColLocal14 F) (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (win14_1.fill (grid14.coords t) d1 (iblk14 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  have h1 : win14_1.cut (grid14.coords t) (blk14_1 V c t) = iblk14 V c 1 t := win14_1.cut_fill _ _ _
  have h2 : win14_2.fill (grid14.coords t) (out14_2 (iblk14 V c 0 t) (win14_1.fill (grid14.coords t) d1 (iblk14 V c 1 t)))
      (win14_2.cut (grid14.coords t) (out14_2 (iblk14 V c 0 t) (blk14_1 V c t)))
      = out14_2 (iblk14 V c 0 t) (win14_1.fill (grid14.coords t) d1 (iblk14 V c 1 t)) :=
    win14_2.fill_congr_cut _ (hloc _ _ _ _ ((win14_1.cut_fill _ _ _).trans h1.symm))
  isplitl [H1]
  · iexists d1; rw [h1]; iexact H1
  · iexists _; rw [h2]; iexact H2

/-- The library's body obligation, at every point, given column locality. -/
theorem body_obligation14_of (hloc : ColLocal14 F) (c : Dev nD) :
    BodyObligationLoose (dat14 (F := F) V c) (defs₀ (F := F)) Variants.none () Set.univ := fun t => by
  rw [bigSep_W14, bigSep_W14]
  exact sound_body14 V hloc c t

end Cert.Kernel.Hand

end
-- ==== Proof.KB.Chain.lean ====
/-
  The buffer contents between the items of @main. Between two items each core holds every unscoped buffer at known
  contents: the launch memory, then each host stretch applied, then, after a region, that region's output arrays at what
  its write-backs leave (the fold of its points' blocks) and everything else as before.
-/
import proofs.«161112_j49297634623838_2_alg».proof.Proof.Gen.Kernel.Regions
import proofs.«161112_j49297634623838_2_alg».proof.Proof.KB.Reg0
import proofs.«161112_j49297634623838_2_alg».proof.Proof.KB.Reg1
import proofs.«161112_j49297634623838_2_alg».proof.Proof.KB.Reg2
import proofs.«161112_j49297634623838_2_alg».proof.Proof.KB.Reg3
import proofs.«161112_j49297634623838_2_alg».proof.Proof.KB.Reg4
import proofs.«161112_j49297634623838_2_alg».proof.Proof.KB.Reg5
import proofs.«161112_j49297634623838_2_alg».proof.Proof.KB.Reg6
import proofs.«161112_j49297634623838_2_alg».proof.Proof.KB.Reg7
import proofs.«161112_j49297634623838_2_alg».proof.Proof.KB.Reg8
import proofs.«161112_j49297634623838_2_alg».proof.Proof.KB.Reg9
import proofs.«161112_j49297634623838_2_alg».proof.Proof.KB.Reg10
import proofs.«161112_j49297634623838_2_alg».proof.Proof.KB.Reg11
import proofs.«161112_j49297634623838_2_alg».proof.Proof.KB.Reg12
import proofs.«161112_j49297634623838_2_alg».proof.Proof.KB.Reg13
import proofs.«161112_j49297634623838_2_alg».proof.Proof.KB.Reg14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## The buffer contents between items -/

/-- A buffer's contents chosen by reference: `x` at `r0`, `d` elsewhere. -/
def pick (c : Dev nD) (r0 : Ref sig .tc) (x : Buf (Elt F) ((c : Thread nD τ).loc r0)) (r : Ref sig .tc)
    (d : Buf (Elt F) ((c : Thread nD τ).loc r)) : Buf (Elt F) ((c : Thread nD τ).loc r) :=
  if h : r = r0 then h ▸ x else d

theorem pick_self (c : Dev nD) (r0 : Ref sig .tc) (x : Buf (Elt F) ((c : Thread nD τ).loc r0))
    (d : Buf (Elt F) ((c : Thread nD τ).loc r0)) : pick c r0 x r0 d = x := by
  unfold pick; rw [dif_pos rfl]

theorem pick_ne (c : Dev nD) (r0 : Ref sig .tc) (x : Buf (Elt F) ((c : Thread nD τ).loc r0)) (r : Ref sig .tc)
    (d : Buf (Elt F) ((c : Thread nD τ).loc r)) (h : r ≠ r0) : pick c r0 x r d = d := by
  unfold pick; rw [dif_neg h]

/-- Before region 0: the launch memory after the nine host stretches. -/
def U9 (c : Dev nD) : Valuation τ sig (Elt F) := V9 m c
abbrev Vv9 : (c : Dev nD) → (b : Ref sig .tc) → Buf (Elt F) ((c : Thread nD τ).loc b) := fun c b => U9 m c b

/-- What region 0 leaves in `main_v6`: the fold of its points' written-back blocks. -/
def o10_2 (c : Dev nD) : Buf (Elt F) ((c : Thread nD τ).loc main_v6) := (dat0 (Vv9 m) c).arrAt 2 cfg0.N
/-- After region 0. -/
def U10 (c : Dev nD) : Valuation τ sig (Elt F) := Function.update (U9 m c) main_v6 (o10_2 m c)
abbrev Vv10 : (c : Dev nD) → (b : Ref sig .tc) → Buf (Elt F) ((c : Thread nD τ).loc b) := fun c b => U10 m c b
theorem U10_of (c : Dev nD) (r : Ref sig .tc) (h : r ∉ ([main_v6] : List (Ref sig .tc))) : U10 m c r = U9 m c r := by
  simp only [U10, Function.update_of_ne (StableHlo.devRef_ne_of_ne (List.ne_of_not_mem_cons h) : (Proc.devRef .tc r : DevRef τ sig) ≠ Proc.devRef .tc main_v6)]
theorem U10_2 (c : Dev nD) : U10 m c main_v6 = o10_2 m c := by
  unfold U10; exact Function.update_self _ _ _
/-- At region 0's exit each of its arrays holds what the pipeline leaves, and every other buffer what it held. -/
theorem hF0 (c : Dev nD) (w : Fin cfg0.W) : (dat0 (Vv9 m) c).arrAt w cfg0.N = Vv10 m c (Pipeline.arrRef spec0 w) :=
  match w with
  | ⟨0, _⟩ => ((dat0 (Vv9 m) c).arrAt_in 0 rfl _).trans ((A_eq0 (Vv9 m) c 0).trans (U10_of m c main_arg0 (by decide)).symm)
  | ⟨1, _⟩ => ((dat0 (Vv9 m) c).arrAt_in 1 rfl _).trans ((A_eq0 (Vv9 m) c 1).trans (U10_of m c main_v4 (by decide)).symm)
  | ⟨2, _⟩ => (U10_2 m c).symm
theorem hrest0 (c : Dev nD) : ∀ b, b ∉ Finset.univ.image (Pipeline.arrRef spec0) → Vv10 m c b = Vv9 m c b :=
  fun b hb => U10_of m c b (by
    intro hmem
    simp only [List.mem_cons, List.mem_nil_iff, or_false] at hmem
    rcases hmem with rfl
    · exact hb (Finset.mem_image.mpr ⟨2, Finset.mem_univ _, rfl⟩))

/-- What region 1 leaves in `main_v7`: the fold of its points' written-back blocks. -/
def o11_2 (c : Dev nD) : Buf (Elt F) ((c : Thread nD τ).loc main_v7) := (dat1 (Vv10 m) c).arrAt 2 cfg1.N
/-- After region 1. -/
def U11 (c : Dev nD) : Valuation τ sig (Elt F) := Function.update (U10 m c) main_v7 (o11_2 m c)
abbrev Vv11 : (c : Dev nD) → (b : Ref sig .tc) → Buf (Elt F) ((c : Thread nD τ).loc b) := fun c b => U11 m c b
theorem U11_of (c : Dev nD) (r : Ref sig .tc) (h : r ∉ ([main_v7] : List (Ref sig .tc))) : U11 m c r = U10 m c r := by
  simp only [U11, Function.update_of_ne (StableHlo.devRef_ne_of_ne (List.ne_of_not_mem_cons h) : (Proc.devRef .tc r : DevRef τ sig) ≠ Proc.devRef .tc main_v7)]
theorem U11_2 (c : Dev nD) : U11 m c main_v7 = o11_2 m c := by
  unfold U11; exact Function.update_self _ _ _
/-- At region 1's exit each of its arrays holds what the pipeline leaves, and every other buffer what it held. -/
theorem hF1 (c : Dev nD) (w : Fin cfg1.W) : (dat1 (Vv10 m) c).arrAt w cfg1.N = Vv11 m c (Pipeline.arrRef spec1 w) :=
  match w with
  | ⟨0, _⟩ => ((dat1 (Vv10 m) c).arrAt_in 0 rfl _).trans ((A_eq1 (Vv10 m) c 0).trans (U11_of m c main_arg1 (by decide)).symm)
  | ⟨1, _⟩ => ((dat1 (Vv10 m) c).arrAt_in 1 rfl _).trans ((A_eq1 (Vv10 m) c 1).trans (U11_of m c main_v5 (by decide)).symm)
  | ⟨2, _⟩ => (U11_2 m c).symm
theorem hrest1 (c : Dev nD) : ∀ b, b ∉ Finset.univ.image (Pipeline.arrRef spec1) → Vv11 m c b = Vv10 m c b :=
  fun b hb => U11_of m c b (by
    intro hmem
    simp only [List.mem_cons, List.mem_nil_iff, or_false] at hmem
    rcases hmem with rfl
    · exact hb (Finset.mem_image.mpr ⟨2, Finset.mem_univ _, rfl⟩))

/-- What region 2 leaves in `main_v8_0`: the fold of its points' written-back blocks. -/
def o12_3 (c : Dev nD) : Buf (Elt F) ((c : Thread nD τ).loc main_v8_0) := (dat2 (Vv11 m) c).arrAt 3 cfg2.N

/-- What region 2 leaves in `main_v8_1`: the fold of its points' written-back blocks. -/
def o12_4 (c : Dev nD) : Buf (Elt F) ((c : Thread nD τ).loc main_v8_1) := (dat2 (Vv11 m) c).arrAt 4 cfg2.N
/-- After region 2. -/
def U12 (c : Dev nD) : Valuation τ sig (Elt F) := Function.update (Function.update (U11 m c) main_v8_0 (o12_3 m c)) main_v8_1 (o12_4 m c)
abbrev Vv12 : (c : Dev nD) → (b : Ref sig .tc) → Buf (Elt F) ((c : Thread nD τ).loc b) := fun c b => U12 m c b
theorem U12_of (c : Dev nD) (r : Ref sig .tc) (h : r ∉ ([main_v8_0, main_v8_1] : List (Ref sig .tc))) : U12 m c r = U11 m c r := by
  simp only [U12, Function.update_of_ne (StableHlo.devRef_ne_of_ne (List.ne_of_not_mem_cons h) : (Proc.devRef .tc r : DevRef τ sig) ≠ Proc.devRef .tc main_v8_0), Function.update_of_ne (StableHlo.devRef_ne_of_ne (List.ne_of_not_mem_cons (List.not_mem_of_not_mem_cons h)) : (Proc.devRef .tc r : DevRef τ sig) ≠ Proc.devRef .tc main_v8_1)]
theorem U12_3 (c : Dev nD) : U12 m c main_v8_0 = o12_3 m c := by
  unfold U12
  rw [Function.update_of_ne (StableHlo.devRef_ne_of_ne (by decide : main_v8_0 ≠ main_v8_1) : (Proc.devRef .tc main_v8_0 : DevRef τ sig) ≠ Proc.devRef .tc main_v8_1)]
  exact Function.update_self _ _ _
theorem U12_4 (c : Dev nD) : U12 m c main_v8_1 = o12_4 m c := by
  unfold U12; exact Function.update_self _ _ _
/-- At region 2's exit each of its arrays holds what the pipeline leaves, and every other buffer what it held. -/
theorem hF2 (c : Dev nD) (w : Fin cfg2.W) : (dat2 (Vv11 m) c).arrAt w cfg2.N = Vv12 m c (Pipeline.arrRef spec2 w) :=
  match w with
  | ⟨0, _⟩ => ((dat2 (Vv11 m) c).arrAt_in 0 rfl _).trans ((A_eq2 (Vv11 m) c 0).trans (U12_of m c main_arg2 (by decide)).symm)
  | ⟨1, _⟩ => ((dat2 (Vv11 m) c).arrAt_in 1 rfl _).trans ((A_eq2 (Vv11 m) c 1).trans (U12_of m c main_v6 (by decide)).symm)
  | ⟨2, _⟩ => ((dat2 (Vv11 m) c).arrAt_in 2 rfl _).trans ((A_eq2 (Vv11 m) c 2).trans (U12_of m c main_arg7 (by decide)).symm)
  | ⟨3, _⟩ => (U12_3 m c).symm
  | ⟨4, _⟩ => (U12_4 m c).symm
theorem hrest2 (c : Dev nD) : ∀ b, b ∉ Finset.univ.image (Pipeline.arrRef spec2) → Vv12 m c b = Vv11 m c b :=
  fun b hb => U12_of m c b (by
    intro hmem
    simp only [List.mem_cons, List.mem_nil_iff, or_false] at hmem
    rcases hmem with rfl | rfl
    · exact hb (Finset.mem_image.mpr ⟨3, Finset.mem_univ _, rfl⟩)
    · exact hb (Finset.mem_image.mpr ⟨4, Finset.mem_univ _, rfl⟩))

/-- What region 3 leaves in `main_v9`: the fold of its points' written-back blocks. -/
def o13_3 (c : Dev nD) : Buf (Elt F) ((c : Thread nD τ).loc main_v9) := (dat3 (Vv12 m) c).arrAt 3 cfg3.N
/-- After region 3. -/
def U13 (c : Dev nD) : Valuation τ sig (Elt F) := Function.update (U12 m c) main_v9 (o13_3 m c)
abbrev Vv13 : (c : Dev nD) → (b : Ref sig .tc) → Buf (Elt F) ((c : Thread nD τ).loc b) := fun c b => U13 m c b
theorem U13_of (c : Dev nD) (r : Ref sig .tc) (h : r ∉ ([main_v9] : List (Ref sig .tc))) : U13 m c r = U12 m c r := by
  simp only [U13, Function.update_of_ne (StableHlo.devRef_ne_of_ne (List.ne_of_not_mem_cons h) : (Proc.devRef .tc r : DevRef τ sig) ≠ Proc.devRef .tc main_v9)]
theorem U13_3 (c : Dev nD) : U13 m c main_v9 = o13_3 m c := by
  unfold U13; exact Function.update_self _ _ _
/-- At region 3's exit each of its arrays holds what the pipeline leaves, and every other buffer what it held. -/
theorem hF3 (c : Dev nD) (w : Fin cfg3.W) : (dat3 (Vv12 m) c).arrAt w cfg3.N = Vv13 m c (Pipeline.arrRef spec3 w) :=
  match w with
  | ⟨0, _⟩ => ((dat3 (Vv12 m) c).arrAt_in 0 rfl _).trans ((A_eq3 (Vv12 m) c 0).trans (U13_of m c main_v8_1 (by decide)).symm)
  | ⟨1, _⟩ => ((dat3 (Vv12 m) c).arrAt_in 1 rfl _).trans ((A_eq3 (Vv12 m) c 1).trans (U13_of m c main_v8_0 (by decide)).symm)
  | ⟨2, _⟩ => ((dat3 (Vv12 m) c).arrAt_in 2 rfl _).trans ((A_eq3 (Vv12 m) c 2).trans (U13_of m c main_v0 (by decide)).symm)
  | ⟨3, _⟩ => (U13_3 m c).symm
theorem hrest3 (c : Dev nD) : ∀ b, b ∉ Finset.univ.image (Pipeline.arrRef spec3) → Vv13 m c b = Vv12 m c b :=
  fun b hb => U13_of m c b (by
    intro hmem
    simp only [List.mem_cons, List.mem_nil_iff, or_false] at hmem
    rcases hmem with rfl
    · exact hb (Finset.mem_image.mpr ⟨3, Finset.mem_univ _, rfl⟩))

/-- What region 4 leaves in `main_v10`: the fold of its points' written-back blocks. -/
def o14_2 (c : Dev nD) : Buf (Elt F) ((c : Thread nD τ).loc main_v10) := (dat4 (Vv13 m) c).arrAt 2 cfg4.N
/-- After region 4. -/
def U14 (c : Dev nD) : Valuation τ sig (Elt F) := Function.update (U13 m c) main_v10 (o14_2 m c)
abbrev Vv14 : (c : Dev nD) → (b : Ref sig .tc) → Buf (Elt F) ((c : Thread nD τ).loc b) := fun c b => U14 m c b
theorem U14_of (c : Dev nD) (r : Ref sig .tc) (h : r ∉ ([main_v10] : List (Ref sig .tc))) : U14 m c r = U13 m c r := by
  simp only [U14, Function.update_of_ne (StableHlo.devRef_ne_of_ne (List.ne_of_not_mem_cons h) : (Proc.devRef .tc r : DevRef τ sig) ≠ Proc.devRef .tc main_v10)]
theorem U14_2 (c : Dev nD) : U14 m c main_v10 = o14_2 m c := by
  unfold U14; exact Function.update_self _ _ _
/-- At region 4's exit each of its arrays holds what the pipeline leaves, and every other buffer what it held. -/
theorem hF4 (c : Dev nD) (w : Fin cfg4.W) : (dat4 (Vv13 m) c).arrAt w cfg4.N = Vv14 m c (Pipeline.arrRef spec4 w) :=
  match w with
  | ⟨0, _⟩ => ((dat4 (Vv13 m) c).arrAt_in 0 rfl _).trans ((A_eq4 (Vv13 m) c 0).trans (U14_of m c main_v8_1 (by decide)).symm)
  | ⟨1, _⟩ => ((dat4 (Vv13 m) c).arrAt_in 1 rfl _).trans ((A_eq4 (Vv13 m) c 1).trans (U14_of m c main_v9 (by decide)).symm)
  | ⟨2, _⟩ => (U14_2 m c).symm
theorem hrest4 (c : Dev nD) : ∀ b, b ∉ Finset.univ.image (Pipeline.arrRef spec4) → Vv14 m c b = Vv13 m c b :=
  fun b hb => U14_of m c b (by
    intro hmem
    simp only [List.mem_cons, List.mem_nil_iff, or_false] at hmem
    rcases hmem with rfl
    · exact hb (Finset.mem_image.mpr ⟨2, Finset.mem_univ _, rfl⟩))

/-- What region 5 leaves in `main_v11_0`: the fold of its points' written-back blocks. -/
def o15_3 (c : Dev nD) : Buf (Elt F) ((c : Thread nD τ).loc main_v11_0) := (dat5 (Vv14 m) c).arrAt 3 cfg5.N

/-- What region 5 leaves in `main_v11_1`: the fold of its points' written-back blocks. -/
def o15_4 (c : Dev nD) : Buf (Elt F) ((c : Thread nD τ).loc main_v11_1) := (dat5 (Vv14 m) c).arrAt 4 cfg5.N
/-- After region 5. -/
def U15 (c : Dev nD) : Valuation τ sig (Elt F) := Function.update (Function.update (U14 m c) main_v11_0 (o15_3 m c)) main_v11_1 (o15_4 m c)
abbrev Vv15 : (c : Dev nD) → (b : Ref sig .tc) → Buf (Elt F) ((c : Thread nD τ).loc b) := fun c b => U15 m c b
theorem U15_of (c : Dev nD) (r : Ref sig .tc) (h : r ∉ ([main_v11_0, main_v11_1] : List (Ref sig .tc))) : U15 m c r = U14 m c r := by
  simp only [U15, Function.update_of_ne (StableHlo.devRef_ne_of_ne (List.ne_of_not_mem_cons h) : (Proc.devRef .tc r : DevRef τ sig) ≠ Proc.devRef .tc main_v11_0), Function.update_of_ne (StableHlo.devRef_ne_of_ne (List.ne_of_not_mem_cons (List.not_mem_of_not_mem_cons h)) : (Proc.devRef .tc r : DevRef τ sig) ≠ Proc.devRef .tc main_v11_1)]
theorem U15_3 (c : Dev nD) : U15 m c main_v11_0 = o15_3 m c := by
  unfold U15
  rw [Function.update_of_ne (StableHlo.devRef_ne_of_ne (by decide : main_v11_0 ≠ main_v11_1) : (Proc.devRef .tc main_v11_0 : DevRef τ sig) ≠ Proc.devRef .tc main_v11_1)]
  exact Function.update_self _ _ _
theorem U15_4 (c : Dev nD) : U15 m c main_v11_1 = o15_4 m c := by
  unfold U15; exact Function.update_self _ _ _
/-- At region 5's exit each of its arrays holds what the pipeline leaves, and every other buffer what it held. -/
theorem hF5 (c : Dev nD) (w : Fin cfg5.W) : (dat5 (Vv14 m) c).arrAt w cfg5.N = Vv15 m c (Pipeline.arrRef spec5 w) :=
  match w with
  | ⟨0, _⟩ => ((dat5 (Vv14 m) c).arrAt_in 0 rfl _).trans ((A_eq5 (Vv14 m) c 0).trans (U15_of m c main_arg3 (by decide)).symm)
  | ⟨1, _⟩ => ((dat5 (Vv14 m) c).arrAt_in 1 rfl _).trans ((A_eq5 (Vv14 m) c 1).trans (U15_of m c main_v7 (by decide)).symm)
  | ⟨2, _⟩ => ((dat5 (Vv14 m) c).arrAt_in 2 rfl _).trans ((A_eq5 (Vv14 m) c 2).trans (U15_of m c main_arg10 (by decide)).symm)
  | ⟨3, _⟩ => (U15_3 m c).symm
  | ⟨4, _⟩ => (U15_4 m c).symm
theorem hrest5 (c : Dev nD) : ∀ b, b ∉ Finset.univ.image (Pipeline.arrRef spec5) → Vv15 m c b = Vv14 m c b :=
  fun b hb => U15_of m c b (by
    intro hmem
    simp only [List.mem_cons, List.mem_nil_iff, or_false] at hmem
    rcases hmem with rfl | rfl
    · exact hb (Finset.mem_image.mpr ⟨3, Finset.mem_univ _, rfl⟩)
    · exact hb (Finset.mem_image.mpr ⟨4, Finset.mem_univ _, rfl⟩))

/-- What region 6 leaves in `main_v12`: the fold of its points' written-back blocks. -/
def o16_3 (c : Dev nD) : Buf (Elt F) ((c : Thread nD τ).loc main_v12) := (dat6 (Vv15 m) c).arrAt 3 cfg6.N
/-- After region 6. -/
def U16 (c : Dev nD) : Valuation τ sig (Elt F) := Function.update (U15 m c) main_v12 (o16_3 m c)
abbrev Vv16 : (c : Dev nD) → (b : Ref sig .tc) → Buf (Elt F) ((c : Thread nD τ).loc b) := fun c b => U16 m c b
theorem U16_of (c : Dev nD) (r : Ref sig .tc) (h : r ∉ ([main_v12] : List (Ref sig .tc))) : U16 m c r = U15 m c r := by
  simp only [U16, Function.update_of_ne (StableHlo.devRef_ne_of_ne (List.ne_of_not_mem_cons h) : (Proc.devRef .tc r : DevRef τ sig) ≠ Proc.devRef .tc main_v12)]
theorem U16_3 (c : Dev nD) : U16 m c main_v12 = o16_3 m c := by
  unfold U16; exact Function.update_self _ _ _
/-- At region 6's exit each of its arrays holds what the pipeline leaves, and every other buffer what it held. -/
theorem hF6 (c : Dev nD) (w : Fin cfg6.W) : (dat6 (Vv15 m) c).arrAt w cfg6.N = Vv16 m c (Pipeline.arrRef spec6 w) :=
  match w with
  | ⟨0, _⟩ => ((dat6 (Vv15 m) c).arrAt_in 0 rfl _).trans ((A_eq6 (Vv15 m) c 0).trans (U16_of m c main_v11_1 (by decide)).symm)
  | ⟨1, _⟩ => ((dat6 (Vv15 m) c).arrAt_in 1 rfl _).trans ((A_eq6 (Vv15 m) c 1).trans (U16_of m c main_v11_0 (by decide)).symm)
  | ⟨2, _⟩ => ((dat6 (Vv15 m) c).arrAt_in 2 rfl _).trans ((A_eq6 (Vv15 m) c 2).trans (U16_of m c main_v1 (by decide)).symm)
  | ⟨3, _⟩ => (U16_3 m c).symm
theorem hrest6 (c : Dev nD) : ∀ b, b ∉ Finset.univ.image (Pipeline.arrRef spec6) → Vv16 m c b = Vv15 m c b :=
  fun b hb => U16_of m c b (by
    intro hmem
    simp only [List.mem_cons, List.mem_nil_iff, or_false] at hmem
    rcases hmem with rfl
    · exact hb (Finset.mem_image.mpr ⟨3, Finset.mem_univ _, rfl⟩))

/-- What region 7 leaves in `main_v13`: the fold of its points' written-back blocks. -/
def o17_2 (c : Dev nD) : Buf (Elt F) ((c : Thread nD τ).loc main_v13) := (dat7 (Vv16 m) c).arrAt 2 cfg7.N
/-- After region 7. -/
def U17 (c : Dev nD) : Valuation τ sig (Elt F) := Function.update (U16 m c) main_v13 (o17_2 m c)
abbrev Vv17 : (c : Dev nD) → (b : Ref sig .tc) → Buf (Elt F) ((c : Thread nD τ).loc b) := fun c b => U17 m c b
theorem U17_of (c : Dev nD) (r : Ref sig .tc) (h : r ∉ ([main_v13] : List (Ref sig .tc))) : U17 m c r = U16 m c r := by
  simp only [U17, Function.update_of_ne (StableHlo.devRef_ne_of_ne (List.ne_of_not_mem_cons h) : (Proc.devRef .tc r : DevRef τ sig) ≠ Proc.devRef .tc main_v13)]
theorem U17_2 (c : Dev nD) : U17 m c main_v13 = o17_2 m c := by
  unfold U17; exact Function.update_self _ _ _
/-- At region 7's exit each of its arrays holds what the pipeline leaves, and every other buffer what it held. -/
theorem hF7 (c : Dev nD) (w : Fin cfg7.W) : (dat7 (Vv16 m) c).arrAt w cfg7.N = Vv17 m c (Pipeline.arrRef spec7 w) :=
  match w with
  | ⟨0, _⟩ => ((dat7 (Vv16 m) c).arrAt_in 0 rfl _).trans ((A_eq7 (Vv16 m) c 0).trans (U17_of m c main_v11_1 (by decide)).symm)
  | ⟨1, _⟩ => ((dat7 (Vv16 m) c).arrAt_in 1 rfl _).trans ((A_eq7 (Vv16 m) c 1).trans (U17_of m c main_v12 (by decide)).symm)
  | ⟨2, _⟩ => (U17_2 m c).symm
theorem hrest7 (c : Dev nD) : ∀ b, b ∉ Finset.univ.image (Pipeline.arrRef spec7) → Vv17 m c b = Vv16 m c b :=
  fun b hb => U17_of m c b (by
    intro hmem
    simp only [List.mem_cons, List.mem_nil_iff, or_false] at hmem
    rcases hmem with rfl
    · exact hb (Finset.mem_image.mpr ⟨2, Finset.mem_univ _, rfl⟩))

/-- What region 8 leaves in `main_v14_0`: the fold of its points' written-back blocks. -/
def o18_3 (c : Dev nD) : Buf (Elt F) ((c : Thread nD τ).loc main_v14_0) := (dat8 (Vv17 m) c).arrAt 3 cfg8.N

/-- What region 8 leaves in `main_v14_1`: the fold of its points' written-back blocks. -/
def o18_4 (c : Dev nD) : Buf (Elt F) ((c : Thread nD τ).loc main_v14_1) := (dat8 (Vv17 m) c).arrAt 4 cfg8.N
/-- After region 8. -/
def U18 (c : Dev nD) : Valuation τ sig (Elt F) := Function.update (Function.update (U17 m c) main_v14_0 (o18_3 m c)) main_v14_1 (o18_4 m c)
abbrev Vv18 : (c : Dev nD) → (b : Ref sig .tc) → Buf (Elt F) ((c : Thread nD τ).loc b) := fun c b => U18 m c b
theorem U18_of (c : Dev nD) (r : Ref sig .tc) (h : r ∉ ([main_v14_0, main_v14_1] : List (Ref sig .tc))) : U18 m c r = U17 m c r := by
  simp only [U18, Function.update_of_ne (StableHlo.devRef_ne_of_ne (List.ne_of_not_mem_cons h) : (Proc.devRef .tc r : DevRef τ sig) ≠ Proc.devRef .tc main_v14_0), Function.update_of_ne (StableHlo.devRef_ne_of_ne (List.ne_of_not_mem_cons (List.not_mem_of_not_mem_cons h)) : (Proc.devRef .tc r : DevRef τ sig) ≠ Proc.devRef .tc main_v14_1)]
theorem U18_3 (c : Dev nD) : U18 m c main_v14_0 = o18_3 m c := by
  unfold U18
  rw [Function.update_of_ne (StableHlo.devRef_ne_of_ne (by decide : main_v14_0 ≠ main_v14_1) : (Proc.devRef .tc main_v14_0 : DevRef τ sig) ≠ Proc.devRef .tc main_v14_1)]
  exact Function.update_self _ _ _
theorem U18_4 (c : Dev nD) : U18 m c main_v14_1 = o18_4 m c := by
  unfold U18; exact Function.update_self _ _ _
/-- At region 8's exit each of its arrays holds what the pipeline leaves, and every other buffer what it held. -/
theorem hF8 (c : Dev nD) (w : Fin cfg8.W) : (dat8 (Vv17 m) c).arrAt w cfg8.N = Vv18 m c (Pipeline.arrRef spec8 w) :=
  match w with
  | ⟨0, _⟩ => ((dat8 (Vv17 m) c).arrAt_in 0 rfl _).trans ((A_eq8 (Vv17 m) c 0).trans (U18_of m c main_arg4 (by decide)).symm)
  | ⟨1, _⟩ => ((dat8 (Vv17 m) c).arrAt_in 1 rfl _).trans ((A_eq8 (Vv17 m) c 1).trans (U18_of m c main_v6 (by decide)).symm)
  | ⟨2, _⟩ => ((dat8 (Vv17 m) c).arrAt_in 2 rfl _).trans ((A_eq8 (Vv17 m) c 2).trans (U18_of m c main_arg13 (by decide)).symm)
  | ⟨3, _⟩ => (U18_3 m c).symm
  | ⟨4, _⟩ => (U18_4 m c).symm
theorem hrest8 (c : Dev nD) : ∀ b, b ∉ Finset.univ.image (Pipeline.arrRef spec8) → Vv18 m c b = Vv17 m c b :=
  fun b hb => U18_of m c b (by
    intro hmem
    simp only [List.mem_cons, List.mem_nil_iff, or_false] at hmem
    rcases hmem with rfl | rfl
    · exact hb (Finset.mem_image.mpr ⟨3, Finset.mem_univ _, rfl⟩)
    · exact hb (Finset.mem_image.mpr ⟨4, Finset.mem_univ _, rfl⟩))

/-- What region 9 leaves in `main_v15`: the fold of its points' written-back blocks. -/
def o19_3 (c : Dev nD) : Buf (Elt F) ((c : Thread nD τ).loc main_v15) := (dat9 (Vv18 m) c).arrAt 3 cfg9.N
/-- After region 9. -/
def U19 (c : Dev nD) : Valuation τ sig (Elt F) := Function.update (U18 m c) main_v15 (o19_3 m c)
abbrev Vv19 : (c : Dev nD) → (b : Ref sig .tc) → Buf (Elt F) ((c : Thread nD τ).loc b) := fun c b => U19 m c b
theorem U19_of (c : Dev nD) (r : Ref sig .tc) (h : r ∉ ([main_v15] : List (Ref sig .tc))) : U19 m c r = U18 m c r := by
  simp only [U19, Function.update_of_ne (StableHlo.devRef_ne_of_ne (List.ne_of_not_mem_cons h) : (Proc.devRef .tc r : DevRef τ sig) ≠ Proc.devRef .tc main_v15)]
theorem U19_3 (c : Dev nD) : U19 m c main_v15 = o19_3 m c := by
  unfold U19; exact Function.update_self _ _ _
/-- At region 9's exit each of its arrays holds what the pipeline leaves, and every other buffer what it held. -/
theorem hF9 (c : Dev nD) (w : Fin cfg9.W) : (dat9 (Vv18 m) c).arrAt w cfg9.N = Vv19 m c (Pipeline.arrRef spec9 w) :=
  match w with
  | ⟨0, _⟩ => ((dat9 (Vv18 m) c).arrAt_in 0 rfl _).trans ((A_eq9 (Vv18 m) c 0).trans (U19_of m c main_v14_1 (by decide)).symm)
  | ⟨1, _⟩ => ((dat9 (Vv18 m) c).arrAt_in 1 rfl _).trans ((A_eq9 (Vv18 m) c 1).trans (U19_of m c main_v14_0 (by decide)).symm)
  | ⟨2, _⟩ => ((dat9 (Vv18 m) c).arrAt_in 2 rfl _).trans ((A_eq9 (Vv18 m) c 2).trans (U19_of m c main_v2 (by decide)).symm)
  | ⟨3, _⟩ => (U19_3 m c).symm
theorem hrest9 (c : Dev nD) : ∀ b, b ∉ Finset.univ.image (Pipeline.arrRef spec9) → Vv19 m c b = Vv18 m c b :=
  fun b hb => U19_of m c b (by
    intro hmem
    simp only [List.mem_cons, List.mem_nil_iff, or_false] at hmem
    rcases hmem with rfl
    · exact hb (Finset.mem_image.mpr ⟨3, Finset.mem_univ _, rfl⟩))

/-- What region 10 leaves in `main_v16`: the fold of its points' written-back blocks. -/
def o20_2 (c : Dev nD) : Buf (Elt F) ((c : Thread nD τ).loc main_v16) := (dat10 (Vv19 m) c).arrAt 2 cfg10.N
/-- After region 10. -/
def U20 (c : Dev nD) : Valuation τ sig (Elt F) := Function.update (U19 m c) main_v16 (o20_2 m c)
abbrev Vv20 : (c : Dev nD) → (b : Ref sig .tc) → Buf (Elt F) ((c : Thread nD τ).loc b) := fun c b => U20 m c b
theorem U20_of (c : Dev nD) (r : Ref sig .tc) (h : r ∉ ([main_v16] : List (Ref sig .tc))) : U20 m c r = U19 m c r := by
  simp only [U20, Function.update_of_ne (StableHlo.devRef_ne_of_ne (List.ne_of_not_mem_cons h) : (Proc.devRef .tc r : DevRef τ sig) ≠ Proc.devRef .tc main_v16)]
theorem U20_2 (c : Dev nD) : U20 m c main_v16 = o20_2 m c := by
  unfold U20; exact Function.update_self _ _ _
/-- At region 10's exit each of its arrays holds what the pipeline leaves, and every other buffer what it held. -/
theorem hF10 (c : Dev nD) (w : Fin cfg10.W) : (dat10 (Vv19 m) c).arrAt w cfg10.N = Vv20 m c (Pipeline.arrRef spec10 w) :=
  match w with
  | ⟨0, _⟩ => ((dat10 (Vv19 m) c).arrAt_in 0 rfl _).trans ((A_eq10 (Vv19 m) c 0).trans (U20_of m c main_v14_1 (by decide)).symm)
  | ⟨1, _⟩ => ((dat10 (Vv19 m) c).arrAt_in 1 rfl _).trans ((A_eq10 (Vv19 m) c 1).trans (U20_of m c main_v15 (by decide)).symm)
  | ⟨2, _⟩ => (U20_2 m c).symm
theorem hrest10 (c : Dev nD) : ∀ b, b ∉ Finset.univ.image (Pipeline.arrRef spec10) → Vv20 m c b = Vv19 m c b :=
  fun b hb => U20_of m c b (by
    intro hmem
    simp only [List.mem_cons, List.mem_nil_iff, or_false] at hmem
    rcases hmem with rfl
    · exact hb (Finset.mem_image.mpr ⟨2, Finset.mem_univ _, rfl⟩))

/-- What region 11 leaves in `main_v17_0`: the fold of its points' written-back blocks. -/
def o21_3 (c : Dev nD) : Buf (Elt F) ((c : Thread nD τ).loc main_v17_0) := (dat11 (Vv20 m) c).arrAt 3 cfg11.N

/-- What region 11 leaves in `main_v17_1`: the fold of its points' written-back blocks. -/
def o21_4 (c : Dev nD) : Buf (Elt F) ((c : Thread nD τ).loc main_v17_1) := (dat11 (Vv20 m) c).arrAt 4 cfg11.N
/-- After region 11. -/
def U21 (c : Dev nD) : Valuation τ sig (Elt F) := Function.update (Function.update (U20 m c) main_v17_0 (o21_3 m c)) main_v17_1 (o21_4 m c)
abbrev Vv21 : (c : Dev nD) → (b : Ref sig .tc) → Buf (Elt F) ((c : Thread nD τ).loc b) := fun c b => U21 m c b
theorem U21_of (c : Dev nD) (r : Ref sig .tc) (h : r ∉ ([main_v17_0, main_v17_1] : List (Ref sig .tc))) : U21 m c r = U20 m c r := by
  simp only [U21, Function.update_of_ne (StableHlo.devRef_ne_of_ne (List.ne_of_not_mem_cons h) : (Proc.devRef .tc r : DevRef τ sig) ≠ Proc.devRef .tc main_v17_0), Function.update_of_ne (StableHlo.devRef_ne_of_ne (List.ne_of_not_mem_cons (List.not_mem_of_not_mem_cons h)) : (Proc.devRef .tc r : DevRef τ sig) ≠ Proc.devRef .tc main_v17_1)]
theorem U21_3 (c : Dev nD) : U21 m c main_v17_0 = o21_3 m c := by
  unfold U21
  rw [Function.update_of_ne (StableHlo.devRef_ne_of_ne (by decide : main_v17_0 ≠ main_v17_1) : (Proc.devRef .tc main_v17_0 : DevRef τ sig) ≠ Proc.devRef .tc main_v17_1)]
  exact Function.update_self _ _ _
theorem U21_4 (c : Dev nD) : U21 m c main_v17_1 = o21_4 m c := by
  unfold U21; exact Function.update_self _ _ _
/-- At region 11's exit each of its arrays holds what the pipeline leaves, and every other buffer what it held. -/
theorem hF11 (c : Dev nD) (w : Fin cfg11.W) : (dat11 (Vv20 m) c).arrAt w cfg11.N = Vv21 m c (Pipeline.arrRef spec11 w) :=
  match w with
  | ⟨0, _⟩ => ((dat11 (Vv20 m) c).arrAt_in 0 rfl _).trans ((A_eq11 (Vv20 m) c 0).trans (U21_of m c main_arg5 (by decide)).symm)
  | ⟨1, _⟩ => ((dat11 (Vv20 m) c).arrAt_in 1 rfl _).trans ((A_eq11 (Vv20 m) c 1).trans (U21_of m c main_v7 (by decide)).symm)
  | ⟨2, _⟩ => ((dat11 (Vv20 m) c).arrAt_in 2 rfl _).trans ((A_eq11 (Vv20 m) c 2).trans (U21_of m c main_arg16 (by decide)).symm)
  | ⟨3, _⟩ => (U21_3 m c).symm
  | ⟨4, _⟩ => (U21_4 m c).symm
theorem hrest11 (c : Dev nD) : ∀ b, b ∉ Finset.univ.image (Pipeline.arrRef spec11) → Vv21 m c b = Vv20 m c b :=
  fun b hb => U21_of m c b (by
    intro hmem
    simp only [List.mem_cons, List.mem_nil_iff, or_false] at hmem
    rcases hmem with rfl | rfl
    · exact hb (Finset.mem_image.mpr ⟨3, Finset.mem_univ _, rfl⟩)
    · exact hb (Finset.mem_image.mpr ⟨4, Finset.mem_univ _, rfl⟩))

/-- What region 12 leaves in `main_v18`: the fold of its points' written-back blocks. -/
def o22_3 (c : Dev nD) : Buf (Elt F) ((c : Thread nD τ).loc main_v18) := (dat12 (Vv21 m) c).arrAt 3 cfg12.N
/-- After region 12. -/
def U22 (c : Dev nD) : Valuation τ sig (Elt F) := Function.update (U21 m c) main_v18 (o22_3 m c)
abbrev Vv22 : (c : Dev nD) → (b : Ref sig .tc) → Buf (Elt F) ((c : Thread nD τ).loc b) := fun c b => U22 m c b
theorem U22_of (c : Dev nD) (r : Ref sig .tc) (h : r ∉ ([main_v18] : List (Ref sig .tc))) : U22 m c r = U21 m c r := by
  simp only [U22, Function.update_of_ne (StableHlo.devRef_ne_of_ne (List.ne_of_not_mem_cons h) : (Proc.devRef .tc r : DevRef τ sig) ≠ Proc.devRef .tc main_v18)]
theorem U22_3 (c : Dev nD) : U22 m c main_v18 = o22_3 m c := by
  unfold U22; exact Function.update_self _ _ _
/-- At region 12's exit each of its arrays holds what the pipeline leaves, and every other buffer what it held. -/
theorem hF12 (c : Dev nD) (w : Fin cfg12.W) : (dat12 (Vv21 m) c).arrAt w cfg12.N = Vv22 m c (Pipeline.arrRef spec12 w) :=
  match w with
  | ⟨0, _⟩ => ((dat12 (Vv21 m) c).arrAt_in 0 rfl _).trans ((A_eq12 (Vv21 m) c 0).trans (U22_of m c main_v17_1 (by decide)).symm)
  | ⟨1, _⟩ => ((dat12 (Vv21 m) c).arrAt_in 1 rfl _).trans ((A_eq12 (Vv21 m) c 1).trans (U22_of m c main_v17_0 (by decide)).symm)
  | ⟨2, _⟩ => ((dat12 (Vv21 m) c).arrAt_in 2 rfl _).trans ((A_eq12 (Vv21 m) c 2).trans (U22_of m c main_v3 (by decide)).symm)
  | ⟨3, _⟩ => (U22_3 m c).symm
theorem hrest12 (c : Dev nD) : ∀ b, b ∉ Finset.univ.image (Pipeline.arrRef spec12) → Vv22 m c b = Vv21 m c b :=
  fun b hb => U22_of m c b (by
    intro hmem
    simp only [List.mem_cons, List.mem_nil_iff, or_false] at hmem
    rcases hmem with rfl
    · exact hb (Finset.mem_image.mpr ⟨3, Finset.mem_univ _, rfl⟩))

/-- What region 13 leaves in `main_v19`: the fold of its points' written-back blocks. -/
def o23_2 (c : Dev nD) : Buf (Elt F) ((c : Thread nD τ).loc main_v19) := (dat13 (Vv22 m) c).arrAt 2 cfg13.N
/-- After region 13. -/
def U23 (c : Dev nD) : Valuation τ sig (Elt F) := Function.update (U22 m c) main_v19 (o23_2 m c)
abbrev Vv23 : (c : Dev nD) → (b : Ref sig .tc) → Buf (Elt F) ((c : Thread nD τ).loc b) := fun c b => U23 m c b
theorem U23_of (c : Dev nD) (r : Ref sig .tc) (h : r ∉ ([main_v19] : List (Ref sig .tc))) : U23 m c r = U22 m c r := by
  simp only [U23, Function.update_of_ne (StableHlo.devRef_ne_of_ne (List.ne_of_not_mem_cons h) : (Proc.devRef .tc r : DevRef τ sig) ≠ Proc.devRef .tc main_v19)]
theorem U23_2 (c : Dev nD) : U23 m c main_v19 = o23_2 m c := by
  unfold U23; exact Function.update_self _ _ _
/-- At region 13's exit each of its arrays holds what the pipeline leaves, and every other buffer what it held. -/
theorem hF13 (c : Dev nD) (w : Fin cfg13.W) : (dat13 (Vv22 m) c).arrAt w cfg13.N = Vv23 m c (Pipeline.arrRef spec13 w) :=
  match w with
  | ⟨0, _⟩ => ((dat13 (Vv22 m) c).arrAt_in 0 rfl _).trans ((A_eq13 (Vv22 m) c 0).trans (U23_of m c main_v17_1 (by decide)).symm)
  | ⟨1, _⟩ => ((dat13 (Vv22 m) c).arrAt_in 1 rfl _).trans ((A_eq13 (Vv22 m) c 1).trans (U23_of m c main_v18 (by decide)).symm)
  | ⟨2, _⟩ => (U23_2 m c).symm
theorem hrest13 (c : Dev nD) : ∀ b, b ∉ Finset.univ.image (Pipeline.arrRef spec13) → Vv23 m c b = Vv22 m c b :=
  fun b hb => U23_of m c b (by
    intro hmem
    simp only [List.mem_cons, List.mem_nil_iff, or_false] at hmem
    rcases hmem with rfl
    · exact hb (Finset.mem_image.mpr ⟨2, Finset.mem_univ _, rfl⟩))

/-- Before region 14: the last host stretch applied. -/
def U24 (c : Dev nD) : Valuation τ sig (Elt F) := StableHlo.after hostOps14 (U23 m c)
abbrev Vv24 : (c : Dev nD) → (b : Ref sig .tc) → Buf (Elt F) ((c : Thread nD τ).loc b) := fun c b => U24 m c b
theorem U24_of (c : Dev nD) (r : Ref sig .tc) (h : r ∉ hostOps14_W) : U24 m c r = U23 m c r :=
  StableHlo.after_of_writes_sub hostOps14 _ hostOps14_writes h

/-- What region 14 leaves in `main_v26`: the fold of its points' written-back blocks. -/
def o25_2 (c : Dev nD) : Buf (Elt F) ((c : Thread nD τ).loc main_v26) := (dat14 (Vv24 m) c).arrAt 2 cfg14.N
/-- After region 14. -/
def U25 (c : Dev nD) : Valuation τ sig (Elt F) := Function.update (U24 m c) main_v26 (o25_2 m c)
abbrev Vv25 : (c : Dev nD) → (b : Ref sig .tc) → Buf (Elt F) ((c : Thread nD τ).loc b) := fun c b => U25 m c b
theorem U25_of (c : Dev nD) (r : Ref sig .tc) (h : r ∉ ([main_v26] : List (Ref sig .tc))) : U25 m c r = U24 m c r := by
  simp only [U25, Function.update_of_ne (StableHlo.devRef_ne_of_ne (List.ne_of_not_mem_cons h) : (Proc.devRef .tc r : DevRef τ sig) ≠ Proc.devRef .tc main_v26)]
theorem U25_2 (c : Dev nD) : U25 m c main_v26 = o25_2 m c := by
  unfold U25; exact Function.update_self _ _ _
/-- At region 14's exit each of its arrays holds what the pipeline leaves, and every other buffer what it held. -/
theorem hF14 (c : Dev nD) (w : Fin cfg14.W) : (dat14 (Vv24 m) c).arrAt w cfg14.N = Vv25 m c (Pipeline.arrRef spec14 w) :=
  match w with
  | ⟨0, _⟩ => ((dat14 (Vv24 m) c).arrAt_in 0 rfl _).trans ((A_eq14 (Vv24 m) c 0).trans (U25_of m c main_v24 (by decide)).symm)
  | ⟨1, _⟩ => ((dat14 (Vv24 m) c).arrAt_in 1 rfl _).trans ((A_eq14 (Vv24 m) c 1).trans (U25_of m c main_v25 (by decide)).symm)
  | ⟨2, _⟩ => (U25_2 m c).symm
theorem hrest14 (c : Dev nD) : ∀ b, b ∉ Finset.univ.image (Pipeline.arrRef spec14) → Vv25 m c b = Vv24 m c b :=
  fun b hb => U25_of m c b (by
    intro hmem
    simp only [List.mem_cons, List.mem_nil_iff, or_false] at hmem
    rcases hmem with rfl
    · exact hb (Finset.mem_image.mpr ⟨2, Finset.mem_univ _, rfl⟩))

end Cert.Kernel.Hand

end
-- ==== Proof.KB.Segs.lean ====
/-
  The regions as segments of @main: each region is entered from the buffer contents before it and left at the contents
  after it; its input arrays are only read, its output arrays end at the fold of its points' written-back blocks.
-/
import proofs.«161112_j49297634623838_2_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## The regions' leavings as one family, and the generated valuations at it -/

/-- What the regions leave, indexed as the generated valuations read it. -/
def outs : Outs (F := F) := fun J r c => match J with
  | 10 => pick c main_v6 (o10_2 m c) r (V0 m c r)
  | 11 => pick c main_v7 (o11_2 m c) r (V0 m c r)
  | 12 => pick c main_v8_0 (o12_3 m c) r (pick c main_v8_1 (o12_4 m c) r (V0 m c r))
  | 13 => pick c main_v9 (o13_3 m c) r (V0 m c r)
  | 14 => pick c main_v10 (o14_2 m c) r (V0 m c r)
  | 15 => pick c main_v11_0 (o15_3 m c) r (pick c main_v11_1 (o15_4 m c) r (V0 m c r))
  | 16 => pick c main_v12 (o16_3 m c) r (V0 m c r)
  | 17 => pick c main_v13 (o17_2 m c) r (V0 m c r)
  | 18 => pick c main_v14_0 (o18_3 m c) r (pick c main_v14_1 (o18_4 m c) r (V0 m c r))
  | 19 => pick c main_v15 (o19_3 m c) r (V0 m c r)
  | 20 => pick c main_v16 (o20_2 m c) r (V0 m c r)
  | 21 => pick c main_v17_0 (o21_3 m c) r (pick c main_v17_1 (o21_4 m c) r (V0 m c r))
  | 22 => pick c main_v18 (o22_3 m c) r (V0 m c r)
  | 23 => pick c main_v19 (o23_2 m c) r (V0 m c r)
  | 25 => pick c main_v26 (o25_2 m c) r (V0 m c r)
  | _ => V0 m c r

theorem V10_eq (c : Dev nD) : V10 m (outs m) c = U10 m c := by
  show Function.update (V9 m c) main_v6 (outs m 10 main_v6 c) = _
  unfold U10
  rw [show outs m 10 main_v6 c = o10_2 m c from pick_self c _ _ _]
  rfl
theorem V11_eq (c : Dev nD) : V11 m (outs m) c = U11 m c := by
  show Function.update (V10 m (outs m) c) main_v7 (outs m 11 main_v7 c) = _
  rw [V10_eq]
  unfold U11
  rw [show outs m 11 main_v7 c = o11_2 m c from pick_self c _ _ _]

theorem V12_eq (c : Dev nD) : V12 m (outs m) c = U12 m c := by
  show Function.update (Function.update (V11 m (outs m) c) main_v8_0 (outs m 12 main_v8_0 c)) main_v8_1 (outs m 12 main_v8_1 c) = _
  rw [V11_eq]
  unfold U12
  rw [show outs m 12 main_v8_0 c = o12_3 m c from pick_self c _ _ _]
  rw [show outs m 12 main_v8_1 c = o12_4 m c from (pick_ne c _ _ _ _ (by decide)).trans (pick_self c _ _ _)]

theorem V13_eq (c : Dev nD) : V13 m (outs m) c = U13 m c := by
  show Function.update (V12 m (outs m) c) main_v9 (outs m 13 main_v9 c) = _
  rw [V12_eq]
  unfold U13
  rw [show outs m 13 main_v9 c = o13_3 m c from pick_self c _ _ _]

theorem V14_eq (c : Dev nD) : V14 m (outs m) c = U14 m c := by
  show Function.update (V13 m (outs m) c) main_v10 (outs m 14 main_v10 c) = _
  rw [V13_eq]
  unfold U14
  rw [show outs m 14 main_v10 c = o14_2 m c from pick_self c _ _ _]

theorem V15_eq (c : Dev nD) : V15 m (outs m) c = U15 m c := by
  show Function.update (Function.update (V14 m (outs m) c) main_v11_0 (outs m 15 main_v11_0 c)) main_v11_1 (outs m 15 main_v11_1 c) = _
  rw [V14_eq]
  unfold U15
  rw [show outs m 15 main_v11_0 c = o15_3 m c from pick_self c _ _ _]
  rw [show outs m 15 main_v11_1 c = o15_4 m c from (pick_ne c _ _ _ _ (by decide)).trans (pick_self c _ _ _)]

theorem V16_eq (c : Dev nD) : V16 m (outs m) c = U16 m c := by
  show Function.update (V15 m (outs m) c) main_v12 (outs m 16 main_v12 c) = _
  rw [V15_eq]
  unfold U16
  rw [show outs m 16 main_v12 c = o16_3 m c from pick_self c _ _ _]

theorem V17_eq (c : Dev nD) : V17 m (outs m) c = U17 m c := by
  show Function.update (V16 m (outs m) c) main_v13 (outs m 17 main_v13 c) = _
  rw [V16_eq]
  unfold U17
  rw [show outs m 17 main_v13 c = o17_2 m c from pick_self c _ _ _]

theorem V18_eq (c : Dev nD) : V18 m (outs m) c = U18 m c := by
  show Function.update (Function.update (V17 m (outs m) c) main_v14_0 (outs m 18 main_v14_0 c)) main_v14_1 (outs m 18 main_v14_1 c) = _
  rw [V17_eq]
  unfold U18
  rw [show outs m 18 main_v14_0 c = o18_3 m c from pick_self c _ _ _]
  rw [show outs m 18 main_v14_1 c = o18_4 m c from (pick_ne c _ _ _ _ (by decide)).trans (pick_self c _ _ _)]

theorem V19_eq (c : Dev nD) : V19 m (outs m) c = U19 m c := by
  show Function.update (V18 m (outs m) c) main_v15 (outs m 19 main_v15 c) = _
  rw [V18_eq]
  unfold U19
  rw [show outs m 19 main_v15 c = o19_3 m c from pick_self c _ _ _]

theorem V20_eq (c : Dev nD) : V20 m (outs m) c = U20 m c := by
  show Function.update (V19 m (outs m) c) main_v16 (outs m 20 main_v16 c) = _
  rw [V19_eq]
  unfold U20
  rw [show outs m 20 main_v16 c = o20_2 m c from pick_self c _ _ _]

theorem V21_eq (c : Dev nD) : V21 m (outs m) c = U21 m c := by
  show Function.update (Function.update (V20 m (outs m) c) main_v17_0 (outs m 21 main_v17_0 c)) main_v17_1 (outs m 21 main_v17_1 c) = _
  rw [V20_eq]
  unfold U21
  rw [show outs m 21 main_v17_0 c = o21_3 m c from pick_self c _ _ _]
  rw [show outs m 21 main_v17_1 c = o21_4 m c from (pick_ne c _ _ _ _ (by decide)).trans (pick_self c _ _ _)]

theorem V22_eq (c : Dev nD) : V22 m (outs m) c = U22 m c := by
  show Function.update (V21 m (outs m) c) main_v18 (outs m 22 main_v18 c) = _
  rw [V21_eq]
  unfold U22
  rw [show outs m 22 main_v18 c = o22_3 m c from pick_self c _ _ _]

theorem V23_eq (c : Dev nD) : V23 m (outs m) c = U23 m c := by
  show Function.update (V22 m (outs m) c) main_v19 (outs m 23 main_v19 c) = _
  rw [V22_eq]
  unfold U23
  rw [show outs m 23 main_v19 c = o23_2 m c from pick_self c _ _ _]

theorem V24_eq (c : Dev nD) : V24 m (outs m) c = U24 m c := by
  show StableHlo.after hostOps14 (V23 m (outs m) c) = _
  rw [V23_eq]; rfl
theorem V25_eq (c : Dev nD) : V25 m (outs m) c = U25 m c := by
  show Function.update (V24 m (outs m) c) main_v26 (outs m 25 main_v26 c) = _
  rw [V24_eq]
  unfold U25
  rw [show outs m 25 main_v26 c = o25_2 m c from pick_self c _ _ _]

/-! ## The proof data family and the thread state -/

/-- Every pipeline's proof data, each at its region's entry contents. -/
def pdats : (p : Fin 15) → (c : Dev nD) → Dat τ (Elt F) Unit ℕ (UR sig nD τ) ℕ (cfgs p) c
  | ⟨0, _⟩ => fun c => dat0 (Vv9 m) c
  | ⟨1, _⟩ => fun c => dat1 (Vv10 m) c
  | ⟨2, _⟩ => fun c => dat2 (Vv11 m) c
  | ⟨3, _⟩ => fun c => dat3 (Vv12 m) c
  | ⟨4, _⟩ => fun c => dat4 (Vv13 m) c
  | ⟨5, _⟩ => fun c => dat5 (Vv14 m) c
  | ⟨6, _⟩ => fun c => dat6 (Vv15 m) c
  | ⟨7, _⟩ => fun c => dat7 (Vv16 m) c
  | ⟨8, _⟩ => fun c => dat8 (Vv17 m) c
  | ⟨9, _⟩ => fun c => dat9 (Vv18 m) c
  | ⟨10, _⟩ => fun c => dat10 (Vv19 m) c
  | ⟨11, _⟩ => fun c => dat11 (Vv20 m) c
  | ⟨12, _⟩ => fun c => dat12 (Vv21 m) c
  | ⟨13, _⟩ => fun c => dat13 (Vv22 m) c
  | ⟨14, _⟩ => fun c => dat14 (Vv24 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered from every unscoped buffer at the contents before it, left at the contents after it. Its arrays
    are split out of the unscoped buffers and put back at the exit contents; the generator register goes into the
    invariant and comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vv9 m) c).loose
  hwaits := Pipeline.hwaits_of_owed_zero _ _ _ _ L lv 0 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec0 c (Vv9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vv9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vv9 m c) (Vv10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at the contents after it. Its arrays
    are split out of the unscoped buffers and put back at the exit contents; the generator register goes into the
    invariant and comes back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vv10 m) c).loose
  hwaits := Pipeline.hwaits_of_owed_zero _ _ _ _ L lv 1 fun _ _ => rfl
  pre c := iprop(StableHlo.held (c : Thread nD τ) (Pipeline.ucRefs τ sig) (U10 m c) ∗ R c)
  post c := iprop(StableHlo.held (c : Thread nD τ) (Pipeline.ucRefs τ sig) (U11 m c) ∗ R c)
  X c := iprop(∃ r, prngReg c r)
  Y c := iprop(∃ r, prngReg c r)
  Z c := Pipeline.unscopedRest (Ix := Unit) (Name := ℕ) (U := UR sig nD τ) (Lvl := ℕ) spec1 c (Vv10 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vv10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vv10 m c) (Vv11 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at the contents after it. Its arrays
    are split out of the unscoped buffers and put back at the exit contents; the generator register goes into the
    invariant and comes back; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vv11 m) c).loose
  hwaits := Pipeline.hwaits_of_owed_zero _ _ _ _ L lv 2 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec2 c (Vv11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vv11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vv11 m c) (Vv12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at the contents after it. Its arrays
    are split out of the unscoped buffers and put back at the exit contents; the generator register goes into the
    invariant and comes back; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vv12 m) c).loose
  hwaits := Pipeline.hwaits_of_owed_zero _ _ _ _ L lv 3 fun _ _ => rfl
  pre c := iprop(StableHlo.held (c : Thread nD τ) (Pipeline.ucRefs τ sig) (U12 m c) ∗ R c)
  post c := iprop(StableHlo.held (c : Thread nD τ) (Pipeline.ucRefs τ sig) (U13 m c) ∗ R c)
  X c := iprop(∃ r, prngReg c r)
  Y c := iprop(∃ r, prngReg c r)
  Z c := Pipeline.unscopedRest (Ix := Unit) (Name := ℕ) (U := UR sig nD τ) (Lvl := ℕ) spec3 c (Vv12 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vv12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vv12 m c) (Vv13 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents before it, left at the contents after it. Its arrays
    are split out of the unscoped buffers and put back at the exit contents; the generator register goes into the
    invariant and comes back; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vv13 m) c).loose
  hwaits := Pipeline.hwaits_of_owed_zero _ _ _ _ L lv 4 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec4 c (Vv13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vv13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vv13 m c) (Vv14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at the contents before it, left at the contents after it. Its arrays
    are split out of the unscoped buffers and put back at the exit contents; the generator register goes into the
    invariant and comes back; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vv14 m) c).loose
  hwaits := Pipeline.hwaits_of_owed_zero _ _ _ _ L lv 5 fun _ _ => rfl
  pre c := iprop(StableHlo.held (c : Thread nD τ) (Pipeline.ucRefs τ sig) (U14 m c) ∗ R c)
  post c := iprop(StableHlo.held (c : Thread nD τ) (Pipeline.ucRefs τ sig) (U15 m c) ∗ R c)
  X c := iprop(∃ r, prngReg c r)
  Y c := iprop(∃ r, prngReg c r)
  Z c := Pipeline.unscopedRest (Ix := Unit) (Name := ℕ) (U := UR sig nD τ) (Lvl := ℕ) spec5 c (Vv14 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vv14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vv14 m c) (Vv15 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at the contents before it, left at the contents after it. Its arrays
    are split out of the unscoped buffers and put back at the exit contents; the generator register goes into the
    invariant and comes back; nothing owed; no semaphore of the kernel's own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vv15 m) c).loose
  hwaits := Pipeline.hwaits_of_owed_zero _ _ _ _ L lv 6 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec6 c (Vv15 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vv15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vv15 m c) (Vv16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at the contents before it, left at the contents after it. Its arrays
    are split out of the unscoped buffers and put back at the exit contents; the generator register goes into the
    invariant and comes back; nothing owed; no semaphore of the kernel's own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vv16 m) c).loose
  hwaits := Pipeline.hwaits_of_owed_zero _ _ _ _ L lv 7 fun _ _ => rfl
  pre c := iprop(StableHlo.held (c : Thread nD τ) (Pipeline.ucRefs τ sig) (U16 m c) ∗ R c)
  post c := iprop(StableHlo.held (c : Thread nD τ) (Pipeline.ucRefs τ sig) (U17 m c) ∗ R c)
  X c := iprop(∃ r, prngReg c r)
  Y c := iprop(∃ r, prngReg c r)
  Z c := Pipeline.unscopedRest (Ix := Unit) (Name := ℕ) (U := UR sig nD τ) (Lvl := ℕ) spec7 c (Vv16 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vv16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vv16 m c) (Vv17 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at the contents before it, left at the contents after it. Its arrays
    are split out of the unscoped buffers and put back at the exit contents; the generator register goes into the
    invariant and comes back; nothing owed; no semaphore of the kernel's own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vv17 m) c).loose
  hwaits := Pipeline.hwaits_of_owed_zero _ _ _ _ L lv 8 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec8 c (Vv17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vv17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vv17 m c) (Vv18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at the contents before it, left at the contents after it. Its arrays
    are split out of the unscoped buffers and put back at the exit contents; the generator register goes into the
    invariant and comes back; nothing owed; no semaphore of the kernel's own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vv18 m) c).loose
  hwaits := Pipeline.hwaits_of_owed_zero _ _ _ _ L lv 9 fun _ _ => rfl
  pre c := iprop(StableHlo.held (c : Thread nD τ) (Pipeline.ucRefs τ sig) (U18 m c) ∗ R c)
  post c := iprop(StableHlo.held (c : Thread nD τ) (Pipeline.ucRefs τ sig) (U19 m c) ∗ R c)
  X c := iprop(∃ r, prngReg c r)
  Y c := iprop(∃ r, prngReg c r)
  Z c := Pipeline.unscopedRest (Ix := Unit) (Name := ℕ) (U := UR sig nD τ) (Lvl := ℕ) spec9 c (Vv18 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vv18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vv18 m c) (Vv19 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from every unscoped buffer at the contents before it, left at the contents after it. Its arrays
    are split out of the unscoped buffers and put back at the exit contents; the generator register goes into the
    invariant and comes back; nothing owed; no semaphore of the kernel's own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vv19 m) c).loose
  hwaits := Pipeline.hwaits_of_owed_zero _ _ _ _ L lv 10 fun _ _ => rfl
  pre c := iprop(StableHlo.held (c : Thread nD τ) (Pipeline.ucRefs τ sig) (U19 m c) ∗ R c)
  post c := iprop(StableHlo.held (c : Thread nD τ) (Pipeline.ucRefs τ sig) (U20 m c) ∗ R c)
  X c := iprop(∃ r, prngReg c r)
  Y c := iprop(∃ r, prngReg c r)
  Z c := Pipeline.unscopedRest (Ix := Unit) (Name := ℕ) (U := UR sig nD τ) (Lvl := ℕ) spec10 c (Vv19 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vv19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vv19 m c) (Vv20 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: entered from every unscoped buffer at the contents before it, left at the contents after it. Its arrays
    are split out of the unscoped buffers and put back at the exit contents; the generator register goes into the
    invariant and comes back; nothing owed; no semaphore of the kernel's own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vv20 m) c).loose
  hwaits := Pipeline.hwaits_of_owed_zero _ _ _ _ L lv 11 fun _ _ => rfl
  pre c := iprop(StableHlo.held (c : Thread nD τ) (Pipeline.ucRefs τ sig) (U20 m c) ∗ R c)
  post c := iprop(StableHlo.held (c : Thread nD τ) (Pipeline.ucRefs τ sig) (U21 m c) ∗ R c)
  X c := iprop(∃ r, prngReg c r)
  Y c := iprop(∃ r, prngReg c r)
  Z c := Pipeline.unscopedRest (Ix := Unit) (Name := ℕ) (U := UR sig nD τ) (Lvl := ℕ) spec11 c (Vv20 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vv20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vv20 m c) (Vv21 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12: entered from every unscoped buffer at the contents before it, left at the contents after it. Its arrays
    are split out of the unscoped buffers and put back at the exit contents; the generator register goes into the
    invariant and comes back; nothing owed; no semaphore of the kernel's own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vv21 m) c).loose
  hwaits := Pipeline.hwaits_of_owed_zero _ _ _ _ L lv 12 fun _ _ => rfl
  pre c := iprop(StableHlo.held (c : Thread nD τ) (Pipeline.ucRefs τ sig) (U21 m c) ∗ R c)
  post c := iprop(StableHlo.held (c : Thread nD τ) (Pipeline.ucRefs τ sig) (U22 m c) ∗ R c)
  X c := iprop(∃ r, prngReg c r)
  Y c := iprop(∃ r, prngReg c r)
  Z c := Pipeline.unscopedRest (Ix := Unit) (Name := ℕ) (U := UR sig nD τ) (Lvl := ℕ) spec12 c (Vv21 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vv21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vv21 m c) (Vv22 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13: entered from every unscoped buffer at the contents before it, left at the contents after it. Its arrays
    are split out of the unscoped buffers and put back at the exit contents; the generator register goes into the
    invariant and comes back; nothing owed; no semaphore of the kernel's own. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vv22 m) c).loose
  hwaits := Pipeline.hwaits_of_owed_zero _ _ _ _ L lv 13 fun _ _ => rfl
  pre c := iprop(StableHlo.held (c : Thread nD τ) (Pipeline.ucRefs τ sig) (U22 m c) ∗ R c)
  post c := iprop(StableHlo.held (c : Thread nD τ) (Pipeline.ucRefs τ sig) (U23 m c) ∗ R c)
  X c := iprop(∃ r, prngReg c r)
  Y c := iprop(∃ r, prngReg c r)
  Z c := Pipeline.unscopedRest (Ix := Unit) (Name := ℕ) (U := UR sig nD τ) (Lvl := ℕ) spec13 c (Vv22 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (Vv22 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (Vv22 m c) (Vv23 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg14F.lean ====
/-
  Region 14 with the result window FORGOTTEN: for any float instance, the body obligation in which the result
  window's staging buffer is handed to the body at contents nothing names and taken back at contents nothing names.
  The two input windows are stated as before: the row-block window's buffer holds its block, the column-block
  window's its block on the columns inside the array. What the product leaves on the result's columns inside the
  array may, at an instance that does not say which columns of the second operand an entry reads, depend on the
  unnamed words past the array's end of the last column block; forgetting the window asks nothing of it.
-/
import proofs.«161112_j49297634623838_2_alg».proof.Proof.KB.Reg14

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows forgotten: the result's. -/
abbrev fgt14 : Fin cfg14.W → Bool := fun | 0 => false | 1 => false | 2 => true | ⟨_ + 3, h⟩ => absurd h (Nat.not_lt.2 (Nat.le_add_left _ _))

/-- What the body is called with at point t, the result's buffer at anything, -/
def bodyPre14f (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ X, owns (c : Thread nD τ) (st14_2 t) fullShare X))

/-- and what it returns, the result's buffer at anything. -/
def bodyPost14f (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ (∃ d, owns (c : Thread nD τ) (st14_1 t) fullShare (win14_1.fill (grid14.coords t) d (win14_1.cut (grid14.coords t) ((dat14 V c).after 1 t))))
    ∗ (∃ X, owns (c : Thread nD τ) (st14_2 t) fullShare X))

/-- The body at any point, the result window forgotten: the body's triple, its result buffer left unnamed. -/
theorem sound_body14f (c : Dev nD) (t : Fin cfg14.N) :
    bodyPre14f V c t ⊢ wp frame (wpE (defs₀ (F := F)) Variants.none c none) Set.univ (bodyAt14 t) (fun _ => bodyPost14f V c t) := by
  unfold bodyPre14f bodyPost14f bodyAt14
  simp only [before14_0, before14_1]
  rw [show (dat14 V c).Φ t.succ = (dat14 V c).Φ t.castSucc from rfl,
    show (dat14 V c).owesAt () t.succ = (dat14 V c).owesAt () t.castSucc from rfl,
    after14_0, after14_1]
  iintro ⟨HΦ, Ho, ⟨%d0, H0⟩, ⟨%d1, H1⟩, ⟨%d2, H2⟩⟩
  iapply (sound_kernel14 c Set.univ _ _ _ _ _ _ _ (iblk14 V c 0 t) (win14_1.fill (grid14.coords t) d1 (iblk14 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  have h1 : win14_1.cut (grid14.coords t) (blk14_1 V c t) = iblk14 V c 1 t := win14_1.cut_fill _ _ _
  isplitl [H1]
  · iexists d1; rw [h1]; iexact H1
  · iexists _; iexact H2

/-- The library's body obligation with the result window forgotten, at every point, for any float instance. -/
theorem body_obligation14_fgt (c : Dev nD) :
    BodyObligationLoose (dat14 (F := F) V c) (defs₀ (F := F)) Variants.none () Set.univ fgt14 := fun t => by
  rw [bigSep_W14, bigSep_W14]
  exact sound_body14f V c t

end Cert.Kernel.Hand

end
-- ==== Proof.KB.FrameR.lean ====
/-
  The frame of the word-level program from one relational record per kernel region. The program is nine stretches of
  host operations, fourteen kernel regions, one more stretch and the last region. Between two items each core holds
  every unscoped buffer at known contents; the last region's result array is the one exception: the region ends with it
  at SOME contents, which nothing reads afterwards. Given, per region, a segment record over relational proof data
  entered from the contents before it and left at the contents after it, every weakly fair execution terminates and
  every argument array ends as launched: no host stretch writes an argument and no region may change one.
-/
import proofs.«161112_j49297634623838_2_alg».proof.Proof.Gen.Kernel.Regions
import Idealize.ShloMosaic.Lib.Pipeline.Frame
import Idealize.ShloMosaic.Lib.Pipeline.Regions

set_option maxRecDepth 1108

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat HostSeg)

variable {F : FTy → Type} [FloatOps F]

variable (m : (ℓ : Loc nD τ sig) → Buf (Elt F) ℓ) (outs : Outs (F := F))

/-- Whatever the last region's result array holds, every other buffer holds what it held after the last item that
    could change it. -/
theorem upd24_of (c : Dev nD) (x : Buf (Elt F) ((c : Thread nD τ).loc main_v26)) (r : Ref sig .tc)
    (h : r ∉ ([main_v26] : List (Ref sig .tc))) :
    Function.update (V24 m outs c) main_v26 x r = V25 m outs c r := by
  rw [V25_of m outs c r h]
  exact Function.update_of_ne (StableHlo.devRef_ne_of_ne (List.ne_of_not_mem_cons h) : (Proc.devRef .tc r : DevRef τ sig) ≠ Proc.devRef .tc main_v26) _ _

section

variable {Ix : Type} [DecidableEq Ix] {U : Type} [URA U] {Lvl : Type} [Preorder Lvl]

/-- The program's items as segments on core `c` (the same list on every core): the host stretches' segments, the
    regions' the given relational records. -/
abbrev rsegs (𝒱₀ : Variants) (L : GSem nD τ sig → Finset Ix) (lv : GSem nD τ sig → Ix → Lvl) (E : Fin 16 → Dev nD → sProp (MT nD τ sig Ix (Elt F) ℕ U Lvl)) (ι : Ix)
    (rdats : (p : Fin 15) → (c : Dev nD) → Pipeline.RDat τ (Elt F) Ix ℕ U Lvl (cfgs p) c) (R0 : Pipeline.RDat.RegionSeg (pcfgs (F := F)) adm rdats ι defs₀ 𝒱₀ L lv 0) (R1 : Pipeline.RDat.RegionSeg (pcfgs (F := F)) adm rdats ι defs₀ 𝒱₀ L lv 1) (R2 : Pipeline.RDat.RegionSeg (pcfgs (F := F)) adm rdats ι defs₀ 𝒱₀ L lv 2) (R3 : Pipeline.RDat.RegionSeg (pcfgs (F := F)) adm rdats ι defs₀ 𝒱₀ L lv 3) (R4 : Pipeline.RDat.RegionSeg (pcfgs (F := F)) adm rdats ι defs₀ 𝒱₀ L lv 4) (R5 : Pipeline.RDat.RegionSeg (pcfgs (F := F)) adm rdats ι defs₀ 𝒱₀ L lv 5) (R6 : Pipeline.RDat.RegionSeg (pcfgs (F := F)) adm rdats ι defs₀ 𝒱₀ L lv 6) (R7 : Pipeline.RDat.RegionSeg (pcfgs (F := F)) adm rdats ι defs₀ 𝒱₀ L lv 7) (R8 : Pipeline.RDat.RegionSeg (pcfgs (F := F)) adm rdats ι defs₀ 𝒱₀ L lv 8) (R9 : Pipeline.RDat.RegionSeg (pcfgs (F := F)) adm rdats ι defs₀ 𝒱₀ L lv 9) (R10 : Pipeline.RDat.RegionSeg (pcfgs (F := F)) adm rdats ι defs₀ 𝒱₀ L lv 10) (R11 : Pipeline.RDat.RegionSeg (pcfgs (F := F)) adm rdats ι defs₀ 𝒱₀ L lv 11) (R12 : Pipeline.RDat.RegionSeg (pcfgs (F := F)) adm rdats ι defs₀ 𝒱₀ L lv 12) (R13 : Pipeline.RDat.RegionSeg (pcfgs (F := F)) adm rdats ι defs₀ 𝒱₀ L lv 13) (R14 : Pipeline.RDat.RegionSeg (pcfgs (F := F)) adm rdats ι defs₀ 𝒱₀ L lv 14) (c : Dev nD) :
    List (Pipeline.RDat.Seg (pcfgs (F := F)) adm rdats ι defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E), .host (seg5 m 𝒱₀ L lv E), .host (seg6 m 𝒱₀ L lv E), .host (seg7 m 𝒱₀ L lv E), .host (seg8 m 𝒱₀ L lv E), .region R0, .region R1, .region R2, .region R3, .region R4, .region R5, .region R6, .region R7, .region R8, .region R9, .region R10, .region R11, .region R12, .region R13, .host (seg23 m outs 𝒱₀ L lv E), .region R14]

end

/-! ## The frame, given the regions' records -/

-- the launch theorem's implicit arguments are found by unifying its conclusion with this one, which takes unfolding
-- plain definitions in a metavariable's type
set_option backward.isDefEq.respectTransparency.types false in
/-- The conditional frame over relational proof data. For any user algebra, level assignment, launch dues and ghost
    resources, any rest states `E` the launch makes on every core at once (`hE0`) and that end owing nothing (`hE15`),
    any contents the regions leave (`outs`) and any relational proof data: given, per region K, a segment record entered
    from the thread state before it and left at the one after it (`RK`, `hpreK`, `hpostK`) — the last region left with
    its result array at some contents —, every weakly fair execution of the program from memory `m` with zero counters
    terminates and every final memory holds each argument as launched. -/
theorem frame_condR {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (rdats : (p : Fin 15) → (c : Dev nD) → Pipeline.RDat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 16 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE15 : ∀ c : Dev nD, E 15 c ⊢ (iprop(∃ W, owes (c : Thread nD τ) (0 : CellTallies nD τ sig Ix) W) : sProp (MT nD τ sig Ix (Elt F) ℕ U Lvl)))
    (R0 : Pipeline.RDat.RegionSeg (pcfgs (F := F)) adm rdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : Pipeline.RDat.RegionSeg (pcfgs (F := F)) adm rdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : Pipeline.RDat.RegionSeg (pcfgs (F := F)) adm rdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : Pipeline.RDat.RegionSeg (pcfgs (F := F)) adm rdats ι defs₀ 𝒱₀ L lv 3)
    (hpre3 : ∀ c : Dev nD, iprop(StableHlo.held (c : Thread nD τ) (Pipeline.ucRefs τ sig) (V12 m outs c) ∗ E 3 c) ⊢ R3.pre c)
    (hpost3 : ∀ c : Dev nD, R3.post c ⊢ iprop(StableHlo.held (c : Thread nD τ) (Pipeline.ucRefs τ sig) (V13 m outs c) ∗ E 4 c))
    (R4 : Pipeline.RDat.RegionSeg (pcfgs (F := F)) adm rdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : Pipeline.RDat.RegionSeg (pcfgs (F := F)) adm rdats ι defs₀ 𝒱₀ L lv 5)
    (hpre5 : ∀ c : Dev nD, iprop(StableHlo.held (c : Thread nD τ) (Pipeline.ucRefs τ sig) (V14 m outs c) ∗ E 5 c) ⊢ R5.pre c)
    (hpost5 : ∀ c : Dev nD, R5.post c ⊢ iprop(StableHlo.held (c : Thread nD τ) (Pipeline.ucRefs τ sig) (V15 m outs c) ∗ E 6 c))
    (R6 : Pipeline.RDat.RegionSeg (pcfgs (F := F)) adm rdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : Pipeline.RDat.RegionSeg (pcfgs (F := F)) adm rdats ι defs₀ 𝒱₀ L lv 7)
    (hpre7 : ∀ c : Dev nD, iprop(StableHlo.held (c : Thread nD τ) (Pipeline.ucRefs τ sig) (V16 m outs c) ∗ E 7 c) ⊢ R7.pre c)
    (hpost7 : ∀ c : Dev nD, R7.post c ⊢ iprop(StableHlo.held (c : Thread nD τ) (Pipeline.ucRefs τ sig) (V17 m outs c) ∗ E 8 c))
    (R8 : Pipeline.RDat.RegionSeg (pcfgs (F := F)) adm rdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : Pipeline.RDat.RegionSeg (pcfgs (F := F)) adm rdats ι defs₀ 𝒱₀ L lv 9)
    (hpre9 : ∀ c : Dev nD, iprop(StableHlo.held (c : Thread nD τ) (Pipeline.ucRefs τ sig) (V18 m outs c) ∗ E 9 c) ⊢ R9.pre c)
    (hpost9 : ∀ c : Dev nD, R9.post c ⊢ iprop(StableHlo.held (c : Thread nD τ) (Pipeline.ucRefs τ sig) (V19 m outs c) ∗ E 10 c))
    (R10 : Pipeline.RDat.RegionSeg (pcfgs (F := F)) adm rdats ι defs₀ 𝒱₀ L lv 10)
    (hpre10 : ∀ c : Dev nD, iprop(StableHlo.held (c : Thread nD τ) (Pipeline.ucRefs τ sig) (V19 m outs c) ∗ E 10 c) ⊢ R10.pre c)
    (hpost10 : ∀ c : Dev nD, R10.post c ⊢ iprop(StableHlo.held (c : Thread nD τ) (Pipeline.ucRefs τ sig) (V20 m outs c) ∗ E 11 c))
    (R11 : Pipeline.RDat.RegionSeg (pcfgs (F := F)) adm rdats ι defs₀ 𝒱₀ L lv 11)
    (hpre11 : ∀ c : Dev nD, iprop(StableHlo.held (c : Thread nD τ) (Pipeline.ucRefs τ sig) (V20 m outs c) ∗ E 11 c) ⊢ R11.pre c)
    (hpost11 : ∀ c : Dev nD, R11.post c ⊢ iprop(StableHlo.held (c : Thread nD τ) (Pipeline.ucRefs τ sig) (V21 m outs c) ∗ E 12 c))
    (R12 : Pipeline.RDat.RegionSeg (pcfgs (F := F)) adm rdats ι defs₀ 𝒱₀ L lv 12)
    (hpre12 : ∀ c : Dev nD, iprop(StableHlo.held (c : Thread nD τ) (Pipeline.ucRefs τ sig) (V21 m outs c) ∗ E 12 c) ⊢ R12.pre c)
    (hpost12 : ∀ c : Dev nD, R12.post c ⊢ iprop(StableHlo.held (c : Thread nD τ) (Pipeline.ucRefs τ sig) (V22 m outs c) ∗ E 13 c))
    (R13 : Pipeline.RDat.RegionSeg (pcfgs (F := F)) adm rdats ι defs₀ 𝒱₀ L lv 13)
    (hpre13 : ∀ c : Dev nD, iprop(StableHlo.held (c : Thread nD τ) (Pipeline.ucRefs τ sig) (V22 m outs c) ∗ E 13 c) ⊢ R13.pre c)
    (hpost13 : ∀ c : Dev nD, R13.post c ⊢ iprop(StableHlo.held (c : Thread nD τ) (Pipeline.ucRefs τ sig) (V23 m outs c) ∗ E 14 c))
    (R14 : Pipeline.RDat.RegionSeg (pcfgs (F := F)) adm rdats ι defs₀ 𝒱₀ L lv 14)
    (hpre14 : ∀ c : Dev nD, iprop(StableHlo.held (c : Thread nD τ) (Pipeline.ucRefs τ sig) (V24 m outs c) ∗ E 14 c) ⊢ R14.pre c)
    (hpost14 : ∀ c : Dev nD, R14.post c ⊢ iprop(∃ x : Buf (Elt F) ((c : Thread nD τ).loc main_v26), StableHlo.held (c : Thread nD τ) (Pipeline.ucRefs τ sig) (Function.update (V24 m outs c) main_v26 x) ∗ E 15 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  -- the last region's exit: its result array at some contents, the rest owing nothing
  have hlast : ∀ c : Dev nD, iprop(∃ x : Buf (Elt F) ((c : Thread nD τ).loc main_v26), StableHlo.held (c : Thread nD τ) (Pipeline.ucRefs τ sig) (Function.update (V24 m outs c) main_v26 x) ∗ E 15 c)
      ⊢ (iprop((∃ x : Buf (Elt F) ((c : Thread nD τ).loc main_v26), StableHlo.held (c : Thread nD τ) (Pipeline.ucRefs τ sig) (Function.update (V24 m outs c) main_v26 x))
          ∗ ∃ W, owes (c.tc : Thread nD τ) (0 : CellTallies nD τ sig Ix) W) : sProp (MT nD τ sig Ix (Elt F) ℕ U Lvl)) := fun c => by
    iintro ⟨%x, Hh, HE⟩
    isplitl [Hh]
    · iexists x; iexact Hh
    · iapply (hE15 c); iexact HE
  refine Pipeline.RDat.θ_run_regions_kit_dev (pcfgs (F := F)) adm rdats ι cellOf_inj EP defs₀ 𝒱₀ L lv m ρ main
    (rsegs m outs 𝒱₀ L lv E ι rdats R0 R1 R2 R3 R4 R5 R6 R7 R8 R9 R10 R11 R12 R13 R14)
    (fun c Q => by
      rewrite [main_chain c, Pipeline.RDat.Seg.run_eq_chain,
        show (rsegs m outs 𝒱₀ L lv E ι rdats R0 R1 R2 R3 R4 R5 R6 R7 R8 R9 R10 R11 R12 R13 R14 c).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          Prog.lift (.customCall (Pipeline.entry 8) ()),
          Prog.lift (.customCall (Pipeline.entry 9) ()),
          Prog.lift (.customCall (Pipeline.entry 10) ()),
          Prog.lift (.customCall (Pipeline.entry 11) ()),
          Prog.lift (.customCall (Pipeline.entry 12) ()),
          Prog.lift (.customCall (Pipeline.entry 13) ()),
          StableHlo.seq hostOps14,
          Prog.lift (.customCall (Pipeline.entry 14) ()) ] from rfl]
      exact .rfl)
    (fun c => by simp only [rsegs, Pipeline.RDat.Seg.pipes_host, Pipeline.RDat.Seg.pipes_region, Pipeline.RDat.Seg.pipes_nil]; decide) O₀ hL G u₀ hu₀
    (T₀ := fun c => iprop(StableHlo.held (c : Thread nD τ) (Pipeline.ucRefs τ sig) (V0 m c) ∗ E 0 c))
    (Tₙ := fun c => iprop(∃ x : Buf (Elt F) ((c : Thread nD τ).loc main_v26), StableHlo.held (c : Thread nD τ) (Pipeline.ucRefs τ sig) (Function.update (V24 m outs c) main_v26 x)))
    (hch := fun c => ⟨.rfl, .rfl, .rfl, .rfl, .rfl, .rfl, .rfl, .rfl, .rfl, hpre0 c, (hpost0 c).trans (hpre1 c), (hpost1 c).trans (hpre2 c), (hpost2 c).trans (hpre3 c), (hpost3 c).trans (hpre4 c), (hpost4 c).trans (hpre5 c), (hpost5 c).trans (hpre6 c), (hpost6 c).trans (hpre7 c), (hpost7 c).trans (hpre8 c), (hpost8 c).trans (hpre9 c), (hpost9 c).trans (hpre10 c), (hpost10 c).trans (hpre11 c), (hpost11 c).trans (hpre12 c), (hpost12 c).trans (hpre13 c), hpost13 c, hpre14 c, (hpost14 c).trans (hlast c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation, whatever the last region left in its result array
    unfold StableHlo.held
    iintro ⟨⟨%x, Hh⟩, HSI⟩
    ihave Hr := (pointsTo_read_all (Pipeline.ucRefs τ sig) (fun b => ((c : Thread nD τ).1, b)) (Function.update (V24 m outs c) main_v26 x) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans ((upd24_of m outs c x main_arg0 (by decide)).trans (V25_main_arg0 m outs c)),
        (h (Proc.devRef .tc main_arg1) (Finset.mem_filter.mpr ⟨StableHlo.devRef_mem_tcRefs main_arg1, by decide⟩)).trans ((upd24_of m outs c x main_arg1 (by decide)).trans (V25_main_arg1 m outs c)),
        (h (Proc.devRef .tc main_arg2) (Finset.mem_filter.mpr ⟨StableHlo.devRef_mem_tcRefs main_arg2, by decide⟩)).trans ((upd24_of m outs c x main_arg2 (by decide)).trans (V25_main_arg2 m outs c)),
        (h (Proc.devRef .tc main_arg3) (Finset.mem_filter.mpr ⟨StableHlo.devRef_mem_tcRefs main_arg3, by decide⟩)).trans ((upd24_of m outs c x main_arg3 (by decide)).trans (V25_main_arg3 m outs c)),
        (h (Proc.devRef .tc main_arg4) (Finset.mem_filter.mpr ⟨StableHlo.devRef_mem_tcRefs main_arg4, by decide⟩)).trans ((upd24_of m outs c x main_arg4 (by decide)).trans (V25_main_arg4 m outs c)),
        (h (Proc.devRef .tc main_arg5) (Finset.mem_filter.mpr ⟨StableHlo.devRef_mem_tcRefs main_arg5, by decide⟩)).trans ((upd24_of m outs c x main_arg5 (by decide)).trans (V25_main_arg5 m outs c)),
        (h (Proc.devRef .tc main_arg6) (Finset.mem_filter.mpr ⟨StableHlo.devRef_mem_tcRefs main_arg6, by decide⟩)).trans ((upd24_of m outs c x main_arg6 (by decide)).trans (V25_main_arg6 m outs c)),
        (h (Proc.devRef .tc main_arg7) (Finset.mem_filter.mpr ⟨StableHlo.devRef_mem_tcRefs main_arg7, by decide⟩)).trans ((upd24_of m outs c x main_arg7 (by decide)).trans (V25_main_arg7 m outs c)),
        (h (Proc.devRef .tc main_arg8) (Finset.mem_filter.mpr ⟨StableHlo.devRef_mem_tcRefs main_arg8, by decide⟩)).trans ((upd24_of m outs c x main_arg8 (by decide)).trans (V25_main_arg8 m outs c)),
        (h (Proc.devRef .tc main_arg9) (Finset.mem_filter.mpr ⟨StableHlo.devRef_mem_tcRefs main_arg9, by decide⟩)).trans ((upd24_of m outs c x main_arg9 (by decide)).trans (V25_main_arg9 m outs c)),
        (h (Proc.devRef .tc main_arg10) (Finset.mem_filter.mpr ⟨StableHlo.devRef_mem_tcRefs main_arg10, by decide⟩)).trans ((upd24_of m outs c x main_arg10 (by decide)).trans (V25_main_arg10 m outs c)),
        (h (Proc.devRef .tc main_arg11) (Finset.mem_filter.mpr ⟨StableHlo.devRef_mem_tcRefs main_arg11, by decide⟩)).trans ((upd24_of m outs c x main_arg11 (by decide)).trans (V25_main_arg11 m outs c)),
        (h (Proc.devRef .tc main_arg12) (Finset.mem_filter.mpr ⟨StableHlo.devRef_mem_tcRefs main_arg12, by decide⟩)).trans ((upd24_of m outs c x main_arg12 (by decide)).trans (V25_main_arg12 m outs c)),
        (h (Proc.devRef .tc main_arg13) (Finset.mem_filter.mpr ⟨StableHlo.devRef_mem_tcRefs main_arg13, by decide⟩)).trans ((upd24_of m outs c x main_arg13 (by decide)).trans (V25_main_arg13 m outs c)),
        (h (Proc.devRef .tc main_arg14) (Finset.mem_filter.mpr ⟨StableHlo.devRef_mem_tcRefs main_arg14, by decide⟩)).trans ((upd24_of m outs c x main_arg14 (by decide)).trans (V25_main_arg14 m outs c)),
        (h (Proc.devRef .tc main_arg15) (Finset.mem_filter.mpr ⟨StableHlo.devRef_mem_tcRefs main_arg15, by decide⟩)).trans ((upd24_of m outs c x main_arg15 (by decide)).trans (V25_main_arg15 m outs c)),
        (h (Proc.devRef .tc main_arg16) (Finset.mem_filter.mpr ⟨StableHlo.devRef_mem_tcRefs main_arg16, by decide⟩)).trans ((upd24_of m outs c x main_arg16 (by decide)).trans (V25_main_arg16 m outs c)),
        (h (Proc.devRef .tc main_arg17) (Finset.mem_filter.mpr ⟨StableHlo.devRef_mem_tcRefs main_arg17, by decide⟩)).trans ((upd24_of m outs c x main_arg17 (by decide)).trans (V25_main_arg17 m outs c))⟩
    · iexact HSI

end Cert.Kernel.Hand

end
-- ==== Proof.KB.ToR.lean ====
/-
  A kernel region certified over exact proof data, read as a region over relational proof data. The relational family
  reads every pipeline's exact data relationally, forgetting the windows a mask marks; at a pipeline where the mask
  marks nothing the relational data are the exact data read as they stand, so the region's record carries over field by
  field: the body obligation read relationally, the exit fed the arrays at the contents the exact data name.
-/
import proofs.«161112_j49297634623838_2_alg».proof.Proof.Gen.Kernel.Regions
import Idealize.ShloMosaic.Lib.Pipeline.Frame
import Idealize.ShloMosaic.Lib.Pipeline.Regions

set_option maxRecDepth 1108

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable {Ix : Type} [DecidableEq Ix] {U : Type} [URA U] {Lvl : Type} [Preorder Lvl]

/-- Every pipeline's exact proof data read relationally, the windows `fg` marks forgotten. -/
abbrev rdOf (pd : (p : Fin 15) → (c : Dev nD) → Dat τ (Elt F) Ix ℕ U Lvl (cfgs p) c)
    (fg : (p : Fin 15) → Fin (cfgs p).W → Bool) :
    (p : Fin 15) → (c : Dev nD) → Pipeline.RDat τ (Elt F) Ix ℕ U Lvl (cfgs p) c :=
  fun p c => (pd p c).toRForget (fg p)

set_option backward.isDefEq.respectTransparency.types false in
/-- A region over exact proof data, at a pipeline none of whose windows is forgotten and whose body owes nothing at its
    cells, is a region over the relational family. -/
def toRF (pd : (p : Fin 15) → (c : Dev nD) → Dat τ (Elt F) Ix ℕ U Lvl (cfgs p) c)
    (fg : (p : Fin 15) → Fin (cfgs p).W → Bool)
    {ι : Ix} {𝒱₀ : Variants} {L : GSem nD τ sig → Finset Ix} {lv : GSem nD τ sig → Ix → Lvl} {p : Fin 15}
    (R : Pipeline.RegionSeg (pcfgs (F := F)) adm pd ι defs₀ 𝒱₀ L lv p)
    (hf : fg p = fun _ => false) (howed : ∀ c t, (pd p c).owed t = 0) :
    Pipeline.RDat.RegionSeg (pcfgs (F := F)) adm (rdOf pd fg) ι defs₀ 𝒱₀ L lv p where
  win := R.win
  block_pos := R.block_pos
  stage_whole := R.stage_whole
  K := R.K
  fK := R.fK
  osem := R.osem
  ho := R.ho
  hbody c := by
    show ((pd p c).toRForget (fg p)).BodyObligation defs₀ 𝒱₀ ι Set.univ
    rw [hf]
    exact (R.hbody c).toR
  hwaits := Pipeline.RDat.hwaits_of_owed_zero _ _ _ _ L lv p howed
  pre := R.pre
  post := R.post
  X := R.X
  Y := R.Y
  Z := R.Z
  hentry := R.hentry
  hin := R.hin
  hout := R.hout
  hexit c := by
    have h := (sep_mono (Entails.of_eq ((pd p c).toR_arraysAt_eq (cfgs p).N)) .rfl).trans (R.hexit c)
    show iprop(((pd p c).toRForget (fg p)).arraysAt (cfgs p).N ∗ ((pd p c).toRForget (fg p)).owesAt ι (Fin.last (cfgs p).N) ∗ R.Y c ∗ R.Z c) ⊢ _
    rw [hf]
    exact h

end Cert.Kernel.Hand

end
-- ==== Proof.KB.R14.lean ====
/-
  The last kernel region over relational proof data with its result window forgotten. The region is entered from every
  unscoped buffer at known contents and left with its two operand arrays as they were — they are only read — and its
  result array at SOME contents: the last column block of the result overhangs the array, the staging columns past the
  array's end hold words nothing names, and nothing reads the result afterwards. Its arrays are split out of the
  unscoped buffers at entry and put back at exit, the result's at whatever the write-backs left.
-/
import proofs.«161112_j49297634623838_2_alg».proof.Proof.KB.ToR
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- What rides beside the buffers through every item: the core's generator register at some state and its dues, at
    nothing. -/
abbrev rideR (c : Dev nD) : sProp 𝕄 := iprop((∃ r, prngReg c r) ∗ ∃ W, owes (c : Thread nD τ) (0 : CellTallies nD τ sig Unit) W)

variable (pd : (p : Fin 15) → (c : Dev nD) → Dat τ (Elt F) Unit ℕ (UR sig nD τ) ℕ (cfgs p) c)
variable (fg : (p : Fin 15) → Fin (cfgs p).W → Bool)
variable (W24 : Dev nD → Valuation τ sig (Elt F))

set_option maxHeartbeats 2000000 in
set_option backward.isDefEq.respectTransparency.types false in
/-- The last region: entered from every unscoped buffer at `W24`, left at `W24` with the result array at some contents.
    The operand windows are not forgotten, so their arrays end at what the exact data name, which is what they held;
    the result window is, so its array ends at whatever the relational data allow. -/
def rreg14
    (hA : ∀ c w, (pd 14 c).A w = W24 c (Pipeline.arrRef spec14 w))
    (hΦ : ∀ c t, (pd 14 c).Φ t = Pipeline.ΦA spec14 c)
    (hq : ∀ c w, (pd 14 c).q w = fullShare)
    (howed : ∀ c t, (pd 14 c).owed t = 0)
    (hrec : ∀ c t, (pd 14 c).recorded t = Set.univ)
    (hfg0 : fg 14 0 = false) (hfg1 : fg 14 1 = false)
    (hbody : ∀ c, ((pd 14 c).toRForget (fg 14)).BodyObligation (defs₀ (F := F)) Variants.none () Set.univ) :
    Pipeline.RDat.RegionSeg (pcfgs (F := F)) adm (rdOf pd fg) () defs₀ Variants.none (fun _ => (∅ : Finset Unit)) (fun _ _ => (0 : ℕ)) 14 where
  win := launch14.win.to₀
  block_pos := launch14.block_pos
  stage_whole := launch14.stage_whole
  K := PEmpty
  osem k := k.elim
  ho := Pipeline.OwnSemFacts.none _
  hbody := hbody
  hwaits := Pipeline.RDat.hwaits_of_owed_zero _ _ _ _ _ _ 14 howed
  pre c := iprop(StableHlo.held (c : Thread nD τ) (Pipeline.ucRefs τ sig) (W24 c) ∗ rideR c)
  post c := iprop(∃ x : Buf (Elt F) ((c : Thread nD τ).loc main_v26),
    StableHlo.held (c : Thread nD τ) (Pipeline.ucRefs τ sig) (Function.update (W24 c) main_v26 x) ∗ rideR c)
  X c := iprop(∃ r, prngReg c r)
  Y c := iprop(∃ r, prngReg c r)
  Z c := Pipeline.unscopedRest (Ix := Unit) (Name := ℕ) (U := UR sig nD τ) (Lvl := ℕ) spec14 c (fun b => W24 c b)
  hentry c := by
    rw [Pipeline.ownSems0_none]
    have hsplit := Pipeline.RDat.arrays_of_unscopedBufs (p := 14) (pcfgs (F := F)) adm (rdOf pd fg) launch14.win launch14.arr_whole c
      ((pd 14 c).share_full (hq c)) (fun b => W24 c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show (rdOf pd fg 14 c).owed 0 = 0 from howed c 0]
      icases HO with ⟨%W, HO⟩; iexists W; isplitr
      · ipureintro; exact fun x _ => Or.inl (show x ∈ (pd 14 c).recorded 0 by rw [hrec c 0]; trivial)
      iexact HO
    isplitl [Hp]; · iexact Hp
    iexact Hrest
  hin c := by
    refine BIBase.Entails.trans ?_ (Entails.of_eq (hΦ c 0).symm)
    unfold Pipeline.ΦA
    iintro ⟨Hp, -, Hr⟩
    isplitl [Hr]; · iexact Hr
    iexact Hp
  hout c := by
    rw [Pipeline.ownSems0_none]
    refine BIBase.Entails.trans (Entails.of_eq (hΦ c (Fin.last _))) ?_
    unfold Pipeline.ΦA
    iintro ⟨Hr, Hp⟩
    isplitl [Hp]; · iexact Hp
    isplitr; · iempintro
    iexact Hr
  hexit c := by
    -- the arrays at the region's exit, opened: each at SOME contents the relational data allow after every write-back
    have hopen : ((rdOf pd fg 14 c).arraysAt cfg14.N : sProp 𝕄)
        ⊢ iprop(∃ A : (w : Fin cfg14.W) → Buf (Elt F) ((cfg14.win w).arr.view.loc (c.tc : Thread nD τ)),
            ⌜∀ w, (rdOf pd fg 14 c).ArrAt w cfg14.N (A w)⌝ ∗ (pd 14 c).arrays A) := by
      unfold Pipeline.RDat.arraysAt
      iintro Ha
      ihave Ha' := (BI.bigSep_exists_pi Finset.univ (fun (w : Fin cfg14.W) F => iprop(⌜(rdOf pd fg 14 c).ArrAt w cfg14.N F⌝
          ∗ (cfg14.win w).arr.view.loc (c.tc : Thread nD τ) ↦[(cfg14.win w).arr.view.set]{(rdOf pd fg 14 c).share w} F))) $$ Ha
      icases Ha' with ⟨%A, Ha⟩
      ihave Ha2 := (BI.bigSep_pure_sep Finset.univ (fun w => (rdOf pd fg 14 c).ArrAt w cfg14.N (A w))
          (fun w => ((cfg14.win w).arr.view.loc (c.tc : Thread nD τ) ↦[(cfg14.win w).arr.view.set]{(rdOf pd fg 14 c).share w} A w))) $$ Ha
      icases Ha2 with ⟨%hA', Ha⟩
      iexists A; isplitr; · ipureintro; exact fun w => hA' w (Finset.mem_univ w)
      rw [← (pd 14 c).toRForget_arrays (fg 14)]
      unfold Pipeline.RDat.arrays
      iexact Ha
    iintro ⟨Ha, HO, HY, Hrest⟩
    ihave Ha' := hopen $$ Ha
    icases Ha' with ⟨%A, %hA', Ha⟩
    -- the operand arrays hold what they held; the result array holds `A 2`
    have h0 : A 0 = W24 c (Pipeline.arrRef spec14 0) :=
      ((Dat.toRForget_arrAt_iff (pd 14 c) hfg0 cfg14.N (A 0)).mp (hA' 0)).trans (((pd 14 c).arrAt_in 0 rfl _).trans (hA c 0))
    have h1 : A 1 = W24 c (Pipeline.arrRef spec14 1) :=
      ((Dat.toRForget_arrAt_iff (pd 14 c) hfg1 cfg14.N (A 1)).mp (hA' 1)).trans (((pd 14 c).arrAt_in 1 rfl _).trans (hA c 1))
    have hF : ∀ w : Fin cfg14.W, A w = (fun b : Ref sig .tc => Function.update (W24 c) main_v26 (A 2) b) (Pipeline.arrRef spec14 w) := fun w =>
      match w with
      | ⟨0, _⟩ => h0.trans (Function.update_of_ne (StableHlo.devRef_ne_of_ne (by decide : main_v24 ≠ main_v26) : (Proc.devRef .tc main_v24 : DevRef τ sig) ≠ Proc.devRef .tc main_v26) _ _).symm
      | ⟨1, _⟩ => h1.trans (Function.update_of_ne (StableHlo.devRef_ne_of_ne (by decide : main_v25 ≠ main_v26) : (Proc.devRef .tc main_v25 : DevRef τ sig) ≠ Proc.devRef .tc main_v26) _ _).symm
      | ⟨2, _⟩ => Eq.symm (show Function.update (W24 c) (Proc.devRef .tc main_v26 : DevRef τ sig) (A 2) (Proc.devRef .tc main_v26 : DevRef τ sig) = A 2 from Function.update_self _ _ _)
    have hrest : ∀ b : Ref sig .tc, b ∉ Finset.univ.image (Pipeline.arrRef spec14) →
        (fun b : Ref sig .tc => Function.update (W24 c) main_v26 (A 2) b) b = (fun b : Ref sig .tc => W24 c b) b := fun b hb =>
      Function.update_of_ne (StableHlo.devRef_ne_of_ne (fun e : b = main_v26 => hb (Finset.mem_image.mpr ⟨2, Finset.mem_univ _, e.symm⟩)) :
        (Proc.devRef .tc b : DevRef τ sig) ≠ Proc.devRef .tc main_v26) _ _
    have hjoin := Pipeline.unscopedBufs_of_arrays (p := 14) (pcfgs (F := F)) adm (Ix := Unit) (Name := ℕ) (U := UR sig nD τ) (Lvl := ℕ)
      launch14.win launch14.arr_whole c pd ((pd 14 c).share_full (hq c))
      (fun b => W24 c b) (fun b => Function.update (W24 c) main_v26 (A 2) b) A hF hrest
    rw [Pipeline.unscopedBufs_held] at hjoin
    imodintro
    iexists (A 2)
    isplitl [Ha Hrest]
    · iapply hjoin; isplitl [Ha] <;> iassumption
    isplitl [HY]; · iexact HY
    unfold Pipeline.RDat.owesAt Pipeline.owesWithin
    rw [show (rdOf pd fg 14 c).owed (Fin.last _) = 0 from howed c _]
    icases HO with ⟨%W, -, HO⟩; iexists W; iexact HO

end Cert.Kernel.Hand

end
-- ==== Proof.KB.Frame.lean ====
/-
  The frame of the word-level program: it runs to the end, faults nowhere and leaves its eighteen argument arrays as
  launched. Every pipeline's exact proof data are read relationally; only the last region's result window is
  forgotten — its last column block overhangs the array, and at the word level nothing says which words of the second
  operand an entry of the product reads, so nothing is named of what the region leaves there, and nothing reads it
  afterwards. The first fourteen regions carry over from their exact records; the last is entered from the contents
  before it and left with its result array at some contents. No host stretch writes an argument and no region may
  change one, so each argument ends holding its launch contents.
-/
import proofs.«161112_j49297634623838_2_alg».proof.Proof.KB.Segs
import proofs.«161112_j49297634623838_2_alg».proof.Proof.KB.Reg14F
import proofs.«161112_j49297634623838_2_alg».proof.Proof.KB.FrameR
import proofs.«161112_j49297634623838_2_alg».proof.Proof.KB.R14

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The relational family -/

/-- The windows forgotten, per pipeline: the last region's result window and nothing else. -/
def fg : (p : Fin 15) → Fin (cfgs p).W → Bool
  | ⟨0, _⟩ => fun _ => false
  | ⟨1, _⟩ => fun _ => false
  | ⟨2, _⟩ => fun _ => false
  | ⟨3, _⟩ => fun _ => false
  | ⟨4, _⟩ => fun _ => false
  | ⟨5, _⟩ => fun _ => false
  | ⟨6, _⟩ => fun _ => false
  | ⟨7, _⟩ => fun _ => false
  | ⟨8, _⟩ => fun _ => false
  | ⟨9, _⟩ => fun _ => false
  | ⟨10, _⟩ => fun _ => false
  | ⟨11, _⟩ => fun _ => false
  | ⟨12, _⟩ => fun _ => false
  | ⟨13, _⟩ => fun _ => false
  | ⟨14, _⟩ => fgt14

/-- Every pipeline's exact proof data read relationally, the last region's result window forgotten. -/
abbrev rdats : (p : Fin 15) → (c : Dev nD) → Pipeline.RDat τ (Elt F) Unit ℕ (UR sig nD τ) ℕ (cfgs p) c :=
  rdOf (pdats m) fg

/-- Region 0 over the relational family: none of its windows is forgotten. -/
def rreg0 : Pipeline.RDat.RegionSeg (pcfgs (F := F)) adm (rdats m) () defs₀ 𝒱₀ L lv 0 :=
  toRF (pdats m) fg (reg0 m) rfl (fun _ _ => rfl)
/-- Region 1 over the relational family: none of its windows is forgotten. -/
def rreg1 : Pipeline.RDat.RegionSeg (pcfgs (F := F)) adm (rdats m) () defs₀ 𝒱₀ L lv 1 :=
  toRF (pdats m) fg (reg1 m) rfl (fun _ _ => rfl)
/-- Region 2 over the relational family: none of its windows is forgotten. -/
def rreg2 : Pipeline.RDat.RegionSeg (pcfgs (F := F)) adm (rdats m) () defs₀ 𝒱₀ L lv 2 :=
  toRF (pdats m) fg (reg2 m) rfl (fun _ _ => rfl)
/-- Region 3 over the relational family: none of its windows is forgotten. -/
def rreg3 : Pipeline.RDat.RegionSeg (pcfgs (F := F)) adm (rdats m) () defs₀ 𝒱₀ L lv 3 :=
  toRF (pdats m) fg (reg3 m) rfl (fun _ _ => rfl)
/-- Region 4 over the relational family: none of its windows is forgotten. -/
def rreg4 : Pipeline.RDat.RegionSeg (pcfgs (F := F)) adm (rdats m) () defs₀ 𝒱₀ L lv 4 :=
  toRF (pdats m) fg (reg4 m) rfl (fun _ _ => rfl)
/-- Region 5 over the relational family: none of its windows is forgotten. -/
def rreg5 : Pipeline.RDat.RegionSeg (pcfgs (F := F)) adm (rdats m) () defs₀ 𝒱₀ L lv 5 :=
  toRF (pdats m) fg (reg5 m) rfl (fun _ _ => rfl)
/-- Region 6 over the relational family: none of its windows is forgotten. -/
def rreg6 : Pipeline.RDat.RegionSeg (pcfgs (F := F)) adm (rdats m) () defs₀ 𝒱₀ L lv 6 :=
  toRF (pdats m) fg (reg6 m) rfl (fun _ _ => rfl)
/-- Region 7 over the relational family: none of its windows is forgotten. -/
def rreg7 : Pipeline.RDat.RegionSeg (pcfgs (F := F)) adm (rdats m) () defs₀ 𝒱₀ L lv 7 :=
  toRF (pdats m) fg (reg7 m) rfl (fun _ _ => rfl)
/-- Region 8 over the relational family: none of its windows is forgotten. -/
def rreg8 : Pipeline.RDat.RegionSeg (pcfgs (F := F)) adm (rdats m) () defs₀ 𝒱₀ L lv 8 :=
  toRF (pdats m) fg (reg8 m) rfl (fun _ _ => rfl)
/-- Region 9 over the relational family: none of its windows is forgotten. -/
def rreg9 : Pipeline.RDat.RegionSeg (pcfgs (F := F)) adm (rdats m) () defs₀ 𝒱₀ L lv 9 :=
  toRF (pdats m) fg (reg9 m) rfl (fun _ _ => rfl)
/-- Region 10 over the relational family: none of its windows is forgotten. -/
def rreg10 : Pipeline.RDat.RegionSeg (pcfgs (F := F)) adm (rdats m) () defs₀ 𝒱₀ L lv 10 :=
  toRF (pdats m) fg (reg10 m) rfl (fun _ _ => rfl)
/-- Region 11 over the relational family: none of its windows is forgotten. -/
def rreg11 : Pipeline.RDat.RegionSeg (pcfgs (F := F)) adm (rdats m) () defs₀ 𝒱₀ L lv 11 :=
  toRF (pdats m) fg (reg11 m) rfl (fun _ _ => rfl)
/-- Region 12 over the relational family: none of its windows is forgotten. -/
def rreg12 : Pipeline.RDat.RegionSeg (pcfgs (F := F)) adm (rdats m) () defs₀ 𝒱₀ L lv 12 :=
  toRF (pdats m) fg (reg12 m) rfl (fun _ _ => rfl)
/-- Region 13 over the relational family: none of its windows is forgotten. -/
def rreg13 : Pipeline.RDat.RegionSeg (pcfgs (F := F)) adm (rdats m) () defs₀ 𝒱₀ L lv 13 :=
  toRF (pdats m) fg (reg13 m) rfl (fun _ _ => rfl)

/-- The last region over the relational family, its result window forgotten: left with the result array at some
    contents. -/
def rreg14x : Pipeline.RDat.RegionSeg (pcfgs (F := F)) adm (rdats m) () defs₀ 𝒱₀ L lv 14 :=
  rreg14 (pdats m) fg (U24 m) (fun c w => A_eq14 (Vv24 m) c w) (fun _ _ => rfl) (fun _ _ => rfl) (fun _ _ => rfl) (fun _ _ => rfl)
    rfl rfl (fun c => (body_obligation14_fgt (Vv24 m) c).toRForget)

/-- Equal contents, equal thread states. -/
theorem held_congr (c : Dev nD) {V V' : Valuation τ sig (Elt F)} (h : V = V') :
    (iprop(StableHlo.held (c : Thread nD τ) (Pipeline.ucRefs τ sig) V ∗ R (F := F) c) : sProp 𝕄)
      ⊢ iprop(StableHlo.held (c : Thread nD τ) (Pipeline.ucRefs τ sig) V' ∗ R (F := F) c) := by
  rw [h]

/-! ## The frame -/

set_option maxHeartbeats 2000000 in
set_option backward.isDefEq.respectTransparency.types false in
/-- From any memory with zero counters, every weakly fair execution of the program on the TensorCores terminates,
    nothing faulting, and every final state has the argument arrays as launched. -/
theorem frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_condR m emb₁ () 𝒱₀ L lv (fun _ _ => rfl) ρ (outs m) (rdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R (F := F))
    (hE0 := Pipeline.initEach L lv fun c => by
      iintro ⟨⟨-, HO, -, Hp, -⟩, -⟩
      imodintro
      isplitl [Hp]; · iexists _; iexact Hp
      iexists ∅; iexact HO)
    (hE15 := fun c => by iintro ⟨-, HO⟩; iexact HO)
    (rreg0 m) (fun c => held_congr (F := F) c (rfl : V9 m c = U9 m c)) (fun c => held_congr (F := F) c (V10_eq m c).symm)
    (rreg1 m) (fun c => held_congr (F := F) c (V10_eq m c)) (fun c => held_congr (F := F) c (V11_eq m c).symm)
    (rreg2 m) (fun c => held_congr (F := F) c (V11_eq m c)) (fun c => held_congr (F := F) c (V12_eq m c).symm)
    (rreg3 m) (fun c => held_congr (F := F) c (V12_eq m c)) (fun c => held_congr (F := F) c (V13_eq m c).symm)
    (rreg4 m) (fun c => held_congr (F := F) c (V13_eq m c)) (fun c => held_congr (F := F) c (V14_eq m c).symm)
    (rreg5 m) (fun c => held_congr (F := F) c (V14_eq m c)) (fun c => held_congr (F := F) c (V15_eq m c).symm)
    (rreg6 m) (fun c => held_congr (F := F) c (V15_eq m c)) (fun c => held_congr (F := F) c (V16_eq m c).symm)
    (rreg7 m) (fun c => held_congr (F := F) c (V16_eq m c)) (fun c => held_congr (F := F) c (V17_eq m c).symm)
    (rreg8 m) (fun c => held_congr (F := F) c (V17_eq m c)) (fun c => held_congr (F := F) c (V18_eq m c).symm)
    (rreg9 m) (fun c => held_congr (F := F) c (V18_eq m c)) (fun c => held_congr (F := F) c (V19_eq m c).symm)
    (rreg10 m) (fun c => held_congr (F := F) c (V19_eq m c)) (fun c => held_congr (F := F) c (V20_eq m c).symm)
    (rreg11 m) (fun c => held_congr (F := F) c (V20_eq m c)) (fun c => held_congr (F := F) c (V21_eq m c).symm)
    (rreg12 m) (fun c => held_congr (F := F) c (V21_eq m c)) (fun c => held_congr (F := F) c (V22_eq m c).symm)
    (rreg13 m) (fun c => held_congr (F := F) c (V22_eq m c)) (fun c => held_congr (F := F) c (V23_eq m c).symm)
    (rreg14x m) (fun c => held_congr (F := F) c (V24_eq m c))
    (fun c => by
      show iprop(∃ x : Buf (Elt F) ((c : Thread nD τ).loc main_v26),
          StableHlo.held (c : Thread nD τ) (Pipeline.ucRefs τ sig) (Function.update (U24 m c) main_v26 x) ∗ R (F := F) c)
        ⊢ iprop(∃ x : Buf (Elt F) ((c : Thread nD τ).loc main_v26),
          StableHlo.held (c : Thread nD τ) (Pipeline.ucRefs τ sig) (Function.update (V24 m (outs m) c) main_v26 x) ∗ R (F := F) c)
      rw [V24_eq m c])

end Cert.Kernel.Hand

end
-- ==== Proof.KI.Reg0.lean ====
/-
  Region 0 (a row block times the whole weight matrix, then tanh): what each staging buffer holds around the body at
  a grid point, the body's triple over whole staging buffers, the pipeline's proof data and the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the previous point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the previous point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 0's whole buffer as one rectangle. -/
abbrev r0_0 : Rect S200x3000 := Rect.unit (s := S200x3000) ![0, 0] S200x3000.size inb_S200x3000_S200x3000_0_0

/-- Input window 1's whole buffer as one rectangle. -/
abbrev r0_1 : Rect S3000x512 := Rect.unit (s := S3000x512) ![0, 0] S3000x512.size inb_S3000x512_S3000x512_0_0

/-- Output window 2's whole buffer as one rectangle. -/
abbrev r0_2 : Rect S200x512 := Rect.unit (s := S200x512) ![0, 0] S200x512.size inb_S200x512_S200x512_0_0

/-- Output window 2's staging buffer after the body, from the input windows' blocks: its one whole store. -/
def out0_2 (x0 : Vec F S200x3000 .f32) (x1 : Vec F S3000x512 .f32) : Vec F S200x512 .f32 :=
  View.canon [⟨r0_2, k0_pay1 (View.ld x0 r0_0) (View.ld x1 r0_1)⟩]

/-- The one store covers the buffer. -/
theorem cover0_2 (p0 : Vec F S200x512 .f32) (y : S200x512.Idx) :
    ∃ pc ∈ ([⟨r0_2, p0⟩] : List (View.Piece (Elt F) S200x512 .f32)), y ∈ pc.1.set :=
  View.cover_of_tiled [⟨r0_2, p0⟩] S200x512.size (by rfl) y

set_option maxHeartbeats 1000000 in
/-- The body on whole staging buffers, the inputs' at given contents and the outputs' at anything, runs to the
    continuation with the inputs' as they were and each output's at its store's value. -/
theorem sound_kernel0 (c : Dev nD) (E : Set ℕ) (i : grid0.Coords)
    (arg0 : Memref sig .tc .vmem S200x3000 .f32) (harg0 : arg0.IsWhole) (arg1 : Memref sig .tc .vmem S3000x512 .f32) (harg1 : arg1.IsWhole) (arg2 : Memref sig .tc .vmem S200x512 .f32) (harg2 : arg2.IsWhole)
    (x0 : Vec F S200x3000 .f32) (x1 : Vec F S3000x512 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_tanh_kernel i arg0 harg0 arg1 harg1 arg2 harg2) K := by
  simp only [cc0__proj_tanh_kernel_eq_skeleton]; unfold cc0__proj_tanh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 (F := F) _)

/-- The proof data of pipeline 0 on core `c`: the arrays as the region finds them; after the body at point `t` each
    input's buffer at its block and each output's at its store's value of the input blocks; the scoped rest and the
    generator register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 (a row block times the whole weight matrix, then tanh): what each staging buffer holds around the body at
  a grid point, the body's triple over whole staging buffers, the pipeline's proof data and the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the previous point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the previous point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 0's whole buffer as one rectangle. -/
abbrev r1_0 : Rect S200x3000 := Rect.unit (s := S200x3000) ![0, 0] S200x3000.size inb_S200x3000_S200x3000_0_0

/-- Input window 1's whole buffer as one rectangle. -/
abbrev r1_1 : Rect S3000x512 := Rect.unit (s := S3000x512) ![0, 0] S3000x512.size inb_S3000x512_S3000x512_0_0

/-- Output window 2's whole buffer as one rectangle. -/
abbrev r1_2 : Rect S200x512 := Rect.unit (s := S200x512) ![0, 0] S200x512.size inb_S200x512_S200x512_0_0

/-- Output window 2's staging buffer after the body, from the input windows' blocks: its one whole store. -/
def out1_2 (x0 : Vec F S200x3000 .f32) (x1 : Vec F S3000x512 .f32) : Vec F S200x512 .f32 :=
  View.canon [⟨r1_2, k1_pay1 (View.ld x0 r1_0) (View.ld x1 r1_1)⟩]

/-- The one store covers the buffer. -/
theorem cover1_2 (p0 : Vec F S200x512 .f32) (y : S200x512.Idx) :
    ∃ pc ∈ ([⟨r1_2, p0⟩] : List (View.Piece (Elt F) S200x512 .f32)), y ∈ pc.1.set :=
  View.cover_of_tiled [⟨r1_2, p0⟩] S200x512.size (by rfl) y

set_option maxHeartbeats 1000000 in
/-- The body on whole staging buffers, the inputs' at given contents and the outputs' at anything, runs to the
    continuation with the inputs' as they were and each output's at its store's value. -/
theorem sound_kernel1 (c : Dev nD) (E : Set ℕ) (i : grid1.Coords)
    (arg0 : Memref sig .tc .vmem S200x3000 .f32) (harg0 : arg0.IsWhole) (arg1 : Memref sig .tc .vmem S3000x512 .f32) (harg1 : arg1.IsWhole) (arg2 : Memref sig .tc .vmem S200x512 .f32) (harg2 : arg2.IsWhole)
    (x0 : Vec F S200x3000 .f32) (x1 : Vec F S3000x512 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__proj_tanh_kernel i arg0 harg0 arg1 harg1 arg2 harg2) K := by
  simp only [cc1__proj_tanh_kernel_eq_skeleton]; unfold cc1__proj_tanh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 (F := F) _)

/-- The proof data of pipeline 1 on core `c`: the arrays as the region finds them; after the body at point `t` each
    input's buffer at its block and each output's at its store's value of the input blocks; the scoped rest and the
    generator register ride along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 (a row block of the adjacency times the features, times the weights, then tanh; the adjacency block is
  also written out in the narrower format): staging contents around the body, the body's triple, the proof data and
  the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved since the previous point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved since the previous point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 0's whole buffer as one rectangle. -/
abbrev r2_0 : Rect S200x3000 := Rect.unit (s := S200x3000) ![0, 0] S200x3000.size inb_S200x3000_S200x3000_0_0

/-- Input window 1's whole buffer as one rectangle. -/
abbrev r2_1 : Rect S3000x256 := Rect.unit (s := S3000x256) ![0, 0] S3000x256.size inb_S3000x256_S3000x256_0_0

/-- Input window 2's whole buffer as one rectangle. -/
abbrev r2_2 : Rect S256x128 := Rect.unit (s := S256x128) ![0, 0] S256x128.size inb_S256x128_S256x128_0_0

/-- Output window 3's whole buffer as one rectangle. -/
abbrev r2_3 : Rect S200x128 := Rect.unit (s := S200x128) ![0, 0] S200x128.size inb_S200x128_S200x128_0_0

/-- Output window 3's staging buffer after the body, from the input windows' blocks: its one whole store. -/
def out2_3 (x0 : Vec F S200x3000 .f32) (x1 : Vec F S3000x256 .f32) (x2 : Vec F S256x128 .f32) : Vec F S200x128 .f32 :=
  View.canon [⟨r2_3, k2_pay2 (View.ld x0 r2_0) (View.ld x1 r2_1) (View.ld x2 r2_2)⟩]

/-- The one store covers the buffer. -/
theorem cover2_3 (p0 : Vec F S200x128 .f32) (y : S200x128.Idx) :
    ∃ pc ∈ ([⟨r2_3, p0⟩] : List (View.Piece (Elt F) S200x128 .f32)), y ∈ pc.1.set :=
  View.cover_of_tiled [⟨r2_3, p0⟩] S200x128.size (by rfl) y

/-- Output window 4's whole buffer as one rectangle. -/
abbrev r2_4 : Rect S200x3000 := Rect.unit (s := S200x3000) ![0, 0] S200x3000.size inb_S200x3000_S200x3000_0_0

/-- Output window 4's staging buffer after the body, from the input windows' blocks: its one whole store. -/
def out2_4 (x0 : Vec F S200x3000 .f32) : Vec F S200x3000 .bf16 :=
  View.canon [⟨r2_4, k2_pay1 (View.ld x0 r2_0)⟩]

/-- The one store covers the buffer. -/
theorem cover2_4 (p0 : Vec F S200x3000 .bf16) (y : S200x3000.Idx) :
    ∃ pc ∈ ([⟨r2_4, p0⟩] : List (View.Piece (Elt F) S200x3000 .bf16)), y ∈ pc.1.set :=
  View.cover_of_tiled [⟨r2_4, p0⟩] S200x3000.size (by rfl) y

set_option maxHeartbeats 1000000 in
/-- The body on whole staging buffers, the inputs' at given contents and the outputs' at anything, runs to the
    continuation with the inputs' as they were and each output's at its store's value. -/
theorem sound_kernel2 (c : Dev nD) (E : Set ℕ) (i : grid2.Coords)
    (arg0 : Memref sig .tc .vmem S200x3000 .f32) (harg0 : arg0.IsWhole) (arg1 : Memref sig .tc .vmem S3000x256 .f32) (harg1 : arg1.IsWhole) (arg2 : Memref sig .tc .vmem S256x128 .f32) (harg2 : arg2.IsWhole) (arg3 : Memref sig .tc .vmem S200x128 .f32) (harg3 : arg3.IsWhole) (arg4 : Memref sig .tc .vmem S200x3000 .bf16) (harg4 : arg4.IsWhole)
    (x0 : Vec F S200x3000 .f32) (x1 : Vec F S3000x256 .f32) (x2 : Vec F S256x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2) ∗ owns (c : Thread nD τ) arg4 fullShare (out2_4 x0)) -∗ K ⟨⟩))
      ⊢ wp frame (wpE (defs₀ (F := F)) Variants.none c none) E (cc2__spmm_proj_cache_kernel i arg0 harg0 arg1 harg1 arg2 harg2 arg3 harg3 arg4 harg4) K := by
  simp only [cc2__spmm_proj_cache_kernel_eq_skeleton]; unfold cc2__spmm_proj_cache_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 (F := F) _)
  iexists _; isplitr
  swap; · iexact H4
  ipureintro
  exact View.read_writes_eq_canon _ _ _ (cover2_4 (F := F) _)

/-- The proof data of pipeline 2 on core `c`: the arrays as the region finds them; after the body at point `t` each
    input's buffer at its block and each output's at its store's value of the input blocks; the scoped rest and the
    generator register ride along untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 (a row block of the adjacency times the features, times the widened weights): staging contents around
  the body, the body's triple, the proof data and the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where it is not
    fetched its block index has not moved since the previous point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: where it is not
    fetched its block index has not moved since the previous point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: where it is not
    fetched its block index has not moved since the previous point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 0's whole buffer as one rectangle. -/
abbrev r3_0 : Rect S200x3000 := Rect.unit (s := S200x3000) ![0, 0] S200x3000.size inb_S200x3000_S200x3000_0_0

/-- Input window 1's whole buffer as one rectangle. -/
abbrev r3_1 : Rect S3000x128 := Rect.unit (s := S3000x128) ![0, 0] S3000x128.size inb_S3000x128_S3000x128_0_0

/-- Input window 2's whole buffer as one rectangle. -/
abbrev r3_2 : Rect S128x128 := Rect.unit (s := S128x128) ![0, 0] S128x128.size inb_S128x128_S128x128_0_0

/-- Output window 3's whole buffer as one rectangle. -/
abbrev r3_3 : Rect S200x128 := Rect.unit (s := S200x128) ![0, 0] S200x128.size inb_S200x128_S200x128_0_0

/-- Output window 3's staging buffer after the body, from the input windows' blocks: its one whole store. -/
def out3_3 (x0 : Vec F S200x3000 .bf16) (x1 : Vec F S3000x128 .f32) (x2 : Vec F S128x128 .f32) : Vec F S200x128 .f32 :=
  View.canon [⟨r3_3, k3_pay1 (View.ld x0 r3_0) (View.ld x1 r3_1) (View.ld x2 r3_2)⟩]

/-- The one store covers the buffer. -/
theorem cover3_3 (p0 : Vec F S200x128 .f32) (y : S200x128.Idx) :
    ∃ pc ∈ ([⟨r3_3, p0⟩] : List (View.Piece (Elt F) S200x128 .f32)), y ∈ pc.1.set :=
  View.cover_of_tiled [⟨r3_3, p0⟩] S200x128.size (by rfl) y

set_option maxHeartbeats 1000000 in
/-- The body on whole staging buffers, the inputs' at given contents and the outputs' at anything, runs to the
    continuation with the inputs' as they were and each output's at its store's value. -/
theorem sound_kernel3 (c : Dev nD) (E : Set ℕ) (i : grid3.Coords)
    (arg0 : Memref sig .tc .vmem S200x3000 .bf16) (harg0 : arg0.IsWhole) (arg1 : Memref sig .tc .vmem S3000x128 .f32) (harg1 : arg1.IsWhole) (arg2 : Memref sig .tc .vmem S128x128 .f32) (harg2 : arg2.IsWhole) (arg3 : Memref sig .tc .vmem S200x128 .f32) (harg3 : arg3.IsWhole)
    (x0 : Vec F S200x3000 .bf16) (x1 : Vec F S3000x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__spmm_proj_kernel i arg0 harg0 arg1 harg1 arg2 harg2 arg3 harg3) K := by
  simp only [cc3__spmm_proj_kernel_eq_skeleton]; unfold cc3__spmm_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 (F := F) _)

/-- The proof data of pipeline 3 on core `c`: the arrays as the region finds them; after the body at point `t` each
    input's buffer at its block and each output's at its store's value of the input blocks; the scoped rest and the
    generator register ride along untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 (a row block of the adjacency times the features): staging contents around the body, the body's
  triple, the proof data and the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it is not
    fetched its block index has not moved since the previous point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: where it is not
    fetched its block index has not moved since the previous point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 0's whole buffer as one rectangle. -/
abbrev r4_0 : Rect S200x3000 := Rect.unit (s := S200x3000) ![0, 0] S200x3000.size inb_S200x3000_S200x3000_0_0

/-- Input window 1's whole buffer as one rectangle. -/
abbrev r4_1 : Rect S3000x128 := Rect.unit (s := S3000x128) ![0, 0] S3000x128.size inb_S3000x128_S3000x128_0_0

/-- Output window 2's whole buffer as one rectangle. -/
abbrev r4_2 : Rect S200x128 := Rect.unit (s := S200x128) ![0, 0] S200x128.size inb_S200x128_S200x128_0_0

/-- Output window 2's staging buffer after the body, from the input windows' blocks: its one whole store. -/
def out4_2 (x0 : Vec F S200x3000 .bf16) (x1 : Vec F S3000x128 .f32) : Vec F S200x128 .f32 :=
  View.canon [⟨r4_2, k4_pay1 (View.ld x0 r4_0) (View.ld x1 r4_1)⟩]

/-- The one store covers the buffer. -/
theorem cover4_2 (p0 : Vec F S200x128 .f32) (y : S200x128.Idx) :
    ∃ pc ∈ ([⟨r4_2, p0⟩] : List (View.Piece (Elt F) S200x128 .f32)), y ∈ pc.1.set :=
  View.cover_of_tiled [⟨r4_2, p0⟩] S200x128.size (by rfl) y

set_option maxHeartbeats 1000000 in
/-- The body on whole staging buffers, the inputs' at given contents and the outputs' at anything, runs to the
    continuation with the inputs' as they were and each output's at its store's value. -/
theorem sound_kernel4 (c : Dev nD) (E : Set ℕ) (i : grid4.Coords)
    (arg0 : Memref sig .tc .vmem S200x3000 .bf16) (harg0 : arg0.IsWhole) (arg1 : Memref sig .tc .vmem S3000x128 .f32) (harg1 : arg1.IsWhole) (arg2 : Memref sig .tc .vmem S200x128 .f32) (harg2 : arg2.IsWhole)
    (x0 : Vec F S200x3000 .bf16) (x1 : Vec F S3000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__spmm_kernel i arg0 harg0 arg1 harg1 arg2 harg2) K := by
  simp only [cc4__spmm_kernel_eq_skeleton]; unfold cc4__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 (F := F) _)

/-- The proof data of pipeline 4 on core `c`: the arrays as the region finds them; after the body at point `t` each
    input's buffer at its block and each output's at its store's value of the input blocks; the scoped rest and the
    generator register ride along untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/-
  Region 5 (a row block of the adjacency times the features, times the weights, then tanh; the adjacency block is
  also written out in the narrower format): staging contents around the body, the body's triple, the proof data and
  the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: where it is not
    fetched its block index has not moved since the previous point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: where it is not
    fetched its block index has not moved since the previous point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: where it is not
    fetched its block index has not moved since the previous point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 0's whole buffer as one rectangle. -/
abbrev r5_0 : Rect S200x3000 := Rect.unit (s := S200x3000) ![0, 0] S200x3000.size inb_S200x3000_S200x3000_0_0

/-- Input window 1's whole buffer as one rectangle. -/
abbrev r5_1 : Rect S3000x256 := Rect.unit (s := S3000x256) ![0, 0] S3000x256.size inb_S3000x256_S3000x256_0_0

/-- Input window 2's whole buffer as one rectangle. -/
abbrev r5_2 : Rect S256x128 := Rect.unit (s := S256x128) ![0, 0] S256x128.size inb_S256x128_S256x128_0_0

/-- Output window 3's whole buffer as one rectangle. -/
abbrev r5_3 : Rect S200x128 := Rect.unit (s := S200x128) ![0, 0] S200x128.size inb_S200x128_S200x128_0_0

/-- Output window 3's staging buffer after the body, from the input windows' blocks: its one whole store. -/
def out5_3 (x0 : Vec F S200x3000 .f32) (x1 : Vec F S3000x256 .f32) (x2 : Vec F S256x128 .f32) : Vec F S200x128 .f32 :=
  View.canon [⟨r5_3, k5_pay2 (View.ld x0 r5_0) (View.ld x1 r5_1) (View.ld x2 r5_2)⟩]

/-- The one store covers the buffer. -/
theorem cover5_3 (p0 : Vec F S200x128 .f32) (y : S200x128.Idx) :
    ∃ pc ∈ ([⟨r5_3, p0⟩] : List (View.Piece (Elt F) S200x128 .f32)), y ∈ pc.1.set :=
  View.cover_of_tiled [⟨r5_3, p0⟩] S200x128.size (by rfl) y

/-- Output window 4's whole buffer as one rectangle. -/
abbrev r5_4 : Rect S200x3000 := Rect.unit (s := S200x3000) ![0, 0] S200x3000.size inb_S200x3000_S200x3000_0_0

/-- Output window 4's staging buffer after the body, from the input windows' blocks: its one whole store. -/
def out5_4 (x0 : Vec F S200x3000 .f32) : Vec F S200x3000 .bf16 :=
  View.canon [⟨r5_4, k5_pay1 (View.ld x0 r5_0)⟩]

/-- The one store covers the buffer. -/
theorem cover5_4 (p0 : Vec F S200x3000 .bf16) (y : S200x3000.Idx) :
    ∃ pc ∈ ([⟨r5_4, p0⟩] : List (View.Piece (Elt F) S200x3000 .bf16)), y ∈ pc.1.set :=
  View.cover_of_tiled [⟨r5_4, p0⟩] S200x3000.size (by rfl) y

set_option maxHeartbeats 1000000 in
/-- The body on whole staging buffers, the inputs' at given contents and the outputs' at anything, runs to the
    continuation with the inputs' as they were and each output's at its store's value. -/
theorem sound_kernel5 (c : Dev nD) (E : Set ℕ) (i : grid5.Coords)
    (arg0 : Memref sig .tc .vmem S200x3000 .f32) (harg0 : arg0.IsWhole) (arg1 : Memref sig .tc .vmem S3000x256 .f32) (harg1 : arg1.IsWhole) (arg2 : Memref sig .tc .vmem S256x128 .f32) (harg2 : arg2.IsWhole) (arg3 : Memref sig .tc .vmem S200x128 .f32) (harg3 : arg3.IsWhole) (arg4 : Memref sig .tc .vmem S200x3000 .bf16) (harg4 : arg4.IsWhole)
    (x0 : Vec F S200x3000 .f32) (x1 : Vec F S3000x256 .f32) (x2 : Vec F S256x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2) ∗ owns (c : Thread nD τ) arg4 fullShare (out5_4 x0)) -∗ K ⟨⟩))
      ⊢ wp frame (wpE (defs₀ (F := F)) Variants.none c none) E (cc5__spmm_proj_cache_kernel i arg0 harg0 arg1 harg1 arg2 harg2 arg3 harg3 arg4 harg4) K := by
  simp only [cc5__spmm_proj_cache_kernel_eq_skeleton]; unfold cc5__spmm_proj_cache_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 (F := F) _)
  iexists _; isplitr
  swap; · iexact H4
  ipureintro
  exact View.read_writes_eq_canon _ _ _ (cover5_4 (F := F) _)

/-- The proof data of pipeline 5 on core `c`: the arrays as the region finds them; after the body at point `t` each
    input's buffer at its block and each output's at its store's value of the input blocks; the scoped rest and the
    generator register ride along untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  Region 6 (a row block of the adjacency times the features, times the widened weights): staging contents around
  the body, the body's triple, the proof data and the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: where it is not
    fetched its block index has not moved since the previous point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: where it is not
    fetched its block index has not moved since the previous point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: where it is not
    fetched its block index has not moved since the previous point. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 0's whole buffer as one rectangle. -/
abbrev r6_0 : Rect S200x3000 := Rect.unit (s := S200x3000) ![0, 0] S200x3000.size inb_S200x3000_S200x3000_0_0

/-- Input window 1's whole buffer as one rectangle. -/
abbrev r6_1 : Rect S3000x128 := Rect.unit (s := S3000x128) ![0, 0] S3000x128.size inb_S3000x128_S3000x128_0_0

/-- Input window 2's whole buffer as one rectangle. -/
abbrev r6_2 : Rect S128x128 := Rect.unit (s := S128x128) ![0, 0] S128x128.size inb_S128x128_S128x128_0_0

/-- Output window 3's whole buffer as one rectangle. -/
abbrev r6_3 : Rect S200x128 := Rect.unit (s := S200x128) ![0, 0] S200x128.size inb_S200x128_S200x128_0_0

/-- Output window 3's staging buffer after the body, from the input windows' blocks: its one whole store. -/
def out6_3 (x0 : Vec F S200x3000 .bf16) (x1 : Vec F S3000x128 .f32) (x2 : Vec F S128x128 .f32) : Vec F S200x128 .f32 :=
  View.canon [⟨r6_3, k6_pay1 (View.ld x0 r6_0) (View.ld x1 r6_1) (View.ld x2 r6_2)⟩]

/-- The one store covers the buffer. -/
theorem cover6_3 (p0 : Vec F S200x128 .f32) (y : S200x128.Idx) :
    ∃ pc ∈ ([⟨r6_3, p0⟩] : List (View.Piece (Elt F) S200x128 .f32)), y ∈ pc.1.set :=
  View.cover_of_tiled [⟨r6_3, p0⟩] S200x128.size (by rfl) y

set_option maxHeartbeats 1000000 in
/-- The body on whole staging buffers, the inputs' at given contents and the outputs' at anything, runs to the
    continuation with the inputs' as they were and each output's at its store's value. -/
theorem sound_kernel6 (c : Dev nD) (E : Set ℕ) (i : grid6.Coords)
    (arg0 : Memref sig .tc .vmem S200x3000 .bf16) (harg0 : arg0.IsWhole) (arg1 : Memref sig .tc .vmem S3000x128 .f32) (harg1 : arg1.IsWhole) (arg2 : Memref sig .tc .vmem S128x128 .f32) (harg2 : arg2.IsWhole) (arg3 : Memref sig .tc .vmem S200x128 .f32) (harg3 : arg3.IsWhole)
    (x0 : Vec F S200x3000 .bf16) (x1 : Vec F S3000x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__spmm_proj_kernel i arg0 harg0 arg1 harg1 arg2 harg2 arg3 harg3) K := by
  simp only [cc6__spmm_proj_kernel_eq_skeleton]; unfold cc6__spmm_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 (F := F) _)

/-- The proof data of pipeline 6 on core `c`: the arrays as the region finds them; after the body at point `t` each
    input's buffer at its block and each output's at its store's value of the input blocks; the scoped rest and the
    generator register ride along untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/-
  Region 7 (a row block of the adjacency times the features): staging contents around the body, the body's
  triple, the proof data and the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not: where it is not
    fetched its block index has not moved since the previous point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not: where it is not
    fetched its block index has not moved since the previous point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 0's whole buffer as one rectangle. -/
abbrev r7_0 : Rect S200x3000 := Rect.unit (s := S200x3000) ![0, 0] S200x3000.size inb_S200x3000_S200x3000_0_0

/-- Input window 1's whole buffer as one rectangle. -/
abbrev r7_1 : Rect S3000x128 := Rect.unit (s := S3000x128) ![0, 0] S3000x128.size inb_S3000x128_S3000x128_0_0

/-- Output window 2's whole buffer as one rectangle. -/
abbrev r7_2 : Rect S200x128 := Rect.unit (s := S200x128) ![0, 0] S200x128.size inb_S200x128_S200x128_0_0

/-- Output window 2's staging buffer after the body, from the input windows' blocks: its one whole store. -/
def out7_2 (x0 : Vec F S200x3000 .bf16) (x1 : Vec F S3000x128 .f32) : Vec F S200x128 .f32 :=
  View.canon [⟨r7_2, k7_pay1 (View.ld x0 r7_0) (View.ld x1 r7_1)⟩]

/-- The one store covers the buffer. -/
theorem cover7_2 (p0 : Vec F S200x128 .f32) (y : S200x128.Idx) :
    ∃ pc ∈ ([⟨r7_2, p0⟩] : List (View.Piece (Elt F) S200x128 .f32)), y ∈ pc.1.set :=
  View.cover_of_tiled [⟨r7_2, p0⟩] S200x128.size (by rfl) y

set_option maxHeartbeats 1000000 in
/-- The body on whole staging buffers, the inputs' at given contents and the outputs' at anything, runs to the
    continuation with the inputs' as they were and each output's at its store's value. -/
theorem sound_kernel7 (c : Dev nD) (E : Set ℕ) (i : grid7.Coords)
    (arg0 : Memref sig .tc .vmem S200x3000 .bf16) (harg0 : arg0.IsWhole) (arg1 : Memref sig .tc .vmem S3000x128 .f32) (harg1 : arg1.IsWhole) (arg2 : Memref sig .tc .vmem S200x128 .f32) (harg2 : arg2.IsWhole)
    (x0 : Vec F S200x3000 .bf16) (x1 : Vec F S3000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out7_2 x0 x1)) -∗ K ⟨⟩))
      ⊢ wp frame (wpE (defs₀ (F := F)) Variants.none c none) E (cc7__spmm_kernel i arg0 harg0 arg1 harg1 arg2 harg2) K := by
  simp only [cc7__spmm_kernel_eq_skeleton]; unfold cc7__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 (F := F) _)

/-- The proof data of pipeline 7 on core `c`: the arrays as the region finds them; after the body at point `t` each
    input's buffer at its block and each output's at its store's value of the input blocks; the scoped rest and the
    generator register ride along untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' buffers hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
/-
  Region 8 (a row block of the adjacency times the features, times the weights, then tanh; the adjacency block is
  also written out in the narrower format): staging contents around the body, the body's triple, the proof data and
  the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not: where it is not
    fetched its block index has not moved since the previous point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not: where it is not
    fetched its block index has not moved since the previous point. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not: where it is not
    fetched its block index has not moved since the previous point. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 0's whole buffer as one rectangle. -/
abbrev r8_0 : Rect S200x3000 := Rect.unit (s := S200x3000) ![0, 0] S200x3000.size inb_S200x3000_S200x3000_0_0

/-- Input window 1's whole buffer as one rectangle. -/
abbrev r8_1 : Rect S3000x256 := Rect.unit (s := S3000x256) ![0, 0] S3000x256.size inb_S3000x256_S3000x256_0_0

/-- Input window 2's whole buffer as one rectangle. -/
abbrev r8_2 : Rect S256x128 := Rect.unit (s := S256x128) ![0, 0] S256x128.size inb_S256x128_S256x128_0_0

/-- Output window 3's whole buffer as one rectangle. -/
abbrev r8_3 : Rect S200x128 := Rect.unit (s := S200x128) ![0, 0] S200x128.size inb_S200x128_S200x128_0_0

/-- Output window 3's staging buffer after the body, from the input windows' blocks: its one whole store. -/
def out8_3 (x0 : Vec F S200x3000 .f32) (x1 : Vec F S3000x256 .f32) (x2 : Vec F S256x128 .f32) : Vec F S200x128 .f32 :=
  View.canon [⟨r8_3, k8_pay2 (View.ld x0 r8_0) (View.ld x1 r8_1) (View.ld x2 r8_2)⟩]

/-- The one store covers the buffer. -/
theorem cover8_3 (p0 : Vec F S200x128 .f32) (y : S200x128.Idx) :
    ∃ pc ∈ ([⟨r8_3, p0⟩] : List (View.Piece (Elt F) S200x128 .f32)), y ∈ pc.1.set :=
  View.cover_of_tiled [⟨r8_3, p0⟩] S200x128.size (by rfl) y

/-- Output window 4's whole buffer as one rectangle. -/
abbrev r8_4 : Rect S200x3000 := Rect.unit (s := S200x3000) ![0, 0] S200x3000.size inb_S200x3000_S200x3000_0_0

/-- Output window 4's staging buffer after the body, from the input windows' blocks: its one whole store. -/
def out8_4 (x0 : Vec F S200x3000 .f32) : Vec F S200x3000 .bf16 :=
  View.canon [⟨r8_4, k8_pay1 (View.ld x0 r8_0)⟩]

/-- The one store covers the buffer. -/
theorem cover8_4 (p0 : Vec F S200x3000 .bf16) (y : S200x3000.Idx) :
    ∃ pc ∈ ([⟨r8_4, p0⟩] : List (View.Piece (Elt F) S200x3000 .bf16)), y ∈ pc.1.set :=
  View.cover_of_tiled [⟨r8_4, p0⟩] S200x3000.size (by rfl) y

set_option maxHeartbeats 1000000 in
/-- The body on whole staging buffers, the inputs' at given contents and the outputs' at anything, runs to the
    continuation with the inputs' as they were and each output's at its store's value. -/
theorem sound_kernel8 (c : Dev nD) (E : Set ℕ) (i : grid8.Coords)
    (arg0 : Memref sig .tc .vmem S200x3000 .f32) (harg0 : arg0.IsWhole) (arg1 : Memref sig .tc .vmem S3000x256 .f32) (harg1 : arg1.IsWhole) (arg2 : Memref sig .tc .vmem S256x128 .f32) (harg2 : arg2.IsWhole) (arg3 : Memref sig .tc .vmem S200x128 .f32) (harg3 : arg3.IsWhole) (arg4 : Memref sig .tc .vmem S200x3000 .bf16) (harg4 : arg4.IsWhole)
    (x0 : Vec F S200x3000 .f32) (x1 : Vec F S3000x256 .f32) (x2 : Vec F S256x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out8_3 x0 x1 x2) ∗ owns (c : Thread nD τ) arg4 fullShare (out8_4 x0)) -∗ K ⟨⟩))
      ⊢ wp frame (wpE (defs₀ (F := F)) Variants.none c none) E (cc8__spmm_proj_cache_kernel i arg0 harg0 arg1 harg1 arg2 harg2 arg3 harg3 arg4 harg4) K := by
  simp only [cc8__spmm_proj_cache_kernel_eq_skeleton]; unfold cc8__spmm_proj_cache_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover8_3 (F := F) _)
  iexists _; isplitr
  swap; · iexact H4
  ipureintro
  exact View.read_writes_eq_canon _ _ _ (cover8_4 (F := F) _)

/-- The proof data of pipeline 8 on core `c`: the arrays as the region finds them; after the body at point `t` each
    input's buffer at its block and each output's at its store's value of the input blocks; the scoped rest and the
    generator register ride along untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
    | ⟨4, _⟩ => out8_4 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]
theorem after8_4 (c : Dev nD) (t : Fin cfg8.N) : (dat8 V c).after 4 t = out8_4 (iblk8 V c 0 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' buffers hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
/-
  Region 9 (a row block of the adjacency times the features, times the widened weights): staging contents around
  the body, the body's triple, the proof data and the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not: where it is not
    fetched its block index has not moved since the previous point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not: where it is not
    fetched its block index has not moved since the previous point. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not: where it is not
    fetched its block index has not moved since the previous point. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 0's whole buffer as one rectangle. -/
abbrev r9_0 : Rect S200x3000 := Rect.unit (s := S200x3000) ![0, 0] S200x3000.size inb_S200x3000_S200x3000_0_0

/-- Input window 1's whole buffer as one rectangle. -/
abbrev r9_1 : Rect S3000x128 := Rect.unit (s := S3000x128) ![0, 0] S3000x128.size inb_S3000x128_S3000x128_0_0

/-- Input window 2's whole buffer as one rectangle. -/
abbrev r9_2 : Rect S128x128 := Rect.unit (s := S128x128) ![0, 0] S128x128.size inb_S128x128_S128x128_0_0

/-- Output window 3's whole buffer as one rectangle. -/
abbrev r9_3 : Rect S200x128 := Rect.unit (s := S200x128) ![0, 0] S200x128.size inb_S200x128_S200x128_0_0

/-- Output window 3's staging buffer after the body, from the input windows' blocks: its one whole store. -/
def out9_3 (x0 : Vec F S200x3000 .bf16) (x1 : Vec F S3000x128 .f32) (x2 : Vec F S128x128 .f32) : Vec F S200x128 .f32 :=
  View.canon [⟨r9_3, k9_pay1 (View.ld x0 r9_0) (View.ld x1 r9_1) (View.ld x2 r9_2)⟩]

/-- The one store covers the buffer. -/
theorem cover9_3 (p0 : Vec F S200x128 .f32) (y : S200x128.Idx) :
    ∃ pc ∈ ([⟨r9_3, p0⟩] : List (View.Piece (Elt F) S200x128 .f32)), y ∈ pc.1.set :=
  View.cover_of_tiled [⟨r9_3, p0⟩] S200x128.size (by rfl) y

set_option maxHeartbeats 1000000 in
/-- The body on whole staging buffers, the inputs' at given contents and the outputs' at anything, runs to the
    continuation with the inputs' as they were and each output's at its store's value. -/
theorem sound_kernel9 (c : Dev nD) (E : Set ℕ) (i : grid9.Coords)
    (arg0 : Memref sig .tc .vmem S200x3000 .bf16) (harg0 : arg0.IsWhole) (arg1 : Memref sig .tc .vmem S3000x128 .f32) (harg1 : arg1.IsWhole) (arg2 : Memref sig .tc .vmem S128x128 .f32) (harg2 : arg2.IsWhole) (arg3 : Memref sig .tc .vmem S200x128 .f32) (harg3 : arg3.IsWhole)
    (x0 : Vec F S200x3000 .bf16) (x1 : Vec F S3000x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__spmm_proj_kernel i arg0 harg0 arg1 harg1 arg2 harg2 arg3 harg3) K := by
  simp only [cc9__spmm_proj_kernel_eq_skeleton]; unfold cc9__spmm_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 (F := F) _)

/-- The proof data of pipeline 9 on core `c`: the arrays as the region finds them; after the body at point `t` each
    input's buffer at its block and each output's at its store's value of the input blocks; the scoped rest and the
    generator register ride along untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Reg10.lean ====
/-
  Region 10 (a row block of the adjacency times the features): staging contents around the body, the body's
  triple, the proof data and the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not: where it is not
    fetched its block index has not moved since the previous point. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not: where it is not
    fetched its block index has not moved since the previous point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 0's whole buffer as one rectangle. -/
abbrev r10_0 : Rect S200x3000 := Rect.unit (s := S200x3000) ![0, 0] S200x3000.size inb_S200x3000_S200x3000_0_0

/-- Input window 1's whole buffer as one rectangle. -/
abbrev r10_1 : Rect S3000x128 := Rect.unit (s := S3000x128) ![0, 0] S3000x128.size inb_S3000x128_S3000x128_0_0

/-- Output window 2's whole buffer as one rectangle. -/
abbrev r10_2 : Rect S200x128 := Rect.unit (s := S200x128) ![0, 0] S200x128.size inb_S200x128_S200x128_0_0

/-- Output window 2's staging buffer after the body, from the input windows' blocks: its one whole store. -/
def out10_2 (x0 : Vec F S200x3000 .bf16) (x1 : Vec F S3000x128 .f32) : Vec F S200x128 .f32 :=
  View.canon [⟨r10_2, k10_pay1 (View.ld x0 r10_0) (View.ld x1 r10_1)⟩]

/-- The one store covers the buffer. -/
theorem cover10_2 (p0 : Vec F S200x128 .f32) (y : S200x128.Idx) :
    ∃ pc ∈ ([⟨r10_2, p0⟩] : List (View.Piece (Elt F) S200x128 .f32)), y ∈ pc.1.set :=
  View.cover_of_tiled [⟨r10_2, p0⟩] S200x128.size (by rfl) y

set_option maxHeartbeats 1000000 in
/-- The body on whole staging buffers, the inputs' at given contents and the outputs' at anything, runs to the
    continuation with the inputs' as they were and each output's at its store's value. -/
theorem sound_kernel10 (c : Dev nD) (E : Set ℕ) (i : grid10.Coords)
    (arg0 : Memref sig .tc .vmem S200x3000 .bf16) (harg0 : arg0.IsWhole) (arg1 : Memref sig .tc .vmem S3000x128 .f32) (harg1 : arg1.IsWhole) (arg2 : Memref sig .tc .vmem S200x128 .f32) (harg2 : arg2.IsWhole)
    (x0 : Vec F S200x3000 .bf16) (x1 : Vec F S3000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out10_2 x0 x1)) -∗ K ⟨⟩))
      ⊢ wp frame (wpE (defs₀ (F := F)) Variants.none c none) E (cc10__spmm_kernel i arg0 harg0 arg1 harg1 arg2 harg2) K := by
  simp only [cc10__spmm_kernel_eq_skeleton]; unfold cc10__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 (F := F) _)

/-- The proof data of pipeline 10 on core `c`: the arrays as the region finds them; after the body at point `t` each
    input's buffer at its block and each output's at its store's value of the input blocks; the scoped rest and the
    generator register ride along untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' buffers hold their blocks, so the body's triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Reg11.lean ====
/-
  Region 11 (a row block of the adjacency times the features, times the weights, then tanh; the adjacency block is
  also written out in the narrower format): staging contents around the body, the body's triple, the proof data and
  the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not: where it is not
    fetched its block index has not moved since the previous point. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not: where it is not
    fetched its block index has not moved since the previous point. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not: where it is not
    fetched its block index has not moved since the previous point. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 0's whole buffer as one rectangle. -/
abbrev r11_0 : Rect S200x3000 := Rect.unit (s := S200x3000) ![0, 0] S200x3000.size inb_S200x3000_S200x3000_0_0

/-- Input window 1's whole buffer as one rectangle. -/
abbrev r11_1 : Rect S3000x256 := Rect.unit (s := S3000x256) ![0, 0] S3000x256.size inb_S3000x256_S3000x256_0_0

/-- Input window 2's whole buffer as one rectangle. -/
abbrev r11_2 : Rect S256x128 := Rect.unit (s := S256x128) ![0, 0] S256x128.size inb_S256x128_S256x128_0_0

/-- Output window 3's whole buffer as one rectangle. -/
abbrev r11_3 : Rect S200x128 := Rect.unit (s := S200x128) ![0, 0] S200x128.size inb_S200x128_S200x128_0_0

/-- Output window 3's staging buffer after the body, from the input windows' blocks: its one whole store. -/
def out11_3 (x0 : Vec F S200x3000 .f32) (x1 : Vec F S3000x256 .f32) (x2 : Vec F S256x128 .f32) : Vec F S200x128 .f32 :=
  View.canon [⟨r11_3, k11_pay2 (View.ld x0 r11_0) (View.ld x1 r11_1) (View.ld x2 r11_2)⟩]

/-- The one store covers the buffer. -/
theorem cover11_3 (p0 : Vec F S200x128 .f32) (y : S200x128.Idx) :
    ∃ pc ∈ ([⟨r11_3, p0⟩] : List (View.Piece (Elt F) S200x128 .f32)), y ∈ pc.1.set :=
  View.cover_of_tiled [⟨r11_3, p0⟩] S200x128.size (by rfl) y

/-- Output window 4's whole buffer as one rectangle. -/
abbrev r11_4 : Rect S200x3000 := Rect.unit (s := S200x3000) ![0, 0] S200x3000.size inb_S200x3000_S200x3000_0_0

/-- Output window 4's staging buffer after the body, from the input windows' blocks: its one whole store. -/
def out11_4 (x0 : Vec F S200x3000 .f32) : Vec F S200x3000 .bf16 :=
  View.canon [⟨r11_4, k11_pay1 (View.ld x0 r11_0)⟩]

/-- The one store covers the buffer. -/
theorem cover11_4 (p0 : Vec F S200x3000 .bf16) (y : S200x3000.Idx) :
    ∃ pc ∈ ([⟨r11_4, p0⟩] : List (View.Piece (Elt F) S200x3000 .bf16)), y ∈ pc.1.set :=
  View.cover_of_tiled [⟨r11_4, p0⟩] S200x3000.size (by rfl) y

set_option maxHeartbeats 1000000 in
/-- The body on whole staging buffers, the inputs' at given contents and the outputs' at anything, runs to the
    continuation with the inputs' as they were and each output's at its store's value. -/
theorem sound_kernel11 (c : Dev nD) (E : Set ℕ) (i : grid11.Coords)
    (arg0 : Memref sig .tc .vmem S200x3000 .f32) (harg0 : arg0.IsWhole) (arg1 : Memref sig .tc .vmem S3000x256 .f32) (harg1 : arg1.IsWhole) (arg2 : Memref sig .tc .vmem S256x128 .f32) (harg2 : arg2.IsWhole) (arg3 : Memref sig .tc .vmem S200x128 .f32) (harg3 : arg3.IsWhole) (arg4 : Memref sig .tc .vmem S200x3000 .bf16) (harg4 : arg4.IsWhole)
    (x0 : Vec F S200x3000 .f32) (x1 : Vec F S3000x256 .f32) (x2 : Vec F S256x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out11_3 x0 x1 x2) ∗ owns (c : Thread nD τ) arg4 fullShare (out11_4 x0)) -∗ K ⟨⟩))
      ⊢ wp frame (wpE (defs₀ (F := F)) Variants.none c none) E (cc11__spmm_proj_cache_kernel i arg0 harg0 arg1 harg1 arg2 harg2 arg3 harg3 arg4 harg4) K := by
  simp only [cc11__spmm_proj_cache_kernel_eq_skeleton]; unfold cc11__spmm_proj_cache_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover11_3 (F := F) _)
  iexists _; isplitr
  swap; · iexact H4
  ipureintro
  exact View.read_writes_eq_canon _ _ _ (cover11_4 (F := F) _)

/-- The proof data of pipeline 11 on core `c`: the arrays as the region finds them; after the body at point `t` each
    input's buffer at its block and each output's at its store's value of the input blocks; the scoped rest and the
    generator register ride along untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
    | ⟨4, _⟩ => out11_4 (iblk11 V c 0 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]
theorem after11_4 (c : Dev nD) (t : Fin cfg11.N) : (dat11 V c).after 4 t = out11_4 (iblk11 V c 0 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' buffers hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Reg12.lean ====
/-
  Region 12 (a row block of the adjacency times the features, times the widened weights): staging contents around
  the body, the body's triple, the proof data and the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not: where it is not
    fetched its block index has not moved since the previous point. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not: where it is not
    fetched its block index has not moved since the previous point. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not: where it is not
    fetched its block index has not moved since the previous point. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 0's whole buffer as one rectangle. -/
abbrev r12_0 : Rect S200x3000 := Rect.unit (s := S200x3000) ![0, 0] S200x3000.size inb_S200x3000_S200x3000_0_0

/-- Input window 1's whole buffer as one rectangle. -/
abbrev r12_1 : Rect S3000x128 := Rect.unit (s := S3000x128) ![0, 0] S3000x128.size inb_S3000x128_S3000x128_0_0

/-- Input window 2's whole buffer as one rectangle. -/
abbrev r12_2 : Rect S128x128 := Rect.unit (s := S128x128) ![0, 0] S128x128.size inb_S128x128_S128x128_0_0

/-- Output window 3's whole buffer as one rectangle. -/
abbrev r12_3 : Rect S200x128 := Rect.unit (s := S200x128) ![0, 0] S200x128.size inb_S200x128_S200x128_0_0

/-- Output window 3's staging buffer after the body, from the input windows' blocks: its one whole store. -/
def out12_3 (x0 : Vec F S200x3000 .bf16) (x1 : Vec F S3000x128 .f32) (x2 : Vec F S128x128 .f32) : Vec F S200x128 .f32 :=
  View.canon [⟨r12_3, k12_pay1 (View.ld x0 r12_0) (View.ld x1 r12_1) (View.ld x2 r12_2)⟩]

/-- The one store covers the buffer. -/
theorem cover12_3 (p0 : Vec F S200x128 .f32) (y : S200x128.Idx) :
    ∃ pc ∈ ([⟨r12_3, p0⟩] : List (View.Piece (Elt F) S200x128 .f32)), y ∈ pc.1.set :=
  View.cover_of_tiled [⟨r12_3, p0⟩] S200x128.size (by rfl) y

set_option maxHeartbeats 1000000 in
/-- The body on whole staging buffers, the inputs' at given contents and the outputs' at anything, runs to the
    continuation with the inputs' as they were and each output's at its store's value. -/
theorem sound_kernel12 (c : Dev nD) (E : Set ℕ) (i : grid12.Coords)
    (arg0 : Memref sig .tc .vmem S200x3000 .bf16) (harg0 : arg0.IsWhole) (arg1 : Memref sig .tc .vmem S3000x128 .f32) (harg1 : arg1.IsWhole) (arg2 : Memref sig .tc .vmem S128x128 .f32) (harg2 : arg2.IsWhole) (arg3 : Memref sig .tc .vmem S200x128 .f32) (harg3 : arg3.IsWhole)
    (x0 : Vec F S200x3000 .bf16) (x1 : Vec F S3000x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out12_3 x0 x1 x2)) -∗ K ⟨⟩))
      ⊢ wp frame (wpE (defs₀ (F := F)) Variants.none c none) E (cc12__spmm_proj_kernel i arg0 harg0 arg1 harg1 arg2 harg2 arg3 harg3) K := by
  simp only [cc12__spmm_proj_kernel_eq_skeleton]; unfold cc12__spmm_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 (F := F) _)

/-- The proof data of pipeline 12 on core `c`: the arrays as the region finds them; after the body at point `t` each
    input's buffer at its block and each output's at its store's value of the input blocks; the scoped rest and the
    generator register ride along untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' buffers hold their blocks, so the body's triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Reg13.lean ====
/-
  Region 13 (a row block of the adjacency times the features): staging contents around the body, the body's
  triple, the proof data and the body obligation.
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not: where it is not
    fetched its block index has not moved since the previous point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not: where it is not
    fetched its block index has not moved since the previous point. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 0's whole buffer as one rectangle. -/
abbrev r13_0 : Rect S200x3000 := Rect.unit (s := S200x3000) ![0, 0] S200x3000.size inb_S200x3000_S200x3000_0_0

/-- Input window 1's whole buffer as one rectangle. -/
abbrev r13_1 : Rect S3000x128 := Rect.unit (s := S3000x128) ![0, 0] S3000x128.size inb_S3000x128_S3000x128_0_0

/-- Output window 2's whole buffer as one rectangle. -/
abbrev r13_2 : Rect S200x128 := Rect.unit (s := S200x128) ![0, 0] S200x128.size inb_S200x128_S200x128_0_0

/-- Output window 2's staging buffer after the body, from the input windows' blocks: its one whole store. -/
def out13_2 (x0 : Vec F S200x3000 .bf16) (x1 : Vec F S3000x128 .f32) : Vec F S200x128 .f32 :=
  View.canon [⟨r13_2, k13_pay1 (View.ld x0 r13_0) (View.ld x1 r13_1)⟩]

/-- The one store covers the buffer. -/
theorem cover13_2 (p0 : Vec F S200x128 .f32) (y : S200x128.Idx) :
    ∃ pc ∈ ([⟨r13_2, p0⟩] : List (View.Piece (Elt F) S200x128 .f32)), y ∈ pc.1.set :=
  View.cover_of_tiled [⟨r13_2, p0⟩] S200x128.size (by rfl) y

set_option maxHeartbeats 1000000 in
/-- The body on whole staging buffers, the inputs' at given contents and the outputs' at anything, runs to the
    continuation with the inputs' as they were and each output's at its store's value. -/
theorem sound_kernel13 (c : Dev nD) (E : Set ℕ) (i : grid13.Coords)
    (arg0 : Memref sig .tc .vmem S200x3000 .bf16) (harg0 : arg0.IsWhole) (arg1 : Memref sig .tc .vmem S3000x128 .f32) (harg1 : arg1.IsWhole) (arg2 : Memref sig .tc .vmem S200x128 .f32) (harg2 : arg2.IsWhole)
    (x0 : Vec F S200x3000 .bf16) (x1 : Vec F S3000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out13_2 x0 x1)) -∗ K ⟨⟩))
      ⊢ wp frame (wpE (defs₀ (F := F)) Variants.none c none) E (cc13__spmm_kernel i arg0 harg0 arg1 harg1 arg2 harg2) K := by
  simp only [cc13__spmm_kernel_eq_skeleton]; unfold cc13__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 (F := F) _)

/-- The proof data of pipeline 13 on core `c`: the arrays as the region finds them; after the body at point `t` each
    input's buffer at its block and each output's at its store's value of the input blocks; the scoped rest and the
    generator register ride along untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' buffers hold their blocks, so the body's triple applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.Reg14.lean ====
/-
  Region 14 (the four decoders at once: sigmoid of z zᵀ, by row blocks of 600 and column blocks of 384): what each
  staging buffer holds around the body at a grid point. 8 · 384 = 3072 exceeds the 3000 columns, so the last column
  block of the transposed operand and of the result overhangs its array by 72 columns: its transfers are cut, and the
  staging columns past the array's end hold words nothing names. The row-block window is uncut and holds its block;
  the column-block window holds its block on the columns inside the array; the result's buffer ends at the logistic
  of the product of the two, which on the columns inside the array reads only columns inside the array of the
  second operand — where the float instance says so of its product (column locality, a hypothesis here).
-/
import proofs.«161112_j49297634623838_2_alg».proof.Proof.Gen.KernelIdeal.Launch
import proofs.«161112_j49297634623838_2_alg».proof.Proof.Gen.KernelIdeal.Skeleton
import proofs.«161112_j49297634623838_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it: its part inside the array. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The row-block window's current staging buffer holds its block at every point, fetched there or not. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The whole result buffer as one rectangle. -/
abbrev r14_2 : Rect S1x600x384 := Rect.unit (s := S1x600x384) ![0, 0, 0] S1x600x384.size inb_S1x600x384_S1x600x384_0_0_0

/-- The whole input buffers as rectangles. -/
abbrev r14_0 : Rect S1x600x128 := Rect.unit (s := S1x600x128) ![0, 0, 0] S1x600x128.size inb_S1x600x128_S1x600x128_0_0_0
abbrev r14_1 : Rect S1x128x384 := Rect.unit (s := S1x128x384) ![0, 0, 0] S1x128x384.size inb_S1x128x384_S1x128x384_0_0_0

/-- The result window's staging buffer after the body, from what the two input buffers hold: its one whole store of
    the body's value at the two whole loads. -/
def out14_2 (x0 : Vec F S1x600x128 .f32) (x1 : Vec F S1x128x384 .f32) : Vec F S1x600x384 .f32 :=
  View.canon [⟨r14_2, k14_pay1 (View.ld x0 r14_0) (View.ld x1 r14_1)⟩]

/-- The one store covers the buffer. -/
theorem cover14_2 (p0 : Vec F S1x600x384 .f32) (y : S1x600x384.Idx) :
    ∃ pc ∈ ([⟨r14_2, p0⟩] : List (View.Piece (Elt F) S1x600x384 .f32)), y ∈ pc.1.set :=
  View.cover_of_tiled [⟨r14_2, p0⟩] S1x600x384.size (by rfl) y

set_option maxHeartbeats 1000000 in
/-- The body on whole staging buffers, the inputs' at contents x0, x1 and the result's at anything, runs to the
    continuation with the inputs' as they were and the result's at out14_2 x0 x1. -/
theorem sound_kernel14 (c : Dev nD) (E : Set ℕ) (i : grid14.Coords)
    (arg0 : Memref sig .tc .vmem S1x600x128 .f32) (harg0 : arg0.IsWhole) (arg1 : Memref sig .tc .vmem S1x128x384 .f32) (harg1 : arg1.IsWhole)
    (arg2 : Memref sig .tc .vmem S1x600x384 .f32) (harg2 : arg2.IsWhole)
    (x0 : Vec F S1x600x128 .f32) (x1 : Vec F S1x128x384 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out14_2 x0 x1)) -∗ K ⟨⟩))
      ⊢ wp frame (wpE (defs₀ (F := F)) Variants.none c none) E (cc14__final_kernel i arg0 harg0 arg1 harg1 arg2 harg2) K := by
  simp only [cc14__final_kernel_eq_skeleton]; unfold cc14__final_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 (F := F) _)

/-- The column-block window's block at point t filled out to the staging buffer's shape: the block on the columns
    inside the array, the zero word past the array's end (a word the proof picks; nothing reads it). -/
def blk14_1 (c : Dev nD) (t : Fin cfg14.N) : S1x128x384.Idx → Elt F .f32 :=
  win14_1.fill (grid14.coords t) (fun _ => Scalar.ofBits .f32 0#32) (iblk14 V c 1 t)

/-- The proof data of pipeline 14 on core c: the arrays as the region finds them; after the body at point t the
    row-block window's buffer at its block, the column-block window's at its block filled out, the result's at
    out14_2 of the two; the scoped rest and the generator register ride along untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => blk14_1 V c t
    | ⟨2, _⟩ => out14_2 (iblk14 V c 0 t) (blk14_1 V c t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = blk14_1 V c t := by dsimp only [dat14]
theorem after14_2 (c : Dev nD) (t : Fin cfg14.N) : (dat14 V c).after 2 t = out14_2 (iblk14 V c 0 t) (blk14_1 V c t) := by dsimp only [dat14]

/-- What the body finds: the row-block window's buffer at its block, -/
theorem before14_0 (c : Dev nD) (t : Fin cfg14.N) (d) : (dat14 V c).before 0 t d = iblk14 V c 0 t :=
  before14_0_of V (dat14 V c) (A_eq14 V c 0) (after14_0 V c) t d

/-- the column-block window's just fetched: its block on the columns inside the array, d past the array's end, -/
theorem before14_1 (c : Dev nD) (t : Fin cfg14.N) (d) :
    (dat14 V c).before 1 t d = win14_1.fill (grid14.coords t) d (iblk14 V c 1 t) := by
  rw [(dat14 V c).before_fetched 1 t (fetch14_1 t) d]
  unfold Dat.fetched Dat.blockOf iblk14
  rw [A_eq14]

/-- the result's at contents nothing names: every point writes its block back, so each point starts afresh. -/
theorem before14_2 (c : Dev nD) (t : Fin cfg14.N) (d) : (dat14 V c).before 2 t d = d :=
  (dat14 V c).before_out_reset 2 rfl t
    (by by_cases h0 : t.val = 0
        · exact .inl h0
        · exact .inr ⟨h0, flush14_2 _⟩) d

/-- COLUMN LOCALITY of the body's value: on the result columns the write-back moves (those inside the array) it reads
    the second operand's buffer only on the columns its fetch moved (the same columns). True of an instance whose
    product at an element reads the right operand's column of that element only. -/
def ColLocal14 (F : FTy → Type) [FloatOps F] : Prop :=
  ∀ (i : grid14.Coords) (x0 : Vec F S1x600x128 .f32) (x1 x1' : Vec F S1x128x384 .f32),
    win14_1.cut i x1 = win14_1.cut i x1' → win14_2.cut i (out14_2 x0 x1) = win14_2.cut i (out14_2 x0 x1')

/-- What the body is called with at point t, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns: the uncut window's buffer stated whole, the two cut windows' on the part their transfers move. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ (∃ d, owns (c : Thread nD τ) (st14_1 t) fullShare (win14_1.fill (grid14.coords t) d (win14_1.cut (grid14.coords t) ((dat14 V c).after 1 t))))
    ∗ (∃ d, owns (c : Thread nD τ) (st14_2 t) fullShare (win14_2.fill (grid14.coords t) d (win14_2.cut (grid14.coords t) ((dat14 V c).after 2 t)))))

/-- The body at any point: the inputs' buffers hold their blocks (the cut one's filled out with words nothing names),
    so the body's triple applies; what it leaves agrees with the proof data on the moved parts — the second input's
    by cutting what was filled, the result's by column locality —; the invariant and the core's dues pass through
    unread. -/
theorem sound_body14 (hloc : ColLocal14 F) (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (win14_1.fill (grid14.coords t) d1 (iblk14 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  have h1 : win14_1.cut (grid14.coords t) (blk14_1 V c t) = iblk14 V c 1 t := win14_1.cut_fill _ _ _
  have h2 : win14_2.fill (grid14.coords t) (out14_2 (iblk14 V c 0 t) (win14_1.fill (grid14.coords t) d1 (iblk14 V c 1 t)))
      (win14_2.cut (grid14.coords t) (out14_2 (iblk14 V c 0 t) (blk14_1 V c t)))
      = out14_2 (iblk14 V c 0 t) (win14_1.fill (grid14.coords t) d1 (iblk14 V c 1 t)) :=
    win14_2.fill_congr_cut _ (hloc _ _ _ _ ((win14_1.cut_fill _ _ _).trans h1.symm))
  isplitl [H1]
  · iexists d1; rw [h1]; iexact H1
  · iexists _; rw [h2]; iexact H2

/-- The library's body obligation, at every point, given column locality. -/
theorem body_obligation14_of (hloc : ColLocal14 F) (c : Dev nD) :
    BodyObligationLoose (dat14 (F := F) V c) (defs₀ (F := F)) Variants.none () Set.univ := fun t => by
  rw [bigSep_W14, bigSep_W14]
  exact sound_body14 V hloc c t

end Cert.KernelIdeal.Hand

end
-- ==== Proof.KI.Chain.lean ====
/-
  The buffer contents between the items of @main. Between two items each core holds every unscoped buffer at known
  contents: the launch memory, then each host stretch applied, then, after a region, that region's output arrays at what
  its write-backs leave (the fold of its points' blocks) and everything else as before.
-/
import proofs.«161112_j49297634623838_2_alg».proof.Proof.Gen.KernelIdeal.Regions
import proofs.«161112_j49297634623838_2_alg».proof.Proof.KI.Reg0
import proofs.«161112_j49297634623838_2_alg».proof.Proof.KI.Reg1
import proofs.«161112_j49297634623838_2_alg».proof.Proof.KI.Reg2
import proofs.«161112_j49297634623838_2_alg».proof.Proof.KI.Reg3
import proofs.«161112_j49297634623838_2_alg».proof.Proof.KI.Reg4
import proofs.«161112_j49297634623838_2_alg».proof.Proof.KI.Reg5
import proofs.«161112_j49297634623838_2_alg».proof.Proof.KI.Reg6
import proofs.«161112_j49297634623838_2_alg».proof.Proof.KI.Reg7
import proofs.«161112_j49297634623838_2_alg».proof.Proof.KI.Reg8
import proofs.«161112_j49297634623838_2_alg».proof.Proof.KI.Reg9
import proofs.«161112_j49297634623838_2_alg».proof.Proof.KI.Reg10
import proofs.«161112_j49297634623838_2_alg».proof.Proof.KI.Reg11
import proofs.«161112_j49297634623838_2_alg».proof.Proof.KI.Reg12
import proofs.«161112_j49297634623838_2_alg».proof.Proof.KI.Reg13
import proofs.«161112_j49297634623838_2_alg».proof.Proof.KI.Reg14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## The buffer contents between items -/

/-- A buffer's contents chosen by reference: `x` at `r0`, `d` elsewhere. -/
def pick (c : Dev nD) (r0 : Ref sig .tc) (x : Buf (Elt F) ((c : Thread nD τ).loc r0)) (r : Ref sig .tc)
    (d : Buf (Elt F) ((c : Thread nD τ).loc r)) : Buf (Elt F) ((c : Thread nD τ).loc r) :=
  if h : r = r0 then h ▸ x else d

theorem pick_self (c : Dev nD) (r0 : Ref sig .tc) (x : Buf (Elt F) ((c : Thread nD τ).loc r0))
    (d : Buf (Elt F) ((c : Thread nD τ).loc r0)) : pick c r0 x r0 d = x := by
  unfold pick; rw [dif_pos rfl]

theorem pick_ne (c : Dev nD) (r0 : Ref sig .tc) (x : Buf (Elt F) ((c : Thread nD τ).loc r0)) (r : Ref sig .tc)
    (d : Buf (Elt F) ((c : Thread nD τ).loc r)) (h : r ≠ r0) : pick c r0 x r d = d := by
  unfold pick; rw [dif_neg h]

/-- Before region 0: the launch memory after the nine host stretches. -/
def U9 (c : Dev nD) : Valuation τ sig (Elt F) := V9 m c
abbrev Vv9 : (c : Dev nD) → (b : Ref sig .tc) → Buf (Elt F) ((c : Thread nD τ).loc b) := fun c b => U9 m c b

/-- What region 0 leaves in `main_v6`: the fold of its points' written-back blocks. -/
def o10_2 (c : Dev nD) : Buf (Elt F) ((c : Thread nD τ).loc main_v6) := (dat0 (Vv9 m) c).arrAt 2 cfg0.N
/-- After region 0. -/
def U10 (c : Dev nD) : Valuation τ sig (Elt F) := Function.update (U9 m c) main_v6 (o10_2 m c)
abbrev Vv10 : (c : Dev nD) → (b : Ref sig .tc) → Buf (Elt F) ((c : Thread nD τ).loc b) := fun c b => U10 m c b
theorem U10_of (c : Dev nD) (r : Ref sig .tc) (h : r ∉ ([main_v6] : List (Ref sig .tc))) : U10 m c r = U9 m c r := by
  simp only [U10, Function.update_of_ne (StableHlo.devRef_ne_of_ne (List.ne_of_not_mem_cons h) : (Proc.devRef .tc r : DevRef τ sig) ≠ Proc.devRef .tc main_v6)]
theorem U10_2 (c : Dev nD) : U10 m c main_v6 = o10_2 m c := by
  unfold U10; exact Function.update_self _ _ _
/-- At region 0's exit each of its arrays holds what the pipeline leaves, and every other buffer what it held. -/
theorem hF0 (c : Dev nD) (w : Fin cfg0.W) : (dat0 (Vv9 m) c).arrAt w cfg0.N = Vv10 m c (Pipeline.arrRef spec0 w) :=
  match w with
  | ⟨0, _⟩ => ((dat0 (Vv9 m) c).arrAt_in 0 rfl _).trans ((A_eq0 (Vv9 m) c 0).trans (U10_of m c main_arg0 (by decide)).symm)
  | ⟨1, _⟩ => ((dat0 (Vv9 m) c).arrAt_in 1 rfl _).trans ((A_eq0 (Vv9 m) c 1).trans (U10_of m c main_v4 (by decide)).symm)
  | ⟨2, _⟩ => (U10_2 m c).symm
theorem hrest0 (c : Dev nD) : ∀ b, b ∉ Finset.univ.image (Pipeline.arrRef spec0) → Vv10 m c b = Vv9 m c b :=
  fun b hb => U10_of m c b (by
    intro hmem
    simp only [List.mem_cons, List.mem_nil_iff, or_false] at hmem
    rcases hmem with rfl
    · exact hb (Finset.mem_image.mpr ⟨2, Finset.mem_univ _, rfl⟩))

/-- What region 1 leaves in `main_v7`: the fold of its points' written-back blocks. -/
def o11_2 (c : Dev nD) : Buf (Elt F) ((c : Thread nD τ).loc main_v7) := (dat1 (Vv10 m) c).arrAt 2 cfg1.N
/-- After region 1. -/
def U11 (c : Dev nD) : Valuation τ sig (Elt F) := Function.update (U10 m c) main_v7 (o11_2 m c)
abbrev Vv11 : (c : Dev nD) → (b : Ref sig .tc) → Buf (Elt F) ((c : Thread nD τ).loc b) := fun c b => U11 m c b
theorem U11_of (c : Dev nD) (r : Ref sig .tc) (h : r ∉ ([main_v7] : List (Ref sig .tc))) : U11 m c r = U10 m c r := by
  simp only [U11, Function.update_of_ne (StableHlo.devRef_ne_of_ne (List.ne_of_not_mem_cons h) : (Proc.devRef .tc r : DevRef τ sig) ≠ Proc.devRef .tc main_v7)]
theorem U11_2 (c : Dev nD) : U11 m c main_v7 = o11_2 m c := by
  unfold U11; exact Function.update_self _ _ _
/-- At region 1's exit each of its arrays holds what the pipeline leaves, and every other buffer what it held. -/
theorem hF1 (c : Dev nD) (w : Fin cfg1.W) : (dat1 (Vv10 m) c).arrAt w cfg1.N = Vv11 m c (Pipeline.arrRef spec1 w) :=
  match w with
  | ⟨0, _⟩ => ((dat1 (Vv10 m) c).arrAt_in 0 rfl _).trans ((A_eq1 (Vv10 m) c 0).trans (U11_of m c main_arg1 (by decide)).symm)
  | ⟨1, _⟩ => ((dat1 (Vv10 m) c).arrAt_in 1 rfl _).trans ((A_eq1 (Vv10 m) c 1).trans (U11_of m c main_v5 (by decide)).symm)
  | ⟨2, _⟩ => (U11_2 m c).symm
theorem hrest1 (c : Dev nD) : ∀ b, b ∉ Finset.univ.image (Pipeline.arrRef spec1) → Vv11 m c b = Vv10 m c b :=
  fun b hb => U11_of m c b (by
    intro hmem
    simp only [List.mem_cons, List.mem_nil_iff, or_false] at hmem
    rcases hmem with rfl
    · exact hb (Finset.mem_image.mpr ⟨2, Finset.mem_univ _, rfl⟩))

/-- What region 2 leaves in `main_v8_0`: the fold of its points' written-back blocks. -/
def o12_3 (c : Dev nD) : Buf (Elt F) ((c : Thread nD τ).loc main_v8_0) := (dat2 (Vv11 m) c).arrAt 3 cfg2.N

/-- What region 2 leaves in `main_v8_1`: the fold of its points' written-back blocks. -/
def o12_4 (c : Dev nD) : Buf (Elt F) ((c : Thread nD τ).loc main_v8_1) := (dat2 (Vv11 m) c).arrAt 4 cfg2.N
/-- After region 2. -/
def U12 (c : Dev nD) : Valuation τ sig (Elt F) := Function.update (Function.update (U11 m c) main_v8_0 (o12_3 m c)) main_v8_1 (o12_4 m c)
abbrev Vv12 : (c : Dev nD) → (b : Ref sig .tc) → Buf (Elt F) ((c : Thread nD τ).loc b) := fun c b => U12 m c b
theorem U12_of (c : Dev nD) (r : Ref sig .tc) (h : r ∉ ([main_v8_0, main_v8_1] : List (Ref sig .tc))) : U12 m c r = U11 m c r := by
  simp only [U12, Function.update_of_ne (StableHlo.devRef_ne_of_ne (List.ne_of_not_mem_cons h) : (Proc.devRef .tc r : DevRef τ sig) ≠ Proc.devRef .tc main_v8_0), Function.update_of_ne (StableHlo.devRef_ne_of_ne (List.ne_of_not_mem_cons (List.not_mem_of_not_mem_cons h)) : (Proc.devRef .tc r : DevRef τ sig) ≠ Proc.devRef .tc main_v8_1)]
theorem U12_3 (c : Dev nD) : U12 m c main_v8_0 = o12_3 m c := by
  unfold U12
  rw [Function.update_of_ne (StableHlo.devRef_ne_of_ne (by decide : main_v8_0 ≠ main_v8_1) : (Proc.devRef .tc main_v8_0 : DevRef τ sig) ≠ Proc.devRef .tc main_v8_1)]
  exact Function.update_self _ _ _
theorem U12_4 (c : Dev nD) : U12 m c main_v8_1 = o12_4 m c := by
  unfold U12; exact Function.update_self _ _ _
/-- At region 2's exit each of its arrays holds what the pipeline leaves, and every other buffer what it held. -/
theorem hF2 (c : Dev nD) (w : Fin cfg2.W) : (dat2 (Vv11 m) c).arrAt w cfg2.N = Vv12 m c (Pipeline.arrRef spec2 w) :=
  match w with
  | ⟨0, _⟩ => ((dat2 (Vv11 m) c).arrAt_in 0 rfl _).trans ((A_eq2 (Vv11 m) c 0).trans (U12_of m c main_arg2 (by decide)).symm)
  | ⟨1, _⟩ => ((dat2 (Vv11 m) c).arrAt_in 1 rfl _).trans ((A_eq2 (Vv11 m) c 1).trans (U12_of m c main_v6 (by decide)).symm)
  | ⟨2, _⟩ => ((dat2 (Vv11 m) c).arrAt_in 2 rfl _).trans ((A_eq2 (Vv11 m) c 2).trans (U12_of m c main_arg7 (by decide)).symm)
  | ⟨3, _⟩ => (U12_3 m c).symm
  | ⟨4, _⟩ => (U12_4 m c).symm
theorem hrest2 (c : Dev nD) : ∀ b, b ∉ Finset.univ.image (Pipeline.arrRef spec2) → Vv12 m c b = Vv11 m c b :=
  fun b hb => U12_of m c b (by
    intro hmem
    simp only [List.mem_cons, List.mem_nil_iff, or_false] at hmem
    rcases hmem with rfl | rfl
    · exact hb (Finset.mem_image.mpr ⟨3, Finset.mem_univ _, rfl⟩)
    · exact hb (Finset.mem_image.mpr ⟨4, Finset.mem_univ _, rfl⟩))

/-- What region 3 leaves in `main_v9`: the fold of its points' written-back blocks. -/
def o13_3 (c : Dev nD) : Buf (Elt F) ((c : Thread nD τ).loc main_v9) := (dat3 (Vv12 m) c).arrAt 3 cfg3.N
/-- After region 3. -/
def U13 (c : Dev nD) : Valuation τ sig (Elt F) := Function.update (U12 m c) main_v9 (o13_3 m c)
abbrev Vv13 : (c : Dev nD) → (b : Ref sig .tc) → Buf (Elt F) ((c : Thread nD τ).loc b) := fun c b => U13 m c b
theorem U13_of (c : Dev nD) (r : Ref sig .tc) (h : r ∉ ([main_v9] : List (Ref sig .tc))) : U13 m c r = U12 m c r := by
  simp only [U13, Function.update_of_ne (StableHlo.devRef_ne_of_ne (List.ne_of_not_mem_cons h) : (Proc.devRef .tc r : DevRef τ sig) ≠ Proc.devRef .tc main_v9)]
theorem U13_3 (c : Dev nD) : U13 m c main_v9 = o13_3 m c := by
  unfold U13; exact Function.update_self _ _ _
/-- At region 3's exit each of its arrays holds what the pipeline leaves, and every other buffer what it held. -/
theorem hF3 (c : Dev nD) (w : Fin cfg3.W) : (dat3 (Vv12 m) c).arrAt w cfg3.N = Vv13 m c (Pipeline.arrRef spec3 w) :=
  match w with
  | ⟨0, _⟩ => ((dat3 (Vv12 m) c).arrAt_in 0 rfl _).trans ((A_eq3 (Vv12 m) c 0).trans (U13_of m c main_v8_1 (by decide)).symm)
  | ⟨1, _⟩ => ((dat3 (Vv12 m) c).arrAt_in 1 rfl _).trans ((A_eq3 (Vv12 m) c 1).trans (U13_of m c main_v8_0 (by decide)).symm)
  | ⟨2, _⟩ => ((dat3 (Vv12 m) c).arrAt_in 2 rfl _).trans ((A_eq3 (Vv12 m) c 2).trans (U13_of m c main_v0 (by decide)).symm)
  | ⟨3, _⟩ => (U13_3 m c).symm
theorem hrest3 (c : Dev nD) : ∀ b, b ∉ Finset.univ.image (Pipeline.arrRef spec3) → Vv13 m c b = Vv12 m c b :=
  fun b hb => U13_of m c b (by
    intro hmem
    simp only [List.mem_cons, List.mem_nil_iff, or_false] at hmem
    rcases hmem with rfl
    · exact hb (Finset.mem_image.mpr ⟨3, Finset.mem_univ _, rfl⟩))

/-- What region 4 leaves in `main_v10`: the fold of its points' written-back blocks. -/
def o14_2 (c : Dev nD) : Buf (Elt F) ((c : Thread nD τ).loc main_v10) := (dat4 (Vv13 m) c).arrAt 2 cfg4.N
/-- After region 4. -/
def U14 (c : Dev nD) : Valuation τ sig (Elt F) := Function.update (U13 m c) main_v10 (o14_2 m c)
abbrev Vv14 : (c : Dev nD) → (b : Ref sig .tc) → Buf (Elt F) ((c : Thread nD τ).loc b) := fun c b => U14 m c b
theorem U14_of (c : Dev nD) (r : Ref sig .tc) (h : r ∉ ([main_v10] : List (Ref sig .tc))) : U14 m c r = U13 m c r := by
  simp only [U14, Function.update_of_ne (StableHlo.devRef_ne_of_ne (List.ne_of_not_mem_cons h) : (Proc.devRef .tc r : DevRef τ sig) ≠ Proc.devRef .tc main_v10)]
theorem U14_2 (c : Dev nD) : U14 m c main_v10 = o14_2 m c := by
  unfold U14; exact Function.update_self _ _ _
/-- At region 4's exit each of its arrays holds what the pipeline leaves, and every other buffer what it held. -/
theorem hF4 (c : Dev nD) (w : Fin cfg4.W) : (dat4 (Vv13 m) c).arrAt w cfg4.N = Vv14 m c (Pipeline.arrRef spec4 w) :=
  match w with
  | ⟨0, _⟩ => ((dat4 (Vv13 m) c).arrAt_in 0 rfl _).trans ((A_eq4 (Vv13 m) c 0).trans (U14_of m c main_v8_1 (by decide)).symm)
  | ⟨1, _⟩ => ((dat4 (Vv13 m) c).arrAt_in 1 rfl _).trans ((A_eq4 (Vv13 m) c 1).trans (U14_of m c main_v9 (by decide)).symm)
  | ⟨2, _⟩ => (U14_2 m c).symm
theorem hrest4 (c : Dev nD) : ∀ b, b ∉ Finset.univ.image (Pipeline.arrRef spec4) → Vv14 m c b = Vv13 m c b :=
  fun b hb => U14_of m c b (by
    intro hmem
    simp only [List.mem_cons, List.mem_nil_iff, or_false] at hmem
    rcases hmem with rfl
    · exact hb (Finset.mem_image.mpr ⟨2, Finset.mem_univ _, rfl⟩))

/-- What region 5 leaves in `main_v11_0`: the fold of its points' written-back blocks. -/
def o15_3 (c : Dev nD) : Buf (Elt F) ((c : Thread nD τ).loc main_v11_0) := (dat5 (Vv14 m) c).arrAt 3 cfg5.N

/-- What region 5 leaves in `main_v11_1`: the fold of its points' written-back blocks. -/
def o15_4 (c : Dev nD) : Buf (Elt F) ((c : Thread nD τ).loc main_v11_1) := (dat5 (Vv14 m) c).arrAt 4 cfg5.N
/-- After region 5. -/
def U15 (c : Dev nD) : Valuation τ sig (Elt F) := Function.update (Function.update (U14 m c) main_v11_0 (o15_3 m c)) main_v11_1 (o15_4 m c)
abbrev Vv15 : (c : Dev nD) → (b : Ref sig .tc) → Buf (Elt F) ((c : Thread nD τ).loc b) := fun c b => U15 m c b
theorem U15_of (c : Dev nD) (r : Ref sig .tc) (h : r ∉ ([main_v11_0, main_v11_1] : List (Ref sig .tc))) : U15 m c r = U14 m c r := by
  simp only [U15, Function.update_of_ne (StableHlo.devRef_ne_of_ne (List.ne_of_not_mem_cons h) : (Proc.devRef .tc r : DevRef τ sig) ≠ Proc.devRef .tc main_v11_0), Function.update_of_ne (StableHlo.devRef_ne_of_ne (List.ne_of_not_mem_cons (List.not_mem_of_not_mem_cons h)) : (Proc.devRef .tc r : DevRef τ sig) ≠ Proc.devRef .tc main_v11_1)]
theorem U15_3 (c : Dev nD) : U15 m c main_v11_0 = o15_3 m c := by
  unfold U15
  rw [Function.update_of_ne (StableHlo.devRef_ne_of_ne (by decide : main_v11_0 ≠ main_v11_1) : (Proc.devRef .tc main_v11_0 : DevRef τ sig) ≠ Proc.devRef .tc main_v11_1)]
  exact Function.update_self _ _ _
theorem U15_4 (c : Dev nD) : U15 m c main_v11_1 = o15_4 m c := by
  unfold U15; exact Function.update_self _ _ _
/-- At region 5's exit each of its arrays holds what the pipeline leaves, and every other buffer what it held. -/
theorem hF5 (c : Dev nD) (w : Fin cfg5.W) : (dat5 (Vv14 m) c).arrAt w cfg5.N = Vv15 m c (Pipeline.arrRef spec5 w) :=
  match w with
  | ⟨0, _⟩ => ((dat5 (Vv14 m) c).arrAt_in 0 rfl _).trans ((A_eq5 (Vv14 m) c 0).trans (U15_of m c main_arg3 (by decide)).symm)
  | ⟨1, _⟩ => ((dat5 (Vv14 m) c).arrAt_in 1 rfl _).trans ((A_eq5 (Vv14 m) c 1).trans (U15_of m c main_v7 (by decide)).symm)
  | ⟨2, _⟩ => ((dat5 (Vv14 m) c).arrAt_in 2 rfl _).trans ((A_eq5 (Vv14 m) c 2).trans (U15_of m c main_arg10 (by decide)).symm)
  | ⟨3, _⟩ => (U15_3 m c).symm
  | ⟨4, _⟩ => (U15_4 m c).symm
theorem hrest5 (c : Dev nD) : ∀ b, b ∉ Finset.univ.image (Pipeline.arrRef spec5) → Vv15 m c b = Vv14 m c b :=
  fun b hb => U15_of m c b (by
    intro hmem
    simp only [List.mem_cons, List.mem_nil_iff, or_false] at hmem
    rcases hmem with rfl | rfl
    · exact hb (Finset.mem_image.mpr ⟨3, Finset.mem_univ _, rfl⟩)
    · exact hb (Finset.mem_image.mpr ⟨4, Finset.mem_univ _, rfl⟩))

/-- What region 6 leaves in `main_v12`: the fold of its points' written-back blocks. -/
def o16_3 (c : Dev nD) : Buf (Elt F) ((c : Thread nD τ).loc main_v12) := (dat6 (Vv15 m) c).arrAt 3 cfg6.N
/-- After region 6. -/
def U16 (c : Dev nD) : Valuation τ sig (Elt F) := Function.update (U15 m c) main_v12 (o16_3 m c)
abbrev Vv16 : (c : Dev nD) → (b : Ref sig .tc) → Buf (Elt F) ((c : Thread nD τ).loc b) := fun c b => U16 m c b
theorem U16_of (c : Dev nD) (r : Ref sig .tc) (h : r ∉ ([main_v12] : List (Ref sig .tc))) : U16 m c r = U15 m c r := by
  simp only [U16, Function.update_of_ne (StableHlo.devRef_ne_of_ne (List.ne_of_not_mem_cons h) : (Proc.devRef .tc r : DevRef τ sig) ≠ Proc.devRef .tc main_v12)]
theorem U16_3 (c : Dev nD) : U16 m c main_v12 = o16_3 m c := by
  unfold U16; exact Function.update_self _ _ _
/-- At region 6's exit each of its arrays holds what the pipeline leaves, and every other buffer what it held. -/
theorem hF6 (c : Dev nD) (w : Fin cfg6.W) : (dat6 (Vv15 m) c).arrAt w cfg6.N = Vv16 m c (Pipeline.arrRef spec6 w) :=
  match w with
  | ⟨0, _⟩ => ((dat6 (Vv15 m) c).arrAt_in 0 rfl _).trans ((A_eq6 (Vv15 m) c 0).trans (U16_of m c main_v11_1 (by decide)).symm)
  | ⟨1, _⟩ => ((dat6 (Vv15 m) c).arrAt_in 1 rfl _).trans ((A_eq6 (Vv15 m) c 1).trans (U16_of m c main_v11_0 (by decide)).symm)
  | ⟨2, _⟩ => ((dat6 (Vv15 m) c).arrAt_in 2 rfl _).trans ((A_eq6 (Vv15 m) c 2).trans (U16_of m c main_v1 (by decide)).symm)
  | ⟨3, _⟩ => (U16_3 m c).symm
theorem hrest6 (c : Dev nD) : ∀ b, b ∉ Finset.univ.image (Pipeline.arrRef spec6) → Vv16 m c b = Vv15 m c b :=
  fun b hb => U16_of m c b (by
    intro hmem
    simp only [List.mem_cons, List.mem_nil_iff, or_false] at hmem
    rcases hmem with rfl
    · exact hb (Finset.mem_image.mpr ⟨3, Finset.mem_univ _, rfl⟩))

/-- What region 7 leaves in `main_v13`: the fold of its points' written-back blocks. -/
def o17_2 (c : Dev nD) : Buf (Elt F) ((c : Thread nD τ).loc main_v13) := (dat7 (Vv16 m) c).arrAt 2 cfg7.N
/-- After region 7. -/
def U17 (c : Dev nD) : Valuation τ sig (Elt F) := Function.update (U16 m c) main_v13 (o17_2 m c)
abbrev Vv17 : (c : Dev nD) → (b : Ref sig .tc) → Buf (Elt F) ((c : Thread nD τ).loc b) := fun c b => U17 m c b
theorem U17_of (c : Dev nD) (r : Ref sig .tc) (h : r ∉ ([main_v13] : List (Ref sig .tc))) : U17 m c r = U16 m c r := by
  simp only [U17, Function.update_of_ne (StableHlo.devRef_ne_of_ne (List.ne_of_not_mem_cons h) : (Proc.devRef .tc r : DevRef τ sig) ≠ Proc.devRef .tc main_v13)]
theorem U17_2 (c : Dev nD) : U17 m c main_v13 = o17_2 m c := by
  unfold U17; exact Function.update_self _ _ _
/-- At region 7's exit each of its arrays holds what the pipeline leaves, and every other buffer what it held. -/
theorem hF7 (c : Dev nD) (w : Fin cfg7.W) : (dat7 (Vv16 m) c).arrAt w cfg7.N = Vv17 m c (Pipeline.arrRef spec7 w) :=
  match w with
  | ⟨0, _⟩ => ((dat7 (Vv16 m) c).arrAt_in 0 rfl _).trans ((A_eq7 (Vv16 m) c 0).trans (U17_of m c main_v11_1 (by decide)).symm)
  | ⟨1, _⟩ => ((dat7 (Vv16 m) c).arrAt_in 1 rfl _).trans ((A_eq7 (Vv16 m) c 1).trans (U17_of m c main_v12 (by decide)).symm)
  | ⟨2, _⟩ => (U17_2 m c).symm
theorem hrest7 (c : Dev nD) : ∀ b, b ∉ Finset.univ.image (Pipeline.arrRef spec7) → Vv17 m c b = Vv16 m c b :=
  fun b hb => U17_of m c b (by
    intro hmem
    simp only [List.mem_cons, List.mem_nil_iff, or_false] at hmem
    rcases hmem with rfl
    · exact hb (Finset.mem_image.mpr ⟨2, Finset.mem_univ _, rfl⟩))

/-- What region 8 leaves in `main_v14_0`: the fold of its points' written-back blocks. -/
def o18_3 (c : Dev nD) : Buf (Elt F) ((c : Thread nD τ).loc main_v14_0) := (dat8 (Vv17 m) c).arrAt 3 cfg8.N

/-- What region 8 leaves in `main_v14_1`: the fold of its points' written-back blocks. -/
def o18_4 (c : Dev nD) : Buf (Elt F) ((c : Thread nD τ).loc main_v14_1) := (dat8 (Vv17 m) c).arrAt 4 cfg8.N
/-- After region 8. -/
def U18 (c : Dev nD) : Valuation τ sig (Elt F) := Function.update (Function.update (U17 m c) main_v14_0 (o18_3 m c)) main_v14_1 (o18_4 m c)
abbrev Vv18 : (c : Dev nD) → (b : Ref sig .tc) → Buf (Elt F) ((c : Thread nD τ).loc b) := fun c b => U18 m c b
theorem U18_of (c : Dev nD) (r : Ref sig .tc) (h : r ∉ ([main_v14_0, main_v14_1] : List (Ref sig .tc))) : U18 m c r = U17 m c r := by
  simp only [U18, Function.update_of_ne (StableHlo.devRef_ne_of_ne (List.ne_of_not_mem_cons h) : (Proc.devRef .tc r : DevRef τ sig) ≠ Proc.devRef .tc main_v14_0), Function.update_of_ne (StableHlo.devRef_ne_of_ne (List.ne_of_not_mem_cons (List.not_mem_of_not_mem_cons h)) : (Proc.devRef .tc r : DevRef τ sig) ≠ Proc.devRef .tc main_v14_1)]
theorem U18_3 (c : Dev nD) : U18 m c main_v14_0 = o18_3 m c := by
  unfold U18
  rw [Function.update_of_ne (StableHlo.devRef_ne_of_ne (by decide : main_v14_0 ≠ main_v14_1) : (Proc.devRef .tc main_v14_0 : DevRef τ sig) ≠ Proc.devRef .tc main_v14_1)]
  exact Function.update_self _ _ _
theorem U18_4 (c : Dev nD) : U18 m c main_v14_1 = o18_4 m c := by
  unfold U18; exact Function.update_self _ _ _
/-- At region 8's exit each of its arrays holds what the pipeline leaves, and every other buffer what it held. -/
theorem hF8 (c : Dev nD) (w : Fin cfg8.W) : (dat8 (Vv17 m) c).arrAt w cfg8.N = Vv18 m c (Pipeline.arrRef spec8 w) :=
  match w with
  | ⟨0, _⟩ => ((dat8 (Vv17 m) c).arrAt_in 0 rfl _).trans ((A_eq8 (Vv17 m) c 0).trans (U18_of m c main_arg4 (by decide)).symm)
  | ⟨1, _⟩ => ((dat8 (Vv17 m) c).arrAt_in 1 rfl _).trans ((A_eq8 (Vv17 m) c 1).trans (U18_of m c main_v6 (by decide)).symm)
  | ⟨2, _⟩ => ((dat8 (Vv17 m) c).arrAt_in 2 rfl _).trans ((A_eq8 (Vv17 m) c 2).trans (U18_of m c main_arg13 (by decide)).symm)
  | ⟨3, _⟩ => (U18_3 m c).symm
  | ⟨4, _⟩ => (U18_4 m c).symm
theorem hrest8 (c : Dev nD) : ∀ b, b ∉ Finset.univ.image (Pipeline.arrRef spec8) → Vv18 m c b = Vv17 m c b :=
  fun b hb => U18_of m c b (by
    intro hmem
    simp only [List.mem_cons, List.mem_nil_iff, or_false] at hmem
    rcases hmem with rfl | rfl
    · exact hb (Finset.mem_image.mpr ⟨3, Finset.mem_univ _, rfl⟩)
    · exact hb (Finset.mem_image.mpr ⟨4, Finset.mem_univ _, rfl⟩))

/-- What region 9 leaves in `main_v15`: the fold of its points' written-back blocks. -/
def o19_3 (c : Dev nD) : Buf (Elt F) ((c : Thread nD τ).loc main_v15) := (dat9 (Vv18 m) c).arrAt 3 cfg9.N
/-- After region 9. -/
def U19 (c : Dev nD) : Valuation τ sig (Elt F) := Function.update (U18 m c) main_v15 (o19_3 m c)
abbrev Vv19 : (c : Dev nD) → (b : Ref sig .tc) → Buf (Elt F) ((c : Thread nD τ).loc b) := fun c b => U19 m c b
theorem U19_of (c : Dev nD) (r : Ref sig .tc) (h : r ∉ ([main_v15] : List (Ref sig .tc))) : U19 m c r = U18 m c r := by
  simp only [U19, Function.update_of_ne (StableHlo.devRef_ne_of_ne (List.ne_of_not_mem_cons h) : (Proc.devRef .tc r : DevRef τ sig) ≠ Proc.devRef .tc main_v15)]
theorem U19_3 (c : Dev nD) : U19 m c main_v15 = o19_3 m c := by
  unfold U19; exact Function.update_self _ _ _
/-- At region 9's exit each of its arrays holds what the pipeline leaves, and every other buffer what it held. -/
theorem hF9 (c : Dev nD) (w : Fin cfg9.W) : (dat9 (Vv18 m) c).arrAt w cfg9.N = Vv19 m c (Pipeline.arrRef spec9 w) :=
  match w with
  | ⟨0, _⟩ => ((dat9 (Vv18 m) c).arrAt_in 0 rfl _).trans ((A_eq9 (Vv18 m) c 0).trans (U19_of m c main_v14_1 (by decide)).symm)
  | ⟨1, _⟩ => ((dat9 (Vv18 m) c).arrAt_in 1 rfl _).trans ((A_eq9 (Vv18 m) c 1).trans (U19_of m c main_v14_0 (by decide)).symm)
  | ⟨2, _⟩ => ((dat9 (Vv18 m) c).arrAt_in 2 rfl _).trans ((A_eq9 (Vv18 m) c 2).trans (U19_of m c main_v2 (by decide)).symm)
  | ⟨3, _⟩ => (U19_3 m c).symm
theorem hrest9 (c : Dev nD) : ∀ b, b ∉ Finset.univ.image (Pipeline.arrRef spec9) → Vv19 m c b = Vv18 m c b :=
  fun b hb => U19_of m c b (by
    intro hmem
    simp only [List.mem_cons, List.mem_nil_iff, or_false] at hmem
    rcases hmem with rfl
    · exact hb (Finset.mem_image.mpr ⟨3, Finset.mem_univ _, rfl⟩))

/-- What region 10 leaves in `main_v16`: the fold of its points' written-back blocks. -/
def o20_2 (c : Dev nD) : Buf (Elt F) ((c : Thread nD τ).loc main_v16) := (dat10 (Vv19 m) c).arrAt 2 cfg10.N
/-- After region 10. -/
def U20 (c : Dev nD) : Valuation τ sig (Elt F) := Function.update (U19 m c) main_v16 (o20_2 m c)
abbrev Vv20 : (c : Dev nD) → (b : Ref sig .tc) → Buf (Elt F) ((c : Thread nD τ).loc b) := fun c b => U20 m c b
theorem U20_of (c : Dev nD) (r : Ref sig .tc) (h : r ∉ ([main_v16] : List (Ref sig .tc))) : U20 m c r = U19 m c r := by
  simp only [U20, Function.update_of_ne (StableHlo.devRef_ne_of_ne (List.ne_of_not_mem_cons h) : (Proc.devRef .tc r : DevRef τ sig) ≠ Proc.devRef .tc main_v16)]
theorem U20_2 (c : Dev nD) : U20 m c main_v16 = o20_2 m c := by
  unfold U20; exact Function.update_self _ _ _
/-- At region 10's exit each of its arrays holds what the pipeline leaves, and every other buffer what it held. -/
theorem hF10 (c : Dev nD) (w : Fin cfg10.W) : (dat10 (Vv19 m) c).arrAt w cfg10.N = Vv20 m c (Pipeline.arrRef spec10 w) :=
  match w with
  | ⟨0, _⟩ => ((dat10 (Vv19 m) c).arrAt_in 0 rfl _).trans ((A_eq10 (Vv19 m) c 0).trans (U20_of m c main_v14_1 (by decide)).symm)
  | ⟨1, _⟩ => ((dat10 (Vv19 m) c).arrAt_in 1 rfl _).trans ((A_eq10 (Vv19 m) c 1).trans (U20_of m c main_v15 (by decide)).symm)
  | ⟨2, _⟩ => (U20_2 m c).symm
theorem hrest10 (c : Dev nD) : ∀ b, b ∉ Finset.univ.image (Pipeline.arrRef spec10) → Vv20 m c b = Vv19 m c b :=
  fun b hb => U20_of m c b (by
    intro hmem
    simp only [List.mem_cons, List.mem_nil_iff, or_false] at hmem
    rcases hmem with rfl
    · exact hb (Finset.mem_image.mpr ⟨2, Finset.mem_univ _, rfl⟩))

/-- What region 11 leaves in `main_v17_0`: the fold of its points' written-back blocks. -/
def o21_3 (c : Dev nD) : Buf (Elt F) ((c : Thread nD τ).loc main_v17_0) := (dat11 (Vv20 m) c).arrAt 3 cfg11.N

/-- What region 11 leaves in `main_v17_1`: the fold of its points' written-back blocks. -/
def o21_4 (c : Dev nD) : Buf (Elt F) ((c : Thread nD τ).loc main_v17_1) := (dat11 (Vv20 m) c).arrAt 4 cfg11.N
/-- After region 11. -/
def U21 (c : Dev nD) : Valuation τ sig (Elt F) := Function.update (Function.update (U20 m c) main_v17_0 (o21_3 m c)) main_v17_1 (o21_4 m c)
abbrev Vv21 : (c : Dev nD) → (b : Ref sig .tc) → Buf (Elt F) ((c : Thread nD τ).loc b) := fun c b => U21 m c b
theorem U21_of (c : Dev nD) (r : Ref sig .tc) (h : r ∉ ([main_v17_0, main_v17_1] : List (Ref sig .tc))) : U21 m c r = U20 m c r := by
  simp only [U21, Function.update_of_ne (StableHlo.devRef_ne_of_ne (List.ne_of_not_mem_cons h) : (Proc.devRef .tc r : DevRef τ sig) ≠ Proc.devRef .tc main_v17_0), Function.update_of_ne (StableHlo.devRef_ne_of_ne (List.ne_of_not_mem_cons (List.not_mem_of_not_mem_cons h)) : (Proc.devRef .tc r : DevRef τ sig) ≠ Proc.devRef .tc main_v17_1)]
theorem U21_3 (c : Dev nD) : U21 m c main_v17_0 = o21_3 m c := by
  unfold U21
  rw [Function.update_of_ne (StableHlo.devRef_ne_of_ne (by decide : main_v17_0 ≠ main_v17_1) : (Proc.devRef .tc main_v17_0 : DevRef τ sig) ≠ Proc.devRef .tc main_v17_1)]
  exact Function.update_self _ _ _
theorem U21_4 (c : Dev nD) : U21 m c main_v17_1 = o21_4 m c := by
  unfold U21; exact Function.update_self _ _ _
/-- At region 11's exit each of its arrays holds what the pipeline leaves, and every other buffer what it held. -/
theorem hF11 (c : Dev nD) (w : Fin cfg11.W) : (dat11 (Vv20 m) c).arrAt w cfg11.N = Vv21 m c (Pipeline.arrRef spec11 w) :=
  match w with
  | ⟨0, _⟩ => ((dat11 (Vv20 m) c).arrAt_in 0 rfl _).trans ((A_eq11 (Vv20 m) c 0).trans (U21_of m c main_arg5 (by decide)).symm)
  | ⟨1, _⟩ => ((dat11 (Vv20 m) c).arrAt_in 1 rfl _).trans ((A_eq11 (Vv20 m) c 1).trans (U21_of m c main_v7 (by decide)).symm)
  | ⟨2, _⟩ => ((dat11 (Vv20 m) c).arrAt_in 2 rfl _).trans ((A_eq11 (Vv20 m) c 2).trans (U21_of m c main_arg16 (by decide)).symm)
  | ⟨3, _⟩ => (U21_3 m c).symm
  | ⟨4, _⟩ => (U21_4 m c).symm
theorem hrest11 (c : Dev nD) : ∀ b, b ∉ Finset.univ.image (Pipeline.arrRef spec11) → Vv21 m c b = Vv20 m c b :=
  fun b hb => U21_of m c b (by
    intro hmem
    simp only [List.mem_cons, List.mem_nil_iff, or_false] at hmem
    rcases hmem with rfl | rfl
    · exact hb (Finset.mem_image.mpr ⟨3, Finset.mem_univ _, rfl⟩)
    · exact hb (Finset.mem_image.mpr ⟨4, Finset.mem_univ _, rfl⟩))

/-- What region 12 leaves in `main_v18`: the fold of its points' written-back blocks. -/
def o22_3 (c : Dev nD) : Buf (Elt F) ((c : Thread nD τ).loc main_v18) := (dat12 (Vv21 m) c).arrAt 3 cfg12.N
/-- After region 12. -/
def U22 (c : Dev nD) : Valuation τ sig (Elt F) := Function.update (U21 m c) main_v18 (o22_3 m c)
abbrev Vv22 : (c : Dev nD) → (b : Ref sig .tc) → Buf (Elt F) ((c : Thread nD τ).loc b) := fun c b => U22 m c b
theorem U22_of (c : Dev nD) (r : Ref sig .tc) (h : r ∉ ([main_v18] : List (Ref sig .tc))) : U22 m c r = U21 m c r := by
  simp only [U22, Function.update_of_ne (StableHlo.devRef_ne_of_ne (List.ne_of_not_mem_cons h) : (Proc.devRef .tc r : DevRef τ sig) ≠ Proc.devRef .tc main_v18)]
theorem U22_3 (c : Dev nD) : U22 m c main_v18 = o22_3 m c := by
  unfold U22; exact Function.update_self _ _ _
/-- At region 12's exit each of its arrays holds what the pipeline leaves, and every other buffer what it held. -/
theorem hF12 (c : Dev nD) (w : Fin cfg12.W) : (dat12 (Vv21 m) c).arrAt w cfg12.N = Vv22 m c (Pipeline.arrRef spec12 w) :=
  match w with
  | ⟨0, _⟩ => ((dat12 (Vv21 m) c).arrAt_in 0 rfl _).trans ((A_eq12 (Vv21 m) c 0).trans (U22_of m c main_v17_1 (by decide)).symm)
  | ⟨1, _⟩ => ((dat12 (Vv21 m) c).arrAt_in 1 rfl _).trans ((A_eq12 (Vv21 m) c 1).trans (U22_of m c main_v17_0 (by decide)).symm)
  | ⟨2, _⟩ => ((dat12 (Vv21 m) c).arrAt_in 2 rfl _).trans ((A_eq12 (Vv21 m) c 2).trans (U22_of m c main_v3 (by decide)).symm)
  | ⟨3, _⟩ => (U22_3 m c).symm
theorem hrest12 (c : Dev nD) : ∀ b, b ∉ Finset.univ.image (Pipeline.arrRef spec12) → Vv22 m c b = Vv21 m c b :=
  fun b hb => U22_of m c b (by
    intro hmem
    simp only [List.mem_cons, List.mem_nil_iff, or_false] at hmem
    rcases hmem with rfl
    · exact hb (Finset.mem_image.mpr ⟨3, Finset.mem_univ _, rfl⟩))

/-- What region 13 leaves in `main_v19`: the fold of its points' written-back blocks. -/
def o23_2 (c : Dev nD) : Buf (Elt F) ((c : Thread nD τ).loc main_v19) := (dat13 (Vv22 m) c).arrAt 2 cfg13.N
/-- After region 13. -/
def U23 (c : Dev nD) : Valuation τ sig (Elt F) := Function.update (U22 m c) main_v19 (o23_2 m c)
abbrev Vv23 : (c : Dev nD) → (b : Ref sig .tc) → Buf (Elt F) ((c : Thread nD τ).loc b) := fun c b => U23 m c b
theorem U23_of (c : Dev nD) (r : Ref sig .tc) (h : r ∉ ([main_v19] : List (Ref sig .tc))) : U23 m c r = U22 m c r := by
  simp only [U23, Function.update_of_ne (StableHlo.devRef_ne_of_ne (List.ne_of_not_mem_cons h) : (Proc.devRef .tc r : DevRef τ sig) ≠ Proc.devRef .tc main_v19)]
theorem U23_2 (c : Dev nD) : U23 m c main_v19 = o23_2 m c := by
  unfold U23; exact Function.update_self _ _ _
/-- At region 13's exit each of its arrays holds what the pipeline leaves, and every other buffer what it held. -/
theorem hF13 (c : Dev nD) (w : Fin cfg13.W) : (dat13 (Vv22 m) c).arrAt w cfg13.N = Vv23 m c (Pipeline.arrRef spec13 w) :=
  match w with
  | ⟨0, _⟩ => ((dat13 (Vv22 m) c).arrAt_in 0 rfl _).trans ((A_eq13 (Vv22 m) c 0).trans (U23_of m c main_v17_1 (by decide)).symm)
  | ⟨1, _⟩ => ((dat13 (Vv22 m) c).arrAt_in 1 rfl _).trans ((A_eq13 (Vv22 m) c 1).trans (U23_of m c main_v18 (by decide)).symm)
  | ⟨2, _⟩ => (U23_2 m c).symm
theorem hrest13 (c : Dev nD) : ∀ b, b ∉ Finset.univ.image (Pipeline.arrRef spec13) → Vv23 m c b = Vv22 m c b :=
  fun b hb => U23_of m c b (by
    intro hmem
    simp only [List.mem_cons, List.mem_nil_iff, or_false] at hmem
    rcases hmem with rfl
    · exact hb (Finset.mem_image.mpr ⟨2, Finset.mem_univ _, rfl⟩))

/-- Before region 14: the last host stretch applied. -/
def U24 (c : Dev nD) : Valuation τ sig (Elt F) := StableHlo.after hostOps14 (U23 m c)
abbrev Vv24 : (c : Dev nD) → (b : Ref sig .tc) → Buf (Elt F) ((c : Thread nD τ).loc b) := fun c b => U24 m c b
theorem U24_of (c : Dev nD) (r : Ref sig .tc) (h : r ∉ hostOps14_W) : U24 m c r = U23 m c r :=
  StableHlo.after_of_writes_sub hostOps14 _ hostOps14_writes h

/-- What region 14 leaves in `main_v26`: the fold of its points' written-back blocks. -/
def o25_2 (c : Dev nD) : Buf (Elt F) ((c : Thread nD τ).loc main_v26) := (dat14 (Vv24 m) c).arrAt 2 cfg14.N
/-- After region 14. -/
def U25 (c : Dev nD) : Valuation τ sig (Elt F) := Function.update (U24 m c) main_v26 (o25_2 m c)
abbrev Vv25 : (c : Dev nD) → (b : Ref sig .tc) → Buf (Elt F) ((c : Thread nD τ).loc b) := fun c b => U25 m c b
theorem U25_of (c : Dev nD) (r : Ref sig .tc) (h : r ∉ ([main_v26] : List (Ref sig .tc))) : U25 m c r = U24 m c r := by
  simp only [U25, Function.update_of_ne (StableHlo.devRef_ne_of_ne (List.ne_of_not_mem_cons h) : (Proc.devRef .tc r : DevRef τ sig) ≠ Proc.devRef .tc main_v26)]
theorem U25_2 (c : Dev nD) : U25 m c main_v26 = o25_2 m c := by
  unfold U25; exact Function.update_self _ _ _
/-- At region 14's exit each of its arrays holds what the pipeline leaves, and every other buffer what it held. -/
theorem hF14 (c : Dev nD) (w : Fin cfg14.W) : (dat14 (Vv24 m) c).arrAt w cfg14.N = Vv25 m c (Pipeline.arrRef spec14 w) :=
  match w with
  | ⟨0, _⟩ => ((dat14 (Vv24 m) c).arrAt_in 0 rfl _).trans ((A_eq14 (Vv24 m) c 0).trans (U25_of m c main_v24 (by decide)).symm)
  | ⟨1, _⟩ => ((dat14 (Vv24 m) c).arrAt_in 1 rfl _).trans ((A_eq14 (Vv24 m) c 1).trans (U25_of m c main_v25 (by decide)).symm)
  | ⟨2, _⟩ => (U25_2 m c).symm
theorem hrest14 (c : Dev nD) : ∀ b, b ∉ Finset.univ.image (Pipeline.arrRef spec14) → Vv25 m c b = Vv24 m c b :=
  fun b hb => U25_of m c b (by
    intro hmem
    simp only [List.mem_cons, List.mem_nil_iff, or_false] at hmem
    rcases hmem with rfl
    · exact hb (Finset.mem_image.mpr ⟨2, Finset.mem_univ _, rfl⟩))

end Cert.KernelIdeal.Hand

end
-- ==== Proof.KI.Segs.lean ====
/-
  The regions as segments of @main: each region is entered from the buffer contents before it and left at the contents
  after it; its input arrays are only read, its output arrays end at the fold of its points' written-back blocks.
-/
import proofs.«161112_j49297634623838_2_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## The regions' leavings as one family, and the generated valuations at it -/

/-- What the regions leave, indexed as the generated valuations read it. -/
def outs : Outs (F := F) := fun J r c => match J with
  | 10 => pick c main_v6 (o10_2 m c) r (V0 m c r)
  | 11 => pick c main_v7 (o11_2 m c) r (V0 m c r)
  | 12 => pick c main_v8_0 (o12_3 m c) r (pick c main_v8_1 (o12_4 m c) r (V0 m c r))
  | 13 => pick c main_v9 (o13_3 m c) r (V0 m c r)
  | 14 => pick c main_v10 (o14_2 m c) r (V0 m c r)
  | 15 => pick c main_v11_0 (o15_3 m c) r (pick c main_v11_1 (o15_4 m c) r (V0 m c r))
  | 16 => pick c main_v12 (o16_3 m c) r (V0 m c r)
  | 17 => pick c main_v13 (o17_2 m c) r (V0 m c r)
  | 18 => pick c main_v14_0 (o18_3 m c) r (pick c main_v14_1 (o18_4 m c) r (V0 m c r))
  | 19 => pick c main_v15 (o19_3 m c) r (V0 m c r)
  | 20 => pick c main_v16 (o20_2 m c) r (V0 m c r)
  | 21 => pick c main_v17_0 (o21_3 m c) r (pick c main_v17_1 (o21_4 m c) r (V0 m c r))
  | 22 => pick c main_v18 (o22_3 m c) r (V0 m c r)
  | 23 => pick c main_v19 (o23_2 m c) r (V0 m c r)
  | 25 => pick c main_v26 (o25_2 m c) r (V0 m c r)
  | _ => V0 m c r

theorem V10_eq (c : Dev nD) : V10 m (outs m) c = U10 m c := by
  show Function.update (V9 m c) main_v6 (outs m 10 main_v6 c) = _
  unfold U10
  rw [show outs m 10 main_v6 c = o10_2 m c from pick_self c _ _ _]
  rfl
theorem V11_eq (c : Dev nD) : V11 m (outs m) c = U11 m c := by
  show Function.update (V10 m (outs m) c) main_v7 (outs m 11 main_v7 c) = _
  rw [V10_eq]
  unfold U11
  rw [show outs m 11 main_v7 c = o11_2 m c from pick_self c _ _ _]

theorem V12_eq (c : Dev nD) : V12 m (outs m) c = U12 m c := by
  show Function.update (Function.update (V11 m (outs m) c) main_v8_0 (outs m 12 main_v8_0 c)) main_v8_1 (outs m 12 main_v8_1 c) = _
  rw [V11_eq]
  unfold U12
  rw [show outs m 12 main_v8_0 c = o12_3 m c from pick_self c _ _ _]
  rw [show outs m 12 main_v8_1 c = o12_4 m c from (pick_ne c _ _ _ _ (by decide)).trans (pick_self c _ _ _)]

theorem V13_eq (c : Dev nD) : V13 m (outs m) c = U13 m c := by
  show Function.update (V12 m (outs m) c) main_v9 (outs m 13 main_v9 c) = _
  rw [V12_eq]
  unfold U13
  rw [show outs m 13 main_v9 c = o13_3 m c from pick_self c _ _ _]

theorem V14_eq (c : Dev nD) : V14 m (outs m) c = U14 m c := by
  show Function.update (V13 m (outs m) c) main_v10 (outs m 14 main_v10 c) = _
  rw [V13_eq]
  unfold U14
  rw [show outs m 14 main_v10 c = o14_2 m c from pick_self c _ _ _]

theorem V15_eq (c : Dev nD) : V15 m (outs m) c = U15 m c := by
  show Function.update (Function.update (V14 m (outs m) c) main_v11_0 (outs m 15 main_v11_0 c)) main_v11_1 (outs m 15 main_v11_1 c) = _
  rw [V14_eq]
  unfold U15
  rw [show outs m 15 main_v11_0 c = o15_3 m c from pick_self c _ _ _]
  rw [show outs m 15 main_v11_1 c = o15_4 m c from (pick_ne c _ _ _ _ (by decide)).trans (pick_self c _ _ _)]

theorem V16_eq (c : Dev nD) : V16 m (outs m) c = U16 m c := by
  show Function.update (V15 m (outs m) c) main_v12 (outs m 16 main_v12 c) = _
  rw [V15_eq]
  unfold U16
  rw [show outs m 16 main_v12 c = o16_3 m c from pick_self c _ _ _]

theorem V17_eq (c : Dev nD) : V17 m (outs m) c = U17 m c := by
  show Function.update (V16 m (outs m) c) main_v13 (outs m 17 main_v13 c) = _
  rw [V16_eq]
  unfold U17
  rw [show outs m 17 main_v13 c = o17_2 m c from pick_self c _ _ _]

theorem V18_eq (c : Dev nD) : V18 m (outs m) c = U18 m c := by
  show Function.update (Function.update (V17 m (outs m) c) main_v14_0 (outs m 18 main_v14_0 c)) main_v14_1 (outs m 18 main_v14_1 c) = _
  rw [V17_eq]
  unfold U18
  rw [show outs m 18 main_v14_0 c = o18_3 m c from pick_self c _ _ _]
  rw [show outs m 18 main_v14_1 c = o18_4 m c from (pick_ne c _ _ _ _ (by decide)).trans (pick_self c _ _ _)]

theorem V19_eq (c : Dev nD) : V19 m (outs m) c = U19 m c := by
  show Function.update (V18 m (outs m) c) main_v15 (outs m 19 main_v15 c) = _
  rw [V18_eq]
  unfold U19
  rw [show outs m 19 main_v15 c = o19_3 m c from pick_self c _ _ _]

theorem V20_eq (c : Dev nD) : V20 m (outs m) c = U20 m c := by
  show Function.update (V19 m (outs m) c) main_v16 (outs m 20 main_v16 c) = _
  rw [V19_eq]
  unfold U20
  rw [show outs m 20 main_v16 c = o20_2 m c from pick_self c _ _ _]

theorem V21_eq (c : Dev nD) : V21 m (outs m) c = U21 m c := by
  show Function.update (Function.update (V20 m (outs m) c) main_v17_0 (outs m 21 main_v17_0 c)) main_v17_1 (outs m 21 main_v17_1 c) = _
  rw [V20_eq]
  unfold U21
  rw [show outs m 21 main_v17_0 c = o21_3 m c from pick_self c _ _ _]
  rw [show outs m 21 main_v17_1 c = o21_4 m c from (pick_ne c _ _ _ _ (by decide)).trans (pick_self c _ _ _)]

theorem V22_eq (c : Dev nD) : V22 m (outs m) c = U22 m c := by
  show Function.update (V21 m (outs m) c) main_v18 (outs m 22 main_v18 c) = _
  rw [V21_eq]
  unfold U22
  rw [show outs m 22 main_v18 c = o22_3 m c from pick_self c _ _ _]

theorem V23_eq (c : Dev nD) : V23 m (outs m) c = U23 m c := by
  show Function.update (V22 m (outs m) c) main_v19 (outs m 23 main_v19 c) = _
  rw [V22_eq]
  unfold U23
  rw [show outs m 23 main_v19 c = o23_2 m c from pick_self c _ _ _]

theorem V24_eq (c : Dev nD) : V24 m (outs m) c = U24 m c := by
  show StableHlo.after hostOps14 (V23 m (outs m) c) = _
  rw [V23_eq]; rfl
theorem V25_eq (c : Dev nD) : V25 m (outs m) c = U25 m c := by
  show Function.update (V24 m (outs m) c) main_v26 (outs m 25 main_v26 c) = _
  rw [V24_eq]
  unfold U25
  rw [show outs m 25 main_v26 c = o25_2 m c from pick_self c _ _ _]

/-! ## The proof data family and the thread state -/

/-- Every pipeline's proof data, each at its region's entry contents. -/
def pdats : (p : Fin 15) → (c : Dev nD) → Dat τ (Elt F) Unit ℕ (UR sig nD τ) ℕ (cfgs p) c
  | ⟨0, _⟩ => fun c => dat0 (Vv9 m) c
  | ⟨1, _⟩ => fun c => dat1 (Vv10 m) c
  | ⟨2, _⟩ => fun c => dat2 (Vv11 m) c
  | ⟨3, _⟩ => fun c => dat3 (Vv12 m) c
  | ⟨4, _⟩ => fun c => dat4 (Vv13 m) c
  | ⟨5, _⟩ => fun c => dat5 (Vv14 m) c
  | ⟨6, _⟩ => fun c => dat6 (Vv15 m) c
  | ⟨7, _⟩ => fun c => dat7 (Vv16 m) c
  | ⟨8, _⟩ => fun c => dat8 (Vv17 m) c
  | ⟨9, _⟩ => fun c => dat9 (Vv18 m) c
  | ⟨10, _⟩ => fun c => dat10 (Vv19 m) c
  | ⟨11, _⟩ => fun c => dat11 (Vv20 m) c
  | ⟨12, _⟩ => fun c => dat12 (Vv21 m) c
  | ⟨13, _⟩ => fun c => dat13 (Vv22 m) c
  | ⟨14, _⟩ => fun c => dat14 (Vv24 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered from every unscoped buffer at the contents before it, left at the contents after it. Its arrays
    are split out of the unscoped buffers and put back at the exit contents; the generator register goes into the
    invariant and comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vv9 m) c).loose
  hwaits := Pipeline.hwaits_of_owed_zero _ _ _ _ L lv 0 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec0 c (Vv9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vv9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vv9 m c) (Vv10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at the contents after it. Its arrays
    are split out of the unscoped buffers and put back at the exit contents; the generator register goes into the
    invariant and comes back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vv10 m) c).loose
  hwaits := Pipeline.hwaits_of_owed_zero _ _ _ _ L lv 1 fun _ _ => rfl
  pre c := iprop(StableHlo.held (c : Thread nD τ) (Pipeline.ucRefs τ sig) (U10 m c) ∗ R c)
  post c := iprop(StableHlo.held (c : Thread nD τ) (Pipeline.ucRefs τ sig) (U11 m c) ∗ R c)
  X c := iprop(∃ r, prngReg c r)
  Y c := iprop(∃ r, prngReg c r)
  Z c := Pipeline.unscopedRest (Ix := Unit) (Name := ℕ) (U := UR sig nD τ) (Lvl := ℕ) spec1 c (Vv10 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vv10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vv10 m c) (Vv11 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at the contents after it. Its arrays
    are split out of the unscoped buffers and put back at the exit contents; the generator register goes into the
    invariant and comes back; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vv11 m) c).loose
  hwaits := Pipeline.hwaits_of_owed_zero _ _ _ _ L lv 2 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec2 c (Vv11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vv11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vv11 m c) (Vv12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at the contents after it. Its arrays
    are split out of the unscoped buffers and put back at the exit contents; the generator register goes into the
    invariant and comes back; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vv12 m) c).loose
  hwaits := Pipeline.hwaits_of_owed_zero _ _ _ _ L lv 3 fun _ _ => rfl
  pre c := iprop(StableHlo.held (c : Thread nD τ) (Pipeline.ucRefs τ sig) (U12 m c) ∗ R c)
  post c := iprop(StableHlo.held (c : Thread nD τ) (Pipeline.ucRefs τ sig) (U13 m c) ∗ R c)
  X c := iprop(∃ r, prngReg c r)
  Y c := iprop(∃ r, prngReg c r)
  Z c := Pipeline.unscopedRest (Ix := Unit) (Name := ℕ) (U := UR sig nD τ) (Lvl := ℕ) spec3 c (Vv12 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vv12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vv12 m c) (Vv13 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents before it, left at the contents after it. Its arrays
    are split out of the unscoped buffers and put back at the exit contents; the generator register goes into the
    invariant and comes back; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vv13 m) c).loose
  hwaits := Pipeline.hwaits_of_owed_zero _ _ _ _ L lv 4 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec4 c (Vv13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vv13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vv13 m c) (Vv14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at the contents before it, left at the contents after it. Its arrays
    are split out of the unscoped buffers and put back at the exit contents; the generator register goes into the
    invariant and comes back; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vv14 m) c).loose
  hwaits := Pipeline.hwaits_of_owed_zero _ _ _ _ L lv 5 fun _ _ => rfl
  pre c := iprop(StableHlo.held (c : Thread nD τ) (Pipeline.ucRefs τ sig) (U14 m c) ∗ R c)
  post c := iprop(StableHlo.held (c : Thread nD τ) (Pipeline.ucRefs τ sig) (U15 m c) ∗ R c)
  X c := iprop(∃ r, prngReg c r)
  Y c := iprop(∃ r, prngReg c r)
  Z c := Pipeline.unscopedRest (Ix := Unit) (Name := ℕ) (U := UR sig nD τ) (Lvl := ℕ) spec5 c (Vv14 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vv14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vv14 m c) (Vv15 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at the contents before it, left at the contents after it. Its arrays
    are split out of the unscoped buffers and put back at the exit contents; the generator register goes into the
    invariant and comes back; nothing owed; no semaphore of the kernel's own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vv15 m) c).loose
  hwaits := Pipeline.hwaits_of_owed_zero _ _ _ _ L lv 6 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec6 c (Vv15 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vv15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vv15 m c) (Vv16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at the contents before it, left at the contents after it. Its arrays
    are split out of the unscoped buffers and put back at the exit contents; the generator register goes into the
    invariant and comes back; nothing owed; no semaphore of the kernel's own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vv16 m) c).loose
  hwaits := Pipeline.hwaits_of_owed_zero _ _ _ _ L lv 7 fun _ _ => rfl
  pre c := iprop(StableHlo.held (c : Thread nD τ) (Pipeline.ucRefs τ sig) (U16 m c) ∗ R c)
  post c := iprop(StableHlo.held (c : Thread nD τ) (Pipeline.ucRefs τ sig) (U17 m c) ∗ R c)
  X c := iprop(∃ r, prngReg c r)
  Y c := iprop(∃ r, prngReg c r)
  Z c := Pipeline.unscopedRest (Ix := Unit) (Name := ℕ) (U := UR sig nD τ) (Lvl := ℕ) spec7 c (Vv16 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vv16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vv16 m c) (Vv17 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at the contents before it, left at the contents after it. Its arrays
    are split out of the unscoped buffers and put back at the exit contents; the generator register goes into the
    invariant and comes back; nothing owed; no semaphore of the kernel's own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vv17 m) c).loose
  hwaits := Pipeline.hwaits_of_owed_zero _ _ _ _ L lv 8 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec8 c (Vv17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vv17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vv17 m c) (Vv18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at the contents before it, left at the contents after it. Its arrays
    are split out of the unscoped buffers and put back at the exit contents; the generator register goes into the
    invariant and comes back; nothing owed; no semaphore of the kernel's own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vv18 m) c).loose
  hwaits := Pipeline.hwaits_of_owed_zero _ _ _ _ L lv 9 fun _ _ => rfl
  pre c := iprop(StableHlo.held (c : Thread nD τ) (Pipeline.ucRefs τ sig) (U18 m c) ∗ R c)
  post c := iprop(StableHlo.held (c : Thread nD τ) (Pipeline.ucRefs τ sig) (U19 m c) ∗ R c)
  X c := iprop(∃ r, prngReg c r)
  Y c := iprop(∃ r, prngReg c r)
  Z c := Pipeline.unscopedRest (Ix := Unit) (Name := ℕ) (U := UR sig nD τ) (Lvl := ℕ) spec9 c (Vv18 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vv18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vv18 m c) (Vv19 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from every unscoped buffer at the contents before it, left at the contents after it. Its arrays
    are split out of the unscoped buffers and put back at the exit contents; the generator register goes into the
    invariant and comes back; nothing owed; no semaphore of the kernel's own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vv19 m) c).loose
  hwaits := Pipeline.hwaits_of_owed_zero _ _ _ _ L lv 10 fun _ _ => rfl
  pre c := iprop(StableHlo.held (c : Thread nD τ) (Pipeline.ucRefs τ sig) (U19 m c) ∗ R c)
  post c := iprop(StableHlo.held (c : Thread nD τ) (Pipeline.ucRefs τ sig) (U20 m c) ∗ R c)
  X c := iprop(∃ r, prngReg c r)
  Y c := iprop(∃ r, prngReg c r)
  Z c := Pipeline.unscopedRest (Ix := Unit) (Name := ℕ) (U := UR sig nD τ) (Lvl := ℕ) spec10 c (Vv19 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vv19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vv19 m c) (Vv20 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: entered from every unscoped buffer at the contents before it, left at the contents after it. Its arrays
    are split out of the unscoped buffers and put back at the exit contents; the generator register goes into the
    invariant and comes back; nothing owed; no semaphore of the kernel's own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vv20 m) c).loose
  hwaits := Pipeline.hwaits_of_owed_zero _ _ _ _ L lv 11 fun _ _ => rfl
  pre c := iprop(StableHlo.held (c : Thread nD τ) (Pipeline.ucRefs τ sig) (U20 m c) ∗ R c)
  post c := iprop(StableHlo.held (c : Thread nD τ) (Pipeline.ucRefs τ sig) (U21 m c) ∗ R c)
  X c := iprop(∃ r, prngReg c r)
  Y c := iprop(∃ r, prngReg c r)
  Z c := Pipeline.unscopedRest (Ix := Unit) (Name := ℕ) (U := UR sig nD τ) (Lvl := ℕ) spec11 c (Vv20 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vv20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vv20 m c) (Vv21 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12: entered from every unscoped buffer at the contents before it, left at the contents after it. Its arrays
    are split out of the unscoped buffers and put back at the exit contents; the generator register goes into the
    invariant and comes back; nothing owed; no semaphore of the kernel's own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vv21 m) c).loose
  hwaits := Pipeline.hwaits_of_owed_zero _ _ _ _ L lv 12 fun _ _ => rfl
  pre c := iprop(StableHlo.held (c : Thread nD τ) (Pipeline.ucRefs τ sig) (U21 m c) ∗ R c)
  post c := iprop(StableHlo.held (c : Thread nD τ) (Pipeline.ucRefs τ sig) (U22 m c) ∗ R c)
  X c := iprop(∃ r, prngReg c r)
  Y c := iprop(∃ r, prngReg c r)
  Z c := Pipeline.unscopedRest (Ix := Unit) (Name := ℕ) (U := UR sig nD τ) (Lvl := ℕ) spec12 c (Vv21 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vv21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vv21 m c) (Vv22 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13: entered from every unscoped buffer at the contents before it, left at the contents after it. Its arrays
    are split out of the unscoped buffers and put back at the exit contents; the generator register goes into the
    invariant and comes back; nothing owed; no semaphore of the kernel's own. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vv22 m) c).loose
  hwaits := Pipeline.hwaits_of_owed_zero _ _ _ _ L lv 13 fun _ _ => rfl
  pre c := iprop(StableHlo.held (c : Thread nD τ) (Pipeline.ucRefs τ sig) (U22 m c) ∗ R c)
  post c := iprop(StableHlo.held (c : Thread nD τ) (Pipeline.ucRefs τ sig) (U23 m c) ∗ R c)
  X c := iprop(∃ r, prngReg c r)
  Y c := iprop(∃ r, prngReg c r)
  Z c := Pipeline.unscopedRest (Ix := Unit) (Name := ℕ) (U := UR sig nD τ) (Lvl := ℕ) spec13 c (Vv22 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (Vv22 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (Vv22 m c) (Vv23 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14: entered from every unscoped buffer at the contents before it, left at the contents after it. Its arrays
    are split out of the unscoped buffers and put back at the exit contents; the generator register goes into the
    invariant and comes back; nothing owed; no semaphore of the kernel's own. -/
def reg14 (hloc : ColLocal14 F) : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := body_obligation14_of (Vv24 m) hloc c
  hwaits := Pipeline.hwaits_of_owed_zero _ _ _ _ L lv 14 fun _ _ => rfl
  pre c := iprop(StableHlo.held (c : Thread nD τ) (Pipeline.ucRefs τ sig) (U24 m c) ∗ R c)
  post c := iprop(StableHlo.held (c : Thread nD τ) (Pipeline.ucRefs τ sig) (U25 m c) ∗ R c)
  X c := iprop(∃ r, prngReg c r)
  Y c := iprop(∃ r, prngReg c r)
  Z c := Pipeline.unscopedRest (Ix := Unit) (Name := ℕ) (U := UR sig nD τ) (Lvl := ℕ) spec14 c (Vv24 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (Vv24 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (Vv24 m c) (Vv25 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/-
  The frame of the whole program: from any memory with zero counters every weakly fair execution of @main terminates,
  nothing faulting, with every argument array as launched — the regions' segments chained through the host stretches.
-/
import proofs.«161112_j49297634623838_2_alg».proof.Proof.KI.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The frame, at any instance where the last region's body reads its right operand column by column. -/
theorem frame (hloc : ColLocal14 F) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond (Ix := Unit) (U := UR sig nD τ) (Lvl := ℕ) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE15 := fun c => by iintro ⟨-, H⟩; iexact H)
    (R0 := reg0 m) (hpre0 := fun c => by rw [show V9 m c = U9 m c from rfl]; exact .rfl) (hpost0 := fun c => by rw [V10_eq]; exact .rfl)
    (R1 := reg1 m) (hpre1 := fun c => by rw [V10_eq]; exact .rfl) (hpost1 := fun c => by rw [V11_eq]; exact .rfl)
    (R2 := reg2 m) (hpre2 := fun c => by rw [V11_eq]; exact .rfl) (hpost2 := fun c => by rw [V12_eq]; exact .rfl)
    (R3 := reg3 m) (hpre3 := fun c => by rw [V12_eq]; exact .rfl) (hpost3 := fun c => by rw [V13_eq]; exact .rfl)
    (R4 := reg4 m) (hpre4 := fun c => by rw [V13_eq]; exact .rfl) (hpost4 := fun c => by rw [V14_eq]; exact .rfl)
    (R5 := reg5 m) (hpre5 := fun c => by rw [V14_eq]; exact .rfl) (hpost5 := fun c => by rw [V15_eq]; exact .rfl)
    (R6 := reg6 m) (hpre6 := fun c => by rw [V15_eq]; exact .rfl) (hpost6 := fun c => by rw [V16_eq]; exact .rfl)
    (R7 := reg7 m) (hpre7 := fun c => by rw [V16_eq]; exact .rfl) (hpost7 := fun c => by rw [V17_eq]; exact .rfl)
    (R8 := reg8 m) (hpre8 := fun c => by rw [V17_eq]; exact .rfl) (hpost8 := fun c => by rw [V18_eq]; exact .rfl)
    (R9 := reg9 m) (hpre9 := fun c => by rw [V18_eq]; exact .rfl) (hpost9 := fun c => by rw [V19_eq]; exact .rfl)
    (R10 := reg10 m) (hpre10 := fun c => by rw [V19_eq]; exact .rfl) (hpost10 := fun c => by rw [V20_eq]; exact .rfl)
    (R11 := reg11 m) (hpre11 := fun c => by rw [V20_eq]; exact .rfl) (hpost11 := fun c => by rw [V21_eq]; exact .rfl)
    (R12 := reg12 m) (hpre12 := fun c => by rw [V21_eq]; exact .rfl) (hpost12 := fun c => by rw [V22_eq]; exact .rfl)
    (R13 := reg13 m) (hpre13 := fun c => by rw [V22_eq]; exact .rfl) (hpost13 := fun c => by rw [V23_eq]; exact .rfl)
    (R14 := reg14 m hloc) (hpre14 := fun c => by rw [V24_eq]; exact .rfl) (hpost14 := fun c => by rw [V25_eq]; exact .rfl)

end Cert.KernelIdeal.Hand

end
-- ==== Proof.KI.Run.lean ====
/-
  The run of the whole program with its result: as the frame, and the result array ends at the last valuation's contents
  of its buffer (what the last region's write-backs leave).
-/
import proofs.«161112_j49297634623838_2_alg».proof.Proof.KI.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Cond
variable (m : (ℓ : Loc nD τ sig) → Buf (Elt F) ℓ)
set_option backward.isDefEq.respectTransparency.types false in
/-- The conditional run: as the conditional frame, with the result array read off the last valuation as well. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 15) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 16 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE15 : ∀ c : Dev nD, E 15 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V12 m outs c) ∗ E 3 c) ⊢ R3.pre c)
    (hpost3 : ∀ c : Dev nD, R3.post c ⊢ iprop(StableHlo.held (c : Thread nD τ) (Pipeline.ucRefs τ sig) (V13 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V14 m outs c) ∗ E 5 c) ⊢ R5.pre c)
    (hpost5 : ∀ c : Dev nD, R5.post c ⊢ iprop(StableHlo.held (c : Thread nD τ) (Pipeline.ucRefs τ sig) (V15 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V16 m outs c) ∗ E 7 c) ⊢ R7.pre c)
    (hpost7 : ∀ c : Dev nD, R7.post c ⊢ iprop(StableHlo.held (c : Thread nD τ) (Pipeline.ucRefs τ sig) (V17 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V18 m outs c) ∗ E 9 c) ⊢ R9.pre c)
    (hpost9 : ∀ c : Dev nD, R9.post c ⊢ iprop(StableHlo.held (c : Thread nD τ) (Pipeline.ucRefs τ sig) (V19 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V19 m outs c) ∗ E 10 c) ⊢ R10.pre c)
    (hpost10 : ∀ c : Dev nD, R10.post c ⊢ iprop(StableHlo.held (c : Thread nD τ) (Pipeline.ucRefs τ sig) (V20 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V20 m outs c) ∗ E 11 c) ⊢ R11.pre c)
    (hpost11 : ∀ c : Dev nD, R11.post c ⊢ iprop(StableHlo.held (c : Thread nD τ) (Pipeline.ucRefs τ sig) (V21 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V21 m outs c) ∗ E 12 c) ⊢ R12.pre c)
    (hpost12 : ∀ c : Dev nD, R12.post c ⊢ iprop(StableHlo.held (c : Thread nD τ) (Pipeline.ucRefs τ sig) (V22 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V22 m outs c) ∗ E 13 c) ⊢ R13.pre c)
    (hpost13 : ∀ c : Dev nD, R13.post c ⊢ iprop(StableHlo.held (c : Thread nD τ) (Pipeline.ucRefs τ sig) (V23 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V24 m outs c) ∗ E 14 c) ⊢ R14.pre c)
    (hpost14 : ∀ c : Dev nD, R14.post c ⊢ iprop(StableHlo.held (c : Thread nD τ) (Pipeline.ucRefs τ sig) (V25 m outs c) ∗ E 15 c)) :
    θ_run defs (onTc (τ := τ) (main (F := F))) ⟨m, fun _ => 0, ρ⟩ (fun r => ∀ c : Dev nD,
      r.2.mem ((c.tc : Thread nD τ).loc main_v26) = V25 m outs c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14)
    (fun c Q => by
      rewrite [main_chain c, Seg.run_eq_chain,
        show (segs m outs 𝒱₀ L lv E ι pdats R0 R1 R2 R3 R4 R5 R6 R7 R8 R9 R10 R11 R12 R13 R14 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          Prog.lift (.customCall (Pipeline.entry 8) ()),
          Prog.lift (.customCall (Pipeline.entry 9) ()),
          Prog.lift (.customCall (Pipeline.entry 10) ()),
          Prog.lift (.customCall (Pipeline.entry 11) ()),
          Prog.lift (.customCall (Pipeline.entry 12) ()),
          Prog.lift (.customCall (Pipeline.entry 13) ()),
          StableHlo.seq hostOps14,
          Prog.lift (.customCall (Pipeline.entry 14) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V25 m outs c))
    (hch := fun c => ⟨.rfl, .rfl, .rfl, .rfl, .rfl, .rfl, .rfl, .rfl, .rfl, hpre0 c, (hpost0 c).trans (hpre1 c), (hpost1 c).trans (hpre2 c), (hpost2 c).trans (hpre3 c), (hpost3 c).trans (hpre4 c), (hpost4 c).trans (hpre5 c), (hpost5 c).trans (hpre6 c), (hpost6 c).trans (hpre7 c), (hpost7 c).trans (hpre8 c), (hpost8 c).trans (hpre9 c), (hpost9 c).trans (hpre10 c), (hpost10 c).trans (hpre11 c), (hpost11 c).trans (hpre12 c), (hpost12 c).trans (hpre13 c), hpost13 c, hpre14 c, (hpost14 c).trans (sep_mono .rfl (hE15 c))⟩)
    (hinit := ?_) (QY := fun c s => s.mem ((c.tc : Thread nD τ).loc main_v26) = V25 m outs c main_v26 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V25 m outs c) s') $$ [Hh HSI]
    · isplitl [Hh] <;> iassumption
    icases Hr with ⟨%h, HSI⟩
    imodintro
    isplitr
    · ipureintro
      exact ⟨h (Proc.devRef .tc main_v26) (Finset.mem_filter.mpr ⟨StableHlo.devRef_mem_tcRefs main_v26, by decide⟩),
        (h (Proc.devRef .tc main_arg0) (Finset.mem_filter.mpr ⟨StableHlo.devRef_mem_tcRefs main_arg0, by decide⟩)).trans (V25_main_arg0 m outs c),
        (h (Proc.devRef .tc main_arg1) (Finset.mem_filter.mpr ⟨StableHlo.devRef_mem_tcRefs main_arg1, by decide⟩)).trans (V25_main_arg1 m outs c),
        (h (Proc.devRef .tc main_arg2) (Finset.mem_filter.mpr ⟨StableHlo.devRef_mem_tcRefs main_arg2, by decide⟩)).trans (V25_main_arg2 m outs c),
        (h (Proc.devRef .tc main_arg3) (Finset.mem_filter.mpr ⟨StableHlo.devRef_mem_tcRefs main_arg3, by decide⟩)).trans (V25_main_arg3 m outs c),
        (h (Proc.devRef .tc main_arg4) (Finset.mem_filter.mpr ⟨StableHlo.devRef_mem_tcRefs main_arg4, by decide⟩)).trans (V25_main_arg4 m outs c),
        (h (Proc.devRef .tc main_arg5) (Finset.mem_filter.mpr ⟨StableHlo.devRef_mem_tcRefs main_arg5, by decide⟩)).trans (V25_main_arg5 m outs c),
        (h (Proc.devRef .tc main_arg6) (Finset.mem_filter.mpr ⟨StableHlo.devRef_mem_tcRefs main_arg6, by decide⟩)).trans (V25_main_arg6 m outs c),
        (h (Proc.devRef .tc main_arg7) (Finset.mem_filter.mpr ⟨StableHlo.devRef_mem_tcRefs main_arg7, by decide⟩)).trans (V25_main_arg7 m outs c),
        (h (Proc.devRef .tc main_arg8) (Finset.mem_filter.mpr ⟨StableHlo.devRef_mem_tcRefs main_arg8, by decide⟩)).trans (V25_main_arg8 m outs c),
        (h (Proc.devRef .tc main_arg9) (Finset.mem_filter.mpr ⟨StableHlo.devRef_mem_tcRefs main_arg9, by decide⟩)).trans (V25_main_arg9 m outs c),
        (h (Proc.devRef .tc main_arg10) (Finset.mem_filter.mpr ⟨StableHlo.devRef_mem_tcRefs main_arg10, by decide⟩)).trans (V25_main_arg10 m outs c),
        (h (Proc.devRef .tc main_arg11) (Finset.mem_filter.mpr ⟨StableHlo.devRef_mem_tcRefs main_arg11, by decide⟩)).trans (V25_main_arg11 m outs c),
        (h (Proc.devRef .tc main_arg12) (Finset.mem_filter.mpr ⟨StableHlo.devRef_mem_tcRefs main_arg12, by decide⟩)).trans (V25_main_arg12 m outs c),
        (h (Proc.devRef .tc main_arg13) (Finset.mem_filter.mpr ⟨StableHlo.devRef_mem_tcRefs main_arg13, by decide⟩)).trans (V25_main_arg13 m outs c),
        (h (Proc.devRef .tc main_arg14) (Finset.mem_filter.mpr ⟨StableHlo.devRef_mem_tcRefs main_arg14, by decide⟩)).trans (V25_main_arg14 m outs c),
        (h (Proc.devRef .tc main_arg15) (Finset.mem_filter.mpr ⟨StableHlo.devRef_mem_tcRefs main_arg15, by decide⟩)).trans (V25_main_arg15 m outs c),
        (h (Proc.devRef .tc main_arg16) (Finset.mem_filter.mpr ⟨StableHlo.devRef_mem_tcRefs main_arg16, by decide⟩)).trans (V25_main_arg16 m outs c),
        (h (Proc.devRef .tc main_arg17) (Finset.mem_filter.mpr ⟨StableHlo.devRef_mem_tcRefs main_arg17, by decide⟩)).trans (V25_main_arg17 m outs c)⟩
    · iexact HSI

end Cond

variable (m : (ℓ : Loc nD τ sig) → Buf (Elt F) ℓ)

/-- The run with its result, at any instance where the last region's body reads its right operand column by column. -/
theorem run (hloc : ColLocal14 F) (ρ : Dev nD → PrngReg) :
    θ_run defs (onTc (τ := τ) (main (F := F))) ⟨m, fun _ => 0, ρ⟩ (fun r => ∀ c : Dev nD,
      r.2.mem ((c.tc : Thread nD τ).loc main_v26) = V25 m (outs m) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_cond (Ix := Unit) (U := UR sig nD τ) (Lvl := ℕ) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE15 := fun c => by iintro ⟨-, H⟩; iexact H)
    (R0 := reg0 m) (hpre0 := fun c => by rw [show V9 m c = U9 m c from rfl]; exact .rfl) (hpost0 := fun c => by rw [V10_eq]; exact .rfl)
    (R1 := reg1 m) (hpre1 := fun c => by rw [V10_eq]; exact .rfl) (hpost1 := fun c => by rw [V11_eq]; exact .rfl)
    (R2 := reg2 m) (hpre2 := fun c => by rw [V11_eq]; exact .rfl) (hpost2 := fun c => by rw [V12_eq]; exact .rfl)
    (R3 := reg3 m) (hpre3 := fun c => by rw [V12_eq]; exact .rfl) (hpost3 := fun c => by rw [V13_eq]; exact .rfl)
    (R4 := reg4 m) (hpre4 := fun c => by rw [V13_eq]; exact .rfl) (hpost4 := fun c => by rw [V14_eq]; exact .rfl)
    (R5 := reg5 m) (hpre5 := fun c => by rw [V14_eq]; exact .rfl) (hpost5 := fun c => by rw [V15_eq]; exact .rfl)
    (R6 := reg6 m) (hpre6 := fun c => by rw [V15_eq]; exact .rfl) (hpost6 := fun c => by rw [V16_eq]; exact .rfl)
    (R7 := reg7 m) (hpre7 := fun c => by rw [V16_eq]; exact .rfl) (hpost7 := fun c => by rw [V17_eq]; exact .rfl)
    (R8 := reg8 m) (hpre8 := fun c => by rw [V17_eq]; exact .rfl) (hpost8 := fun c => by rw [V18_eq]; exact .rfl)
    (R9 := reg9 m) (hpre9 := fun c => by rw [V18_eq]; exact .rfl) (hpost9 := fun c => by rw [V19_eq]; exact .rfl)
    (R10 := reg10 m) (hpre10 := fun c => by rw [V19_eq]; exact .rfl) (hpost10 := fun c => by rw [V20_eq]; exact .rfl)
    (R11 := reg11 m) (hpre11 := fun c => by rw [V20_eq]; exact .rfl) (hpost11 := fun c => by rw [V21_eq]; exact .rfl)
    (R12 := reg12 m) (hpre12 := fun c => by rw [V21_eq]; exact .rfl) (hpost12 := fun c => by rw [V22_eq]; exact .rfl)
    (R13 := reg13 m) (hpre13 := fun c => by rw [V22_eq]; exact .rfl) (hpost13 := fun c => by rw [V23_eq]; exact .rfl)
    (R14 := reg14 m hloc) (hpre14 := fun c => by rw [V24_eq]; exact .rfl) (hpost14 := fun c => by rw [V25_eq]; exact .rfl)

/-- The result buffer's final contents: what the last region leaves. -/
theorem V25_main_v26 (c : Dev nD) : V25 m (outs m) c main_v26 = o25_2 m c := by
  rw [V25_eq]; exact U25_2 m c

end Cert.KernelIdeal.Hand

end
-- ==== Proof.KI.Reg14I.lean ====
/-
  Region 14 over the extended reals: there the body's value at an entry of the result buffer is the logistic of the
  sum over the 128 contracted positions of the row's entries times the column's, so on the columns inside the array it
  reads the second operand on those columns only — column locality —, and the body obligation of the region follows
  for the proof data that names the result buffer.
-/
import proofs.«161112_j49297634623838_2_alg».proof.Proof.KI.Reg14
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The product's operand indices at a result entry -/

theorem lhs14_0 (i : S600x384.Idx) (q : dot_S600x128_S128x384_S600x384_1_0_0_1_n_n.contr.Idx) :
    (dot_S600x128_S128x384_S600x384_1_0_0_1_n_n.lhsIdx i q 0).val = (i 0).val := by
  unfold DotDims.lhsIdx
  rw [dif_neg (show ¬(0 : Fin S600x128.rank) ∈ dot_S600x128_S128x384_S600x384_1_0_0_1_n_n.lhsBatch by decide), dif_pos (show (0 : Fin S600x128.rank) ∈ dot_S600x128_S128x384_S600x384_1_0_0_1_n_n.lhsNonContracting by decide)]
  rfl
theorem lhs14_1 (i : S600x384.Idx) (q : dot_S600x128_S128x384_S600x384_1_0_0_1_n_n.contr.Idx) :
    (dot_S600x128_S128x384_S600x384_1_0_0_1_n_n.lhsIdx i q 1).val = (q ⟨0, by decide⟩).val :=
  dot_S600x128_S128x384_S600x384_1_0_0_1_n_n.lhsIdx_val_of_single rfl i q
theorem rhs14_0 (i : S600x384.Idx) (q : dot_S600x128_S128x384_S600x384_1_0_0_1_n_n.contr.Idx) :
    (dot_S600x128_S128x384_S600x384_1_0_0_1_n_n.rhsIdx i q 0).val = (q ⟨0, by decide⟩).val :=
  dot_S600x128_S128x384_S600x384_1_0_0_1_n_n.rhsIdx_val_of_single rfl i q
theorem rhs14_1 (i : S600x384.Idx) (q : dot_S600x128_S128x384_S600x384_1_0_0_1_n_n.contr.Idx) :
    (dot_S600x128_S128x384_S600x384_1_0_0_1_n_n.rhsIdx i q 1).val = (i 1).val := by
  unfold DotDims.rhsIdx
  rw [dif_neg (show ¬(1 : Fin S128x384.rank) ∈ dot_S600x128_S128x384_S600x384_1_0_0_1_n_n.rhsBatch by decide), dif_pos (show (1 : Fin S128x384.rank) ∈ dot_S600x128_S128x384_S600x384_1_0_0_1_n_n.rhsNonContracting by decide)]
  rfl

/-! ## The body's value at an entry -/

/-- Entry (u, p, q) of the body's value: the logistic of the sum over k of x0 (0, p, k) · x1 (0, k, q). The narrowing
    to the matrix unit's operand format is the identity on extended reals, and the accumulator is the zero splat. -/
theorem pay14_apply (x0 : Vec Ideal S1x600x128 .f32) (x1 : Vec Ideal S1x128x384 .f32) (u : Fin 1) (p : Fin 600) (q : Fin 384) :
    k14_pay1 (F := Ideal) x0 x1 (ix3 u p q)
      = Ideal.logistic (∑ k : Fin 128, x0 (ix3 (0 : Fin 1) p k) * x1 (ix3 (0 : Fin 1) k q)) := by
  unfold k14_pay1
  rw [shapeCast_ab_1ab_apply]
  show Ideal.logistic (FloatOps.matmul dot_S600x128_S128x384_S600x384_1_0_0_1_n_n none _ _ (constant (F := Ideal) S600x384 .f32 0x00000000#32) (ix2 p q)) = _
  congr 1
  rw [Ideal.matmul_constant_zero_apply, ← Equiv.sum_comp (contrEquiv1 dot_S600x128_S128x384_S600x384_1_0_0_1_n_n 128 rfl rfl).symm]
  refine Finset.sum_congr rfl fun k _ => ?_
  have hk := contrEquiv1_symm_val dot_S600x128_S128x384_S600x384_1_0_0_1_n_n 128 rfl rfl k
  have el : dot_S600x128_S128x384_S600x384_1_0_0_1_n_n.lhsIdx (ix2 p q) ((contrEquiv1 dot_S600x128_S128x384_S600x384_1_0_0_1_n_n 128 rfl rfl).symm k) = ix2 p k := funext fun a => Fin.ext (by
    match a with
    | ⟨0, _⟩ => exact lhs14_0 _ _
    | ⟨1, _⟩ => exact (lhs14_1 _ _).trans hk)
  have er : dot_S600x128_S128x384_S600x384_1_0_0_1_n_n.rhsIdx (ix2 p q) ((contrEquiv1 dot_S600x128_S128x384_S600x384_1_0_0_1_n_n 128 rfl rfl).symm k) = ix2 k q := funext fun a => Fin.ext (by
    match a with
    | ⟨0, _⟩ => exact (rhs14_0 _ _).trans hk
    | ⟨1, _⟩ => exact rhs14_1 _ _)
  rw [el, er, truncf_apply, truncf_apply, shapeCast_1ab_ab_apply, shapeCast_1ab_ab_apply]

/-- The offsets of a whole-buffer access are zeros. -/
theorem hz3 : (![0, 0, 0] : Fin 3 → Nat) = fun _ => 0 := funext fun a => by fin_cases a <;> rfl

/-- The result buffer after the body is the body's value at the two buffers' contents: the loads read the whole
    buffers and the one store covers the result's. -/
theorem out14_2_eq (x0 : Vec Ideal S1x600x128 .f32) (x1 : Vec Ideal S1x128x384 .f32) :
    out14_2 (F := Ideal) x0 x1 = k14_pay1 (F := Ideal) x0 x1 := by
  unfold out14_2
  rw [View.canon_unit_zero hz3, View.ld_unit_zero (S := S1x600x128) hz3, View.ld_unit_zero (S := S1x128x384) hz3]

/-! ## Column locality -/

/-- Contents that agree on the part a window's transfer moves agree at every index of that part. -/
theorem eq_of_cut_eq {G : Pipeline.Grid} (w : Window sig G) {α : Type} (i : G.Coords) {X Y : w.block.Idx → α}
    (h : w.cut i X = w.cut i Y) (J : w.block.Idx) (hJ : ∀ a, (J a).val < w.xsize i a) : X J = Y J :=
  congrFun h (fun a => ⟨(J a).val, hJ a⟩)

/-- The column-block window is cut on the column axis only, and there as the result's window is. -/
theorem xsize14_1_0 (i : grid14.Coords) : 0 < win14_1.xsize i 0 :=
  Pipeline.Clip.extent_pos (win14_1.hclip i 0) (by decide)
theorem xsize14_1_1 (i : grid14.Coords) : win14_1.xsize i 1 = 128 := rfl
theorem xsize14_1_2 (i : grid14.Coords) : win14_2.xsize i 2 = win14_1.xsize i 2 := rfl

theorem colLocal14_ideal : ColLocal14 Ideal := by
  intro i x0 x1 x1' h
  have key : ∀ (J : S1x600x384.Idx), (J 2).val < win14_2.xsize i 2 →
      out14_2 (F := Ideal) x0 x1 J = out14_2 (F := Ideal) x0 x1' J := by
    intro J hJ
    obtain ⟨u, p, q, rfl⟩ : ∃ (u : Fin 1) (p : Fin 600) (q : Fin 384), J = ix3 u p q := ⟨J 0, J 1, J 2, eq_ix3 J⟩
    have hq : q.val < win14_2.xsize i 2 := hJ
    rw [out14_2_eq, out14_2_eq, pay14_apply, pay14_apply]
    congr 1
    refine Finset.sum_congr rfl fun k _ => ?_
    congr 1
    refine eq_of_cut_eq win14_1 i h (ix3 (0 : Fin 1) k q) fun a => ?_
    match a with
    | ⟨0, _⟩ => exact xsize14_1_0 i
    | ⟨1, _⟩ => exact (xsize14_1_1 i).symm ▸ k.isLt
    | ⟨2, _⟩ => exact (xsize14_1_2 i) ▸ hq
  funext jo
  exact key (win14_2.xinj i jo) (jo 2).isLt

/-! ## The body obligation -/

variable (V : (c : Dev nD) → (b : Ref sig .tc) → Buf (Elt Ideal) ((c : Thread nD τ).loc b))

/-- The library's body obligation for region 14 over the extended reals, nothing forgotten: the result window's
    buffer is named on the columns inside the array. -/
theorem body_obligation14 (c : Dev nD) :
    BodyObligationLoose (dat14 (F := Ideal) V c) (defs₀ (F := Ideal)) Variants.none () Set.univ :=
  body_obligation14_of V colLocal14_ideal c

end Cert.KernelIdeal.Hand

end
-- ==== Proof.Spec.lean ====
/-
  The specification both programs meet, over the extended reals. A matrix is a function of a rank-2 index. `mm` is the
  matrix product as a sum over the contracted axis; an encoder is three rounds "project, (squash,) aggregate along the
  adjacency"; the reconstructed adjacency of an embedding `z` is the logistic function of the Gram matrix `z zᵀ`; the
  result stacks the four encoders' reconstructions along a leading axis.
-/
import Idealize.ShloMosaic.PureOps.Ideal
import Idealize.ShloMosaic.Lib.ValueIdx

noncomputable section

namespace Cert.Spec

open Idealize.ShloMosaic Idealize.ShloMosaic.ValueIdx

/-- An `a × b` matrix of extended reals. -/
abbrev Mat (a b : Nat) : Type := (⟨2, ![a, b]⟩ : Shape).Idx → EReal

/-- A stack of `e` matrices `a × b`. -/
abbrev Stack (e a b : Nat) : Type := (⟨3, ![e, a, b]⟩ : Shape).Idx → EReal

/-- The matrix product: entry `(p, q)` is the sum over `j` of `x (p, j) · y (j, q)`. -/
def mm {a k b : Nat} (x : Mat a k) (y : Mat k b) : Mat a b :=
  fun i => ∑ j : Fin k, x (ix2 (i 0) j) * y (ix2 j (i 1))

/-- `tanh` entry by entry. -/
def tanhM {a b : Nat} (x : Mat a b) : Mat a b := fun i => Ideal.tanh (x i)

/-- One encoder's embedding: `adj · ((adj · tanh ((adj · tanh (x · w1)) · w2)) · w3)`. -/
def enc {n d1 d2 d3 : Nat} (x : Mat n n) (adj : Mat n n) (w1 : Mat n d1) (w2 : Mat d1 d2) (w3 : Mat d2 d3) : Mat n d3 :=
  mm adj (mm (mm adj (tanhM (mm (mm adj (tanhM (mm x w1))) w2))) w3)

/-- The reconstructed adjacency of an embedding: the logistic function of `z zᵀ`, entry by entry. -/
def gramLogistic {n d : Nat} (z : Mat n d) : Mat n n :=
  fun i => Ideal.logistic (∑ j : Fin d, z (ix2 (i 0) j) * z (ix2 (i 1) j))

/-- Two matrices side by side: columns `0 ‥ b1-1` from `w1`, columns `b1 ‥ b1+b2-1` from `w2`. -/
def concatCols {k b1 b2 b : Nat} (hb : b1 + b2 = b) (w1 : Mat k b1) (w2 : Mat k b2) : Mat k b :=
  fun i => if h : (i 1).val < b1 then w1 (ix2 (i 0) ⟨(i 1).val, h⟩)
    else w2 (ix2 (i 0) ⟨(i 1).val - b1, by have := idx2_lt1 i; omega⟩)

/-- A matrix widened with zero columns on the right. -/
def padCols {k b b' : Nat} (w : Mat k b) : Mat k b' :=
  fun i => if h : (i 1).val < b then w (ix2 (i 0) ⟨(i 1).val, h⟩) else 0

/-- The block of `b` columns starting at column `o`. -/
def colblk {n b B : Nat} (o : Nat) (ho : o + b ≤ B) (M : Mat n B) : Mat n b :=
  fun i => M (ix2 (i 0) ⟨o + (i 1).val, by have := idx2_lt1 i; omega⟩)

/-- The transposed stack: entry `(e, p, q)` is the stack's `(e, q, p)`. -/
def transposeS {e a b : Nat} (z : Stack e a b) : Stack e b a := fun i => z (ix3 (i 0) (i 2) (i 1))

/-- A stack's logistic Gram matrices against a second stack: entry `(e, p, q)` is the logistic function of the sum
    over `j` of `z (e, p, j) · y (e, j, q)`. -/
def bmmLogistic {e n d : Nat} (z : Stack e n d) (y : Stack e d n) : Stack e n n :=
  fun i => Ideal.logistic (∑ j : Fin d, z (ix3 (i 0) (i 1) j) * y (ix3 (i 0) j (i 2)))

/-- Four matrices stacked along a new leading axis. -/
def stack4 {a b : Nat} (m0 m1 m2 m3 : Mat a b) : Stack 4 a b :=
  fun i => match i 0 with
    | ⟨0, _⟩ => m0 (ix2 (i 1) (i 2))
    | ⟨1, _⟩ => m1 (ix2 (i 1) (i 2))
    | ⟨2, _⟩ => m2 (ix2 (i 1) (i 2))
    | ⟨_ + 3, _⟩ => m3 (ix2 (i 1) (i 2))

/-- The whole result: encoder `f1` on (x1, a1), `f2` on (x2, a2), `s1` on (x1, a3), `s2` on (x2, a4). -/
def result (x1 x2 a1 a2 a3 a4 : Mat 3000 3000)
    (wf11 : Mat 3000 256) (wf12 : Mat 256 128) (wf13 : Mat 128 64)
    (wf21 : Mat 3000 256) (wf22 : Mat 256 128) (wf23 : Mat 128 64)
    (ws11 : Mat 3000 256) (ws12 : Mat 256 128) (ws13 : Mat 128 64)
    (ws21 : Mat 3000 256) (ws22 : Mat 256 128) (ws23 : Mat 128 64) : Stack 4 3000 3000 :=
  stack4 (gramLogistic (enc x1 a1 wf11 wf12 wf13)) (gramLogistic (enc x2 a2 wf21 wf22 wf23))
    (gramLogistic (enc x1 a3 ws11 ws12 ws13)) (gramLogistic (enc x2 a4 ws21 ws22 ws23))

end Cert.Spec

end
-- ==== Proof.SpecLaws.lean ====
/-
  Laws of the specification's matrix vocabulary. A column block of two matrices set side by side is one of the two;
  taking a column block commutes with the entrywise tanh and with a product on the left (column `q` of `x · W` only
  reads column `q` of `W`); a product into a matrix widened by zero columns is the widened product; zero columns add
  nothing to the inner product of two rows. Hence the logistic Gram matrices of four zero-widened embeddings,
  computed as one stacked product against the transposed stack, are the logistic Gram matrices of the embeddings.
  Nothing here needs finiteness: the only arithmetic facts used are `x * 0 = 0`, `0 * x = 0` and `s + 0 = s`,
  which hold on all extended reals.
-/
import proofs.«161112_j49297634623838_2_alg».proof.Proof.Spec

noncomputable section

namespace Cert.Spec

open Idealize.ShloMosaic Idealize.ShloMosaic.ValueIdx

/-! ## The definitions read at explicit coordinates -/

theorem concatCols_apply_lt {k b1 b2 b : Nat} (hb : b1 + b2 = b) (w1 : Mat k b1) (w2 : Mat k b2)
    (p : Fin k) (q : Fin b) (h : q.val < b1) : concatCols hb w1 w2 (ix2 p q) = w1 (ix2 p ⟨q.val, h⟩) :=
  dif_pos h

theorem concatCols_apply_ge {k b1 b2 b : Nat} (hb : b1 + b2 = b) (w1 : Mat k b1) (w2 : Mat k b2)
    (p : Fin k) (q : Fin b) (h : ¬ q.val < b1) :
    concatCols hb w1 w2 (ix2 p q) = w2 (ix2 p ⟨q.val - b1, by have := q.isLt; omega⟩) :=
  dif_neg h

theorem padCols_apply_lt {k b b' : Nat} (w : Mat k b) (p : Fin k) (q : Fin b') (h : q.val < b) :
    padCols (b' := b') w (ix2 p q) = w (ix2 p ⟨q.val, h⟩) :=
  dif_pos h

theorem padCols_apply_ge {k b b' : Nat} (w : Mat k b) (p : Fin k) (q : Fin b') (h : ¬ q.val < b) :
    padCols (b' := b') w (ix2 p q) = 0 :=
  dif_neg h

theorem colblk_apply {n b B : Nat} (o : Nat) (ho : o + b ≤ B) (M : Mat n B) (p : Fin n) (q : Fin b) :
    colblk o ho M (ix2 p q) = M (ix2 p ⟨o + q.val, by have := q.isLt; omega⟩) := rfl

theorem mm_apply {a k b : Nat} (x : Mat a k) (y : Mat k b) (p : Fin a) (q : Fin b) :
    mm x y (ix2 p q) = ∑ j : Fin k, x (ix2 p j) * y (ix2 j q) := rfl

/-! ## Column blocks -/

/-- The first `b1` columns of `[w1 | w2]` are `w1`. -/
theorem colblk_concat_left {k b1 b2 b : Nat} (hb : b1 + b2 = b) (w1 : Mat k b1) (w2 : Mat k b2) :
    colblk 0 (by omega) (concatCols hb w1 w2) = w1 := by
  funext i
  obtain ⟨p, q, rfl⟩ : ∃ (p : Fin k) (q : Fin b1), i = ix2 p q := ⟨i 0, i 1, eq_ix2 i⟩
  have h : (0 + q.val) < b1 := by have := q.isLt; omega
  rw [colblk_apply, concatCols_apply_lt hb w1 w2 p _ h]
  exact congrArg (fun t => w1 (ix2 p t)) (Fin.ext (Nat.zero_add _))

/-- The `b2` columns of `[w1 | w2]` from column `b1` on are `w2`. -/
theorem colblk_concat_right {k b1 b2 b : Nat} (hb : b1 + b2 = b) (w1 : Mat k b1) (w2 : Mat k b2) :
    colblk b1 (by omega) (concatCols hb w1 w2) = w2 := by
  funext i
  obtain ⟨p, q, rfl⟩ : ∃ (p : Fin k) (q : Fin b2), i = ix2 p q := ⟨i 0, i 1, eq_ix2 i⟩
  have h : ¬ (b1 + q.val) < b1 := by omega
  rw [colblk_apply, concatCols_apply_ge hb w1 w2 p _ h]
  exact congrArg (fun t => w2 (ix2 p t)) (Fin.ext (Nat.add_sub_cancel_left b1 q.val))

/-- A column block of the entrywise tanh is the tanh of the column block. -/
theorem colblk_tanhM {n b B : Nat} (o : Nat) (ho : o + b ≤ B) (M : Mat n B) :
    colblk o ho (tanhM M) = tanhM (colblk o ho M) := by
  funext i; rfl

/-- Column `q` of a product reads only column `q` of the right factor. -/
theorem colblk_mm {a k b B : Nat} (o : Nat) (ho : o + b ≤ B) (x : Mat a k) (W : Mat k B) :
    colblk o ho (mm x W) = mm x (colblk o ho W) := by
  funext i; rfl

/-! ## Zero columns -/

/-- A product into a matrix widened by zero columns is the product, widened: the new columns are sums of `x * 0`. -/
theorem mm_padCols {a k b b' : Nat} (z : Mat a k) (w : Mat k b) :
    mm z (padCols (b' := b') w) = padCols (b' := b') (mm z w) := by
  funext i
  obtain ⟨p, q, rfl⟩ : ∃ (p : Fin a) (q : Fin b'), i = ix2 p q := ⟨i 0, i 1, eq_ix2 i⟩
  by_cases h : q.val < b
  · rw [padCols_apply_lt _ _ _ h, mm_apply, mm_apply]
    simp only [padCols_apply_lt _ _ _ h]
  · rw [padCols_apply_ge _ _ _ h, mm_apply]
    simp only [padCols_apply_ge _ _ _ h, mul_zero, Finset.sum_const_zero]

/-- Zero columns add nothing to the inner product of two rows. -/
theorem gram_padCols {n d d' : Nat} (hd : d ≤ d') (z : Mat n d) (p q : Fin n) :
    (∑ j : Fin d', (padCols (b' := d') z) (ix2 p j) * (padCols (b' := d') z) (ix2 q j))
      = ∑ j : Fin d, z (ix2 p j) * z (ix2 q j) := by
  obtain ⟨m, rfl⟩ := Nat.exists_eq_add_of_le hd
  rw [Fin.sum_univ_add]
  have h1 : ∀ (r : Fin n) (j : Fin d), padCols (b' := d + m) z (ix2 r (Fin.castAdd m j)) = z (ix2 r j) :=
    fun r j => padCols_apply_lt z r (Fin.castAdd m j) j.isLt
  have h2 : ∀ (r : Fin n) (j : Fin m), padCols (b' := d + m) z (ix2 r (Fin.natAdd d j)) = 0 :=
    fun r j => padCols_apply_ge z r (Fin.natAdd d j) (by rw [Fin.coe_natAdd]; omega)
  simp only [h1, h2, mul_zero, Finset.sum_const_zero, add_zero]

/-! ## The stacked logistic Gram matrices -/

/-- The stacked product of four zero-widened embeddings against the transposed stack, through the logistic function,
    is the stack of the four embeddings' logistic Gram matrices. -/
theorem bmmLogistic_transpose_stack4_padCols {n d d' : Nat} (hd : d ≤ d') (z0 z1 z2 z3 : Mat n d) :
    bmmLogistic (stack4 (padCols (b' := d') z0) (padCols (b' := d') z1) (padCols (b' := d') z2) (padCols (b' := d') z3))
      (transposeS (stack4 (padCols (b' := d') z0) (padCols (b' := d') z1) (padCols (b' := d') z2)
        (padCols (b' := d') z3)))
      = stack4 (gramLogistic z0) (gramLogistic z1) (gramLogistic z2) (gramLogistic z3) := by
  funext i
  obtain ⟨e, p, q, rfl⟩ : ∃ (e : Fin 4) (p q : Fin n), i = ix3 e p q := ⟨i 0, i 1, i 2, eq_ix3 i⟩
  match e with
  | ⟨0, _⟩ =>
    show Ideal.logistic (∑ j : Fin d', padCols (b' := d') z0 (ix2 p j) * padCols (b' := d') z0 (ix2 q j))
      = Ideal.logistic (∑ j : Fin d, z0 (ix2 p j) * z0 (ix2 q j))
    rw [gram_padCols hd]
  | ⟨1, _⟩ =>
    show Ideal.logistic (∑ j : Fin d', padCols (b' := d') z1 (ix2 p j) * padCols (b' := d') z1 (ix2 q j))
      = Ideal.logistic (∑ j : Fin d, z1 (ix2 p j) * z1 (ix2 q j))
    rw [gram_padCols hd]
  | ⟨2, _⟩ =>
    show Ideal.logistic (∑ j : Fin d', padCols (b' := d') z2 (ix2 p j) * padCols (b' := d') z2 (ix2 q j))
      = Ideal.logistic (∑ j : Fin d, z2 (ix2 p j) * z2 (ix2 q j))
    rw [gram_padCols hd]
  | ⟨3, _⟩ =>
    show Ideal.logistic (∑ j : Fin d', padCols (b' := d') z3 (ix2 p j) * padCols (b' := d') z3 (ix2 q j))
      = Ideal.logistic (∑ j : Fin d, z3 (ix2 p j) * z3 (ix2 q j))
    rw [gram_padCols hd]

/-! ## The constant one -/

/-- The single-precision word `0x3F800000` is the number one. -/
theorem one_f32 : Ideal.ofBits .f32 0x3F800000#32 = 1 := by
  simp [Ideal.ofBits, Ideal.ieee, -EReal.coe_mul]; norm_num

end Cert.Spec

end
-- ==== Proof.KI.HostVals.lean ====
/-
  What the host operations between the kernels compute, at the ideal values, read entry by entry: two first-layer
  weight matrices set side by side, a third-layer weight matrix widened by zero columns, four embeddings stacked
  along a new leading axis, and that stack with its last two axes exchanged. The arguments themselves are written
  by no host operation and keep their launch contents.
-/
import proofs.«161112_j49297634623838_2_alg».proof.Proof.Gen.KernelIdeal.Regions
import proofs.«161112_j49297634623838_2_alg».proof.Proof.Spec
import proofs.«161112_j49297634623838_2_alg».proof.Proof.SpecLaws
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-- Two matrices concatenated along the column axis, read entry by entry, are the two matrices side by side. -/
theorem concatenate_cols {k b1 b2 b : Nat} (hb : b1 + b2 = b)
    (h : Shape.Concatenates [(⟨2, ![k, b1]⟩ : Shape), (⟨2, ![k, b2]⟩ : Shape)] (⟨2, ![k, b]⟩ : Shape) 1)
    (A : Spec.Mat k b1) (B : Spec.Mat k b2) :
    concatenate (⟨2, ![k, b]⟩ : Shape) 1 [⟨(⟨2, ![k, b1]⟩ : Shape), A⟩, ⟨(⟨2, ![k, b2]⟩ : Shape), B⟩] h = Spec.concatCols hb A B := by
  funext j
  obtain ⟨p, q, rfl⟩ : ∃ (p : Fin k) (q : Fin b), j = ix2 p q := ⟨j 0, j 1, eq_ix2 j⟩
  by_cases hq : q.val < b1
  · rw [Spec.concatCols_apply_lt hb A B p q hq]
    exact concatenate_pair_apply_left (t := (⟨2, ![k, b]⟩ : Shape)) 1 A B h (ix2 p q) rfl (ix2 p ⟨q.val, hq⟩)
      (fun a => match a with
        | ⟨0, _⟩ => rfl
        | ⟨1, _⟩ => rfl)
  · rw [Spec.concatCols_apply_ge hb A B p q hq]
    exact concatenate_pair_apply_right (t := (⟨2, ![k, b]⟩ : Shape)) 1 A B h (ix2 p q) rfl rfl
      (ix2 p ⟨q.val - b1, by have := q.isLt; omega⟩)
      (fun a ha => match a, ha with
        | ⟨0, _⟩, _ => rfl
        | ⟨1, _⟩, ha => absurd rfl ha)
      (by show q.val - b1 + b1 = q.val; omega)

/-! ## The arguments: no host operation before the first kernel writes one -/

theorem hvarg8_0 : V8 (F := Ideal) m c main_arg0 = m ((c : Thread nD τ).loc main_arg0) :=
  (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem hvarg0 : V9 (F := Ideal) m c main_arg0 = m ((c : Thread nD τ).loc main_arg0) :=
  (V9_of m c main_arg0 (by decide)).trans (hvarg8_0 m c)

theorem hvarg8_1 : V8 (F := Ideal) m c main_arg1 = m ((c : Thread nD τ).loc main_arg1) :=
  (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem hvarg1 : V9 (F := Ideal) m c main_arg1 = m ((c : Thread nD τ).loc main_arg1) :=
  (V9_of m c main_arg1 (by decide)).trans (hvarg8_1 m c)

theorem hvarg8_2 : V8 (F := Ideal) m c main_arg2 = m ((c : Thread nD τ).loc main_arg2) :=
  (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
theorem hvarg2 : V9 (F := Ideal) m c main_arg2 = m ((c : Thread nD τ).loc main_arg2) :=
  (V9_of m c main_arg2 (by decide)).trans (hvarg8_2 m c)

theorem hvarg8_3 : V8 (F := Ideal) m c main_arg3 = m ((c : Thread nD τ).loc main_arg3) :=
  (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl
theorem hvarg3 : V9 (F := Ideal) m c main_arg3 = m ((c : Thread nD τ).loc main_arg3) :=
  (V9_of m c main_arg3 (by decide)).trans (hvarg8_3 m c)

theorem hvarg8_4 : V8 (F := Ideal) m c main_arg4 = m ((c : Thread nD τ).loc main_arg4) :=
  (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem hvarg4 : V9 (F := Ideal) m c main_arg4 = m ((c : Thread nD τ).loc main_arg4) :=
  (V9_of m c main_arg4 (by decide)).trans (hvarg8_4 m c)

theorem hvarg8_5 : V8 (F := Ideal) m c main_arg5 = m ((c : Thread nD τ).loc main_arg5) :=
  (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
theorem hvarg5 : V9 (F := Ideal) m c main_arg5 = m ((c : Thread nD τ).loc main_arg5) :=
  (V9_of m c main_arg5 (by decide)).trans (hvarg8_5 m c)

theorem hvarg8_6 : V8 (F := Ideal) m c main_arg6 = m ((c : Thread nD τ).loc main_arg6) :=
  (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
theorem hvarg6 : V9 (F := Ideal) m c main_arg6 = m ((c : Thread nD τ).loc main_arg6) :=
  (V9_of m c main_arg6 (by decide)).trans (hvarg8_6 m c)

theorem hvarg8_7 : V8 (F := Ideal) m c main_arg7 = m ((c : Thread nD τ).loc main_arg7) :=
  (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans <| rfl
theorem hvarg7 : V9 (F := Ideal) m c main_arg7 = m ((c : Thread nD τ).loc main_arg7) :=
  (V9_of m c main_arg7 (by decide)).trans (hvarg8_7 m c)

theorem hvarg8_8 : V8 (F := Ideal) m c main_arg8 = m ((c : Thread nD τ).loc main_arg8) :=
  (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl
theorem hvarg8 : V9 (F := Ideal) m c main_arg8 = m ((c : Thread nD τ).loc main_arg8) :=
  (V9_of m c main_arg8 (by decide)).trans (hvarg8_8 m c)

theorem hvarg8_9 : V8 (F := Ideal) m c main_arg9 = m ((c : Thread nD τ).loc main_arg9) :=
  (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl
theorem hvarg9 : V9 (F := Ideal) m c main_arg9 = m ((c : Thread nD τ).loc main_arg9) :=
  (V9_of m c main_arg9 (by decide)).trans (hvarg8_9 m c)

theorem hvarg8_10 : V8 (F := Ideal) m c main_arg10 = m ((c : Thread nD τ).loc main_arg10) :=
  (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans <| rfl
theorem hvarg10 : V9 (F := Ideal) m c main_arg10 = m ((c : Thread nD τ).loc main_arg10) :=
  (V9_of m c main_arg10 (by decide)).trans (hvarg8_10 m c)

theorem hvarg8_11 : V8 (F := Ideal) m c main_arg11 = m ((c : Thread nD τ).loc main_arg11) :=
  (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans <| rfl
theorem hvarg11 : V9 (F := Ideal) m c main_arg11 = m ((c : Thread nD τ).loc main_arg11) :=
  (V9_of m c main_arg11 (by decide)).trans (hvarg8_11 m c)

theorem hvarg8_12 : V8 (F := Ideal) m c main_arg12 = m ((c : Thread nD τ).loc main_arg12) :=
  (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans <| rfl
theorem hvarg12 : V9 (F := Ideal) m c main_arg12 = m ((c : Thread nD τ).loc main_arg12) :=
  (V9_of m c main_arg12 (by decide)).trans (hvarg8_12 m c)

theorem hvarg8_13 : V8 (F := Ideal) m c main_arg13 = m ((c : Thread nD τ).loc main_arg13) :=
  (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide)).trans <| rfl
theorem hvarg13 : V9 (F := Ideal) m c main_arg13 = m ((c : Thread nD τ).loc main_arg13) :=
  (V9_of m c main_arg13 (by decide)).trans (hvarg8_13 m c)

theorem hvarg8_14 : V8 (F := Ideal) m c main_arg14 = m ((c : Thread nD τ).loc main_arg14) :=
  (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide)).trans <| rfl
theorem hvarg14 : V9 (F := Ideal) m c main_arg14 = m ((c : Thread nD τ).loc main_arg14) :=
  (V9_of m c main_arg14 (by decide)).trans (hvarg8_14 m c)

theorem hvarg8_15 : V8 (F := Ideal) m c main_arg15 = m ((c : Thread nD τ).loc main_arg15) :=
  (V8_of m c main_arg15 (by decide)).trans <| (V7_of m c main_arg15 (by decide)).trans <| (V6_of m c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide)).trans <| rfl
theorem hvarg15 : V9 (F := Ideal) m c main_arg15 = m ((c : Thread nD τ).loc main_arg15) :=
  (V9_of m c main_arg15 (by decide)).trans (hvarg8_15 m c)

theorem hvarg8_16 : V8 (F := Ideal) m c main_arg16 = m ((c : Thread nD τ).loc main_arg16) :=
  (V8_of m c main_arg16 (by decide)).trans <| (V7_of m c main_arg16 (by decide)).trans <| (V6_of m c main_arg16 (by decide)).trans <| (V5_of m c main_arg16 (by decide)).trans <| (V4_of m c main_arg16 (by decide)).trans <| (V3_of m c main_arg16 (by decide)).trans <| (V2_of m c main_arg16 (by decide)).trans <| (V1_of m c main_arg16 (by decide)).trans <| rfl
theorem hvarg16 : V9 (F := Ideal) m c main_arg16 = m ((c : Thread nD τ).loc main_arg16) :=
  (V9_of m c main_arg16 (by decide)).trans (hvarg8_16 m c)

theorem hvarg8_17 : V8 (F := Ideal) m c main_arg17 = m ((c : Thread nD τ).loc main_arg17) :=
  (V8_of m c main_arg17 (by decide)).trans <| (V7_of m c main_arg17 (by decide)).trans <| (V6_of m c main_arg17 (by decide)).trans <| (V5_of m c main_arg17 (by decide)).trans <| (V4_of m c main_arg17 (by decide)).trans <| (V3_of m c main_arg17 (by decide)).trans <| (V2_of m c main_arg17 (by decide)).trans <| (V1_of m c main_arg17 (by decide)).trans <| rfl
theorem hvarg17 : V9 (F := Ideal) m c main_arg17 = m ((c : Thread nD τ).loc main_arg17) :=
  (V9_of m c main_arg17 (by decide)).trans (hvarg8_17 m c)

/-! ## The two concatenated first-layer weights -/

theorem hv4 : (V9 (F := Ideal) m c main_v4 : Spec.Mat 3000 512) = Spec.concatCols (by norm_num) (m ((c : Thread nD τ).loc main_arg6)) (m ((c : Thread nD τ).loc main_arg12)) := by
  have e : (V9 (F := Ideal) m c main_v4 : S3000x512.Idx → EReal) = concatenate S3000x512 1 [⟨S3000x256, V8 (F := Ideal) m c main_arg6⟩, ⟨S3000x256, V8 (F := Ideal) m c main_arg12⟩] concatenates_S3000x256_S3000x256_S3000x512_d1 := by
    dsimp only [V9, hostOps0_8]
    after_results
  rw [e, hvarg8_6, hvarg8_12]
  exact concatenate_cols (by norm_num) concatenates_S3000x256_S3000x256_S3000x512_d1 _ _

theorem hv5 : (V9 (F := Ideal) m c main_v5 : Spec.Mat 3000 512) = Spec.concatCols (by norm_num) (m ((c : Thread nD τ).loc main_arg9)) (m ((c : Thread nD τ).loc main_arg15)) := by
  have e : (V9 (F := Ideal) m c main_v5 : S3000x512.Idx → EReal) = concatenate S3000x512 1 [⟨S3000x256, V8 (F := Ideal) m c main_arg9⟩, ⟨S3000x256, V8 (F := Ideal) m c main_arg15⟩] concatenates_S3000x256_S3000x256_S3000x512_d1 := by
    dsimp only [V9, hostOps0_8]
    after_results
  rw [e, hvarg8_9, hvarg8_15]
  exact concatenate_cols (by norm_num) concatenates_S3000x256_S3000x256_S3000x512_d1 _ _

/-! ## The third-layer weights widened by zero columns -/

/-- A matrix padded with a constant on the right of its columns, the constant being zero, read entry by entry, is
    the matrix widened by zero columns. -/
theorem pad_cols {k b b' e : Nat}
    (h : (⟨2, ![k, b]⟩ : Shape).Pads (![0, 0] : Fin 2 → Nat) ![0, e] ![0, 0] (⟨2, ![k, b']⟩ : Shape))
    {u : Shape} (hu : 0 < u.numel) (x : Spec.Mat k b) (v : u.Idx → EReal) (hv : v (Shape.Idx.first hu) = 0) :
    pad (⟨2, ![k, b']⟩ : Shape) ![0, 0] ![0, e] ![0, 0] x v h hu = Spec.padCols x := by
  funext j
  obtain ⟨p, q, rfl⟩ : ∃ (p : Fin k) (q : Fin b'), j = ix2 p q := ⟨j 0, j 1, eq_ix2 j⟩
  by_cases hq : q.val < b
  · rw [Spec.padCols_apply_lt x p q hq]
    exact pad_apply_of_inside _ _ _ x v h hu (ix2 p q) (ix2 p ⟨q.val, hq⟩)
      (fun a => match a with
        | ⟨0, _⟩ => by show p.val = 0 + p.val * (0 + 1); omega
        | ⟨1, _⟩ => by show q.val = 0 + q.val * (0 + 1); omega)
  · rw [Spec.padCols_apply_ge x p q hq, ← hv]
    exact pad_apply_of_not_inside _ _ _ x v h hu (ix2 p q) 1 (fun hh => hq (by
      have h3 : (q.val - 0) / (0 + 1) < b := hh.2.2
      rw [Nat.sub_zero, Nat.zero_add, Nat.div_one] at h3
      exact h3))

/-- The integer constant zero, converted, is the number zero. -/
theorem sitofp_constantI_zero (i : S_.Idx) : (sitofp (F := Ideal) .f32 (constantI S_ 32 0#32) : S_.Idx → EReal) i = 0 := by
  show ((((0#32 : BitVec 32).toInt : ℤ) : ℝ) : EReal) = 0
  simp

theorem hv0 : (V9 (F := Ideal) m c main_v0 : Spec.Mat 128 128) = Spec.padCols (m ((c : Thread nD τ).loc main_arg8)) := by
  have e0 : V9 (F := Ideal) m c main_v0 = V2 (F := Ideal) m c main_v0 :=
    (V9_of m c main_v0 (by decide)).trans <| (V8_of m c main_v0 (by decide)).trans <| (V7_of m c main_v0 (by decide)).trans <| (V6_of m c main_v0 (by decide)).trans <| (V5_of m c main_v0 (by decide)).trans <| (V4_of m c main_v0 (by decide)).trans <| (V3_of m c main_v0 (by decide))
  have ea : V0 (F := Ideal) m c main_arg8 = m ((c : Thread nD τ).loc main_arg8) :=
    rfl
  have e : (V2 (F := Ideal) m c main_v0 : S128x128.Idx → EReal)
      = pad S128x128 ![0, 0] ![0, 64] ![0, 0] (V0 (F := Ideal) m c main_arg8)
          (sitofp (F := Ideal) .f32 (constantI S_ 32 0#32)) pads_S128x64_S128x128_000_0640 h_S_ := by
    dsimp only [V2, V1, hostOps0_1, hostOps0]
    after_results
    rfl
  rw [e0, e, ea]
  exact pad_cols pads_S128x64_S128x128_000_0640 h_S_ _ _ (sitofp_constantI_zero _)

theorem hv1 : (V9 (F := Ideal) m c main_v1 : Spec.Mat 128 128) = Spec.padCols (m ((c : Thread nD τ).loc main_arg11)) := by
  have e0 : V9 (F := Ideal) m c main_v1 = V4 (F := Ideal) m c main_v1 :=
    (V9_of m c main_v1 (by decide)).trans <| (V8_of m c main_v1 (by decide)).trans <| (V7_of m c main_v1 (by decide)).trans <| (V6_of m c main_v1 (by decide)).trans <| (V5_of m c main_v1 (by decide))
  have ea : V2 (F := Ideal) m c main_arg11 = m ((c : Thread nD τ).loc main_arg11) :=
    (V2_of m c main_arg11 (by decide)).trans <| (V1_of m c main_arg11 (by decide)).trans <| rfl
  have e : (V4 (F := Ideal) m c main_v1 : S128x128.Idx → EReal)
      = pad S128x128 ![0, 0] ![0, 64] ![0, 0] (V2 (F := Ideal) m c main_arg11)
          (sitofp (F := Ideal) .f32 (constantI S_ 32 0#32)) pads_S128x64_S128x128_000_0640 h_S_ := by
    dsimp only [V4, V3, hostOps0_3, hostOps0_2]
    after_results
    rfl
  rw [e0, e, ea]
  exact pad_cols pads_S128x64_S128x128_000_0640 h_S_ _ _ (sitofp_constantI_zero _)

theorem hv2 : (V9 (F := Ideal) m c main_v2 : Spec.Mat 128 128) = Spec.padCols (m ((c : Thread nD τ).loc main_arg14)) := by
  have e0 : V9 (F := Ideal) m c main_v2 = V6 (F := Ideal) m c main_v2 :=
    (V9_of m c main_v2 (by decide)).trans <| (V8_of m c main_v2 (by decide)).trans <| (V7_of m c main_v2 (by decide))
  have ea : V4 (F := Ideal) m c main_arg14 = m ((c : Thread nD τ).loc main_arg14) :=
    (V4_of m c main_arg14 (by decide)).trans <| (V3_of m c main_arg14 (by decide)).trans <| (V2_of m c main_arg14 (by decide)).trans <| (V1_of m c main_arg14 (by decide)).trans <| rfl
  have e : (V6 (F := Ideal) m c main_v2 : S128x128.Idx → EReal)
      = pad S128x128 ![0, 0] ![0, 64] ![0, 0] (V4 (F := Ideal) m c main_arg14)
          (sitofp (F := Ideal) .f32 (constantI S_ 32 0#32)) pads_S128x64_S128x128_000_0640 h_S_ := by
    dsimp only [V6, V5, hostOps0_5, hostOps0_4]
    after_results
    rfl
  rw [e0, e, ea]
  exact pad_cols pads_S128x64_S128x128_000_0640 h_S_ _ _ (sitofp_constantI_zero _)

theorem hv3 : (V9 (F := Ideal) m c main_v3 : Spec.Mat 128 128) = Spec.padCols (m ((c : Thread nD τ).loc main_arg17)) := by
  have e0 : V9 (F := Ideal) m c main_v3 = V8 (F := Ideal) m c main_v3 :=
    (V9_of m c main_v3 (by decide))
  have ea : V6 (F := Ideal) m c main_arg17 = m ((c : Thread nD τ).loc main_arg17) :=
    (V6_of m c main_arg17 (by decide)).trans <| (V5_of m c main_arg17 (by decide)).trans <| (V4_of m c main_arg17 (by decide)).trans <| (V3_of m c main_arg17 (by decide)).trans <| (V2_of m c main_arg17 (by decide)).trans <| (V1_of m c main_arg17 (by decide)).trans <| rfl
  have e : (V8 (F := Ideal) m c main_v3 : S128x128.Idx → EReal)
      = pad S128x128 ![0, 0] ![0, 64] ![0, 0] (V6 (F := Ideal) m c main_arg17)
          (sitofp (F := Ideal) .f32 (constantI S_ 32 0#32)) pads_S128x64_S128x128_000_0640 h_S_ := by
    dsimp only [V8, V7, hostOps0_7, hostOps0_6]
    after_results
    rfl
  rw [e0, e, ea]
  exact pad_cols pads_S128x64_S128x128_000_0640 h_S_ _ _ (sitofp_constantI_zero _)

/-! ## A stack of four, and its transpose, entry by entry -/

/-- Four matrices, each given a leading unit axis, concatenated along that axis, read entry by entry, are the four
    matrices stacked: member `e` of the result is the `e`-th matrix. -/
theorem concatenate_stack4 {a b : Nat} (ha1 : a ≠ 1) (hb1 : b ≠ 1)
    (hb : (⟨2, ![a, b]⟩ : Shape).BroadcastsInDim (⟨3, ![1, a, b]⟩ : Shape) (![1, 2] : Fin 2 → Fin 3))
    (hc : Shape.Concatenates [(⟨3, ![1, a, b]⟩ : Shape), (⟨3, ![1, a, b]⟩ : Shape), (⟨3, ![1, a, b]⟩ : Shape),
      (⟨3, ![1, a, b]⟩ : Shape)] (⟨3, ![4, a, b]⟩ : Shape) 0)
    (m0 m1 m2 m3 : Spec.Mat a b) :
    concatenate (⟨3, ![4, a, b]⟩ : Shape) 0
      [⟨(⟨3, ![1, a, b]⟩ : Shape), broadcastInDim (⟨3, ![1, a, b]⟩ : Shape) ![1, 2] hb m0⟩,
       ⟨(⟨3, ![1, a, b]⟩ : Shape), broadcastInDim (⟨3, ![1, a, b]⟩ : Shape) ![1, 2] hb m1⟩,
       ⟨(⟨3, ![1, a, b]⟩ : Shape), broadcastInDim (⟨3, ![1, a, b]⟩ : Shape) ![1, 2] hb m2⟩,
       ⟨(⟨3, ![1, a, b]⟩ : Shape), broadcastInDim (⟨3, ![1, a, b]⟩ : Shape) ![1, 2] hb m3⟩] hc
      = Spec.stack4 m0 m1 m2 m3 := by
  funext j
  obtain ⟨e, p, q, rfl⟩ : ∃ (e : Fin 4) (p : Fin a) (q : Fin b), j = ix3 e p q := ⟨j 0, j 1, j 2, eq_ix3 j⟩
  -- a member of the broadcast matrix is the matrix
  have hbc : ∀ (x : Spec.Mat a b), broadcastInDim (⟨3, ![1, a, b]⟩ : Shape) ![1, 2] hb x (ix3 (0 : Fin 1) p q) = x (ix2 p q) :=
    fun x => broadcastInDim_apply _ hb x (ix3 (0 : Fin 1) p q) (ix2 p q) (fun d => match d with
      | ⟨0, _⟩ => by show p.val = if a = 1 then 0 else p.val; rw [if_neg ha1]
      | ⟨1, _⟩ => by show q.val = if b = 1 then 0 else q.val; rw [if_neg hb1])
  -- off the stacking axis the coordinates are the member's own
  have hi : ∀ d : Fin 3, d.cast (rfl : (3 : Nat) = 3) ≠ (0 : Fin 3) →
      ((ix3 (0 : Fin 1) p q) d).val = ((ix3 e p q) (d.cast (rfl : (3 : Nat) = 3))).val := fun d hd => match d, hd with
    | ⟨0, _⟩, hd => absurd rfl hd
    | ⟨1, _⟩, _ => rfl
    | ⟨2, _⟩, _ => rfl
  match e with
  | ⟨0, h0⟩ =>
    exact (concatenate_apply_piece (t := (⟨3, ![4, a, b]⟩ : Shape)) 0
      [⟨(⟨3, ![1, a, b]⟩ : Shape), broadcastInDim (⟨3, ![1, a, b]⟩ : Shape) ![1, 2] hb m0⟩, ⟨(⟨3, ![1, a, b]⟩ : Shape), broadcastInDim (⟨3, ![1, a, b]⟩ : Shape) ![1, 2] hb m1⟩,
       ⟨(⟨3, ![1, a, b]⟩ : Shape), broadcastInDim (⟨3, ![1, a, b]⟩ : Shape) ![1, 2] hb m2⟩, ⟨(⟨3, ![1, a, b]⟩ : Shape), broadcastInDim (⟨3, ![1, a, b]⟩ : Shape) ![1, 2] hb m3⟩]
      hc (ix3 ⟨0, h0⟩ p q) 0 (by show (0 : Nat) < 4; omega)
      (⟨3, ![1, a, b]⟩ : Shape) _ rfl rfl 0 rfl (ix3 (0 : Fin 1) p q) hi rfl).trans (hbc m0)
  | ⟨1, h1⟩ =>
    exact (concatenate_apply_piece (t := (⟨3, ![4, a, b]⟩ : Shape)) 0
      [⟨(⟨3, ![1, a, b]⟩ : Shape), broadcastInDim (⟨3, ![1, a, b]⟩ : Shape) ![1, 2] hb m0⟩, ⟨(⟨3, ![1, a, b]⟩ : Shape), broadcastInDim (⟨3, ![1, a, b]⟩ : Shape) ![1, 2] hb m1⟩,
       ⟨(⟨3, ![1, a, b]⟩ : Shape), broadcastInDim (⟨3, ![1, a, b]⟩ : Shape) ![1, 2] hb m2⟩, ⟨(⟨3, ![1, a, b]⟩ : Shape), broadcastInDim (⟨3, ![1, a, b]⟩ : Shape) ![1, 2] hb m3⟩]
      hc (ix3 ⟨1, h1⟩ p q) 1 (by show (1 : Nat) < 4; omega)
      (⟨3, ![1, a, b]⟩ : Shape) _ rfl rfl 1 rfl (ix3 (0 : Fin 1) p q) hi rfl).trans (hbc m1)
  | ⟨2, h2⟩ =>
    exact (concatenate_apply_piece (t := (⟨3, ![4, a, b]⟩ : Shape)) 0
      [⟨(⟨3, ![1, a, b]⟩ : Shape), broadcastInDim (⟨3, ![1, a, b]⟩ : Shape) ![1, 2] hb m0⟩, ⟨(⟨3, ![1, a, b]⟩ : Shape), broadcastInDim (⟨3, ![1, a, b]⟩ : Shape) ![1, 2] hb m1⟩,
       ⟨(⟨3, ![1, a, b]⟩ : Shape), broadcastInDim (⟨3, ![1, a, b]⟩ : Shape) ![1, 2] hb m2⟩, ⟨(⟨3, ![1, a, b]⟩ : Shape), broadcastInDim (⟨3, ![1, a, b]⟩ : Shape) ![1, 2] hb m3⟩]
      hc (ix3 ⟨2, h2⟩ p q) 2 (by show (2 : Nat) < 4; omega)
      (⟨3, ![1, a, b]⟩ : Shape) _ rfl rfl 2 rfl (ix3 (0 : Fin 1) p q) hi rfl).trans (hbc m2)
  | ⟨3, h3⟩ =>
    exact (concatenate_apply_piece (t := (⟨3, ![4, a, b]⟩ : Shape)) 0
      [⟨(⟨3, ![1, a, b]⟩ : Shape), broadcastInDim (⟨3, ![1, a, b]⟩ : Shape) ![1, 2] hb m0⟩, ⟨(⟨3, ![1, a, b]⟩ : Shape), broadcastInDim (⟨3, ![1, a, b]⟩ : Shape) ![1, 2] hb m1⟩,
       ⟨(⟨3, ![1, a, b]⟩ : Shape), broadcastInDim (⟨3, ![1, a, b]⟩ : Shape) ![1, 2] hb m2⟩, ⟨(⟨3, ![1, a, b]⟩ : Shape), broadcastInDim (⟨3, ![1, a, b]⟩ : Shape) ![1, 2] hb m3⟩]
      hc (ix3 ⟨3, h3⟩ p q) 3 (by show (3 : Nat) < 4; omega)
      (⟨3, ![1, a, b]⟩ : Shape) _ rfl rfl 3 rfl (ix3 (0 : Fin 1) p q) hi rfl).trans (hbc m3)

/-- A stack with its last two axes exchanged, read entry by entry, is the transposed stack. -/
theorem transpose_stack {e a b : Nat}
    (h : (⟨3, ![e, a, b]⟩ : Shape).Transposes [0, 2, 1] (⟨3, ![e, b, a]⟩ : Shape)) (z : Spec.Stack e a b) :
    transpose (⟨3, ![e, b, a]⟩ : Shape) [0, 2, 1] z h = Spec.transposeS z := by
  funext j
  obtain ⟨g, p, q, rfl⟩ : ∃ (g : Fin e) (p : Fin b) (q : Fin a), j = ix3 g p q := ⟨j 0, j 1, j 2, eq_ix3 j⟩
  exact transpose_apply [0, 2, 1] z h (ix3 g p q) (ix3 g q p) (fun d => match d with
    | ⟨0, _⟩ => rfl
    | ⟨1, _⟩ => rfl
    | ⟨2, _⟩ => rfl)

/-! ## The four embeddings stacked, and the stack transposed -/

theorem hv24 (W : Valuation τ sig (Elt Ideal)) :
    (StableHlo.after (hostOps14 (F := Ideal)) W main_v24 : Spec.Stack 4 3000 128)
      = Spec.stack4 (W main_v10) (W main_v13) (W main_v16) (W main_v19) := by
  have e : (StableHlo.after (hostOps14 (F := Ideal)) W main_v24 : S4x3000x128.Idx → EReal)
      = concatenate S4x3000x128 0
          [⟨S1x3000x128, broadcastInDim S1x3000x128 ![1, 2] bcast_S3000x128_S1x3000x128_1_2 (W main_v10)⟩,
           ⟨S1x3000x128, broadcastInDim S1x3000x128 ![1, 2] bcast_S3000x128_S1x3000x128_1_2 (W main_v13)⟩,
           ⟨S1x3000x128, broadcastInDim S1x3000x128 ![1, 2] bcast_S3000x128_S1x3000x128_1_2 (W main_v16)⟩,
           ⟨S1x3000x128, broadcastInDim S1x3000x128 ![1, 2] bcast_S3000x128_S1x3000x128_1_2 (W main_v19)⟩]
          concatenates_S1x3000x128_S1x3000x128_S1x3000x128_S1x3000x128_S4x3000x128_d0 := by
    dsimp only [hostOps14]
    after_results
    dsimp only [Matrix.cons_val]
    repeat (first
      | rw [StableHlo.unary_result]
      | (rw [StableHlo.unary_result_ne]; rotate_left; decide))
  rw [e]
  exact concatenate_stack4 (by decide) (by decide) bcast_S3000x128_S1x3000x128_1_2
    concatenates_S1x3000x128_S1x3000x128_S1x3000x128_S1x3000x128_S4x3000x128_d0 _ _ _ _

theorem hv25 (W : Valuation τ sig (Elt Ideal)) :
    (StableHlo.after (hostOps14 (F := Ideal)) W main_v25 : Spec.Stack 4 128 3000)
      = Spec.transposeS (Spec.stack4 (W main_v10) (W main_v13) (W main_v16) (W main_v19)) := by
  have e : (StableHlo.after (hostOps14 (F := Ideal)) W main_v25 : S4x128x3000.Idx → EReal)
      = transpose S4x128x3000 [0, 2, 1] (concatenate S4x3000x128 0
          [⟨S1x3000x128, broadcastInDim S1x3000x128 ![1, 2] bcast_S3000x128_S1x3000x128_1_2 (W main_v10)⟩,
           ⟨S1x3000x128, broadcastInDim S1x3000x128 ![1, 2] bcast_S3000x128_S1x3000x128_1_2 (W main_v13)⟩,
           ⟨S1x3000x128, broadcastInDim S1x3000x128 ![1, 2] bcast_S3000x128_S1x3000x128_1_2 (W main_v16)⟩,
           ⟨S1x3000x128, broadcastInDim S1x3000x128 ![1, 2] bcast_S3000x128_S1x3000x128_1_2 (W main_v19)⟩]
          concatenates_S1x3000x128_S1x3000x128_S1x3000x128_S1x3000x128_S4x3000x128_d0)
          transposes_S4x3000x128_S4x128x3000_0_2_1 := by
    dsimp only [hostOps14]
    after_results
    dsimp only [Matrix.cons_val]
    repeat (first
      | rw [StableHlo.unary_result]
      | (rw [StableHlo.unary_result_ne]; rotate_left; decide))
  rw [e]
  exact (congrArg (fun z => transpose S4x128x3000 [0, 2, 1] z transposes_S4x3000x128_S4x128x3000_0_2_1)
    (concatenate_stack4 (by decide) (by decide) bcast_S3000x128_S1x3000x128_1_2
      concatenates_S1x3000x128_S1x3000x128_S1x3000x128_S1x3000x128_S4x3000x128_d0 _ _ _ _)).trans
    (transpose_stack transposes_S4x3000x128_S4x128x3000_0_2_1 _)

end Cert.KernelIdeal.Hand

end
-- ==== Proof.MatmulLaw.lean ====
/-
  The matrix unit's product at the ideal instance. With the plain dimension numbers (contract the left operand's
  columns against the right operand's rows, no batch axis) and a zero accumulator, entry `(p, q)` of the product is
  the sum over the contracted coordinate `j` of `x (p, j) · y (j, q)`: the specification's `mm`. The operands' formats
  play no part: every format's values are extended reals and a change of format is the identity.
-/
import proofs.«161112_j49297634623838_2_alg».proof.Proof.Spec
import Idealize.ShloMosaic.PureOps.Ideal.Laws
import Idealize.ShloMosaic.Lib.ValueIdx

noncomputable section

namespace Cert.Spec

open Idealize.ShloMosaic Idealize.ShloMosaic.ValueIdx

/-- The plain dimension numbers of an `a × k` by `k × b` product, whatever proof of their well-formedness comes
    with them. -/
abbrev plainDims {a k b : Nat} (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ := ⟨[1], [0], [0], [1], [], [], wf⟩

section
variable {a k b : Nat} (wf : DotDims.WF ⟨2, ![a, k]⟩ ⟨2, ![k, b]⟩ ⟨2, ![a, b]⟩ [1] [0] [0] [1] [] [])

/-- The left operand is read in the output's row … -/
theorem plain_lhs0 (i : (⟨2, ![a, b]⟩ : Shape).Idx) (q : (plainDims wf).contr.Idx) :
    ((plainDims wf).lhsIdx i q 0).val = (i 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- … at the contracted coordinate; -/
theorem plain_lhs1 (i : (⟨2, ![a, b]⟩ : Shape).Idx) (q : (plainDims wf).contr.Idx) :
    ((plainDims wf).lhsIdx i q 1).val = (q ⟨0, Nat.one_pos⟩).val :=
  (plainDims wf).lhsIdx_val_of_single rfl i q

/-- the right operand at the contracted coordinate … -/
theorem plain_rhs0 (i : (⟨2, ![a, b]⟩ : Shape).Idx) (q : (plainDims wf).contr.Idx) :
    ((plainDims wf).rhsIdx i q 0).val = (q ⟨0, Nat.one_pos⟩).val :=
  (plainDims wf).rhsIdx_val_of_single rfl i q

/-- … in the output's column. -/
theorem plain_rhs1 (i : (⟨2, ![a, b]⟩ : Shape).Idx) (q : (plainDims wf).contr.Idx) :
    ((plainDims wf).rhsIdx i q 1).val = (i 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The product into a zero accumulator, entry by entry, is `mm`. -/
theorem matmul_plain_apply {φ₁ φ₂ : FTy} (x : FVec Ideal ⟨2, ![a, k]⟩ φ₁) (y : FVec Ideal ⟨2, ![k, b]⟩ φ₂)
    (i : (⟨2, ![a, b]⟩ : Shape).Idx) :
    FloatOps.matmul (plainDims wf) none x y (constant ⟨2, ![a, b]⟩ .f32 0x00000000#32) i = mm x y i := by
  rw [Ideal.matmul_constant_zero_apply, ← Equiv.sum_comp (contrEquiv1 (plainDims wf) k rfl rfl).symm]
  refine Finset.sum_congr rfl fun j _ => ?_
  have hj := contrEquiv1_symm_val (plainDims wf) k rfl rfl j
  have el : (plainDims wf).lhsIdx i ((contrEquiv1 (plainDims wf) k rfl rfl).symm j) = ix2 (i 0) j :=
    funext fun c => Fin.ext (by
      match c with
      | ⟨0, _⟩ => exact plain_lhs0 wf _ _
      | ⟨1, _⟩ => exact (plain_lhs1 wf _ _).trans hj)
  have er : (plainDims wf).rhsIdx i ((contrEquiv1 (plainDims wf) k rfl rfl).symm j) = ix2 j (i 1) :=
    funext fun c => Fin.ext (by
      match c with
      | ⟨0, _⟩ => exact (plain_rhs0 wf _ _).trans hj
      | ⟨1, _⟩ => exact plain_rhs1 wf _ _)
  rw [el, er]
  rfl

/-- The same as an equation of matrices. -/
theorem matmul_plain_eq_mm {φ₁ φ₂ : FTy} (x : FVec Ideal ⟨2, ![a, k]⟩ φ₁) (y : FVec Ideal ⟨2, ![k, b]⟩ φ₂) :
    FloatOps.matmul (plainDims wf) none x y (constant ⟨2, ![a, b]⟩ .f32 0x00000000#32) = mm x y :=
  funext fun i => matmul_plain_apply wf x y i

end

/-! ## Around the product: equal rows and columns, formats, tanh, the zero offsets of a whole-buffer rectangle -/

/-- Two products agree at two entries when the left factors agree along the two rows and the right factors along the
    two columns (the factors may be different matrices with different row counts: a block and the whole array). -/
theorem mm_congr {a a' k b b' : Nat} (x : Mat a k) (y : Mat k b) (x' : Mat a' k) (y' : Mat k b')
    (i : (⟨2, ![a, b]⟩ : Shape).Idx) (i' : (⟨2, ![a', b']⟩ : Shape).Idx)
    (hx : ∀ j : Fin k, x (ix2 (i 0) j) = x' (ix2 (i' 0) j)) (hy : ∀ j : Fin k, y (ix2 j (i 1)) = y' (ix2 j (i' 1))) :
    mm x y i = mm x' y' i' := by
  unfold mm
  exact Finset.sum_congr rfl fun j _ => by rw [hx j, hy j]

/-- At the ideal instance a narrowing change of format is the identity on whole vectors. -/
theorem truncf_id {s : Shape} {φ ψ : FTy} (v : FVec Ideal s φ) (h : ψ.bits < φ.bits) :
    (truncf ψ v h : FVec Ideal s ψ) = v := rfl

/-- The vector unit's tanh of a matrix is the entrywise `tanhM`. -/
theorem tanh_eq_tanhM {a b : Nat} {φ : FTy} (v : FVec Ideal ⟨2, ![a, b]⟩ φ) :
    (tanh v : FVec Ideal ⟨2, ![a, b]⟩ φ) = tanhM v := rfl

/-- The offsets `[0, 0]` of a rectangle that is a whole rank-2 buffer. -/
theorem zero_offsets2 : (![0, 0] : Fin 2 → Nat) = fun _ => 0 := funext fun c => by fin_cases c <;> rfl

end Cert.Spec

end
-- ==== Proof.KI.Val0.lean ====
/-
  Region 0 in closed form. At every grid point the body multiplies a block of 200 rows of the features with the whole
  (widened) weight matrix and squashes the result entry by entry; point `t` writes that back as rows
  `200 t … 200 t + 199` of the output array. The fifteen row blocks tile the array, so it ends holding the tanh of the
  whole product of the two arrays as the region found them.
-/
import proofs.«161112_j49297634623838_2_alg».proof.Proof.KI.Reg0
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's payload: the squashed product of the row block with the whole weight matrix. -/
theorem pay0_eq (x0 : Vec Ideal S200x3000 .f32) (x1 : Vec Ideal S3000x512 .f32) :
    k0_pay1 (F := Ideal) x0 x1 = Spec.tanhM (Spec.mm x0 x1) := by
  have h1 : matmul (F := Ideal) (φ₁ := .bf16) (φ₂ := .bf16) dot_S200x3000_S3000x512_S200x512_1_0_0_1_n_n none x0 x1
      (constant (F := Ideal) S200x512 .f32 0x00000000#32) = Spec.mm x0 x1 := Spec.matmul_plain_eq_mm _ x0 x1
  unfold k0_pay1
  simp only [shapeCast_self, Spec.truncf_id, h1]
  rfl

/-- The index maps over the grid: the left factor's row block moves with the output's, the weights are whole. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole squashed product. -/
theorem flushed0_2_eq (c : Dev nD) (t : Fin cfg0.N) :
    (dat0 (F := Ideal) V c).flushed 2 t
      = ((cfg0.win 2).blk t).view.read (Elt Ideal)
          (Spec.tanhM (Spec.mm (a := 3000) (k := 3000) (b := 512) (V c main_arg0) (V c main_v4))) := by
  show (cfg0.win 2).cut (grid0.coords t) ((dat0 V c).after 2 t) = _
  rw [after0_2]
  unfold out0_2
  rw [View.canon_unit_zero Spec.zero_offsets2]
  simp only [View.ld_unit_zero (S := S200x3000) Spec.zero_offsets2, View.ld_unit_zero (S := S3000x512) Spec.zero_offsets2]
  rw [pay0_eq]
  obtain ⟨e0, e1, e2, e3, e4, e5⟩ := idx_facts0 t
  funext j
  show Ideal.tanh (Spec.mm (a := 200) (k := 3000) (b := 512) (iblk0 V c 0 t) (iblk0 V c 1 t) j)
      = Ideal.tanh (Spec.mm (a := 3000) (k := 3000) (b := 512) (V c main_arg0) (V c main_v4)
          (((cfg0.win 2).blk t).view.emb j))
  refine congrArg Ideal.tanh (Spec.mm_congr _ _ _ _ _ _ (fun k => ?_) (fun k => ?_))
  · show V c main_arg0 (((cfg0.win 0).blk t).view.emb (ix2 (j 0) k)) = _
    refine congrArg _ (funext fun a => Fin.ext ?_)
    match a with
    | ⟨0, _⟩ =>
      show win0_0.index t (0 : Fin 2) * 200 + 1 * (j 0).val = win0_2.index t (0 : Fin 2) * 200 + 1 * (j 0).val
      omega
    | ⟨1, _⟩ =>
      show win0_0.index t (1 : Fin 2) * 3000 + 1 * (k).val = (k).val
      omega
  · show V c main_v4 (((cfg0.win 1).blk t).view.emb (ix2 k (j 1))) = _
    refine congrArg _ (funext fun a => Fin.ext ?_)
    match a with
    | ⟨0, _⟩ =>
      show win0_1.index t (0 : Fin 2) * 3000 + 1 * k.val = k.val
      omega
    | ⟨1, _⟩ =>
      show win0_1.index t (1 : Fin 2) * 512 + 1 * (j 1).val = win0_2.index t (1 : Fin 2) * 512 + 1 * (j 1).val
      omega

/-- An index of the output array is in point `t`'s block iff each coordinate is in the block's range on its axis. -/
theorem mem_blk0_2 (t : Fin cfg0.N) (i : S3000x512.Idx) :
    i ∈ ((cfg0.win 2).blk t).view.set ↔ ∀ a : Fin 2, win0_2.index t a * S200x512.size a ≤ (i a).val
      ∧ (i a).val < win0_2.index t a * S200x512.size a + S200x512.size a := by
  show i ∈ ((View.whole main_v6).slice (win0_2.rect t)).set ↔ _
  rw [View.set_slice_whole, Rect.mem_set_unit]
  exact Iff.rfl

/-- The output array after the region: the row blocks tile it (row `r` lies in block `r / 200`), so it is the whole
    squashed product. -/
theorem final0_2 (c : Dev nD) : (dat0 (F := Ideal) V c).arrAt 2 cfg0.N
    = Spec.tanhM (Spec.mm (a := 3000) (k := 3000) (b := 512) (V c main_arg0) (V c main_v4)) :=
  (dat0 V c).arrAt_eq_of_cover 2 _ (fun t _ => flushed0_2_eq V c t) fun i => by
    have h0 : (i 0).val < 3000 := (i 0).isLt
    have h1 : (i 1).val < 512 := (i 1).isLt
    have hN : cfg0.N = 15 := N_0
    obtain ⟨-, -, -, -, e4, e5⟩ := idx_facts0 ⟨(i 0).val / 200, by rw [hN]; omega⟩
    refine ⟨⟨(i 0).val / 200, by rw [hN]; omega⟩, flush0_2 _, ?_⟩
    rw [mem_blk0_2]
    intro a
    match a with
    | ⟨0, _⟩ =>
      show win0_2.index ⟨(i 0).val / 200, _⟩ (0 : Fin 2) * 200 ≤ (i 0).val
        ∧ (i 0).val < win0_2.index ⟨(i 0).val / 200, _⟩ (0 : Fin 2) * 200 + 200
      rw [e4]; show (i 0).val / 200 * 200 ≤ (i 0).val ∧ (i 0).val < (i 0).val / 200 * 200 + 200; omega
    | ⟨1, _⟩ =>
      show win0_2.index ⟨(i 0).val / 200, _⟩ (1 : Fin 2) * 512 ≤ (i 1).val
        ∧ (i 1).val < win0_2.index ⟨(i 0).val / 200, _⟩ (1 : Fin 2) * 512 + 512
      rw [e5]; omega

end Cert.KernelIdeal.Hand

end
-- ==== Proof.KI.Val1.lean ====
/-
  Region 1 in closed form. At every grid point the body multiplies a block of 200 rows of the features with the whole
  (widened) weight matrix and squashes the result entry by entry; point `t` writes that back as rows
  `200 t … 200 t + 199` of the output array. The fifteen row blocks tile the array, so it ends holding the tanh of the
  whole product of the two arrays as the region found them.
-/
import proofs.«161112_j49297634623838_2_alg».proof.Proof.KI.Reg1
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's payload: the squashed product of the row block with the whole weight matrix. -/
theorem pay1_eq (x0 : Vec Ideal S200x3000 .f32) (x1 : Vec Ideal S3000x512 .f32) :
    k1_pay1 (F := Ideal) x0 x1 = Spec.tanhM (Spec.mm x0 x1) := by
  have h1 : matmul (F := Ideal) (φ₁ := .bf16) (φ₂ := .bf16) dot_S200x3000_S3000x512_S200x512_1_0_0_1_n_n none x0 x1
      (constant (F := Ideal) S200x512 .f32 0x00000000#32) = Spec.mm x0 x1 := Spec.matmul_plain_eq_mm _ x0 x1
  unfold k1_pay1
  simp only [shapeCast_self, Spec.truncf_id, h1]
  rfl

/-- The index maps over the grid: the left factor's row block moves with the output's, the weights are whole. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the whole squashed product. -/
theorem flushed1_2_eq (c : Dev nD) (t : Fin cfg1.N) :
    (dat1 (F := Ideal) V c).flushed 2 t
      = ((cfg1.win 2).blk t).view.read (Elt Ideal)
          (Spec.tanhM (Spec.mm (a := 3000) (k := 3000) (b := 512) (V c main_arg1) (V c main_v5))) := by
  show (cfg1.win 2).cut (grid1.coords t) ((dat1 V c).after 2 t) = _
  rw [after1_2]
  unfold out1_2
  rw [View.canon_unit_zero Spec.zero_offsets2]
  simp only [View.ld_unit_zero (S := S200x3000) Spec.zero_offsets2, View.ld_unit_zero (S := S3000x512) Spec.zero_offsets2]
  rw [pay1_eq]
  obtain ⟨e0, e1, e2, e3, e4, e5⟩ := idx_facts1 t
  funext j
  show Ideal.tanh (Spec.mm (a := 200) (k := 3000) (b := 512) (iblk1 V c 0 t) (iblk1 V c 1 t) j)
      = Ideal.tanh (Spec.mm (a := 3000) (k := 3000) (b := 512) (V c main_arg1) (V c main_v5)
          (((cfg1.win 2).blk t).view.emb j))
  refine congrArg Ideal.tanh (Spec.mm_congr _ _ _ _ _ _ (fun k => ?_) (fun k => ?_))
  · show V c main_arg1 (((cfg1.win 0).blk t).view.emb (ix2 (j 0) k)) = _
    refine congrArg _ (funext fun a => Fin.ext ?_)
    match a with
    | ⟨0, _⟩ =>
      show win1_0.index t (0 : Fin 2) * 200 + 1 * (j 0).val = win1_2.index t (0 : Fin 2) * 200 + 1 * (j 0).val
      omega
    | ⟨1, _⟩ =>
      show win1_0.index t (1 : Fin 2) * 3000 + 1 * (k).val = (k).val
      omega
  · show V c main_v5 (((cfg1.win 1).blk t).view.emb (ix2 k (j 1))) = _
    refine congrArg _ (funext fun a => Fin.ext ?_)
    match a with
    | ⟨0, _⟩ =>
      show win1_1.index t (0 : Fin 2) * 3000 + 1 * k.val = k.val
      omega
    | ⟨1, _⟩ =>
      show win1_1.index t (1 : Fin 2) * 512 + 1 * (j 1).val = win1_2.index t (1 : Fin 2) * 512 + 1 * (j 1).val
      omega

/-- An index of the output array is in point `t`'s block iff each coordinate is in the block's range on its axis. -/
theorem mem_blk1_2 (t : Fin cfg1.N) (i : S3000x512.Idx) :
    i ∈ ((cfg1.win 2).blk t).view.set ↔ ∀ a : Fin 2, win1_2.index t a * S200x512.size a ≤ (i a).val
      ∧ (i a).val < win1_2.index t a * S200x512.size a + S200x512.size a := by
  show i ∈ ((View.whole main_v7).slice (win1_2.rect t)).set ↔ _
  rw [View.set_slice_whole, Rect.mem_set_unit]
  exact Iff.rfl

/-- The output array after the region: the row blocks tile it (row `r` lies in block `r / 200`), so it is the whole
    squashed product. -/
theorem final1_2 (c : Dev nD) : (dat1 (F := Ideal) V c).arrAt 2 cfg1.N
    = Spec.tanhM (Spec.mm (a := 3000) (k := 3000) (b := 512) (V c main_arg1) (V c main_v5)) :=
  (dat1 V c).arrAt_eq_of_cover 2 _ (fun t _ => flushed1_2_eq V c t) fun i => by
    have h0 : (i 0).val < 3000 := (i 0).isLt
    have h1 : (i 1).val < 512 := (i 1).isLt
    have hN : cfg1.N = 15 := N_1
    obtain ⟨-, -, -, -, e4, e5⟩ := idx_facts1 ⟨(i 0).val / 200, by rw [hN]; omega⟩
    refine ⟨⟨(i 0).val / 200, by rw [hN]; omega⟩, flush1_2 _, ?_⟩
    rw [mem_blk1_2]
    intro a
    match a with
    | ⟨0, _⟩ =>
      show win1_2.index ⟨(i 0).val / 200, _⟩ (0 : Fin 2) * 200 ≤ (i 0).val
        ∧ (i 0).val < win1_2.index ⟨(i 0).val / 200, _⟩ (0 : Fin 2) * 200 + 200
      rw [e4]; show (i 0).val / 200 * 200 ≤ (i 0).val ∧ (i 0).val < (i 0).val / 200 * 200 + 200; omega
    | ⟨1, _⟩ =>
      show win1_2.index ⟨(i 0).val / 200, _⟩ (1 : Fin 2) * 512 ≤ (i 1).val
        ∧ (i 1).val < win1_2.index ⟨(i 0).val / 200, _⟩ (1 : Fin 2) * 512 + 512
      rw [e5]; omega

end Cert.KernelIdeal.Hand

end
-- ==== Proof.KI.Val2.lean ====
/-
  Region 2 in closed form. At every grid point the body takes a block of 200 rows of the adjacency, multiplies it with
  a block of 256 columns of the first layer's (widened) output and the result with the whole second-layer weights,
  squashes entry by entry, and writes that back as rows `200 t … 200 t + 199` of the first output array; it also
  writes the adjacency block back, in a narrower format, as the same rows of the second output array. The fifteen row
  blocks tile both arrays: the first ends holding the whole squashed double product, the second the adjacency itself,
  a change of format being the identity on extended reals.
-/
import proofs.«161112_j49297634623838_2_alg».proof.Proof.KI.Reg2
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The narrower-format copy of the adjacency block is the block. -/
theorem pay2_1_eq (x0 : Vec Ideal S200x3000 .f32) : k2_pay1 (F := Ideal) x0 = x0 := rfl

/-- The output block's payload: the row block times the column block of the first layer, times the weights, squashed. -/
theorem pay2_2_eq (x0 : Vec Ideal S200x3000 .f32) (x1 : Vec Ideal S3000x256 .f32) (x2 : Vec Ideal S256x128 .f32) :
    k2_pay2 (F := Ideal) x0 x1 x2 = Spec.tanhM (Spec.mm (Spec.mm x0 x1) x2) := by
  have h1 : matmul (F := Ideal) (φ₁ := .bf16) (φ₂ := .bf16) dot_S200x3000_S3000x256_S200x256_1_0_0_1_n_n none x0 x1
      (constant (F := Ideal) S200x256 .f32 0x00000000#32) = Spec.mm x0 x1 := Spec.matmul_plain_eq_mm _ x0 x1
  have h2 : matmul (F := Ideal) (φ₁ := .bf16) (φ₂ := .bf16) dot_S200x256_S256x128_S200x128_1_0_0_1_n_n none (Spec.mm x0 x1) x2
      (constant (F := Ideal) S200x128 .f32 0x00000000#32) = Spec.mm (Spec.mm x0 x1) x2 :=
    Spec.matmul_plain_eq_mm _ (Spec.mm x0 x1) x2
  unfold k2_pay2
  simp only [shapeCast_self, Spec.truncf_id, pay2_1_eq, h1, h2]
  rfl

/-- The index maps over the grid: the adjacency's row block moves with both outputs'; the first layer's output is
    read through one fixed block of 256 columns; the weights are whole. -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0
    ∧ win2_4.index t (0 : Fin 2) = t.val
    ∧ win2_4.index t (1 : Fin 2) = 0 :=
  (by decide +kernel : ∀ t : Fin grid2.N, _)

/-- What point `t` writes back to the first output is block `t` of the whole squashed double product, the middle
    factor being the block of 256 columns of the first layer's output that the region reads. -/
theorem flushed2_3_eq (c : Dev nD) (t : Fin cfg2.N) :
    (dat2 (F := Ideal) V c).flushed 3 t
      = ((cfg2.win 3).blk t).view.read (Elt Ideal)
          (Spec.tanhM (Spec.mm (a := 3000) (k := 256) (b := 128)
            (Spec.mm (a := 3000) (k := 3000) (b := 256) (V c main_arg2)
              (Spec.colblk (n := 3000) (b := 256) (B := 512) 0 (by omega) (V c main_v6))) (V c main_arg7))) := by
  show (cfg2.win 3).cut (grid2.coords t) ((dat2 V c).after 3 t) = _
  rw [after2_3]
  unfold out2_3
  rw [View.canon_unit_zero Spec.zero_offsets2]
  simp only [View.ld_unit_zero (S := S200x3000) Spec.zero_offsets2, View.ld_unit_zero (S := S3000x256) Spec.zero_offsets2,
    View.ld_unit_zero (S := S256x128) Spec.zero_offsets2]
  rw [pay2_2_eq]
  obtain ⟨e0, e1, e2, e3, e4, e5, e6, e7, e8, e9⟩ := idx_facts2 t
  funext j
  show Ideal.tanh (Spec.mm (a := 200) (k := 256) (b := 128)
        (Spec.mm (a := 200) (k := 3000) (b := 256) (iblk2 V c 0 t) (iblk2 V c 1 t)) (iblk2 V c 2 t) j)
      = Ideal.tanh (Spec.mm (a := 3000) (k := 256) (b := 128)
        (Spec.mm (a := 3000) (k := 3000) (b := 256) (V c main_arg2)
          (Spec.colblk (n := 3000) (b := 256) (B := 512) 0 (by omega) (V c main_v6))) (V c main_arg7)
          (((cfg2.win 3).blk t).view.emb j))
  refine congrArg Ideal.tanh (Spec.mm_congr _ _ _ _ _ _ (fun l => ?_) (fun l => ?_))
  · refine Spec.mm_congr _ _ _ _ _ _ (fun k => ?_) (fun k => ?_)
    · show V c main_arg2 (((cfg2.win 0).blk t).view.emb (ix2 (j 0) k)) = _
      refine congrArg _ (funext fun a => Fin.ext ?_)
      match a with
      | ⟨0, _⟩ =>
        show win2_0.index t (0 : Fin 2) * 200 + 1 * (j 0).val = win2_3.index t (0 : Fin 2) * 200 + 1 * (j 0).val
        omega
      | ⟨1, _⟩ =>
        show win2_0.index t (1 : Fin 2) * 3000 + 1 * (k).val = (k).val
        omega
    · show V c main_v6 (((cfg2.win 1).blk t).view.emb (ix2 k l)) = _
      refine congrArg (V c main_v6) (funext fun a => Fin.ext ?_)
      match a with
      | ⟨0, _⟩ =>
        show win2_1.index t (0 : Fin 2) * 3000 + 1 * k.val = k.val
        omega
      | ⟨1, _⟩ =>
        show win2_1.index t (1 : Fin 2) * 256 + 1 * l.val = 0 + l.val
        omega
  · show V c main_arg7 (((cfg2.win 2).blk t).view.emb (ix2 l (j 1))) = _
    refine congrArg _ (funext fun a => Fin.ext ?_)
    match a with
    | ⟨0, _⟩ =>
      show win2_2.index t (0 : Fin 2) * 256 + 1 * l.val = l.val
      omega
    | ⟨1, _⟩ =>
      show win2_2.index t (1 : Fin 2) * 128 + 1 * (j 1).val = win2_3.index t (1 : Fin 2) * 128 + 1 * (j 1).val
      omega

/-- What point `t` writes back to the second output is block `t` of the adjacency itself. -/
theorem flushed2_4_eq (c : Dev nD) (t : Fin cfg2.N) :
    (dat2 (F := Ideal) V c).flushed 4 t = ((cfg2.win 4).blk t).view.read (Elt Ideal) (V c main_arg2) := by
  show (cfg2.win 4).cut (grid2.coords t) ((dat2 V c).after 4 t) = _
  rw [after2_4]
  unfold out2_4
  rw [View.canon_unit_zero Spec.zero_offsets2]
  simp only [View.ld_unit_zero (S := S200x3000) Spec.zero_offsets2]
  obtain ⟨e0, e1, e2, e3, e4, e5, e6, e7, e8, e9⟩ := idx_facts2 t
  funext j
  show V c main_arg2 (((cfg2.win 0).blk t).view.emb j) = V c main_arg2 (((cfg2.win 4).blk t).view.emb j)
  refine congrArg _ (funext fun a => Fin.ext ?_)
  match a with
  | ⟨0, _⟩ =>
    show win2_0.index t (0 : Fin 2) * 200 + 1 * (j 0).val = win2_4.index t (0 : Fin 2) * 200 + 1 * (j 0).val
    omega
  | ⟨1, _⟩ =>
    show win2_0.index t (1 : Fin 2) * 3000 + 1 * (j 1).val = win2_4.index t (1 : Fin 2) * 3000 + 1 * (j 1).val
    omega

/-- An index of the first output array is in point `t`'s block iff each coordinate is in the block's range. -/
theorem mem_blk2_3 (t : Fin cfg2.N) (i : S3000x128.Idx) :
    i ∈ ((cfg2.win 3).blk t).view.set ↔ ∀ a : Fin 2, win2_3.index t a * S200x128.size a ≤ (i a).val
      ∧ (i a).val < win2_3.index t a * S200x128.size a + S200x128.size a := by
  show i ∈ ((View.whole main_v8_0).slice (win2_3.rect t)).set ↔ _
  rw [View.set_slice_whole, Rect.mem_set_unit]
  exact Iff.rfl

/-- The same for the second output array. -/
theorem mem_blk2_4 (t : Fin cfg2.N) (i : S3000x3000.Idx) :
    i ∈ ((cfg2.win 4).blk t).view.set ↔ ∀ a : Fin 2, win2_4.index t a * S200x3000.size a ≤ (i a).val
      ∧ (i a).val < win2_4.index t a * S200x3000.size a + S200x3000.size a := by
  show i ∈ ((View.whole main_v8_1).slice (win2_4.rect t)).set ↔ _
  rw [View.set_slice_whole, Rect.mem_set_unit]
  exact Iff.rfl

/-- The first output array after the region: the row blocks tile it, so it is the whole squashed double product. -/
theorem final2_3 (c : Dev nD) : (dat2 (F := Ideal) V c).arrAt 3 cfg2.N
    = Spec.tanhM (Spec.mm (a := 3000) (k := 256) (b := 128)
        (Spec.mm (a := 3000) (k := 3000) (b := 256) (V c main_arg2)
          (Spec.colblk (n := 3000) (b := 256) (B := 512) 0 (by omega) (V c main_v6))) (V c main_arg7)) :=
  (dat2 V c).arrAt_eq_of_cover 3 _ (fun t _ => flushed2_3_eq V c t) fun i => by
    have h0 : (i 0).val < 3000 := (i 0).isLt
    have h1 : (i 1).val < 128 := (i 1).isLt
    have hN : cfg2.N = 15 := N_2
    obtain ⟨-, -, -, -, -, -, eA, eB, -, -⟩ := idx_facts2 ⟨(i 0).val / 200, by rw [hN]; omega⟩
    refine ⟨⟨(i 0).val / 200, by rw [hN]; omega⟩, flush2_3 _, ?_⟩
    rw [mem_blk2_3]
    intro a
    match a with
    | ⟨0, _⟩ =>
      show win2_3.index ⟨(i 0).val / 200, _⟩ (0 : Fin 2) * 200 ≤ (i 0).val
        ∧ (i 0).val < win2_3.index ⟨(i 0).val / 200, _⟩ (0 : Fin 2) * 200 + 200
      rw [eA]; show (i 0).val / 200 * 200 ≤ (i 0).val ∧ (i 0).val < (i 0).val / 200 * 200 + 200; omega
    | ⟨1, _⟩ =>
      show win2_3.index ⟨(i 0).val / 200, _⟩ (1 : Fin 2) * 128 ≤ (i 1).val
        ∧ (i 1).val < win2_3.index ⟨(i 0).val / 200, _⟩ (1 : Fin 2) * 128 + 128
      rw [eB]; omega

/-- The second output array after the region: the row blocks tile it, so it is the adjacency (the change of format is
    the identity on extended reals). -/
theorem final2_4 (c : Dev nD) : (dat2 (F := Ideal) V c).arrAt 4 cfg2.N = V c main_arg2 :=
  (dat2 V c).arrAt_eq_of_cover 4 _ (fun t _ => flushed2_4_eq V c t) fun i => by
    have h0 : (i 0).val < 3000 := (i 0).isLt
    have h1 : (i 1).val < 3000 := (i 1).isLt
    have hN : cfg2.N = 15 := N_2
    obtain ⟨-, -, -, -, -, -, -, -, eA, eB⟩ := idx_facts2 ⟨(i 0).val / 200, by rw [hN]; omega⟩
    refine ⟨⟨(i 0).val / 200, by rw [hN]; omega⟩, flush2_4 _, ?_⟩
    rw [mem_blk2_4]
    intro a
    match a with
    | ⟨0, _⟩ =>
      show win2_4.index ⟨(i 0).val / 200, _⟩ (0 : Fin 2) * 200 ≤ (i 0).val
        ∧ (i 0).val < win2_4.index ⟨(i 0).val / 200, _⟩ (0 : Fin 2) * 200 + 200
      rw [eA]; show (i 0).val / 200 * 200 ≤ (i 0).val ∧ (i 0).val < (i 0).val / 200 * 200 + 200; omega
    | ⟨1, _⟩ =>
      show win2_4.index ⟨(i 0).val / 200, _⟩ (1 : Fin 2) * 3000 ≤ (i 1).val
        ∧ (i 1).val < win2_4.index ⟨(i 0).val / 200, _⟩ (1 : Fin 2) * 3000 + 3000
      rw [eB]; omega

end Cert.KernelIdeal.Hand

end
-- ==== Proof.KI.Val3.lean ====
/-
  Region 3 in closed form. At every grid point the body multiplies a block of 200 rows of the left factor (the
  adjacency in its narrower format) with the whole middle factor and the result with the whole weight matrix; point
  `t` writes that back as rows `200 t … 200 t + 199` of the output array. The fifteen row blocks tile the array, so it
  ends holding the whole double product of the three arrays as the region found them.
-/
import proofs.«161112_j49297634623838_2_alg».proof.Proof.KI.Reg3
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's payload: the row block of the left factor times the middle factor, then times the weights. -/
theorem pay3_eq (x0 : Vec Ideal S200x3000 .bf16) (x1 : Vec Ideal S3000x128 .f32) (x2 : Vec Ideal S128x128 .f32) :
    k3_pay1 (F := Ideal) x0 x1 x2 = Spec.mm (Spec.mm x0 x1) x2 := by
  have h1 : matmul (F := Ideal) (φ₁ := .bf16) (φ₂ := .bf16) dot_S200x3000_S3000x128_S200x128_1_0_0_1_n_n none x0 x1
      (constant (F := Ideal) S200x128 .f32 0x00000000#32) = Spec.mm x0 x1 := Spec.matmul_plain_eq_mm _ x0 x1
  unfold k3_pay1
  simp only [shapeCast_self, Spec.truncf_id, h1]
  exact Spec.matmul_plain_eq_mm _ (Spec.mm x0 x1) x2

/-- The index maps over the grid: the left factor's row block moves with the output's, the other two factors are whole. -/
theorem idx_facts3 : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What point `t` writes back is block `t` of the whole double product: row `r` of the block is row `200 t + r` of
    the left factor against the whole middle factor and the whole weights. -/
theorem flushed3_3_eq (c : Dev nD) (t : Fin cfg3.N) :
    (dat3 (F := Ideal) V c).flushed 3 t
      = ((cfg3.win 3).blk t).view.read (Elt Ideal)
          (Spec.mm (a := 3000) (k := 128) (b := 128)
            (Spec.mm (a := 3000) (k := 3000) (b := 128) (V c main_v8_1) (V c main_v8_0)) (V c main_v0)) := by
  show (cfg3.win 3).cut (grid3.coords t) ((dat3 V c).after 3 t) = _
  rw [after3_3]
  unfold out3_3
  rw [View.canon_unit_zero Spec.zero_offsets2]
  simp only [View.ld_unit_zero (S := S200x3000) Spec.zero_offsets2, View.ld_unit_zero (S := S3000x128) Spec.zero_offsets2,
    View.ld_unit_zero (S := S128x128) Spec.zero_offsets2]
  rw [pay3_eq]
  obtain ⟨e0, e1, e2, e3, e4, e5, e6, e7⟩ := idx_facts3 t
  funext j
  show Spec.mm (a := 200) (k := 128) (b := 128)
        (Spec.mm (a := 200) (k := 3000) (b := 128) (iblk3 V c 0 t) (iblk3 V c 1 t)) (iblk3 V c 2 t) j
      = Spec.mm (a := 3000) (k := 128) (b := 128)
        (Spec.mm (a := 3000) (k := 3000) (b := 128) (V c main_v8_1) (V c main_v8_0)) (V c main_v0)
          (((cfg3.win 3).blk t).view.emb j)
  refine Spec.mm_congr _ _ _ _ _ _ (fun l => ?_) (fun l => ?_)
  · refine Spec.mm_congr _ _ _ _ _ _ (fun k => ?_) (fun k => ?_)
    · show V c main_v8_1 (((cfg3.win 0).blk t).view.emb (ix2 (j 0) k)) = _
      refine congrArg _ (funext fun a => Fin.ext ?_)
      match a with
      | ⟨0, _⟩ =>
        show win3_0.index t (0 : Fin 2) * 200 + 1 * (j 0).val = win3_3.index t (0 : Fin 2) * 200 + 1 * (j 0).val
        omega
      | ⟨1, _⟩ =>
        show win3_0.index t (1 : Fin 2) * 3000 + 1 * (k).val = (k).val
        omega
    · show V c main_v8_0 (((cfg3.win 1).blk t).view.emb (ix2 k l)) = _
      refine congrArg _ (funext fun a => Fin.ext ?_)
      match a with
      | ⟨0, _⟩ =>
        show win3_1.index t (0 : Fin 2) * 3000 + 1 * k.val = k.val
        omega
      | ⟨1, _⟩ =>
        show win3_1.index t (1 : Fin 2) * 128 + 1 * l.val = l.val
        omega
  · show V c main_v0 (((cfg3.win 2).blk t).view.emb (ix2 l (j 1))) = _
    refine congrArg _ (funext fun a => Fin.ext ?_)
    match a with
    | ⟨0, _⟩ =>
      show win3_2.index t (0 : Fin 2) * 128 + 1 * l.val = l.val
      omega
    | ⟨1, _⟩ =>
      show win3_2.index t (1 : Fin 2) * 128 + 1 * (j 1).val = win3_3.index t (1 : Fin 2) * 128 + 1 * (j 1).val
      omega

/-- An index of the output array is in point `t`'s block iff each coordinate is in the block's range on its axis. -/
theorem mem_blk3_3 (t : Fin cfg3.N) (i : S3000x128.Idx) :
    i ∈ ((cfg3.win 3).blk t).view.set ↔ ∀ a : Fin 2, win3_3.index t a * S200x128.size a ≤ (i a).val
      ∧ (i a).val < win3_3.index t a * S200x128.size a + S200x128.size a := by
  show i ∈ ((View.whole main_v9).slice (win3_3.rect t)).set ↔ _
  rw [View.set_slice_whole, Rect.mem_set_unit]
  exact Iff.rfl

/-- The output array after the region: the row blocks tile it (row `r` lies in block `r / 200`), so it is the whole
    double product. -/
theorem final3_3 (c : Dev nD) : (dat3 (F := Ideal) V c).arrAt 3 cfg3.N
    = Spec.mm (a := 3000) (k := 128) (b := 128)
        (Spec.mm (a := 3000) (k := 3000) (b := 128) (V c main_v8_1) (V c main_v8_0)) (V c main_v0) :=
  (dat3 V c).arrAt_eq_of_cover 3 _ (fun t _ => flushed3_3_eq V c t) fun i => by
    have h0 : (i 0).val < 3000 := (i 0).isLt
    have h1 : (i 1).val < 128 := (i 1).isLt
    have hN : cfg3.N = 15 := N_3
    obtain ⟨-, -, -, -, -, -, e6, e7⟩ := idx_facts3 ⟨(i 0).val / 200, by rw [hN]; omega⟩
    refine ⟨⟨(i 0).val / 200, by rw [hN]; omega⟩, flush3_3 _, ?_⟩
    rw [mem_blk3_3]
    intro a
    match a with
    | ⟨0, _⟩ =>
      show win3_3.index ⟨(i 0).val / 200, _⟩ (0 : Fin 2) * 200 ≤ (i 0).val
        ∧ (i 0).val < win3_3.index ⟨(i 0).val / 200, _⟩ (0 : Fin 2) * 200 + 200
      rw [e6]; show (i 0).val / 200 * 200 ≤ (i 0).val ∧ (i 0).val < (i 0).val / 200 * 200 + 200; omega
    | ⟨1, _⟩ =>
      show win3_3.index ⟨(i 0).val / 200, _⟩ (1 : Fin 2) * 128 ≤ (i 1).val
        ∧ (i 1).val < win3_3.index ⟨(i 0).val / 200, _⟩ (1 : Fin 2) * 128 + 128
      rw [e7]; omega

end Cert.KernelIdeal.Hand

end
-- ==== Proof.KI.Val4.lean ====
/-
  Region 4 in closed form. At every grid point the body multiplies a block of 200 rows of the left factor (the
  adjacency, already in its narrower format) with the whole right factor; point `t` writes the result back as rows
  `200 t … 200 t + 199` of the output array. Row `r` of the output lies in block `r / 200`, so the fifteen blocks
  tile the array and it ends holding the whole product `mm` of the two arrays as the region found them.
-/
import proofs.«161112_j49297634623838_2_alg».proof.Proof.KI.Reg4
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's payload is the row block of the left factor times the whole right factor. -/
theorem pay4_eq (x0 : Vec Ideal S200x3000 .bf16) (x1 : Vec Ideal S3000x128 .f32) :
    k4_pay1 (F := Ideal) x0 x1 = Spec.mm x0 x1 := by
  unfold k4_pay1
  simp only [shapeCast_self, Spec.truncf_id]
  exact Spec.matmul_plain_eq_mm _ x0 x1

/-- The index maps over the grid: the left factor's row block moves with the output's, the right factor is whole. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of the whole product: row `r` of the block is row `200 t + r` of the
    left factor against every column of the right factor. -/
theorem flushed4_2_eq (c : Dev nD) (t : Fin cfg4.N) :
    (dat4 (F := Ideal) V c).flushed 2 t
      = ((cfg4.win 2).blk t).view.read (Elt Ideal)
          (Spec.mm (a := 3000) (k := 3000) (b := 128) (V c main_v8_1) (V c main_v9)) := by
  show (cfg4.win 2).cut (grid4.coords t) ((dat4 V c).after 2 t) = _
  rw [after4_2]
  unfold out4_2
  rw [View.canon_unit_zero Spec.zero_offsets2]
  simp only [View.ld_unit_zero (S := S200x3000) Spec.zero_offsets2, View.ld_unit_zero (S := S3000x128) Spec.zero_offsets2]
  rw [pay4_eq]
  obtain ⟨e0, e1, e2, e3, e4, e5⟩ := idx_facts4 t
  funext j
  show Spec.mm (a := 200) (k := 3000) (b := 128) (iblk4 V c 0 t) (iblk4 V c 1 t) j
      = Spec.mm (a := 3000) (k := 3000) (b := 128) (V c main_v8_1) (V c main_v9) (((cfg4.win 2).blk t).view.emb j)
  refine Spec.mm_congr _ _ _ _ _ _ (fun k => ?_) (fun k => ?_)
  · show V c main_v8_1 (((cfg4.win 0).blk t).view.emb (ix2 (j 0) k)) = _
    refine congrArg _ (funext fun a => Fin.ext ?_)
    match a with
    | ⟨0, _⟩ =>
      show win4_0.index t (0 : Fin 2) * 200 + 1 * (j 0).val = win4_2.index t (0 : Fin 2) * 200 + 1 * (j 0).val
      omega
    | ⟨1, _⟩ =>
      show win4_0.index t (1 : Fin 2) * 3000 + 1 * k.val = k.val
      omega
  · show V c main_v9 (((cfg4.win 1).blk t).view.emb (ix2 k (j 1))) = _
    refine congrArg _ (funext fun a => Fin.ext ?_)
    match a with
    | ⟨0, _⟩ =>
      show win4_1.index t (0 : Fin 2) * 3000 + 1 * k.val = k.val
      omega
    | ⟨1, _⟩ =>
      show win4_1.index t (1 : Fin 2) * 128 + 1 * (j 1).val = win4_2.index t (1 : Fin 2) * 128 + 1 * (j 1).val
      omega
/-- An index of the output array is in point `t`'s block iff each coordinate is in the block's range on its axis. -/
theorem mem_blk4_2 (t : Fin cfg4.N) (i : S3000x128.Idx) :
    i ∈ ((cfg4.win 2).blk t).view.set ↔ ∀ a : Fin 2, win4_2.index t a * S200x128.size a ≤ (i a).val
      ∧ (i a).val < win4_2.index t a * S200x128.size a + S200x128.size a := by
  show i ∈ ((View.whole main_v10).slice (win4_2.rect t)).set ↔ _
  rw [View.set_slice_whole, Rect.mem_set_unit]
  exact Iff.rfl

/-- The output array after the region: the row blocks tile it (row `r` lies in block `r / 200`), so it is the whole
    product. -/
theorem final4_2 (c : Dev nD) : (dat4 (F := Ideal) V c).arrAt 2 cfg4.N
    = Spec.mm (a := 3000) (k := 3000) (b := 128) (V c main_v8_1) (V c main_v9) :=
  (dat4 V c).arrAt_eq_of_cover 2 _ (fun t _ => flushed4_2_eq V c t) fun i => by
    have h0 : (i 0).val < 3000 := (i 0).isLt
    have h1 : (i 1).val < 128 := (i 1).isLt
    have hN : cfg4.N = 15 := N_4
    obtain ⟨-, -, -, -, e4, e5⟩ := idx_facts4 ⟨(i 0).val / 200, by rw [hN]; omega⟩
    refine ⟨⟨(i 0).val / 200, by rw [hN]; omega⟩, flush4_2 _, ?_⟩
    rw [mem_blk4_2]
    intro a
    match a with
    | ⟨0, _⟩ =>
      show win4_2.index ⟨(i 0).val / 200, _⟩ (0 : Fin 2) * 200 ≤ (i 0).val
        ∧ (i 0).val < win4_2.index ⟨(i 0).val / 200, _⟩ (0 : Fin 2) * 200 + 200
      rw [e4]; show (i 0).val / 200 * 200 ≤ (i 0).val ∧ (i 0).val < (i 0).val / 200 * 200 + 200; omega
    | ⟨1, _⟩ =>
      show win4_2.index ⟨(i 0).val / 200, _⟩ (1 : Fin 2) * 128 ≤ (i 1).val
        ∧ (i 1).val < win4_2.index ⟨(i 0).val / 200, _⟩ (1 : Fin 2) * 128 + 128
      rw [e5]; omega

end Cert.KernelIdeal.Hand

end
-- ==== Proof.KI.Val5.lean ====
/-
  Region 5 in closed form. At every grid point the body takes a block of 200 rows of the adjacency, multiplies it with
  a block of 256 columns of the first layer's (widened) output and the result with the whole second-layer weights,
  squashes entry by entry, and writes that back as rows `200 t … 200 t + 199` of the first output array; it also
  writes the adjacency block back, in a narrower format, as the same rows of the second output array. The fifteen row
  blocks tile both arrays: the first ends holding the whole squashed double product, the second the adjacency itself,
  a change of format being the identity on extended reals.
-/
import proofs.«161112_j49297634623838_2_alg».proof.Proof.KI.Reg5
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The narrower-format copy of the adjacency block is the block. -/
theorem pay5_1_eq (x0 : Vec Ideal S200x3000 .f32) : k5_pay1 (F := Ideal) x0 = x0 := rfl

/-- The output block's payload: the row block times the column block of the first layer, times the weights, squashed. -/
theorem pay5_2_eq (x0 : Vec Ideal S200x3000 .f32) (x1 : Vec Ideal S3000x256 .f32) (x2 : Vec Ideal S256x128 .f32) :
    k5_pay2 (F := Ideal) x0 x1 x2 = Spec.tanhM (Spec.mm (Spec.mm x0 x1) x2) := by
  have h1 : matmul (F := Ideal) (φ₁ := .bf16) (φ₂ := .bf16) dot_S200x3000_S3000x256_S200x256_1_0_0_1_n_n none x0 x1
      (constant (F := Ideal) S200x256 .f32 0x00000000#32) = Spec.mm x0 x1 := Spec.matmul_plain_eq_mm _ x0 x1
  have h2 : matmul (F := Ideal) (φ₁ := .bf16) (φ₂ := .bf16) dot_S200x256_S256x128_S200x128_1_0_0_1_n_n none (Spec.mm x0 x1) x2
      (constant (F := Ideal) S200x128 .f32 0x00000000#32) = Spec.mm (Spec.mm x0 x1) x2 :=
    Spec.matmul_plain_eq_mm _ (Spec.mm x0 x1) x2
  unfold k5_pay2
  simp only [shapeCast_self, Spec.truncf_id, pay5_1_eq, h1, h2]
  rfl

/-- The index maps over the grid: the adjacency's row block moves with both outputs'; the first layer's output is
    read through one fixed block of 256 columns; the weights are whole. -/
theorem idx_facts5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0
    ∧ win5_4.index t (0 : Fin 2) = t.val
    ∧ win5_4.index t (1 : Fin 2) = 0 :=
  (by decide +kernel : ∀ t : Fin grid5.N, _)

/-- What point `t` writes back to the first output is block `t` of the whole squashed double product, the middle
    factor being the block of 256 columns of the first layer's output that the region reads. -/
theorem flushed5_3_eq (c : Dev nD) (t : Fin cfg5.N) :
    (dat5 (F := Ideal) V c).flushed 3 t
      = ((cfg5.win 3).blk t).view.read (Elt Ideal)
          (Spec.tanhM (Spec.mm (a := 3000) (k := 256) (b := 128)
            (Spec.mm (a := 3000) (k := 3000) (b := 256) (V c main_arg3)
              (Spec.colblk (n := 3000) (b := 256) (B := 512) 0 (by omega) (V c main_v7))) (V c main_arg10))) := by
  show (cfg5.win 3).cut (grid5.coords t) ((dat5 V c).after 3 t) = _
  rw [after5_3]
  unfold out5_3
  rw [View.canon_unit_zero Spec.zero_offsets2]
  simp only [View.ld_unit_zero (S := S200x3000) Spec.zero_offsets2, View.ld_unit_zero (S := S3000x256) Spec.zero_offsets2,
    View.ld_unit_zero (S := S256x128) Spec.zero_offsets2]
  rw [pay5_2_eq]
  obtain ⟨e0, e1, e2, e3, e4, e5, e6, e7, e8, e9⟩ := idx_facts5 t
  funext j
  show Ideal.tanh (Spec.mm (a := 200) (k := 256) (b := 128)
        (Spec.mm (a := 200) (k := 3000) (b := 256) (iblk5 V c 0 t) (iblk5 V c 1 t)) (iblk5 V c 2 t) j)
      = Ideal.tanh (Spec.mm (a := 3000) (k := 256) (b := 128)
        (Spec.mm (a := 3000) (k := 3000) (b := 256) (V c main_arg3)
          (Spec.colblk (n := 3000) (b := 256) (B := 512) 0 (by omega) (V c main_v7))) (V c main_arg10)
          (((cfg5.win 3).blk t).view.emb j))
  refine congrArg Ideal.tanh (Spec.mm_congr _ _ _ _ _ _ (fun l => ?_) (fun l => ?_))
  · refine Spec.mm_congr _ _ _ _ _ _ (fun k => ?_) (fun k => ?_)
    · show V c main_arg3 (((cfg5.win 0).blk t).view.emb (ix2 (j 0) k)) = _
      refine congrArg _ (funext fun a => Fin.ext ?_)
      match a with
      | ⟨0, _⟩ =>
        show win5_0.index t (0 : Fin 2) * 200 + 1 * (j 0).val = win5_3.index t (0 : Fin 2) * 200 + 1 * (j 0).val
        omega
      | ⟨1, _⟩ =>
        show win5_0.index t (1 : Fin 2) * 3000 + 1 * (k).val = (k).val
        omega
    · show V c main_v7 (((cfg5.win 1).blk t).view.emb (ix2 k l)) = _
      refine congrArg (V c main_v7) (funext fun a => Fin.ext ?_)
      match a with
      | ⟨0, _⟩ =>
        show win5_1.index t (0 : Fin 2) * 3000 + 1 * k.val = k.val
        omega
      | ⟨1, _⟩ =>
        show win5_1.index t (1 : Fin 2) * 256 + 1 * l.val = 0 + l.val
        omega
  · show V c main_arg10 (((cfg5.win 2).blk t).view.emb (ix2 l (j 1))) = _
    refine congrArg _ (funext fun a => Fin.ext ?_)
    match a with
    | ⟨0, _⟩ =>
      show win5_2.index t (0 : Fin 2) * 256 + 1 * l.val = l.val
      omega
    | ⟨1, _⟩ =>
      show win5_2.index t (1 : Fin 2) * 128 + 1 * (j 1).val = win5_3.index t (1 : Fin 2) * 128 + 1 * (j 1).val
      omega

/-- What point `t` writes back to the second output is block `t` of the adjacency itself. -/
theorem flushed5_4_eq (c : Dev nD) (t : Fin cfg5.N) :
    (dat5 (F := Ideal) V c).flushed 4 t = ((cfg5.win 4).blk t).view.read (Elt Ideal) (V c main_arg3) := by
  show (cfg5.win 4).cut (grid5.coords t) ((dat5 V c).after 4 t) = _
  rw [after5_4]
  unfold out5_4
  rw [View.canon_unit_zero Spec.zero_offsets2]
  simp only [View.ld_unit_zero (S := S200x3000) Spec.zero_offsets2]
  obtain ⟨e0, e1, e2, e3, e4, e5, e6, e7, e8, e9⟩ := idx_facts5 t
  funext j
  show V c main_arg3 (((cfg5.win 0).blk t).view.emb j) = V c main_arg3 (((cfg5.win 4).blk t).view.emb j)
  refine congrArg _ (funext fun a => Fin.ext ?_)
  match a with
  | ⟨0, _⟩ =>
    show win5_0.index t (0 : Fin 2) * 200 + 1 * (j 0).val = win5_4.index t (0 : Fin 2) * 200 + 1 * (j 0).val
    omega
  | ⟨1, _⟩ =>
    show win5_0.index t (1 : Fin 2) * 3000 + 1 * (j 1).val = win5_4.index t (1 : Fin 2) * 3000 + 1 * (j 1).val
    omega

/-- An index of the first output array is in point `t`'s block iff each coordinate is in the block's range. -/
theorem mem_blk5_3 (t : Fin cfg5.N) (i : S3000x128.Idx) :
    i ∈ ((cfg5.win 3).blk t).view.set ↔ ∀ a : Fin 2, win5_3.index t a * S200x128.size a ≤ (i a).val
      ∧ (i a).val < win5_3.index t a * S200x128.size a + S200x128.size a := by
  show i ∈ ((View.whole main_v11_0).slice (win5_3.rect t)).set ↔ _
  rw [View.set_slice_whole, Rect.mem_set_unit]
  exact Iff.rfl

/-- The same for the second output array. -/
theorem mem_blk5_4 (t : Fin cfg5.N) (i : S3000x3000.Idx) :
    i ∈ ((cfg5.win 4).blk t).view.set ↔ ∀ a : Fin 2, win5_4.index t a * S200x3000.size a ≤ (i a).val
      ∧ (i a).val < win5_4.index t a * S200x3000.size a + S200x3000.size a := by
  show i ∈ ((View.whole main_v11_1).slice (win5_4.rect t)).set ↔ _
  rw [View.set_slice_whole, Rect.mem_set_unit]
  exact Iff.rfl

/-- The first output array after the region: the row blocks tile it, so it is the whole squashed double product. -/
theorem final5_3 (c : Dev nD) : (dat5 (F := Ideal) V c).arrAt 3 cfg5.N
    = Spec.tanhM (Spec.mm (a := 3000) (k := 256) (b := 128)
        (Spec.mm (a := 3000) (k := 3000) (b := 256) (V c main_arg3)
          (Spec.colblk (n := 3000) (b := 256) (B := 512) 0 (by omega) (V c main_v7))) (V c main_arg10)) :=
  (dat5 V c).arrAt_eq_of_cover 3 _ (fun t _ => flushed5_3_eq V c t) fun i => by
    have h0 : (i 0).val < 3000 := (i 0).isLt
    have h1 : (i 1).val < 128 := (i 1).isLt
    have hN : cfg5.N = 15 := N_5
    obtain ⟨-, -, -, -, -, -, eA, eB, -, -⟩ := idx_facts5 ⟨(i 0).val / 200, by rw [hN]; omega⟩
    refine ⟨⟨(i 0).val / 200, by rw [hN]; omega⟩, flush5_3 _, ?_⟩
    rw [mem_blk5_3]
    intro a
    match a with
    | ⟨0, _⟩ =>
      show win5_3.index ⟨(i 0).val / 200, _⟩ (0 : Fin 2) * 200 ≤ (i 0).val
        ∧ (i 0).val < win5_3.index ⟨(i 0).val / 200, _⟩ (0 : Fin 2) * 200 + 200
      rw [eA]; show (i 0).val / 200 * 200 ≤ (i 0).val ∧ (i 0).val < (i 0).val / 200 * 200 + 200; omega
    | ⟨1, _⟩ =>
      show win5_3.index ⟨(i 0).val / 200, _⟩ (1 : Fin 2) * 128 ≤ (i 1).val
        ∧ (i 1).val < win5_3.index ⟨(i 0).val / 200, _⟩ (1 : Fin 2) * 128 + 128
      rw [eB]; omega

/-- The second output array after the region: the row blocks tile it, so it is the adjacency (the change of format is
    the identity on extended reals). -/
theorem final5_4 (c : Dev nD) : (dat5 (F := Ideal) V c).arrAt 4 cfg5.N = V c main_arg3 :=
  (dat5 V c).arrAt_eq_of_cover 4 _ (fun t _ => flushed5_4_eq V c t) fun i => by
    have h0 : (i 0).val < 3000 := (i 0).isLt
    have h1 : (i 1).val < 3000 := (i 1).isLt
    have hN : cfg5.N = 15 := N_5
    obtain ⟨-, -, -, -, -, -, -, -, eA, eB⟩ := idx_facts5 ⟨(i 0).val / 200, by rw [hN]; omega⟩
    refine ⟨⟨(i 0).val / 200, by rw [hN]; omega⟩, flush5_4 _, ?_⟩
    rw [mem_blk5_4]
    intro a
    match a with
    | ⟨0, _⟩ =>
      show win5_4.index ⟨(i 0).val / 200, _⟩ (0 : Fin 2) * 200 ≤ (i 0).val
        ∧ (i 0).val < win5_4.index ⟨(i 0).val / 200, _⟩ (0 : Fin 2) * 200 + 200
      rw [eA]; show (i 0).val / 200 * 200 ≤ (i 0).val ∧ (i 0).val < (i 0).val / 200 * 200 + 200; omega
    | ⟨1, _⟩ =>
      show win5_4.index ⟨(i 0).val / 200, _⟩ (1 : Fin 2) * 3000 ≤ (i 1).val
        ∧ (i 1).val < win5_4.index ⟨(i 0).val / 200, _⟩ (1 : Fin 2) * 3000 + 3000
      rw [eB]; omega

end Cert.KernelIdeal.Hand

end
-- ==== Proof.KI.Val6.lean ====
/-
  Region 6 in closed form. At every grid point the body multiplies a block of 200 rows of the left factor (the
  adjacency in its narrower format) with the whole middle factor and the result with the whole weight matrix; point
  `t` writes that back as rows `200 t … 200 t + 199` of the output array. The fifteen row blocks tile the array, so it
  ends holding the whole double product of the three arrays as the region found them.
-/
import proofs.«161112_j49297634623838_2_alg».proof.Proof.KI.Reg6
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's payload: the row block of the left factor times the middle factor, then times the weights. -/
theorem pay6_eq (x0 : Vec Ideal S200x3000 .bf16) (x1 : Vec Ideal S3000x128 .f32) (x2 : Vec Ideal S128x128 .f32) :
    k6_pay1 (F := Ideal) x0 x1 x2 = Spec.mm (Spec.mm x0 x1) x2 := by
  have h1 : matmul (F := Ideal) (φ₁ := .bf16) (φ₂ := .bf16) dot_S200x3000_S3000x128_S200x128_1_0_0_1_n_n none x0 x1
      (constant (F := Ideal) S200x128 .f32 0x00000000#32) = Spec.mm x0 x1 := Spec.matmul_plain_eq_mm _ x0 x1
  unfold k6_pay1
  simp only [shapeCast_self, Spec.truncf_id, h1]
  exact Spec.matmul_plain_eq_mm _ (Spec.mm x0 x1) x2

/-- The index maps over the grid: the left factor's row block moves with the output's, the other two factors are whole. -/
theorem idx_facts6 : ∀ t : Fin cfg6.N, win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- What point `t` writes back is block `t` of the whole double product: row `r` of the block is row `200 t + r` of
    the left factor against the whole middle factor and the whole weights. -/
theorem flushed6_3_eq (c : Dev nD) (t : Fin cfg6.N) :
    (dat6 (F := Ideal) V c).flushed 3 t
      = ((cfg6.win 3).blk t).view.read (Elt Ideal)
          (Spec.mm (a := 3000) (k := 128) (b := 128)
            (Spec.mm (a := 3000) (k := 3000) (b := 128) (V c main_v11_1) (V c main_v11_0)) (V c main_v1)) := by
  show (cfg6.win 3).cut (grid6.coords t) ((dat6 V c).after 3 t) = _
  rw [after6_3]
  unfold out6_3
  rw [View.canon_unit_zero Spec.zero_offsets2]
  simp only [View.ld_unit_zero (S := S200x3000) Spec.zero_offsets2, View.ld_unit_zero (S := S3000x128) Spec.zero_offsets2,
    View.ld_unit_zero (S := S128x128) Spec.zero_offsets2]
  rw [pay6_eq]
  obtain ⟨e0, e1, e2, e3, e4, e5, e6, e7⟩ := idx_facts6 t
  funext j
  show Spec.mm (a := 200) (k := 128) (b := 128)
        (Spec.mm (a := 200) (k := 3000) (b := 128) (iblk6 V c 0 t) (iblk6 V c 1 t)) (iblk6 V c 2 t) j
      = Spec.mm (a := 3000) (k := 128) (b := 128)
        (Spec.mm (a := 3000) (k := 3000) (b := 128) (V c main_v11_1) (V c main_v11_0)) (V c main_v1)
          (((cfg6.win 3).blk t).view.emb j)
  refine Spec.mm_congr _ _ _ _ _ _ (fun l => ?_) (fun l => ?_)
  · refine Spec.mm_congr _ _ _ _ _ _ (fun k => ?_) (fun k => ?_)
    · show V c main_v11_1 (((cfg6.win 0).blk t).view.emb (ix2 (j 0) k)) = _
      refine congrArg _ (funext fun a => Fin.ext ?_)
      match a with
      | ⟨0, _⟩ =>
        show win6_0.index t (0 : Fin 2) * 200 + 1 * (j 0).val = win6_3.index t (0 : Fin 2) * 200 + 1 * (j 0).val
        omega
      | ⟨1, _⟩ =>
        show win6_0.index t (1 : Fin 2) * 3000 + 1 * (k).val = (k).val
        omega
    · show V c main_v11_0 (((cfg6.win 1).blk t).view.emb (ix2 k l)) = _
      refine congrArg _ (funext fun a => Fin.ext ?_)
      match a with
      | ⟨0, _⟩ =>
        show win6_1.index t (0 : Fin 2) * 3000 + 1 * k.val = k.val
        omega
      | ⟨1, _⟩ =>
        show win6_1.index t (1 : Fin 2) * 128 + 1 * l.val = l.val
        omega
  · show V c main_v1 (((cfg6.win 2).blk t).view.emb (ix2 l (j 1))) = _
    refine congrArg _ (funext fun a => Fin.ext ?_)
    match a with
    | ⟨0, _⟩ =>
      show win6_2.index t (0 : Fin 2) * 128 + 1 * l.val = l.val
      omega
    | ⟨1, _⟩ =>
      show win6_2.index t (1 : Fin 2) * 128 + 1 * (j 1).val = win6_3.index t (1 : Fin 2) * 128 + 1 * (j 1).val
      omega

/-- An index of the output array is in point `t`'s block iff each coordinate is in the block's range on its axis. -/
theorem mem_blk6_3 (t : Fin cfg6.N) (i : S3000x128.Idx) :
    i ∈ ((cfg6.win 3).blk t).view.set ↔ ∀ a : Fin 2, win6_3.index t a * S200x128.size a ≤ (i a).val
      ∧ (i a).val < win6_3.index t a * S200x128.size a + S200x128.size a := by
  show i ∈ ((View.whole main_v12).slice (win6_3.rect t)).set ↔ _
  rw [View.set_slice_whole, Rect.mem_set_unit]
  exact Iff.rfl

/-- The output array after the region: the row blocks tile it (row `r` lies in block `r / 200`), so it is the whole
    double product. -/
theorem final6_3 (c : Dev nD) : (dat6 (F := Ideal) V c).arrAt 3 cfg6.N
    = Spec.mm (a := 3000) (k := 128) (b := 128)
        (Spec.mm (a := 3000) (k := 3000) (b := 128) (V c main_v11_1) (V c main_v11_0)) (V c main_v1) :=
  (dat6 V c).arrAt_eq_of_cover 3 _ (fun t _ => flushed6_3_eq V c t) fun i => by
    have h0 : (i 0).val < 3000 := (i 0).isLt
    have h1 : (i 1).val < 128 := (i 1).isLt
    have hN : cfg6.N = 15 := N_6
    obtain ⟨-, -, -, -, -, -, e6, e7⟩ := idx_facts6 ⟨(i 0).val / 200, by rw [hN]; omega⟩
    refine ⟨⟨(i 0).val / 200, by rw [hN]; omega⟩, flush6_3 _, ?_⟩
    rw [mem_blk6_3]
    intro a
    match a with
    | ⟨0, _⟩ =>
      show win6_3.index ⟨(i 0).val / 200, _⟩ (0 : Fin 2) * 200 ≤ (i 0).val
        ∧ (i 0).val < win6_3.index ⟨(i 0).val / 200, _⟩ (0 : Fin 2) * 200 + 200
      rw [e6]; show (i 0).val / 200 * 200 ≤ (i 0).val ∧ (i 0).val < (i 0).val / 200 * 200 + 200; omega
    | ⟨1, _⟩ =>
      show win6_3.index ⟨(i 0).val / 200, _⟩ (1 : Fin 2) * 128 ≤ (i 1).val
        ∧ (i 1).val < win6_3.index ⟨(i 0).val / 200, _⟩ (1 : Fin 2) * 128 + 128
      rw [e7]; omega

end Cert.KernelIdeal.Hand

end
-- ==== Proof.KI.Val7.lean ====
/-
  Region 7 in closed form. At every grid point the body multiplies a block of 200 rows of the left factor (the
  adjacency, already in its narrower format) with the whole right factor; point `t` writes the result back as rows
  `200 t … 200 t + 199` of the output array. Row `r` of the output lies in block `r / 200`, so the fifteen blocks
  tile the array and it ends holding the whole product `mm` of the two arrays as the region found them.
-/
import proofs.«161112_j49297634623838_2_alg».proof.Proof.KI.Reg7
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's payload is the row block of the left factor times the whole right factor. -/
theorem pay7_eq (x0 : Vec Ideal S200x3000 .bf16) (x1 : Vec Ideal S3000x128 .f32) :
    k7_pay1 (F := Ideal) x0 x1 = Spec.mm x0 x1 := by
  unfold k7_pay1
  simp only [shapeCast_self, Spec.truncf_id]
  exact Spec.matmul_plain_eq_mm _ x0 x1

/-- The index maps over the grid: the left factor's row block moves with the output's, the right factor is whole. -/
theorem idx_facts7 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (0 : Fin 2) = t.val
    ∧ win7_2.index t (1 : Fin 2) = 0 :=
  (by decide +kernel : ∀ t : Fin grid7.N, _)

/-- What point `t` writes back is block `t` of the whole product: row `r` of the block is row `200 t + r` of the
    left factor against every column of the right factor. -/
theorem flushed7_2_eq (c : Dev nD) (t : Fin cfg7.N) :
    (dat7 (F := Ideal) V c).flushed 2 t
      = ((cfg7.win 2).blk t).view.read (Elt Ideal)
          (Spec.mm (a := 3000) (k := 3000) (b := 128) (V c main_v11_1) (V c main_v12)) := by
  show (cfg7.win 2).cut (grid7.coords t) ((dat7 V c).after 2 t) = _
  rw [after7_2]
  unfold out7_2
  rw [View.canon_unit_zero Spec.zero_offsets2]
  simp only [View.ld_unit_zero (S := S200x3000) Spec.zero_offsets2, View.ld_unit_zero (S := S3000x128) Spec.zero_offsets2]
  rw [pay7_eq]
  obtain ⟨e0, e1, e2, e3, e4, e5⟩ := idx_facts7 t
  funext j
  show Spec.mm (a := 200) (k := 3000) (b := 128) (iblk7 V c 0 t) (iblk7 V c 1 t) j
      = Spec.mm (a := 3000) (k := 3000) (b := 128) (V c main_v11_1) (V c main_v12) (((cfg7.win 2).blk t).view.emb j)
  refine Spec.mm_congr _ _ _ _ _ _ (fun k => ?_) (fun k => ?_)
  · show V c main_v11_1 (((cfg7.win 0).blk t).view.emb (ix2 (j 0) k)) = _
    refine congrArg _ (funext fun a => Fin.ext ?_)
    match a with
    | ⟨0, _⟩ =>
      show win7_0.index t (0 : Fin 2) * 200 + 1 * (j 0).val = win7_2.index t (0 : Fin 2) * 200 + 1 * (j 0).val
      omega
    | ⟨1, _⟩ =>
      show win7_0.index t (1 : Fin 2) * 3000 + 1 * k.val = k.val
      omega
  · show V c main_v12 (((cfg7.win 1).blk t).view.emb (ix2 k (j 1))) = _
    refine congrArg _ (funext fun a => Fin.ext ?_)
    match a with
    | ⟨0, _⟩ =>
      show win7_1.index t (0 : Fin 2) * 3000 + 1 * k.val = k.val
      omega
    | ⟨1, _⟩ =>
      show win7_1.index t (1 : Fin 2) * 128 + 1 * (j 1).val = win7_2.index t (1 : Fin 2) * 128 + 1 * (j 1).val
      omega
/-- An index of the output array is in point `t`'s block iff each coordinate is in the block's range on its axis. -/
theorem mem_blk7_2 (t : Fin cfg7.N) (i : S3000x128.Idx) :
    i ∈ ((cfg7.win 2).blk t).view.set ↔ ∀ a : Fin 2, win7_2.index t a * S200x128.size a ≤ (i a).val
      ∧ (i a).val < win7_2.index t a * S200x128.size a + S200x128.size a := by
  show i ∈ ((View.whole main_v13).slice (win7_2.rect t)).set ↔ _
  rw [View.set_slice_whole, Rect.mem_set_unit]
  exact Iff.rfl

/-- The output array after the region: the row blocks tile it (row `r` lies in block `r / 200`), so it is the whole
    product. -/
theorem final7_2 (c : Dev nD) : (dat7 (F := Ideal) V c).arrAt 2 cfg7.N
    = Spec.mm (a := 3000) (k := 3000) (b := 128) (V c main_v11_1) (V c main_v12) :=
  (dat7 V c).arrAt_eq_of_cover 2 _ (fun t _ => flushed7_2_eq V c t) fun i => by
    have h0 : (i 0).val < 3000 := (i 0).isLt
    have h1 : (i 1).val < 128 := (i 1).isLt
    have hN : cfg7.N = 15 := N_7
    obtain ⟨-, -, -, -, e4, e5⟩ := idx_facts7 ⟨(i 0).val / 200, by rw [hN]; omega⟩
    refine ⟨⟨(i 0).val / 200, by rw [hN]; omega⟩, flush7_2 _, ?_⟩
    rw [mem_blk7_2]
    intro a
    match a with
    | ⟨0, _⟩ =>
      show win7_2.index ⟨(i 0).val / 200, _⟩ (0 : Fin 2) * 200 ≤ (i 0).val
        ∧ (i 0).val < win7_2.index ⟨(i 0).val / 200, _⟩ (0 : Fin 2) * 200 + 200
      rw [e4]; show (i 0).val / 200 * 200 ≤ (i 0).val ∧ (i 0).val < (i 0).val / 200 * 200 + 200; omega
    | ⟨1, _⟩ =>
      show win7_2.index ⟨(i 0).val / 200, _⟩ (1 : Fin 2) * 128 ≤ (i 1).val
        ∧ (i 1).val < win7_2.index ⟨(i 0).val / 200, _⟩ (1 : Fin 2) * 128 + 128
      rw [e5]; omega

end Cert.KernelIdeal.Hand

end
-- ==== Proof.KI.Val8.lean ====
/-
  Region 8 in closed form. At every grid point the body takes a block of 200 rows of the adjacency, multiplies it with
  a block of 256 columns of the first layer's (widened) output and the result with the whole second-layer weights,
  squashes entry by entry, and writes that back as rows `200 t … 200 t + 199` of the first output array; it also
  writes the adjacency block back, in a narrower format, as the same rows of the second output array. The fifteen row
  blocks tile both arrays: the first ends holding the whole squashed double product, the second the adjacency itself,
  a change of format being the identity on extended reals.
-/
import proofs.«161112_j49297634623838_2_alg».proof.Proof.KI.Reg8
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The narrower-format copy of the adjacency block is the block. -/
theorem pay8_1_eq (x0 : Vec Ideal S200x3000 .f32) : k8_pay1 (F := Ideal) x0 = x0 := rfl

/-- The output block's payload: the row block times the column block of the first layer, times the weights, squashed. -/
theorem pay8_2_eq (x0 : Vec Ideal S200x3000 .f32) (x1 : Vec Ideal S3000x256 .f32) (x2 : Vec Ideal S256x128 .f32) :
    k8_pay2 (F := Ideal) x0 x1 x2 = Spec.tanhM (Spec.mm (Spec.mm x0 x1) x2) := by
  have h1 : matmul (F := Ideal) (φ₁ := .bf16) (φ₂ := .bf16) dot_S200x3000_S3000x256_S200x256_1_0_0_1_n_n none x0 x1
      (constant (F := Ideal) S200x256 .f32 0x00000000#32) = Spec.mm x0 x1 := Spec.matmul_plain_eq_mm _ x0 x1
  have h2 : matmul (F := Ideal) (φ₁ := .bf16) (φ₂ := .bf16) dot_S200x256_S256x128_S200x128_1_0_0_1_n_n none (Spec.mm x0 x1) x2
      (constant (F := Ideal) S200x128 .f32 0x00000000#32) = Spec.mm (Spec.mm x0 x1) x2 :=
    Spec.matmul_plain_eq_mm _ (Spec.mm x0 x1) x2
  unfold k8_pay2
  simp only [shapeCast_self, Spec.truncf_id, pay8_1_eq, h1, h2]
  rfl

/-- The index maps over the grid: the adjacency's row block moves with both outputs'; the first layer's output is
    read through one fixed block of 256 columns; the weights are whole. -/
theorem idx_facts8 : ∀ t : Fin cfg8.N, win8_0.index t (0 : Fin 2) = win8_3.index t (0 : Fin 2)
    ∧ win8_0.index t (1 : Fin 2) = 0
    ∧ win8_1.index t (0 : Fin 2) = 0
    ∧ win8_1.index t (1 : Fin 2) = 1
    ∧ win8_2.index t (0 : Fin 2) = 0
    ∧ win8_2.index t (1 : Fin 2) = 0
    ∧ win8_3.index t (0 : Fin 2) = t.val
    ∧ win8_3.index t (1 : Fin 2) = 0
    ∧ win8_4.index t (0 : Fin 2) = t.val
    ∧ win8_4.index t (1 : Fin 2) = 0 :=
  (by decide +kernel : ∀ t : Fin grid8.N, _)

/-- What point `t` writes back to the first output is block `t` of the whole squashed double product, the middle
    factor being the block of 256 columns of the first layer's output that the region reads. -/
theorem flushed8_3_eq (c : Dev nD) (t : Fin cfg8.N) :
    (dat8 (F := Ideal) V c).flushed 3 t
      = ((cfg8.win 3).blk t).view.read (Elt Ideal)
          (Spec.tanhM (Spec.mm (a := 3000) (k := 256) (b := 128)
            (Spec.mm (a := 3000) (k := 3000) (b := 256) (V c main_arg4)
              (Spec.colblk (n := 3000) (b := 256) (B := 512) 256 (by omega) (V c main_v6))) (V c main_arg13))) := by
  show (cfg8.win 3).cut (grid8.coords t) ((dat8 V c).after 3 t) = _
  rw [after8_3]
  unfold out8_3
  rw [View.canon_unit_zero Spec.zero_offsets2]
  simp only [View.ld_unit_zero (S := S200x3000) Spec.zero_offsets2, View.ld_unit_zero (S := S3000x256) Spec.zero_offsets2,
    View.ld_unit_zero (S := S256x128) Spec.zero_offsets2]
  rw [pay8_2_eq]
  obtain ⟨e0, e1, e2, e3, e4, e5, e6, e7, e8, e9⟩ := idx_facts8 t
  funext j
  show Ideal.tanh (Spec.mm (a := 200) (k := 256) (b := 128)
        (Spec.mm (a := 200) (k := 3000) (b := 256) (iblk8 V c 0 t) (iblk8 V c 1 t)) (iblk8 V c 2 t) j)
      = Ideal.tanh (Spec.mm (a := 3000) (k := 256) (b := 128)
        (Spec.mm (a := 3000) (k := 3000) (b := 256) (V c main_arg4)
          (Spec.colblk (n := 3000) (b := 256) (B := 512) 256 (by omega) (V c main_v6))) (V c main_arg13)
          (((cfg8.win 3).blk t).view.emb j))
  refine congrArg Ideal.tanh (Spec.mm_congr _ _ _ _ _ _ (fun l => ?_) (fun l => ?_))
  · refine Spec.mm_congr _ _ _ _ _ _ (fun k => ?_) (fun k => ?_)
    · show V c main_arg4 (((cfg8.win 0).blk t).view.emb (ix2 (j 0) k)) = _
      refine congrArg _ (funext fun a => Fin.ext ?_)
      match a with
      | ⟨0, _⟩ =>
        show win8_0.index t (0 : Fin 2) * 200 + 1 * (j 0).val = win8_3.index t (0 : Fin 2) * 200 + 1 * (j 0).val
        omega
      | ⟨1, _⟩ =>
        show win8_0.index t (1 : Fin 2) * 3000 + 1 * (k).val = (k).val
        omega
    · show V c main_v6 (((cfg8.win 1).blk t).view.emb (ix2 k l)) = _
      refine congrArg (V c main_v6) (funext fun a => Fin.ext ?_)
      match a with
      | ⟨0, _⟩ =>
        show win8_1.index t (0 : Fin 2) * 3000 + 1 * k.val = k.val
        omega
      | ⟨1, _⟩ =>
        show win8_1.index t (1 : Fin 2) * 256 + 1 * l.val = 256 + l.val
        omega
  · show V c main_arg13 (((cfg8.win 2).blk t).view.emb (ix2 l (j 1))) = _
    refine congrArg _ (funext fun a => Fin.ext ?_)
    match a with
    | ⟨0, _⟩ =>
      show win8_2.index t (0 : Fin 2) * 256 + 1 * l.val = l.val
      omega
    | ⟨1, _⟩ =>
      show win8_2.index t (1 : Fin 2) * 128 + 1 * (j 1).val = win8_3.index t (1 : Fin 2) * 128 + 1 * (j 1).val
      omega

/-- What point `t` writes back to the second output is block `t` of the adjacency itself. -/
theorem flushed8_4_eq (c : Dev nD) (t : Fin cfg8.N) :
    (dat8 (F := Ideal) V c).flushed 4 t = ((cfg8.win 4).blk t).view.read (Elt Ideal) (V c main_arg4) := by
  show (cfg8.win 4).cut (grid8.coords t) ((dat8 V c).after 4 t) = _
  rw [after8_4]
  unfold out8_4
  rw [View.canon_unit_zero Spec.zero_offsets2]
  simp only [View.ld_unit_zero (S := S200x3000) Spec.zero_offsets2]
  obtain ⟨e0, e1, e2, e3, e4, e5, e6, e7, e8, e9⟩ := idx_facts8 t
  funext j
  show V c main_arg4 (((cfg8.win 0).blk t).view.emb j) = V c main_arg4 (((cfg8.win 4).blk t).view.emb j)
  refine congrArg _ (funext fun a => Fin.ext ?_)
  match a with
  | ⟨0, _⟩ =>
    show win8_0.index t (0 : Fin 2) * 200 + 1 * (j 0).val = win8_4.index t (0 : Fin 2) * 200 + 1 * (j 0).val
    omega
  | ⟨1, _⟩ =>
    show win8_0.index t (1 : Fin 2) * 3000 + 1 * (j 1).val = win8_4.index t (1 : Fin 2) * 3000 + 1 * (j 1).val
    omega

/-- An index of the first output array is in point `t`'s block iff each coordinate is in the block's range. -/
theorem mem_blk8_3 (t : Fin cfg8.N) (i : S3000x128.Idx) :
    i ∈ ((cfg8.win 3).blk t).view.set ↔ ∀ a : Fin 2, win8_3.index t a * S200x128.size a ≤ (i a).val
      ∧ (i a).val < win8_3.index t a * S200x128.size a + S200x128.size a := by
  show i ∈ ((View.whole main_v14_0).slice (win8_3.rect t)).set ↔ _
  rw [View.set_slice_whole, Rect.mem_set_unit]
  exact Iff.rfl

/-- The same for the second output array. -/
theorem mem_blk8_4 (t : Fin cfg8.N) (i : S3000x3000.Idx) :
    i ∈ ((cfg8.win 4).blk t).view.set ↔ ∀ a : Fin 2, win8_4.index t a * S200x3000.size a ≤ (i a).val
      ∧ (i a).val < win8_4.index t a * S200x3000.size a + S200x3000.size a := by
  show i ∈ ((View.whole main_v14_1).slice (win8_4.rect t)).set ↔ _
  rw [View.set_slice_whole, Rect.mem_set_unit]
  exact Iff.rfl

/-- The first output array after the region: the row blocks tile it, so it is the whole squashed double product. -/
theorem final8_3 (c : Dev nD) : (dat8 (F := Ideal) V c).arrAt 3 cfg8.N
    = Spec.tanhM (Spec.mm (a := 3000) (k := 256) (b := 128)
        (Spec.mm (a := 3000) (k := 3000) (b := 256) (V c main_arg4)
          (Spec.colblk (n := 3000) (b := 256) (B := 512) 256 (by omega) (V c main_v6))) (V c main_arg13)) :=
  (dat8 V c).arrAt_eq_of_cover 3 _ (fun t _ => flushed8_3_eq V c t) fun i => by
    have h0 : (i 0).val < 3000 := (i 0).isLt
    have h1 : (i 1).val < 128 := (i 1).isLt
    have hN : cfg8.N = 15 := N_8
    obtain ⟨-, -, -, -, -, -, eA, eB, -, -⟩ := idx_facts8 ⟨(i 0).val / 200, by rw [hN]; omega⟩
    refine ⟨⟨(i 0).val / 200, by rw [hN]; omega⟩, flush8_3 _, ?_⟩
    rw [mem_blk8_3]
    intro a
    match a with
    | ⟨0, _⟩ =>
      show win8_3.index ⟨(i 0).val / 200, _⟩ (0 : Fin 2) * 200 ≤ (i 0).val
        ∧ (i 0).val < win8_3.index ⟨(i 0).val / 200, _⟩ (0 : Fin 2) * 200 + 200
      rw [eA]; show (i 0).val / 200 * 200 ≤ (i 0).val ∧ (i 0).val < (i 0).val / 200 * 200 + 200; omega
    | ⟨1, _⟩ =>
      show win8_3.index ⟨(i 0).val / 200, _⟩ (1 : Fin 2) * 128 ≤ (i 1).val
        ∧ (i 1).val < win8_3.index ⟨(i 0).val / 200, _⟩ (1 : Fin 2) * 128 + 128
      rw [eB]; omega

/-- The second output array after the region: the row blocks tile it, so it is the adjacency (the change of format is
    the identity on extended reals). -/
theorem final8_4 (c : Dev nD) : (dat8 (F := Ideal) V c).arrAt 4 cfg8.N = V c main_arg4 :=
  (dat8 V c).arrAt_eq_of_cover 4 _ (fun t _ => flushed8_4_eq V c t) fun i => by
    have h0 : (i 0).val < 3000 := (i 0).isLt
    have h1 : (i 1).val < 3000 := (i 1).isLt
    have hN : cfg8.N = 15 := N_8
    obtain ⟨-, -, -, -, -, -, -, -, eA, eB⟩ := idx_facts8 ⟨(i 0).val / 200, by rw [hN]; omega⟩
    refine ⟨⟨(i 0).val / 200, by rw [hN]; omega⟩, flush8_4 _, ?_⟩
    rw [mem_blk8_4]
    intro a
    match a with
    | ⟨0, _⟩ =>
      show win8_4.index ⟨(i 0).val / 200, _⟩ (0 : Fin 2) * 200 ≤ (i 0).val
        ∧ (i 0).val < win8_4.index ⟨(i 0).val / 200, _⟩ (0 : Fin 2) * 200 + 200
      rw [eA]; show (i 0).val / 200 * 200 ≤ (i 0).val ∧ (i 0).val < (i 0).val / 200 * 200 + 200; omega
    | ⟨1, _⟩ =>
      show win8_4.index ⟨(i 0).val / 200, _⟩ (1 : Fin 2) * 3000 ≤ (i 1).val
        ∧ (i 1).val < win8_4.index ⟨(i 0).val / 200, _⟩ (1 : Fin 2) * 3000 + 3000
      rw [eB]; omega

end Cert.KernelIdeal.Hand

end
-- ==== Proof.KI.Val9.lean ====
/-
  Region 9 in closed form. At every grid point the body multiplies a block of 200 rows of the left factor (the
  adjacency in its narrower format) with the whole middle factor and the result with the whole weight matrix; point
  `t` writes that back as rows `200 t … 200 t + 199` of the output array. The fifteen row blocks tile the array, so it
  ends holding the whole double product of the three arrays as the region found them.
-/
import proofs.«161112_j49297634623838_2_alg».proof.Proof.KI.Reg9
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's payload: the row block of the left factor times the middle factor, then times the weights. -/
theorem pay9_eq (x0 : Vec Ideal S200x3000 .bf16) (x1 : Vec Ideal S3000x128 .f32) (x2 : Vec Ideal S128x128 .f32) :
    k9_pay1 (F := Ideal) x0 x1 x2 = Spec.mm (Spec.mm x0 x1) x2 := by
  have h1 : matmul (F := Ideal) (φ₁ := .bf16) (φ₂ := .bf16) dot_S200x3000_S3000x128_S200x128_1_0_0_1_n_n none x0 x1
      (constant (F := Ideal) S200x128 .f32 0x00000000#32) = Spec.mm x0 x1 := Spec.matmul_plain_eq_mm _ x0 x1
  unfold k9_pay1
  simp only [shapeCast_self, Spec.truncf_id, h1]
  exact Spec.matmul_plain_eq_mm _ (Spec.mm x0 x1) x2

/-- The index maps over the grid: the left factor's row block moves with the output's, the other two factors are whole. -/
theorem idx_facts9 : ∀ t : Fin cfg9.N, win9_0.index t (0 : Fin 2) = win9_3.index t (0 : Fin 2)
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = t.val
    ∧ win9_3.index t (1 : Fin 2) = 0 :=
  (by decide +kernel : ∀ t : Fin grid9.N, _)

/-- What point `t` writes back is block `t` of the whole double product: row `r` of the block is row `200 t + r` of
    the left factor against the whole middle factor and the whole weights. -/
theorem flushed9_3_eq (c : Dev nD) (t : Fin cfg9.N) :
    (dat9 (F := Ideal) V c).flushed 3 t
      = ((cfg9.win 3).blk t).view.read (Elt Ideal)
          (Spec.mm (a := 3000) (k := 128) (b := 128)
            (Spec.mm (a := 3000) (k := 3000) (b := 128) (V c main_v14_1) (V c main_v14_0)) (V c main_v2)) := by
  show (cfg9.win 3).cut (grid9.coords t) ((dat9 V c).after 3 t) = _
  rw [after9_3]
  unfold out9_3
  rw [View.canon_unit_zero Spec.zero_offsets2]
  simp only [View.ld_unit_zero (S := S200x3000) Spec.zero_offsets2, View.ld_unit_zero (S := S3000x128) Spec.zero_offsets2,
    View.ld_unit_zero (S := S128x128) Spec.zero_offsets2]
  rw [pay9_eq]
  obtain ⟨e0, e1, e2, e3, e4, e5, e6, e7⟩ := idx_facts9 t
  funext j
  show Spec.mm (a := 200) (k := 128) (b := 128)
        (Spec.mm (a := 200) (k := 3000) (b := 128) (iblk9 V c 0 t) (iblk9 V c 1 t)) (iblk9 V c 2 t) j
      = Spec.mm (a := 3000) (k := 128) (b := 128)
        (Spec.mm (a := 3000) (k := 3000) (b := 128) (V c main_v14_1) (V c main_v14_0)) (V c main_v2)
          (((cfg9.win 3).blk t).view.emb j)
  refine Spec.mm_congr _ _ _ _ _ _ (fun l => ?_) (fun l => ?_)
  · refine Spec.mm_congr _ _ _ _ _ _ (fun k => ?_) (fun k => ?_)
    · show V c main_v14_1 (((cfg9.win 0).blk t).view.emb (ix2 (j 0) k)) = _
      refine congrArg _ (funext fun a => Fin.ext ?_)
      match a with
      | ⟨0, _⟩ =>
        show win9_0.index t (0 : Fin 2) * 200 + 1 * (j 0).val = win9_3.index t (0 : Fin 2) * 200 + 1 * (j 0).val
        omega
      | ⟨1, _⟩ =>
        show win9_0.index t (1 : Fin 2) * 3000 + 1 * (k).val = (k).val
        omega
    · show V c main_v14_0 (((cfg9.win 1).blk t).view.emb (ix2 k l)) = _
      refine congrArg _ (funext fun a => Fin.ext ?_)
      match a with
      | ⟨0, _⟩ =>
        show win9_1.index t (0 : Fin 2) * 3000 + 1 * k.val = k.val
        omega
      | ⟨1, _⟩ =>
        show win9_1.index t (1 : Fin 2) * 128 + 1 * l.val = l.val
        omega
  · show V c main_v2 (((cfg9.win 2).blk t).view.emb (ix2 l (j 1))) = _
    refine congrArg _ (funext fun a => Fin.ext ?_)
    match a with
    | ⟨0, _⟩ =>
      show win9_2.index t (0 : Fin 2) * 128 + 1 * l.val = l.val
      omega
    | ⟨1, _⟩ =>
      show win9_2.index t (1 : Fin 2) * 128 + 1 * (j 1).val = win9_3.index t (1 : Fin 2) * 128 + 1 * (j 1).val
      omega

/-- An index of the output array is in point `t`'s block iff each coordinate is in the block's range on its axis. -/
theorem mem_blk9_3 (t : Fin cfg9.N) (i : S3000x128.Idx) :
    i ∈ ((cfg9.win 3).blk t).view.set ↔ ∀ a : Fin 2, win9_3.index t a * S200x128.size a ≤ (i a).val
      ∧ (i a).val < win9_3.index t a * S200x128.size a + S200x128.size a := by
  show i ∈ ((View.whole main_v15).slice (win9_3.rect t)).set ↔ _
  rw [View.set_slice_whole, Rect.mem_set_unit]
  exact Iff.rfl

/-- The output array after the region: the row blocks tile it (row `r` lies in block `r / 200`), so it is the whole
    double product. -/
theorem final9_3 (c : Dev nD) : (dat9 (F := Ideal) V c).arrAt 3 cfg9.N
    = Spec.mm (a := 3000) (k := 128) (b := 128)
        (Spec.mm (a := 3000) (k := 3000) (b := 128) (V c main_v14_1) (V c main_v14_0)) (V c main_v2) :=
  (dat9 V c).arrAt_eq_of_cover 3 _ (fun t _ => flushed9_3_eq V c t) fun i => by
    have h0 : (i 0).val < 3000 := (i 0).isLt
    have h1 : (i 1).val < 128 := (i 1).isLt
    have hN : cfg9.N = 15 := N_9
    obtain ⟨-, -, -, -, -, -, e6, e7⟩ := idx_facts9 ⟨(i 0).val / 200, by rw [hN]; omega⟩
    refine ⟨⟨(i 0).val / 200, by rw [hN]; omega⟩, flush9_3 _, ?_⟩
    rw [mem_blk9_3]
    intro a
    match a with
    | ⟨0, _⟩ =>
      show win9_3.index ⟨(i 0).val / 200, _⟩ (0 : Fin 2) * 200 ≤ (i 0).val
        ∧ (i 0).val < win9_3.index ⟨(i 0).val / 200, _⟩ (0 : Fin 2) * 200 + 200
      rw [e6]; show (i 0).val / 200 * 200 ≤ (i 0).val ∧ (i 0).val < (i 0).val / 200 * 200 + 200; omega
    | ⟨1, _⟩ =>
      show win9_3.index ⟨(i 0).val / 200, _⟩ (1 : Fin 2) * 128 ≤ (i 1).val
        ∧ (i 1).val < win9_3.index ⟨(i 0).val / 200, _⟩ (1 : Fin 2) * 128 + 128
      rw [e7]; omega

end Cert.KernelIdeal.Hand

end
-- ==== Proof.KI.Val10.lean ====
/-
  Region 10 in closed form. At every grid point the body multiplies a block of 200 rows of the left factor (the
  adjacency, already in its narrower format) with the whole right factor; point `t` writes the result back as rows
  `200 t … 200 t + 199` of the output array. Row `r` of the output lies in block `r / 200`, so the fifteen blocks
  tile the array and it ends holding the whole product `mm` of the two arrays as the region found them.
-/
import proofs.«161112_j49297634623838_2_alg».proof.Proof.KI.Reg10
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's payload is the row block of the left factor times the whole right factor. -/
theorem pay10_eq (x0 : Vec Ideal S200x3000 .bf16) (x1 : Vec Ideal S3000x128 .f32) :
    k10_pay1 (F := Ideal) x0 x1 = Spec.mm x0 x1 := by
  unfold k10_pay1
  simp only [shapeCast_self, Spec.truncf_id]
  exact Spec.matmul_plain_eq_mm _ x0 x1

/-- The index maps over the grid: the left factor's row block moves with the output's, the right factor is whole. -/
theorem idx_facts10 : ∀ t : Fin cfg10.N, win10_0.index t (0 : Fin 2) = win10_2.index t (0 : Fin 2)
    ∧ win10_0.index t (1 : Fin 2) = 0
    ∧ win10_1.index t (0 : Fin 2) = 0
    ∧ win10_1.index t (1 : Fin 2) = 0
    ∧ win10_2.index t (0 : Fin 2) = t.val
    ∧ win10_2.index t (1 : Fin 2) = 0 :=
  (by decide +kernel : ∀ t : Fin grid10.N, _)

/-- What point `t` writes back is block `t` of the whole product: row `r` of the block is row `200 t + r` of the
    left factor against every column of the right factor. -/
theorem flushed10_2_eq (c : Dev nD) (t : Fin cfg10.N) :
    (dat10 (F := Ideal) V c).flushed 2 t
      = ((cfg10.win 2).blk t).view.read (Elt Ideal)
          (Spec.mm (a := 3000) (k := 3000) (b := 128) (V c main_v14_1) (V c main_v15)) := by
  show (cfg10.win 2).cut (grid10.coords t) ((dat10 V c).after 2 t) = _
  rw [after10_2]
  unfold out10_2
  rw [View.canon_unit_zero Spec.zero_offsets2]
  simp only [View.ld_unit_zero (S := S200x3000) Spec.zero_offsets2, View.ld_unit_zero (S := S3000x128) Spec.zero_offsets2]
  rw [pay10_eq]
  obtain ⟨e0, e1, e2, e3, e4, e5⟩ := idx_facts10 t
  funext j
  show Spec.mm (a := 200) (k := 3000) (b := 128) (iblk10 V c 0 t) (iblk10 V c 1 t) j
      = Spec.mm (a := 3000) (k := 3000) (b := 128) (V c main_v14_1) (V c main_v15) (((cfg10.win 2).blk t).view.emb j)
  refine Spec.mm_congr _ _ _ _ _ _ (fun k => ?_) (fun k => ?_)
  · show V c main_v14_1 (((cfg10.win 0).blk t).view.emb (ix2 (j 0) k)) = _
    refine congrArg _ (funext fun a => Fin.ext ?_)
    match a with
    | ⟨0, _⟩ =>
      show win10_0.index t (0 : Fin 2) * 200 + 1 * (j 0).val = win10_2.index t (0 : Fin 2) * 200 + 1 * (j 0).val
      omega
    | ⟨1, _⟩ =>
      show win10_0.index t (1 : Fin 2) * 3000 + 1 * k.val = k.val
      omega
  · show V c main_v15 (((cfg10.win 1).blk t).view.emb (ix2 k (j 1))) = _
    refine congrArg _ (funext fun a => Fin.ext ?_)
    match a with
    | ⟨0, _⟩ =>
      show win10_1.index t (0 : Fin 2) * 3000 + 1 * k.val = k.val
      omega
    | ⟨1, _⟩ =>
      show win10_1.index t (1 : Fin 2) * 128 + 1 * (j 1).val = win10_2.index t (1 : Fin 2) * 128 + 1 * (j 1).val
      omega
/-- An index of the output array is in point `t`'s block iff each coordinate is in the block's range on its axis. -/
theorem mem_blk10_2 (t : Fin cfg10.N) (i : S3000x128.Idx) :
    i ∈ ((cfg10.win 2).blk t).view.set ↔ ∀ a : Fin 2, win10_2.index t a * S200x128.size a ≤ (i a).val
      ∧ (i a).val < win10_2.index t a * S200x128.size a + S200x128.size a := by
  show i ∈ ((View.whole main_v16).slice (win10_2.rect t)).set ↔ _
  rw [View.set_slice_whole, Rect.mem_set_unit]
  exact Iff.rfl

/-- The output array after the region: the row blocks tile it (row `r` lies in block `r / 200`), so it is the whole
    product. -/
theorem final10_2 (c : Dev nD) : (dat10 (F := Ideal) V c).arrAt 2 cfg10.N
    = Spec.mm (a := 3000) (k := 3000) (b := 128) (V c main_v14_1) (V c main_v15) :=
  (dat10 V c).arrAt_eq_of_cover 2 _ (fun t _ => flushed10_2_eq V c t) fun i => by
    have h0 : (i 0).val < 3000 := (i 0).isLt
    have h1 : (i 1).val < 128 := (i 1).isLt
    have hN : cfg10.N = 15 := N_10
    obtain ⟨-, -, -, -, e4, e5⟩ := idx_facts10 ⟨(i 0).val / 200, by rw [hN]; omega⟩
    refine ⟨⟨(i 0).val / 200, by rw [hN]; omega⟩, flush10_2 _, ?_⟩
    rw [mem_blk10_2]
    intro a
    match a with
    | ⟨0, _⟩ =>
      show win10_2.index ⟨(i 0).val / 200, _⟩ (0 : Fin 2) * 200 ≤ (i 0).val
        ∧ (i 0).val < win10_2.index ⟨(i 0).val / 200, _⟩ (0 : Fin 2) * 200 + 200
      rw [e4]; show (i 0).val / 200 * 200 ≤ (i 0).val ∧ (i 0).val < (i 0).val / 200 * 200 + 200; omega
    | ⟨1, _⟩ =>
      show win10_2.index ⟨(i 0).val / 200, _⟩ (1 : Fin 2) * 128 ≤ (i 1).val
        ∧ (i 1).val < win10_2.index ⟨(i 0).val / 200, _⟩ (1 : Fin 2) * 128 + 128
      rw [e5]; omega

end Cert.KernelIdeal.Hand

end
-- ==== Proof.KI.Val11.lean ====
/-
  Region 11 in closed form. At every grid point the body takes a block of 200 rows of the adjacency, multiplies it with
  a block of 256 columns of the first layer's (widened) output and the result with the whole second-layer weights,
  squashes entry by entry, and writes that back as rows `200 t … 200 t + 199` of the first output array; it also
  writes the adjacency block back, in a narrower format, as the same rows of the second output array. The fifteen row
  blocks tile both arrays: the first ends holding the whole squashed double product, the second the adjacency itself,
  a change of format being the identity on extended reals.
-/
import proofs.«161112_j49297634623838_2_alg».proof.Proof.KI.Reg11
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The narrower-format copy of the adjacency block is the block. -/
theorem pay11_1_eq (x0 : Vec Ideal S200x3000 .f32) : k11_pay1 (F := Ideal) x0 = x0 := rfl

/-- The output block's payload: the row block times the column block of the first layer, times the weights, squashed. -/
theorem pay11_2_eq (x0 : Vec Ideal S200x3000 .f32) (x1 : Vec Ideal S3000x256 .f32) (x2 : Vec Ideal S256x128 .f32) :
    k11_pay2 (F := Ideal) x0 x1 x2 = Spec.tanhM (Spec.mm (Spec.mm x0 x1) x2) := by
  have h1 : matmul (F := Ideal) (φ₁ := .bf16) (φ₂ := .bf16) dot_S200x3000_S3000x256_S200x256_1_0_0_1_n_n none x0 x1
      (constant (F := Ideal) S200x256 .f32 0x00000000#32) = Spec.mm x0 x1 := Spec.matmul_plain_eq_mm _ x0 x1
  have h2 : matmul (F := Ideal) (φ₁ := .bf16) (φ₂ := .bf16) dot_S200x256_S256x128_S200x128_1_0_0_1_n_n none (Spec.mm x0 x1) x2
      (constant (F := Ideal) S200x128 .f32 0x00000000#32) = Spec.mm (Spec.mm x0 x1) x2 :=
    Spec.matmul_plain_eq_mm _ (Spec.mm x0 x1) x2
  unfold k11_pay2
  simp only [shapeCast_self, Spec.truncf_id, pay11_1_eq, h1, h2]
  rfl

/-- The index maps over the grid: the adjacency's row block moves with both outputs'; the first layer's output is
    read through one fixed block of 256 columns; the weights are whole. -/
theorem idx_facts11 : ∀ t : Fin cfg11.N, win11_0.index t (0 : Fin 2) = win11_3.index t (0 : Fin 2)
    ∧ win11_0.index t (1 : Fin 2) = 0
    ∧ win11_1.index t (0 : Fin 2) = 0
    ∧ win11_1.index t (1 : Fin 2) = 1
    ∧ win11_2.index t (0 : Fin 2) = 0
    ∧ win11_2.index t (1 : Fin 2) = 0
    ∧ win11_3.index t (0 : Fin 2) = t.val
    ∧ win11_3.index t (1 : Fin 2) = 0
    ∧ win11_4.index t (0 : Fin 2) = t.val
    ∧ win11_4.index t (1 : Fin 2) = 0 :=
  (by decide +kernel : ∀ t : Fin grid11.N, _)

/-- What point `t` writes back to the first output is block `t` of the whole squashed double product, the middle
    factor being the block of 256 columns of the first layer's output that the region reads. -/
theorem flushed11_3_eq (c : Dev nD) (t : Fin cfg11.N) :
    (dat11 (F := Ideal) V c).flushed 3 t
      = ((cfg11.win 3).blk t).view.read (Elt Ideal)
          (Spec.tanhM (Spec.mm (a := 3000) (k := 256) (b := 128)
            (Spec.mm (a := 3000) (k := 3000) (b := 256) (V c main_arg5)
              (Spec.colblk (n := 3000) (b := 256) (B := 512) 256 (by omega) (V c main_v7))) (V c main_arg16))) := by
  show (cfg11.win 3).cut (grid11.coords t) ((dat11 V c).after 3 t) = _
  rw [after11_3]
  unfold out11_3
  rw [View.canon_unit_zero Spec.zero_offsets2]
  simp only [View.ld_unit_zero (S := S200x3000) Spec.zero_offsets2, View.ld_unit_zero (S := S3000x256) Spec.zero_offsets2,
    View.ld_unit_zero (S := S256x128) Spec.zero_offsets2]
  rw [pay11_2_eq]
  obtain ⟨e0, e1, e2, e3, e4, e5, e6, e7, e8, e9⟩ := idx_facts11 t
  funext j
  show Ideal.tanh (Spec.mm (a := 200) (k := 256) (b := 128)
        (Spec.mm (a := 200) (k := 3000) (b := 256) (iblk11 V c 0 t) (iblk11 V c 1 t)) (iblk11 V c 2 t) j)
      = Ideal.tanh (Spec.mm (a := 3000) (k := 256) (b := 128)
        (Spec.mm (a := 3000) (k := 3000) (b := 256) (V c main_arg5)
          (Spec.colblk (n := 3000) (b := 256) (B := 512) 256 (by omega) (V c main_v7))) (V c main_arg16)
          (((cfg11.win 3).blk t).view.emb j))
  refine congrArg Ideal.tanh (Spec.mm_congr _ _ _ _ _ _ (fun l => ?_) (fun l => ?_))
  · refine Spec.mm_congr _ _ _ _ _ _ (fun k => ?_) (fun k => ?_)
    · show V c main_arg5 (((cfg11.win 0).blk t).view.emb (ix2 (j 0) k)) = _
      refine congrArg _ (funext fun a => Fin.ext ?_)
      match a with
      | ⟨0, _⟩ =>
        show win11_0.index t (0 : Fin 2) * 200 + 1 * (j 0).val = win11_3.index t (0 : Fin 2) * 200 + 1 * (j 0).val
        omega
      | ⟨1, _⟩ =>
        show win11_0.index t (1 : Fin 2) * 3000 + 1 * (k).val = (k).val
        omega
    · show V c main_v7 (((cfg11.win 1).blk t).view.emb (ix2 k l)) = _
      refine congrArg (V c main_v7) (funext fun a => Fin.ext ?_)
      match a with
      | ⟨0, _⟩ =>
        show win11_1.index t (0 : Fin 2) * 3000 + 1 * k.val = k.val
        omega
      | ⟨1, _⟩ =>
        show win11_1.index t (1 : Fin 2) * 256 + 1 * l.val = 256 + l.val
        omega
  · show V c main_arg16 (((cfg11.win 2).blk t).view.emb (ix2 l (j 1))) = _
    refine congrArg _ (funext fun a => Fin.ext ?_)
    match a with
    | ⟨0, _⟩ =>
      show win11_2.index t (0 : Fin 2) * 256 + 1 * l.val = l.val
      omega
    | ⟨1, _⟩ =>
      show win11_2.index t (1 : Fin 2) * 128 + 1 * (j 1).val = win11_3.index t (1 : Fin 2) * 128 + 1 * (j 1).val
      omega

/-- What point `t` writes back to the second output is block `t` of the adjacency itself. -/
theorem flushed11_4_eq (c : Dev nD) (t : Fin cfg11.N) :
    (dat11 (F := Ideal) V c).flushed 4 t = ((cfg11.win 4).blk t).view.read (Elt Ideal) (V c main_arg5) := by
  show (cfg11.win 4).cut (grid11.coords t) ((dat11 V c).after 4 t) = _
  rw [after11_4]
  unfold out11_4
  rw [View.canon_unit_zero Spec.zero_offsets2]
  simp only [View.ld_unit_zero (S := S200x3000) Spec.zero_offsets2]
  obtain ⟨e0, e1, e2, e3, e4, e5, e6, e7, e8, e9⟩ := idx_facts11 t
  funext j
  show V c main_arg5 (((cfg11.win 0).blk t).view.emb j) = V c main_arg5 (((cfg11.win 4).blk t).view.emb j)
  refine congrArg _ (funext fun a => Fin.ext ?_)
  match a with
  | ⟨0, _⟩ =>
    show win11_0.index t (0 : Fin 2) * 200 + 1 * (j 0).val = win11_4.index t (0 : Fin 2) * 200 + 1 * (j 0).val
    omega
  | ⟨1, _⟩ =>
    show win11_0.index t (1 : Fin 2) * 3000 + 1 * (j 1).val = win11_4.index t (1 : Fin 2) * 3000 + 1 * (j 1).val
    omega

/-- An index of the first output array is in point `t`'s block iff each coordinate is in the block's range. -/
theorem mem_blk11_3 (t : Fin cfg11.N) (i : S3000x128.Idx) :
    i ∈ ((cfg11.win 3).blk t).view.set ↔ ∀ a : Fin 2, win11_3.index t a * S200x128.size a ≤ (i a).val
      ∧ (i a).val < win11_3.index t a * S200x128.size a + S200x128.size a := by
  show i ∈ ((View.whole main_v17_0).slice (win11_3.rect t)).set ↔ _
  rw [View.set_slice_whole, Rect.mem_set_unit]
  exact Iff.rfl

/-- The same for the second output array. -/
theorem mem_blk11_4 (t : Fin cfg11.N) (i : S3000x3000.Idx) :
    i ∈ ((cfg11.win 4).blk t).view.set ↔ ∀ a : Fin 2, win11_4.index t a * S200x3000.size a ≤ (i a).val
      ∧ (i a).val < win11_4.index t a * S200x3000.size a + S200x3000.size a := by
  show i ∈ ((View.whole main_v17_1).slice (win11_4.rect t)).set ↔ _
  rw [View.set_slice_whole, Rect.mem_set_unit]
  exact Iff.rfl

/-- The first output array after the region: the row blocks tile it, so it is the whole squashed double product. -/
theorem final11_3 (c : Dev nD) : (dat11 (F := Ideal) V c).arrAt 3 cfg11.N
    = Spec.tanhM (Spec.mm (a := 3000) (k := 256) (b := 128)
        (Spec.mm (a := 3000) (k := 3000) (b := 256) (V c main_arg5)
          (Spec.colblk (n := 3000) (b := 256) (B := 512) 256 (by omega) (V c main_v7))) (V c main_arg16)) :=
  (dat11 V c).arrAt_eq_of_cover 3 _ (fun t _ => flushed11_3_eq V c t) fun i => by
    have h0 : (i 0).val < 3000 := (i 0).isLt
    have h1 : (i 1).val < 128 := (i 1).isLt
    have hN : cfg11.N = 15 := N_11
    obtain ⟨-, -, -, -, -, -, eA, eB, -, -⟩ := idx_facts11 ⟨(i 0).val / 200, by rw [hN]; omega⟩
    refine ⟨⟨(i 0).val / 200, by rw [hN]; omega⟩, flush11_3 _, ?_⟩
    rw [mem_blk11_3]
    intro a
    match a with
    | ⟨0, _⟩ =>
      show win11_3.index ⟨(i 0).val / 200, _⟩ (0 : Fin 2) * 200 ≤ (i 0).val
        ∧ (i 0).val < win11_3.index ⟨(i 0).val / 200, _⟩ (0 : Fin 2) * 200 + 200
      rw [eA]; show (i 0).val / 200 * 200 ≤ (i 0).val ∧ (i 0).val < (i 0).val / 200 * 200 + 200; omega
    | ⟨1, _⟩ =>
      show win11_3.index ⟨(i 0).val / 200, _⟩ (1 : Fin 2) * 128 ≤ (i 1).val
        ∧ (i 1).val < win11_3.index ⟨(i 0).val / 200, _⟩ (1 : Fin 2) * 128 + 128
      rw [eB]; omega

/-- The second output array after the region: the row blocks tile it, so it is the adjacency (the change of format is
    the identity on extended reals). -/
theorem final11_4 (c : Dev nD) : (dat11 (F := Ideal) V c).arrAt 4 cfg11.N = V c main_arg5 :=
  (dat11 V c).arrAt_eq_of_cover 4 _ (fun t _ => flushed11_4_eq V c t) fun i => by
    have h0 : (i 0).val < 3000 := (i 0).isLt
    have h1 : (i 1).val < 3000 := (i 1).isLt
    have hN : cfg11.N = 15 := N_11
    obtain ⟨-, -, -, -, -, -, -, -, eA, eB⟩ := idx_facts11 ⟨(i 0).val / 200, by rw [hN]; omega⟩
    refine ⟨⟨(i 0).val / 200, by rw [hN]; omega⟩, flush11_4 _, ?_⟩
    rw [mem_blk11_4]
    intro a
    match a with
    | ⟨0, _⟩ =>
      show win11_4.index ⟨(i 0).val / 200, _⟩ (0 : Fin 2) * 200 ≤ (i 0).val
        ∧ (i 0).val < win11_4.index ⟨(i 0).val / 200, _⟩ (0 : Fin 2) * 200 + 200
      rw [eA]; show (i 0).val / 200 * 200 ≤ (i 0).val ∧ (i 0).val < (i 0).val / 200 * 200 + 200; omega
    | ⟨1, _⟩ =>
      show win11_4.index ⟨(i 0).val / 200, _⟩ (1 : Fin 2) * 3000 ≤ (i 1).val
        ∧ (i 1).val < win11_4.index ⟨(i 0).val / 200, _⟩ (1 : Fin 2) * 3000 + 3000
      rw [eB]; omega

end Cert.KernelIdeal.Hand

end
-- ==== Proof.KI.Val12.lean ====
/-
  Region 12 in closed form. At every grid point the body multiplies a block of 200 rows of the left factor (the
  adjacency in its narrower format) with the whole middle factor and the result with the whole weight matrix; point
  `t` writes that back as rows `200 t … 200 t + 199` of the output array. The fifteen row blocks tile the array, so it
  ends holding the whole double product of the three arrays as the region found them.
-/
import proofs.«161112_j49297634623838_2_alg».proof.Proof.KI.Reg12
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's payload: the row block of the left factor times the middle factor, then times the weights. -/
theorem pay12_eq (x0 : Vec Ideal S200x3000 .bf16) (x1 : Vec Ideal S3000x128 .f32) (x2 : Vec Ideal S128x128 .f32) :
    k12_pay1 (F := Ideal) x0 x1 x2 = Spec.mm (Spec.mm x0 x1) x2 := by
  have h1 : matmul (F := Ideal) (φ₁ := .bf16) (φ₂ := .bf16) dot_S200x3000_S3000x128_S200x128_1_0_0_1_n_n none x0 x1
      (constant (F := Ideal) S200x128 .f32 0x00000000#32) = Spec.mm x0 x1 := Spec.matmul_plain_eq_mm _ x0 x1
  unfold k12_pay1
  simp only [shapeCast_self, Spec.truncf_id, h1]
  exact Spec.matmul_plain_eq_mm _ (Spec.mm x0 x1) x2

/-- The index maps over the grid: the left factor's row block moves with the output's, the other two factors are whole. -/
theorem idx_facts12 : ∀ t : Fin cfg12.N, win12_0.index t (0 : Fin 2) = win12_3.index t (0 : Fin 2)
    ∧ win12_0.index t (1 : Fin 2) = 0
    ∧ win12_1.index t (0 : Fin 2) = 0
    ∧ win12_1.index t (1 : Fin 2) = 0
    ∧ win12_2.index t (0 : Fin 2) = 0
    ∧ win12_2.index t (1 : Fin 2) = 0
    ∧ win12_3.index t (0 : Fin 2) = t.val
    ∧ win12_3.index t (1 : Fin 2) = 0 :=
  (by decide +kernel : ∀ t : Fin grid12.N, _)

/-- What point `t` writes back is block `t` of the whole double product: row `r` of the block is row `200 t + r` of
    the left factor against the whole middle factor and the whole weights. -/
theorem flushed12_3_eq (c : Dev nD) (t : Fin cfg12.N) :
    (dat12 (F := Ideal) V c).flushed 3 t
      = ((cfg12.win 3).blk t).view.read (Elt Ideal)
          (Spec.mm (a := 3000) (k := 128) (b := 128)
            (Spec.mm (a := 3000) (k := 3000) (b := 128) (V c main_v17_1) (V c main_v17_0)) (V c main_v3)) := by
  show (cfg12.win 3).cut (grid12.coords t) ((dat12 V c).after 3 t) = _
  rw [after12_3]
  unfold out12_3
  rw [View.canon_unit_zero Spec.zero_offsets2]
  simp only [View.ld_unit_zero (S := S200x3000) Spec.zero_offsets2, View.ld_unit_zero (S := S3000x128) Spec.zero_offsets2,
    View.ld_unit_zero (S := S128x128) Spec.zero_offsets2]
  rw [pay12_eq]
  obtain ⟨e0, e1, e2, e3, e4, e5, e6, e7⟩ := idx_facts12 t
  funext j
  show Spec.mm (a := 200) (k := 128) (b := 128)
        (Spec.mm (a := 200) (k := 3000) (b := 128) (iblk12 V c 0 t) (iblk12 V c 1 t)) (iblk12 V c 2 t) j
      = Spec.mm (a := 3000) (k := 128) (b := 128)
        (Spec.mm (a := 3000) (k := 3000) (b := 128) (V c main_v17_1) (V c main_v17_0)) (V c main_v3)
          (((cfg12.win 3).blk t).view.emb j)
  refine Spec.mm_congr _ _ _ _ _ _ (fun l => ?_) (fun l => ?_)
  · refine Spec.mm_congr _ _ _ _ _ _ (fun k => ?_) (fun k => ?_)
    · show V c main_v17_1 (((cfg12.win 0).blk t).view.emb (ix2 (j 0) k)) = _
      refine congrArg _ (funext fun a => Fin.ext ?_)
      match a with
      | ⟨0, _⟩ =>
        show win12_0.index t (0 : Fin 2) * 200 + 1 * (j 0).val = win12_3.index t (0 : Fin 2) * 200 + 1 * (j 0).val
        omega
      | ⟨1, _⟩ =>
        show win12_0.index t (1 : Fin 2) * 3000 + 1 * (k).val = (k).val
        omega
    · show V c main_v17_0 (((cfg12.win 1).blk t).view.emb (ix2 k l)) = _
      refine congrArg _ (funext fun a => Fin.ext ?_)
      match a with
      | ⟨0, _⟩ =>
        show win12_1.index t (0 : Fin 2) * 3000 + 1 * k.val = k.val
        omega
      | ⟨1, _⟩ =>
        show win12_1.index t (1 : Fin 2) * 128 + 1 * l.val = l.val
        omega
  · show V c main_v3 (((cfg12.win 2).blk t).view.emb (ix2 l (j 1))) = _
    refine congrArg _ (funext fun a => Fin.ext ?_)
    match a with
    | ⟨0, _⟩ =>
      show win12_2.index t (0 : Fin 2) * 128 + 1 * l.val = l.val
      omega
    | ⟨1, _⟩ =>
      show win12_2.index t (1 : Fin 2) * 128 + 1 * (j 1).val = win12_3.index t (1 : Fin 2) * 128 + 1 * (j 1).val
      omega

/-- An index of the output array is in point `t`'s block iff each coordinate is in the block's range on its axis. -/
theorem mem_blk12_3 (t : Fin cfg12.N) (i : S3000x128.Idx) :
    i ∈ ((cfg12.win 3).blk t).view.set ↔ ∀ a : Fin 2, win12_3.index t a * S200x128.size a ≤ (i a).val
      ∧ (i a).val < win12_3.index t a * S200x128.size a + S200x128.size a := by
  show i ∈ ((View.whole main_v18).slice (win12_3.rect t)).set ↔ _
  rw [View.set_slice_whole, Rect.mem_set_unit]
  exact Iff.rfl

/-- The output array after the region: the row blocks tile it (row `r` lies in block `r / 200`), so it is the whole
    double product. -/
theorem final12_3 (c : Dev nD) : (dat12 (F := Ideal) V c).arrAt 3 cfg12.N
    = Spec.mm (a := 3000) (k := 128) (b := 128)
        (Spec.mm (a := 3000) (k := 3000) (b := 128) (V c main_v17_1) (V c main_v17_0)) (V c main_v3) :=
  (dat12 V c).arrAt_eq_of_cover 3 _ (fun t _ => flushed12_3_eq V c t) fun i => by
    have h0 : (i 0).val < 3000 := (i 0).isLt
    have h1 : (i 1).val < 128 := (i 1).isLt
    have hN : cfg12.N = 15 := N_12
    obtain ⟨-, -, -, -, -, -, e6, e7⟩ := idx_facts12 ⟨(i 0).val / 200, by rw [hN]; omega⟩
    refine ⟨⟨(i 0).val / 200, by rw [hN]; omega⟩, flush12_3 _, ?_⟩
    rw [mem_blk12_3]
    intro a
    match a with
    | ⟨0, _⟩ =>
      show win12_3.index ⟨(i 0).val / 200, _⟩ (0 : Fin 2) * 200 ≤ (i 0).val
        ∧ (i 0).val < win12_3.index ⟨(i 0).val / 200, _⟩ (0 : Fin 2) * 200 + 200
      rw [e6]; show (i 0).val / 200 * 200 ≤ (i 0).val ∧ (i 0).val < (i 0).val / 200 * 200 + 200; omega
    | ⟨1, _⟩ =>
      show win12_3.index ⟨(i 0).val / 200, _⟩ (1 : Fin 2) * 128 ≤ (i 1).val
        ∧ (i 1).val < win12_3.index ⟨(i 0).val / 200, _⟩ (1 : Fin 2) * 128 + 128
      rw [e7]; omega

end Cert.KernelIdeal.Hand

end
-- ==== Proof.KI.Val13.lean ====
/-
  Region 13 in closed form. At every grid point the body multiplies a block of 200 rows of the left factor (the
  adjacency, already in its narrower format) with the whole right factor; point `t` writes the result back as rows
  `200 t … 200 t + 199` of the output array. Row `r` of the output lies in block `r / 200`, so the fifteen blocks
  tile the array and it ends holding the whole product `mm` of the two arrays as the region found them.
-/
import proofs.«161112_j49297634623838_2_alg».proof.Proof.KI.Reg13
import proofs.«161112_j49297634623838_2_alg».proof.Proof.Spec
import proofs.«161112_j49297634623838_2_alg».proof.Proof.MatmulLaw
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's payload is the row block of the left factor times the whole right factor. -/
theorem pay13_eq (x0 : Vec Ideal S200x3000 .bf16) (x1 : Vec Ideal S3000x128 .f32) :
    k13_pay1 (F := Ideal) x0 x1 = Spec.mm x0 x1 := by
  unfold k13_pay1
  simp only [shapeCast_self, Spec.truncf_id]
  exact Spec.matmul_plain_eq_mm _ x0 x1

/-- The index maps over the grid: the left factor's row block moves with the output's, the right factor is whole. -/
theorem idx_facts13 : ∀ t : Fin cfg13.N, win13_0.index t (0 : Fin 2) = win13_2.index t (0 : Fin 2)
    ∧ win13_0.index t (1 : Fin 2) = 0
    ∧ win13_1.index t (0 : Fin 2) = 0
    ∧ win13_1.index t (1 : Fin 2) = 0
    ∧ win13_2.index t (0 : Fin 2) = t.val
    ∧ win13_2.index t (1 : Fin 2) = 0 :=
  (by decide +kernel : ∀ t : Fin grid13.N, _)

/-- What point `t` writes back is block `t` of the whole product: row `r` of the block is row `200 t + r` of the
    left factor against every column of the right factor. -/
theorem flushed13_2_eq (c : Dev nD) (t : Fin cfg13.N) :
    (dat13 (F := Ideal) V c).flushed 2 t
      = ((cfg13.win 2).blk t).view.read (Elt Ideal)
          (Spec.mm (a := 3000) (k := 3000) (b := 128) (V c main_v17_1) (V c main_v18)) := by
  show (cfg13.win 2).cut (grid13.coords t) ((dat13 V c).after 2 t) = _
  rw [after13_2]
  unfold out13_2
  rw [View.canon_unit_zero Spec.zero_offsets2]
  simp only [View.ld_unit_zero (S := S200x3000) Spec.zero_offsets2, View.ld_unit_zero (S := S3000x128) Spec.zero_offsets2]
  rw [pay13_eq]
  obtain ⟨e0, e1, e2, e3, e4, e5⟩ := idx_facts13 t
  funext j
  show Spec.mm (a := 200) (k := 3000) (b := 128) (iblk13 V c 0 t) (iblk13 V c 1 t) j
      = Spec.mm (a := 3000) (k := 3000) (b := 128) (V c main_v17_1) (V c main_v18) (((cfg13.win 2).blk t).view.emb j)
  refine Spec.mm_congr _ _ _ _ _ _ (fun k => ?_) (fun k => ?_)
  · show V c main_v17_1 (((cfg13.win 0).blk t).view.emb (ix2 (j 0) k)) = _
    refine congrArg _ (funext fun a => Fin.ext ?_)
    match a with
    | ⟨0, _⟩ =>
      show win13_0.index t (0 : Fin 2) * 200 + 1 * (j 0).val = win13_2.index t (0 : Fin 2) * 200 + 1 * (j 0).val
      omega
    | ⟨1, _⟩ =>
      show win13_0.index t (1 : Fin 2) * 3000 + 1 * k.val = k.val
      omega
  · show V c main_v18 (((cfg13.win 1).blk t).view.emb (ix2 k (j 1))) = _
    refine congrArg _ (funext fun a => Fin.ext ?_)
    match a with
    | ⟨0, _⟩ =>
      show win13_1.index t (0 : Fin 2) * 3000 + 1 * k.val = k.val
      omega
    | ⟨1, _⟩ =>
      show win13_1.index t (1 : Fin 2) * 128 + 1 * (j 1).val = win13_2.index t (1 : Fin 2) * 128 + 1 * (j 1).val
      omega
/-- An index of the output array is in point `t`'s block iff each coordinate is in the block's range on its axis. -/
theorem mem_blk13_2 (t : Fin cfg13.N) (i : S3000x128.Idx) :
    i ∈ ((cfg13.win 2).blk t).view.set ↔ ∀ a : Fin 2, win13_2.index t a * S200x128.size a ≤ (i a).val
      ∧ (i a).val < win13_2.index t a * S200x128.size a + S200x128.size a := by
  show i ∈ ((View.whole main_v19).slice (win13_2.rect t)).set ↔ _
  rw [View.set_slice_whole, Rect.mem_set_unit]
  exact Iff.rfl

/-- The output array after the region: the row blocks tile it (row `r` lies in block `r / 200`), so it is the whole
    product. -/
theorem final13_2 (c : Dev nD) : (dat13 (F := Ideal) V c).arrAt 2 cfg13.N
    = Spec.mm (a := 3000) (k := 3000) (b := 128) (V c main_v17_1) (V c main_v18) :=
  (dat13 V c).arrAt_eq_of_cover 2 _ (fun t _ => flushed13_2_eq V c t) fun i => by
    have h0 : (i 0).val < 3000 := (i 0).isLt
    have h1 : (i 1).val < 128 := (i 1).isLt
    have hN : cfg13.N = 15 := N_13
    obtain ⟨-, -, -, -, e4, e5⟩ := idx_facts13 ⟨(i 0).val / 200, by rw [hN]; omega⟩
    refine ⟨⟨(i 0).val / 200, by rw [hN]; omega⟩, flush13_2 _, ?_⟩
    rw [mem_blk13_2]
    intro a
    match a with
    | ⟨0, _⟩ =>
      show win13_2.index ⟨(i 0).val / 200, _⟩ (0 : Fin 2) * 200 ≤ (i 0).val
        ∧ (i 0).val < win13_2.index ⟨(i 0).val / 200, _⟩ (0 : Fin 2) * 200 + 200
      rw [e4]; show (i 0).val / 200 * 200 ≤ (i 0).val ∧ (i 0).val < (i 0).val / 200 * 200 + 200; omega
    | ⟨1, _⟩ =>
      show win13_2.index ⟨(i 0).val / 200, _⟩ (1 : Fin 2) * 128 ≤ (i 1).val
        ∧ (i 1).val < win13_2.index ⟨(i 0).val / 200, _⟩ (1 : Fin 2) * 128 + 128
      rw [e5]; omega

end Cert.KernelIdeal.Hand

end
-- ==== Proof.KI.Val14.lean ====
/-
  Region 14's result in closed form, over the extended reals: after the region the result array holds, at (e, p, q),
  the logistic of the sum over the 128 contracted positions of the first operand's (e, p, ·) times the second's
  (e, ·, q). Each point writes back its block of that stack — the last column block cut at the array's end —, and the
  blocks cover the array; the two operand arrays are left as found.
-/
import proofs.«161112_j49297634623838_2_alg».proof.Proof.KI.Reg14I
import proofs.«161112_j49297634623838_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The index maps and the cuts, decided over the grid -/

/-- Point t is (encoder t / 40, row block t / 8 mod 5, column block t mod 8): the three windows' block indices there, and
    the sizes of what the result's write-back moves — all 384 columns but at the last column block, 312. -/
theorem idx_facts14 : ∀ t : Fin cfg14.N,
    win14_0.index t (0 : Fin 3) = t.val / 40 ∧ win14_0.index t (1 : Fin 3) = t.val / 8 % 5 ∧ win14_0.index t (2 : Fin 3) = 0
    ∧ win14_1.index t (0 : Fin 3) = t.val / 40 ∧ win14_1.index t (1 : Fin 3) = 0 ∧ win14_1.index t (2 : Fin 3) = t.val % 8
    ∧ win14_2.index t (0 : Fin 3) = t.val / 40 ∧ win14_2.index t (1 : Fin 3) = t.val / 8 % 5 ∧ win14_2.index t (2 : Fin 3) = t.val % 8
    ∧ win14_2.xsize (grid14.coords t) (0 : Fin 3) = 1 ∧ win14_2.xsize (grid14.coords t) (1 : Fin 3) = 600
    ∧ win14_2.xsize (grid14.coords t) (2 : Fin 3) = (if t.val % 8 = 7 then 312 else 384) :=
  (by decide +kernel : ∀ t : Fin grid14.N, _)

/-- A filled-out block at an index of the moved part reads the block. -/
theorem fill_apply_of_lt {G : Pipeline.Grid} (w : Window sig G) {α : Type} (i : G.Coords) (d : w.block.Idx → α)
    (g : (w.xblock i).Idx → α) (J : w.block.Idx) (hJ : ∀ a, (J a).val < w.xsize i a) :
    w.fill i d g J = g (fun a => ⟨(J a).val, hJ a⟩) := by
  unfold Window.fill; rw [dif_pos ((w.moved_iff i J).mpr hJ)]

variable (V : (c : Dev nD) → (b : Ref sig .tc) → Buf (Elt Ideal) ((c : Thread nD τ).loc b))

/-- The stack of logistic Gram blocks the region computes, from the two operand arrays as the region finds them. -/
abbrev G14 (c : Dev nD) : Cert.Spec.Stack 4 3000 3000 := Cert.Spec.bmmLogistic (V c main_v24) (V c main_v25)

/-- The body's value at an entry is the stack's entry, once the two buffers' row and column are the stack's. -/
theorem pay14_stack (z : Cert.Spec.Stack 4 3000 128) (y : Cert.Spec.Stack 4 128 3000)
    (x0 : Vec Ideal S1x600x128 .f32) (x1 : Vec Ideal S1x128x384 .f32) (u : Fin 1) (p : Fin 600) (q : Fin 384)
    (e : Fin 4) (r s : Fin 3000) (h0 : ∀ k : Fin 128, x0 (ix3 (0 : Fin 1) p k) = z (ix3 e r k))
    (h1 : ∀ k : Fin 128, x1 (ix3 (0 : Fin 1) k q) = y (ix3 e k s)) :
    k14_pay1 (F := Ideal) x0 x1 (ix3 u p q) = Cert.Spec.bmmLogistic z y (ix3 e r s) := by
  rw [pay14_apply]
  show _ = Ideal.logistic (∑ k : Fin 128, z (ix3 e r k) * y (ix3 e k s))
  congr 1
  exact Finset.sum_congr rfl fun k _ => by rw [h0, h1]

/-- Entry J of the body's value at point t, J's column inside the array: the entry of the whole stack at encoder t / 40,
    row (t / 8 mod 5) · 600 + J's row, column (t mod 8) · 384 + J's column. -/
theorem pay14_blk (c : Dev nD) (t : Fin cfg14.N) (J : S1x600x384.Idx) (hJ2 : (J 2).val < win14_2.xsize (grid14.coords t) 2)
    (I : S4x3000x3000.Idx) (hI0 : (I 0).val = t.val / 40) (hI1 : (I 1).val = t.val / 8 % 5 * 600 + (J 1).val)
    (hI2 : (I 2).val = t.val % 8 * 384 + (J 2).val) :
    k14_pay1 (F := Ideal) (iblk14 V c 0 t) (blk14_1 V c t) J = G14 V c I := by
  obtain ⟨a00, a01, a02, a10, a11, a12, -, -, -, -, -, -⟩ := idx_facts14 t
  obtain ⟨u, p, q, rfl⟩ : ∃ (u : Fin 1) (p : Fin 600) (q : Fin 384), J = ix3 u p q := ⟨J 0, J 1, J 2, eq_ix3 J⟩
  have hq : q.val < win14_2.xsize (grid14.coords t) 2 := hJ2
  have hI1' : (I 1).val = t.val / 8 % 5 * 600 + p.val := hI1
  have hI2' : (I 2).val = t.val % 8 * 384 + q.val := hI2
  obtain ⟨e, r, s, rfl⟩ : ∃ (e : Fin 4) (r : Fin 3000) (s : Fin 3000), I = ix3 e r s := ⟨I 0, I 1, I 2, eq_ix3 I⟩
  have he : e.val = t.val / 40 := hI0
  have hr : r.val = t.val / 8 % 5 * 600 + p.val := hI1'
  have hs : s.val = t.val % 8 * 384 + q.val := hI2'
  refine pay14_stack (V c main_v24) (V c main_v25) _ _ u p q e r s (fun k => ?_) (fun k => ?_)
  · show V c main_v24 (((cfg14.win 0).blk t).view.emb (ix3 (0 : Fin 1) p k)) = _
    refine congrArg _ (funext fun a => Fin.ext ?_)
    match a with
    | ⟨0, _⟩ => show win14_0.index t (0 : Fin 3) * 1 + 1 * 0 = e.val; omega
    | ⟨1, _⟩ => show win14_0.index t (1 : Fin 3) * 600 + 1 * p.val = r.val; omega
    | ⟨2, _⟩ => show win14_0.index t (2 : Fin 3) * 128 + 1 * k.val = k.val; omega
  have hlt : ∀ a, ((ix3 (0 : Fin 1) k q : S1x128x384.Idx) a).val < win14_1.xsize (grid14.coords t) a := fun a => by
    match a with
    | ⟨0, _⟩ => exact xsize14_1_0 _
    | ⟨1, _⟩ => exact (xsize14_1_1 _).symm ▸ k.isLt
    | ⟨2, _⟩ => exact (xsize14_1_2 _) ▸ hq
  unfold blk14_1
  rw [fill_apply_of_lt win14_1 _ _ _ (ix3 (0 : Fin 1) k q) hlt]
  show V c main_v25 (((cfg14.win 1).blk t).view.emb _) = _
  refine congrArg _ (funext fun a => Fin.ext ?_)
  match a with
  | ⟨0, _⟩ => show win14_1.index t (0 : Fin 3) * 1 + 1 * 0 = e.val; omega
  | ⟨1, _⟩ => show win14_1.index t (1 : Fin 3) * 128 + 1 * k.val = k.val; omega
  | ⟨2, _⟩ => show win14_1.index t (2 : Fin 3) * 384 + 1 * q.val = s.val; omega

/-- WHAT POINT t WRITES BACK is block t, cut at the array's end, of the whole stack. -/
theorem flushed14_eq (c : Dev nD) (t : Fin cfg14.N) :
    (dat14 (F := Ideal) V c).flushed 2 t = ((cfg14.win 2).blk t).view.read (Elt Ideal) (G14 V c) := by
  show (cfg14.win 2).cut (grid14.coords t) ((dat14 (F := Ideal) V c).after 2 t) = _
  rw [after14_2, out14_2_eq]
  obtain ⟨-, -, -, -, -, -, a20, a21, a22, -, -, -⟩ := idx_facts14 t
  funext j
  show k14_pay1 (F := Ideal) (iblk14 V c 0 t) (blk14_1 V c t) (win14_2.xinj (grid14.coords t) j) = G14 V c (((cfg14.win 2).blk t).view.emb j)
  refine pay14_blk V c t _ (j 2).isLt _ ?_ ?_ ?_
  · show win14_2.index t (0 : Fin 3) * 1 + 1 * (j 0).val = t.val / 40
    have : (j 0).val < win14_2.xsize (grid14.coords t) 0 := (j 0).isLt
    have x0 := (idx_facts14 t).2.2.2.2.2.2.2.2.2.1
    omega
  · show win14_2.index t (1 : Fin 3) * 600 + 1 * (j 1).val = t.val / 8 % 5 * 600 + (j 1).val; omega
  · show win14_2.index t (2 : Fin 3) * 384 + 1 * (j 2).val = t.val % 8 * 384 + (j 2).val; omega

/-- An index of the result array is in point t's block iff each coordinate is in the block's range on its axis, the
    range cut at the array's end. -/
theorem mem_blk14 (t : Fin cfg14.N) (i : S4x3000x3000.Idx) :
    i ∈ ((cfg14.win 2).blk t).view.set ↔ ∀ a : Fin 3, win14_2.index t a * S1x600x384.size a ≤ (i a).val
      ∧ (i a).val < win14_2.index t a * S1x600x384.size a + win14_2.xsize (grid14.coords t) a := by
  show i ∈ ((View.whole main_v26).slice (win14_2.rect t)).set ↔ _
  rw [View.set_slice_whole, Rect.mem_set_unit]
  exact Iff.rfl

/-- Every index of the result array is in some point's block: encoder e, row r, column q in that of point
    40 e + 8 (r / 600) + q / 384 — the last column block's 312 columns reach column 2999. -/
theorem cover14 (i : S4x3000x3000.Idx) : ∃ t : Fin cfg14.N, (cfg14.win 2).flush t = true ∧ i ∈ ((cfg14.win 2).blk t).view.set := by
  have h0 : (i 0).val < 4 := (i 0).isLt
  have h1 : (i 1).val < 3000 := (i 1).isLt
  have h2 : (i 2).val < 3000 := (i 2).isLt
  let t : Fin cfg14.N := ⟨(i 0).val * 40 + (i 1).val / 600 * 8 + (i 2).val / 384, by rw [show cfg14.N = 160 from N_14]; omega⟩
  have ht : t.val = (i 0).val * 40 + (i 1).val / 600 * 8 + (i 2).val / 384 := rfl
  refine ⟨t, flush14_2 t, ?_⟩
  rw [mem_blk14]
  obtain ⟨-, -, -, -, -, -, a20, a21, a22, x0, x1, x2⟩ := idx_facts14 t
  intro a
  match a with
  | ⟨0, _⟩ =>
    show win14_2.index t (0 : Fin 3) * 1 ≤ (i 0).val ∧ (i 0).val < win14_2.index t (0 : Fin 3) * 1 + win14_2.xsize (grid14.coords t) (0 : Fin 3)
    rw [x0, a20]; omega
  | ⟨1, _⟩ =>
    show win14_2.index t (1 : Fin 3) * 600 ≤ (i 1).val ∧ (i 1).val < win14_2.index t (1 : Fin 3) * 600 + win14_2.xsize (grid14.coords t) (1 : Fin 3)
    rw [x1, a21]; omega
  | ⟨2, _⟩ =>
    show win14_2.index t (2 : Fin 3) * 384 ≤ (i 2).val ∧ (i 2).val < win14_2.index t (2 : Fin 3) * 384 + win14_2.xsize (grid14.coords t) (2 : Fin 3)
    rw [x2, a22]; split <;> omega

/-- THE RESULT ARRAY after the region: the stack of the logistic function of the products, entry by entry. The columns
    past 2999 of the last column block are cut away by the write-back, so no word the proof does not name reaches it. -/
theorem final14 (c : Dev nD) : (dat14 (F := Ideal) V c).arrAt 2 cfg14.N = Cert.Spec.bmmLogistic (V c main_v24) (V c main_v25) :=
  (dat14 (F := Ideal) V c).arrAt_eq_of_cover 2 (G14 V c) (fun t _ => flushed14_eq V c t) cover14

/-- The two operand arrays are the region's inputs: after it they hold what they held. -/
theorem final14_0 (c : Dev nD) : (dat14 (F := Ideal) V c).arrAt 0 cfg14.N = V c main_v24 :=
  (dat14 (F := Ideal) V c).arrAt_in 0 rfl _
theorem final14_1 (c : Dev nD) : (dat14 (F := Ideal) V c).arrAt 1 cfg14.N = V c main_v25 :=
  (dat14 (F := Ideal) V c).arrAt_in 1 rfl _

end Cert.KernelIdeal.Hand

end
-- ==== Proof.KI.Value.lean ====
/-
  The value the kernel program leaves in its result array, at the ideal values: walking the buffer contents between
  the items of @main from the last kernel back to the launch memory. Each encoder's three kernels compute, from the
  shared first-layer features, the encoder's embedding widened by zero columns; the last host stretch stacks the four
  and transposes the stack; the last kernel's stacked logistic Gram matrices of zero-widened embeddings are the
  logistic Gram matrices of the embeddings.
-/
import proofs.«161112_j49297634623838_2_alg».proof.Proof.KI.Chain
import proofs.«161112_j49297634623838_2_alg».proof.Proof.KI.HostVals
import proofs.«161112_j49297634623838_2_alg».proof.Proof.KI.Val0
import proofs.«161112_j49297634623838_2_alg».proof.Proof.KI.Val1
import proofs.«161112_j49297634623838_2_alg».proof.Proof.KI.Val2
import proofs.«161112_j49297634623838_2_alg».proof.Proof.KI.Val3
import proofs.«161112_j49297634623838_2_alg».proof.Proof.KI.Val4
import proofs.«161112_j49297634623838_2_alg».proof.Proof.KI.Val5
import proofs.«161112_j49297634623838_2_alg».proof.Proof.KI.Val6
import proofs.«161112_j49297634623838_2_alg».proof.Proof.KI.Val7
import proofs.«161112_j49297634623838_2_alg».proof.Proof.KI.Val8
import proofs.«161112_j49297634623838_2_alg».proof.Proof.KI.Val9
import proofs.«161112_j49297634623838_2_alg».proof.Proof.KI.Val10
import proofs.«161112_j49297634623838_2_alg».proof.Proof.KI.Val11
import proofs.«161112_j49297634623838_2_alg».proof.Proof.KI.Val12
import proofs.«161112_j49297634623838_2_alg».proof.Proof.KI.Val13
import proofs.«161112_j49297634623838_2_alg».proof.Proof.KI.Val14
import proofs.«161112_j49297634623838_2_alg».proof.Proof.Spec
import proofs.«161112_j49297634623838_2_alg».proof.Proof.SpecLaws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable (m : (ℓ : Loc nD τ sig) → Buf (Elt Ideal) ℓ)

/-! ## The shared first-layer features -/

theorem feat6 (c : Dev nD) : (U10 m c main_v6 : Spec.Mat 3000 512)
    = Spec.tanhM (Spec.mm (a := 3000) (k := 3000) (b := 512) (m ((c : Thread nD τ).loc main_arg0)) (Spec.concatCols (by norm_num) (m ((c : Thread nD τ).loc main_arg6)) (m ((c : Thread nD τ).loc main_arg12)))) := by
  have s : o10_2 m c = Spec.tanhM (Spec.mm (a := 3000) (k := 3000) (b := 512) (U9 m c main_arg0) (U9 m c main_v4)) :=
    final0_2 (Vv9 m) c
  have dx : U9 m c main_arg0 = (m ((c : Thread nD τ).loc main_arg0)) :=
    hvarg0 m c
  have dw : (U9 m c main_v4 : Spec.Mat 3000 512) = Spec.concatCols (by norm_num) (m ((c : Thread nD τ).loc main_arg6)) (m ((c : Thread nD τ).loc main_arg12)) :=
    hv4 m c
  rw [U10_2 m c, s, dx, dw]

theorem feat7 (c : Dev nD) : (U11 m c main_v7 : Spec.Mat 3000 512)
    = Spec.tanhM (Spec.mm (a := 3000) (k := 3000) (b := 512) (m ((c : Thread nD τ).loc main_arg1)) (Spec.concatCols (by norm_num) (m ((c : Thread nD τ).loc main_arg9)) (m ((c : Thread nD τ).loc main_arg15)))) := by
  have s : o11_2 m c = Spec.tanhM (Spec.mm (a := 3000) (k := 3000) (b := 512) (U10 m c main_arg1) (U10 m c main_v5)) :=
    final1_2 (Vv10 m) c
  have dx : U10 m c main_arg1 = (m ((c : Thread nD τ).loc main_arg1)) :=
    ((U10_of m c main_arg1 (by decide))).trans (hvarg1 m c)
  have dw : (U10 m c main_v5 : Spec.Mat 3000 512) = Spec.concatCols (by norm_num) (m ((c : Thread nD τ).loc main_arg9)) (m ((c : Thread nD τ).loc main_arg15)) :=
    ((U10_of m c main_v5 (by decide))).trans (hv5 m c)
  rw [U11_2 m c, s, dx, dw]

/-! ## One encoder: three kernels from the features to the zero-widened embedding -/

theorem enc0 (c : Dev nD) : (U23 m c main_v10 : Spec.Mat 3000 128)
    = Spec.padCols (b' := 128) (Spec.enc (n := 3000) (d1 := 256) (d2 := 128) (d3 := 64) (m ((c : Thread nD τ).loc main_arg0)) (m ((c : Thread nD τ).loc main_arg2)) (m ((c : Thread nD τ).loc main_arg6)) (m ((c : Thread nD τ).loc main_arg7)) (m ((c : Thread nD τ).loc main_arg8))) := by
  -- what the three kernels of this encoder leave, over the buffers each finds
  have s1 : o12_3 m c = Spec.tanhM (Spec.mm (a := 3000) (k := 256) (b := 128) (Spec.mm (a := 3000) (k := 3000) (b := 256) (U11 m c main_arg2)
      (Spec.colblk (n := 3000) (b := 256) (B := 512) 0 (by omega) (U11 m c main_v6))) (U11 m c main_arg7)) := final2_3 (Vv11 m) c
  have s1' : (o12_4 m c : Spec.Mat 3000 3000) = U11 m c main_arg2 := final2_4 (Vv11 m) c
  have s2 : o13_3 m c = Spec.mm (a := 3000) (k := 128) (b := 128) (Spec.mm (a := 3000) (k := 3000) (b := 128) (U12 m c main_v8_1) (U12 m c main_v8_0))
      (U12 m c main_v0) := final3_3 (Vv12 m) c
  have s3 : o14_2 m c = Spec.mm (a := 3000) (k := 3000) (b := 128) (U13 m c main_v8_1) (U13 m c main_v9) := final4_2 (Vv13 m) c
  -- the buffers no kernel in between writes
  have d_out : U23 m c main_v10 = U14 m c main_v10 := (U23_of m c main_v10 (by decide)).trans <| (U22_of m c main_v10 (by decide)).trans <| (U21_of m c main_v10 (by decide)).trans <| (U20_of m c main_v10 (by decide)).trans <| (U19_of m c main_v10 (by decide)).trans <| (U18_of m c main_v10 (by decide)).trans <| (U17_of m c main_v10 (by decide)).trans <| (U16_of m c main_v10 (by decide)).trans <| (U15_of m c main_v10 (by decide))
  have d_v1 : U13 m c main_v8_1 = U12 m c main_v8_1 := U13_of m c main_v8_1 (by decide)
  have d_p : (U12 m c main_v0 : Spec.Mat 128 128) = Spec.padCols (b' := 128) (m ((c : Thread nD τ).loc main_arg8)) :=
    ((U12_of m c main_v0 (by decide)).trans <| (U11_of m c main_v0 (by decide)).trans <| (U10_of m c main_v0 (by decide))).trans (hv0 m c)
  have d_adj : U11 m c main_arg2 = (m ((c : Thread nD τ).loc main_arg2)) := ((U11_of m c main_arg2 (by decide)).trans <| (U10_of m c main_arg2 (by decide))).trans (hvarg2 m c)
  have d_w2 : U11 m c main_arg7 = (m ((c : Thread nD τ).loc main_arg7)) := ((U11_of m c main_arg7 (by decide)).trans <| (U10_of m c main_arg7 (by decide))).trans (hvarg7 m c)
  have d_feat : (U11 m c main_v6 : Spec.Mat 3000 512)
      = Spec.tanhM (Spec.mm (a := 3000) (k := 3000) (b := 512) (m ((c : Thread nD τ).loc main_arg0)) (Spec.concatCols (by norm_num) (m ((c : Thread nD τ).loc main_arg6)) (m ((c : Thread nD τ).loc main_arg12)))) :=
    ((U11_of m c main_v6 (by decide))).trans (feat6 m c)
  unfold Spec.enc
  rw [d_out, U14_2 m c, s3, d_v1, U13_3 m c, s2, U12_4 m c, s1', U12_3 m c, s1, d_p, d_adj, d_w2, d_feat]
  -- the column block of the squashed product is the squashed product with the block's weights; zero columns pass
  -- through the two products on the left
  rw [Spec.colblk_tanhM, Spec.colblk_mm, Spec.colblk_concat_left, Spec.mm_padCols, Spec.mm_padCols]

theorem enc1 (c : Dev nD) : (U23 m c main_v13 : Spec.Mat 3000 128)
    = Spec.padCols (b' := 128) (Spec.enc (n := 3000) (d1 := 256) (d2 := 128) (d3 := 64) (m ((c : Thread nD τ).loc main_arg1)) (m ((c : Thread nD τ).loc main_arg3)) (m ((c : Thread nD τ).loc main_arg9)) (m ((c : Thread nD τ).loc main_arg10)) (m ((c : Thread nD τ).loc main_arg11))) := by
  -- what the three kernels of this encoder leave, over the buffers each finds
  have s1 : o15_3 m c = Spec.tanhM (Spec.mm (a := 3000) (k := 256) (b := 128) (Spec.mm (a := 3000) (k := 3000) (b := 256) (U14 m c main_arg3)
      (Spec.colblk (n := 3000) (b := 256) (B := 512) 0 (by omega) (U14 m c main_v7))) (U14 m c main_arg10)) := final5_3 (Vv14 m) c
  have s1' : (o15_4 m c : Spec.Mat 3000 3000) = U14 m c main_arg3 := final5_4 (Vv14 m) c
  have s2 : o16_3 m c = Spec.mm (a := 3000) (k := 128) (b := 128) (Spec.mm (a := 3000) (k := 3000) (b := 128) (U15 m c main_v11_1) (U15 m c main_v11_0))
      (U15 m c main_v1) := final6_3 (Vv15 m) c
  have s3 : o17_2 m c = Spec.mm (a := 3000) (k := 3000) (b := 128) (U16 m c main_v11_1) (U16 m c main_v12) := final7_2 (Vv16 m) c
  -- the buffers no kernel in between writes
  have d_out : U23 m c main_v13 = U17 m c main_v13 := (U23_of m c main_v13 (by decide)).trans <| (U22_of m c main_v13 (by decide)).trans <| (U21_of m c main_v13 (by decide)).trans <| (U20_of m c main_v13 (by decide)).trans <| (U19_of m c main_v13 (by decide)).trans <| (U18_of m c main_v13 (by decide))
  have d_v1 : U16 m c main_v11_1 = U15 m c main_v11_1 := U16_of m c main_v11_1 (by decide)
  have d_p : (U15 m c main_v1 : Spec.Mat 128 128) = Spec.padCols (b' := 128) (m ((c : Thread nD τ).loc main_arg11)) :=
    ((U15_of m c main_v1 (by decide)).trans <| (U14_of m c main_v1 (by decide)).trans <| (U13_of m c main_v1 (by decide)).trans <| (U12_of m c main_v1 (by decide)).trans <| (U11_of m c main_v1 (by decide)).trans <| (U10_of m c main_v1 (by decide))).trans (hv1 m c)
  have d_adj : U14 m c main_arg3 = (m ((c : Thread nD τ).loc main_arg3)) := ((U14_of m c main_arg3 (by decide)).trans <| (U13_of m c main_arg3 (by decide)).trans <| (U12_of m c main_arg3 (by decide)).trans <| (U11_of m c main_arg3 (by decide)).trans <| (U10_of m c main_arg3 (by decide))).trans (hvarg3 m c)
  have d_w2 : U14 m c main_arg10 = (m ((c : Thread nD τ).loc main_arg10)) := ((U14_of m c main_arg10 (by decide)).trans <| (U13_of m c main_arg10 (by decide)).trans <| (U12_of m c main_arg10 (by decide)).trans <| (U11_of m c main_arg10 (by decide)).trans <| (U10_of m c main_arg10 (by decide))).trans (hvarg10 m c)
  have d_feat : (U14 m c main_v7 : Spec.Mat 3000 512)
      = Spec.tanhM (Spec.mm (a := 3000) (k := 3000) (b := 512) (m ((c : Thread nD τ).loc main_arg1)) (Spec.concatCols (by norm_num) (m ((c : Thread nD τ).loc main_arg9)) (m ((c : Thread nD τ).loc main_arg15)))) :=
    ((U14_of m c main_v7 (by decide)).trans <| (U13_of m c main_v7 (by decide)).trans <| (U12_of m c main_v7 (by decide))).trans (feat7 m c)
  unfold Spec.enc
  rw [d_out, U17_2 m c, s3, d_v1, U16_3 m c, s2, U15_4 m c, s1', U15_3 m c, s1, d_p, d_adj, d_w2, d_feat]
  -- the column block of the squashed product is the squashed product with the block's weights; zero columns pass
  -- through the two products on the left
  rw [Spec.colblk_tanhM, Spec.colblk_mm, Spec.colblk_concat_left, Spec.mm_padCols, Spec.mm_padCols]

theorem enc2 (c : Dev nD) : (U23 m c main_v16 : Spec.Mat 3000 128)
    = Spec.padCols (b' := 128) (Spec.enc (n := 3000) (d1 := 256) (d2 := 128) (d3 := 64) (m ((c : Thread nD τ).loc main_arg0)) (m ((c : Thread nD τ).loc main_arg4)) (m ((c : Thread nD τ).loc main_arg12)) (m ((c : Thread nD τ).loc main_arg13)) (m ((c : Thread nD τ).loc main_arg14))) := by
  -- what the three kernels of this encoder leave, over the buffers each finds
  have s1 : o18_3 m c = Spec.tanhM (Spec.mm (a := 3000) (k := 256) (b := 128) (Spec.mm (a := 3000) (k := 3000) (b := 256) (U17 m c main_arg4)
      (Spec.colblk (n := 3000) (b := 256) (B := 512) 256 (by omega) (U17 m c main_v6))) (U17 m c main_arg13)) := final8_3 (Vv17 m) c
  have s1' : (o18_4 m c : Spec.Mat 3000 3000) = U17 m c main_arg4 := final8_4 (Vv17 m) c
  have s2 : o19_3 m c = Spec.mm (a := 3000) (k := 128) (b := 128) (Spec.mm (a := 3000) (k := 3000) (b := 128) (U18 m c main_v14_1) (U18 m c main_v14_0))
      (U18 m c main_v2) := final9_3 (Vv18 m) c
  have s3 : o20_2 m c = Spec.mm (a := 3000) (k := 3000) (b := 128) (U19 m c main_v14_1) (U19 m c main_v15) := final10_2 (Vv19 m) c
  -- the buffers no kernel in between writes
  have d_out : U23 m c main_v16 = U20 m c main_v16 := (U23_of m c main_v16 (by decide)).trans <| (U22_of m c main_v16 (by decide)).trans <| (U21_of m c main_v16 (by decide))
  have d_v1 : U19 m c main_v14_1 = U18 m c main_v14_1 := U19_of m c main_v14_1 (by decide)
  have d_p : (U18 m c main_v2 : Spec.Mat 128 128) = Spec.padCols (b' := 128) (m ((c : Thread nD τ).loc main_arg14)) :=
    ((U18_of m c main_v2 (by decide)).trans <| (U17_of m c main_v2 (by decide)).trans <| (U16_of m c main_v2 (by decide)).trans <| (U15_of m c main_v2 (by decide)).trans <| (U14_of m c main_v2 (by decide)).trans <| (U13_of m c main_v2 (by decide)).trans <| (U12_of m c main_v2 (by decide)).trans <| (U11_of m c main_v2 (by decide)).trans <| (U10_of m c main_v2 (by decide))).trans (hv2 m c)
  have d_adj : U17 m c main_arg4 = (m ((c : Thread nD τ).loc main_arg4)) := ((U17_of m c main_arg4 (by decide)).trans <| (U16_of m c main_arg4 (by decide)).trans <| (U15_of m c main_arg4 (by decide)).trans <| (U14_of m c main_arg4 (by decide)).trans <| (U13_of m c main_arg4 (by decide)).trans <| (U12_of m c main_arg4 (by decide)).trans <| (U11_of m c main_arg4 (by decide)).trans <| (U10_of m c main_arg4 (by decide))).trans (hvarg4 m c)
  have d_w2 : U17 m c main_arg13 = (m ((c : Thread nD τ).loc main_arg13)) := ((U17_of m c main_arg13 (by decide)).trans <| (U16_of m c main_arg13 (by decide)).trans <| (U15_of m c main_arg13 (by decide)).trans <| (U14_of m c main_arg13 (by decide)).trans <| (U13_of m c main_arg13 (by decide)).trans <| (U12_of m c main_arg13 (by decide)).trans <| (U11_of m c main_arg13 (by decide)).trans <| (U10_of m c main_arg13 (by decide))).trans (hvarg13 m c)
  have d_feat : (U17 m c main_v6 : Spec.Mat 3000 512)
      = Spec.tanhM (Spec.mm (a := 3000) (k := 3000) (b := 512) (m ((c : Thread nD τ).loc main_arg0)) (Spec.concatCols (by norm_num) (m ((c : Thread nD τ).loc main_arg6)) (m ((c : Thread nD τ).loc main_arg12)))) :=
    ((U17_of m c main_v6 (by decide)).trans <| (U16_of m c main_v6 (by decide)).trans <| (U15_of m c main_v6 (by decide)).trans <| (U14_of m c main_v6 (by decide)).trans <| (U13_of m c main_v6 (by decide)).trans <| (U12_of m c main_v6 (by decide)).trans <| (U11_of m c main_v6 (by decide))).trans (feat6 m c)
  unfold Spec.enc
  rw [d_out, U20_2 m c, s3, d_v1, U19_3 m c, s2, U18_4 m c, s1', U18_3 m c, s1, d_p, d_adj, d_w2, d_feat]
  -- the column block of the squashed product is the squashed product with the block's weights; zero columns pass
  -- through the two products on the left
  rw [Spec.colblk_tanhM, Spec.colblk_mm, Spec.colblk_concat_right, Spec.mm_padCols, Spec.mm_padCols]

theorem enc3 (c : Dev nD) : (U23 m c main_v19 : Spec.Mat 3000 128)
    = Spec.padCols (b' := 128) (Spec.enc (n := 3000) (d1 := 256) (d2 := 128) (d3 := 64) (m ((c : Thread nD τ).loc main_arg1)) (m ((c : Thread nD τ).loc main_arg5)) (m ((c : Thread nD τ).loc main_arg15)) (m ((c : Thread nD τ).loc main_arg16)) (m ((c : Thread nD τ).loc main_arg17))) := by
  -- what the three kernels of this encoder leave, over the buffers each finds
  have s1 : o21_3 m c = Spec.tanhM (Spec.mm (a := 3000) (k := 256) (b := 128) (Spec.mm (a := 3000) (k := 3000) (b := 256) (U20 m c main_arg5)
      (Spec.colblk (n := 3000) (b := 256) (B := 512) 256 (by omega) (U20 m c main_v7))) (U20 m c main_arg16)) := final11_3 (Vv20 m) c
  have s1' : (o21_4 m c : Spec.Mat 3000 3000) = U20 m c main_arg5 := final11_4 (Vv20 m) c
  have s2 : o22_3 m c = Spec.mm (a := 3000) (k := 128) (b := 128) (Spec.mm (a := 3000) (k := 3000) (b := 128) (U21 m c main_v17_1) (U21 m c main_v17_0))
      (U21 m c main_v3) := final12_3 (Vv21 m) c
  have s3 : o23_2 m c = Spec.mm (a := 3000) (k := 3000) (b := 128) (U22 m c main_v17_1) (U22 m c main_v18) := final13_2 (Vv22 m) c
  -- the buffers no kernel in between writes
  have d_out : U23 m c main_v19 = U23 m c main_v19 := rfl
  have d_v1 : U22 m c main_v17_1 = U21 m c main_v17_1 := U22_of m c main_v17_1 (by decide)
  have d_p : (U21 m c main_v3 : Spec.Mat 128 128) = Spec.padCols (b' := 128) (m ((c : Thread nD τ).loc main_arg17)) :=
    ((U21_of m c main_v3 (by decide)).trans <| (U20_of m c main_v3 (by decide)).trans <| (U19_of m c main_v3 (by decide)).trans <| (U18_of m c main_v3 (by decide)).trans <| (U17_of m c main_v3 (by decide)).trans <| (U16_of m c main_v3 (by decide)).trans <| (U15_of m c main_v3 (by decide)).trans <| (U14_of m c main_v3 (by decide)).trans <| (U13_of m c main_v3 (by decide)).trans <| (U12_of m c main_v3 (by decide)).trans <| (U11_of m c main_v3 (by decide)).trans <| (U10_of m c main_v3 (by decide))).trans (hv3 m c)
  have d_adj : U20 m c main_arg5 = (m ((c : Thread nD τ).loc main_arg5)) := ((U20_of m c main_arg5 (by decide)).trans <| (U19_of m c main_arg5 (by decide)).trans <| (U18_of m c main_arg5 (by decide)).trans <| (U17_of m c main_arg5 (by decide)).trans <| (U16_of m c main_arg5 (by decide)).trans <| (U15_of m c main_arg5 (by decide)).trans <| (U14_of m c main_arg5 (by decide)).trans <| (U13_of m c main_arg5 (by decide)).trans <| (U12_of m c main_arg5 (by decide)).trans <| (U11_of m c main_arg5 (by decide)).trans <| (U10_of m c main_arg5 (by decide))).trans (hvarg5 m c)
  have d_w2 : U20 m c main_arg16 = (m ((c : Thread nD τ).loc main_arg16)) := ((U20_of m c main_arg16 (by decide)).trans <| (U19_of m c main_arg16 (by decide)).trans <| (U18_of m c main_arg16 (by decide)).trans <| (U17_of m c main_arg16 (by decide)).trans <| (U16_of m c main_arg16 (by decide)).trans <| (U15_of m c main_arg16 (by decide)).trans <| (U14_of m c main_arg16 (by decide)).trans <| (U13_of m c main_arg16 (by decide)).trans <| (U12_of m c main_arg16 (by decide)).trans <| (U11_of m c main_arg16 (by decide)).trans <| (U10_of m c main_arg16 (by decide))).trans (hvarg16 m c)
  have d_feat : (U20 m c main_v7 : Spec.Mat 3000 512)
      = Spec.tanhM (Spec.mm (a := 3000) (k := 3000) (b := 512) (m ((c : Thread nD τ).loc main_arg1)) (Spec.concatCols (by norm_num) (m ((c : Thread nD τ).loc main_arg9)) (m ((c : Thread nD τ).loc main_arg15)))) :=
    ((U20_of m c main_v7 (by decide)).trans <| (U19_of m c main_v7 (by decide)).trans <| (U18_of m c main_v7 (by decide)).trans <| (U17_of m c main_v7 (by decide)).trans <| (U16_of m c main_v7 (by decide)).trans <| (U15_of m c main_v7 (by decide)).trans <| (U14_of m c main_v7 (by decide)).trans <| (U13_of m c main_v7 (by decide)).trans <| (U12_of m c main_v7 (by decide))).trans (feat7 m c)
  unfold Spec.enc
  rw [d_out, U23_2 m c, s3, d_v1, U22_3 m c, s2, U21_4 m c, s1', U21_3 m c, s1, d_p, d_adj, d_w2, d_feat]
  -- the column block of the squashed product is the squashed product with the block's weights; zero columns pass
  -- through the two products on the left
  rw [Spec.colblk_tanhM, Spec.colblk_mm, Spec.colblk_concat_right, Spec.mm_padCols, Spec.mm_padCols]

/-! ## The result -/

theorem value (c : Dev nD) : o25_2 m c = Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have s : o25_2 m c = Spec.bmmLogistic (U24 m c main_v24) (U24 m c main_v25) := final14 (Vv24 m) c
  have h24 : (U24 m c main_v24 : Spec.Stack 4 3000 128)
      = Spec.stack4 (U23 m c main_v10) (U23 m c main_v13) (U23 m c main_v16) (U23 m c main_v19) := hv24 (U23 m c)
  have h25 : (U24 m c main_v25 : Spec.Stack 4 128 3000)
      = Spec.transposeS (Spec.stack4 (U23 m c main_v10) (U23 m c main_v13) (U23 m c main_v16) (U23 m c main_v19)) := hv25 (U23 m c)
  unfold Spec.result
  rw [s, h24, h25, enc0 m c, enc1 m c, enc2 m c, enc3 m c]
  exact Spec.bmmLogistic_transpose_stack4_padCols (by norm_num) _ _ _ _

end Cert.KernelIdeal.Hand

end
-- ==== Proof.RefValue.lean ====
/-
  The reference program's result, read back as the specification. Each encoder is a chain of host operations: a
  `dot_general` contracting one axis is the matrix product `mm` (its element is the sum over the contracted
  coordinate of a row entry times a column entry), the host's `tanh` is the entrywise `tanhM`, and the tail
  `1 / (1 + exp (-(z zᵀ)))` — a product with the transposed embedding, negated, exponentiated, one added, and one
  divided by it — is by definition the logistic function of the Gram matrix. The four reconstructions get a leading
  unit axis and are laid end to end along it, which is `stack4`. No arithmetic law is used: every step is the
  operation's own definition read at an index.
-/
import proofs.«161112_j49297634623838_2_alg».proof.Proof.Gen.ReferenceIdeal.Read
import proofs.«161112_j49297634623838_2_alg».proof.Proof.Spec
import proofs.«161112_j49297634623838_2_alg».proof.Proof.SpecLaws
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The arrays' types: an adjacency or feature matrix, the three layers' weights, one reconstruction with its unit axis. -/
abbrev A : Type := (⟨S3000x3000, .f32⟩ : BufTy).Contents (Elt Ideal)
abbrev W1 : Type := (⟨S3000x256, .f32⟩ : BufTy).Contents (Elt Ideal)
abbrev W2 : Type := (⟨S256x128, .f32⟩ : BufTy).Contents (Elt Ideal)
abbrev W3 : Type := (⟨S128x64, .f32⟩ : BufTy).Contents (Elt Ideal)

/-- A sum of products read through two index maps is an entry of the matrix product, once the maps are "row `i 0`,
    coordinate `j`" and "coordinate `j`, column `i 1`". -/
theorem sum_eq_mm {a k b : Nat} (x : Spec.Mat a k) (y : Spec.Mat k b) (i : (⟨2, ![a, b]⟩ : Shape).Idx)
    (l : Fin k → (⟨2, ![a, k]⟩ : Shape).Idx) (r : Fin k → (⟨2, ![k, b]⟩ : Shape).Idx)
    (hl : ∀ j, l j = ix2 (i 0) j) (hr : ∀ j, r j = ix2 j (i 1)) :
    ∑ j : Fin k, x (l j) * y (r j) = Spec.mm x y i := by
  simp only [hl, hr]; rfl

/-! ## One encoder, stage by stage -/

section Encoder
variable (x0 x2 : A) (x6 : W1) (x7 : W2) (x8 : W3)

/-- `x · w1`. -/
theorem stage0 : val_main_v0 (F := Ideal) x0 x6 = Spec.mm x0 x6 := by
  funext i
  rw [val_main_v0_apply]
  exact sum_eq_mm x0 x6 i (lidx_main_v0 i) (ridx_main_v0 i) (fun j => funext fun a => by match a with | ⟨0, _⟩ => rfl | ⟨1, _⟩ => rfl) (fun j => funext fun a => by match a with | ⟨0, _⟩ => rfl | ⟨1, _⟩ => rfl)

/-- `tanh (x · w1)`. -/
theorem stage1 : val_main_v1 (F := Ideal) x0 x6 = Spec.tanhM (Spec.mm x0 x6) := by
  funext i
  rw [val_main_v1_apply, stage0]
  exact Ideal.hostUnary_tanh_def _

/-- `adj · tanh (x · w1)`. -/
theorem stage2 : val_main_v2 (F := Ideal) x0 x2 x6 = Spec.mm x2 (Spec.tanhM (Spec.mm x0 x6)) := by
  funext i
  rw [val_main_v2_apply, stage1]
  exact sum_eq_mm x2 _ i (lidx_main_v2 i) (ridx_main_v2 i) (fun j => funext fun a => by match a with | ⟨0, _⟩ => rfl | ⟨1, _⟩ => rfl) (fun j => funext fun a => by match a with | ⟨0, _⟩ => rfl | ⟨1, _⟩ => rfl)

/-- `(adj · tanh (x · w1)) · w2`. -/
theorem stage3 : val_main_v3 (F := Ideal) x0 x2 x6 x7 = Spec.mm (Spec.mm x2 (Spec.tanhM (Spec.mm x0 x6))) x7 := by
  funext i
  rw [val_main_v3_apply, stage2]
  exact sum_eq_mm _ x7 i (lidx_main_v3 i) (ridx_main_v3 i) (fun j => funext fun a => by match a with | ⟨0, _⟩ => rfl | ⟨1, _⟩ => rfl) (fun j => funext fun a => by match a with | ⟨0, _⟩ => rfl | ⟨1, _⟩ => rfl)

/-- The second layer's squashed projection. -/
theorem stage4 : val_main_v4 (F := Ideal) x0 x2 x6 x7
    = Spec.tanhM (Spec.mm (Spec.mm x2 (Spec.tanhM (Spec.mm x0 x6))) x7) := by
  funext i
  rw [val_main_v4_apply, stage3]
  exact Ideal.hostUnary_tanh_def _

/-- The second layer, aggregated along the adjacency. -/
theorem stage5 : val_main_v5 (F := Ideal) x0 x2 x6 x7
    = Spec.mm x2 (Spec.tanhM (Spec.mm (Spec.mm x2 (Spec.tanhM (Spec.mm x0 x6))) x7)) := by
  funext i
  rw [val_main_v5_apply, stage4]
  exact sum_eq_mm x2 _ i (lidx_main_v5 i) (ridx_main_v5 i) (fun j => funext fun a => by match a with | ⟨0, _⟩ => rfl | ⟨1, _⟩ => rfl) (fun j => funext fun a => by match a with | ⟨0, _⟩ => rfl | ⟨1, _⟩ => rfl)

/-- The third layer's projection (no squashing). -/
theorem stage6 : val_main_v6 (F := Ideal) x0 x2 x6 x7 x8
    = Spec.mm (Spec.mm x2 (Spec.tanhM (Spec.mm (Spec.mm x2 (Spec.tanhM (Spec.mm x0 x6))) x7))) x8 := by
  funext i
  rw [val_main_v6_apply, stage5]
  exact sum_eq_mm _ x8 i (lidx_main_v6 i) (ridx_main_v6 i) (fun j => funext fun a => by match a with | ⟨0, _⟩ => rfl | ⟨1, _⟩ => rfl) (fun j => funext fun a => by match a with | ⟨0, _⟩ => rfl | ⟨1, _⟩ => rfl)

/-- The embedding is the specification's encoder. -/
theorem embedding_eq : val_main_v7 (F := Ideal) x0 x2 x6 x7 x8 = Spec.enc x0 x2 x6 x7 x8 := by
  funext i
  rw [val_main_v7_apply, stage6]
  exact sum_eq_mm x2 _ i (lidx_main_v7 i) (ridx_main_v7 i) (fun j => funext fun a => by match a with | ⟨0, _⟩ => rfl | ⟨1, _⟩ => rfl) (fun j => funext fun a => by match a with | ⟨0, _⟩ => rfl | ⟨1, _⟩ => rfl)

/-- The reconstruction `1 / (1 + exp (-(z zᵀ)))` is the logistic function of the embedding's Gram matrix: entry
    `(p, q)` of `z zᵀ` is the sum over `j` of `z (p, j) · z (q, j)`, the transposed factor read back at `(q, j)`. -/
theorem recon_eq : val_main_v15 (F := Ideal) x0 x2 x6 x7 x8 = Spec.gramLogistic (Spec.enc x0 x2 x6 x7 x8) := by
  funext i
  rw [val_main_v15_apply, val_main_v14_apply, val_main_cst_0_apply, val_main_v13_apply, val_main_v12_apply,
    val_main_cst_apply, val_main_v11_apply, val_main_v10_apply, val_main_v9_apply]
  have hs : (∑ k : Fin 64, val_main_v7 (F := Ideal) x0 x2 x6 x7 x8 (lidx_main_v9 i k)
        * val_main_v8 (F := Ideal) x0 x2 x6 x7 x8 (ridx_main_v9 i k))
      = ∑ j : Fin 64, Spec.enc x0 x2 x6 x7 x8 (ix2 (i 0) j) * Spec.enc x0 x2 x6 x7 x8 (ix2 (i 1) j) := by
    refine Finset.sum_congr rfl fun k _ => ?_
    have hl : lidx_main_v9 i k = ix2 (i 0) k := funext fun a => by match a with | ⟨0, _⟩ => rfl | ⟨1, _⟩ => rfl
    have hr : idx_main_v8 (ridx_main_v9 i k) = ix2 (i 1) k := funext fun a => by match a with | ⟨0, _⟩ => rfl | ⟨1, _⟩ => rfl
    rw [val_main_v8_apply, embedding_eq, hl, hr]
    rfl
  rw [hs]
  simp only [Ideal.hostDivf_def, Ideal.addf_def, Ideal.hostUnary_exp_def, Ideal.hostNegf_def, Ideal.negf_def,
    Ideal.ofBits_def, Spec.one_f32]
  rfl

/-- The reconstruction with its leading unit axis, at `(_, p, q)`, is the reconstruction at `(p, q)`. -/
theorem slab_apply (i : S1x3000x3000.Idx) : val_main_v64 (F := Ideal) x0 x2 x6 x7 x8 i
    = Spec.gramLogistic (Spec.enc x0 x2 x6 x7 x8) (ix2 (i 1) (i 2)) := by
  have hi : idx_main_v64 i = ix2 (i 1) (i 2) := funext fun a => by match a with | ⟨0, _⟩ => rfl | ⟨1, _⟩ => rfl
  rw [val_main_v64_apply, recon_eq, hi]
  rfl

end Encoder

/-! ## The other three encoders are the same operations on other arguments -/

theorem slab1_eq (x1 x3 : A) (x9 : W1) (x10 : W2) (x11 : W3) :
    val_main_v65 (F := Ideal) x1 x3 x9 x10 x11 = val_main_v64 (F := Ideal) x1 x3 x9 x10 x11 := rfl
theorem slab2_eq (x0 x4 : A) (x12 : W1) (x13 : W2) (x14 : W3) :
    val_main_v66 (F := Ideal) x0 x4 x12 x13 x14 = val_main_v64 (F := Ideal) x0 x4 x12 x13 x14 := rfl
theorem slab3_eq (x1 x5 : A) (x15 : W1) (x16 : W2) (x17 : W3) :
    val_main_v67 (F := Ideal) x1 x5 x15 x16 x17 = val_main_v64 (F := Ideal) x1 x5 x15 x16 x17 := rfl

/-! ## The four reconstructions laid end to end along the leading axis -/

/-- The reference's result is the specification's: piece `e` of the concatenation is encoder `e`'s reconstruction. -/
theorem ref_result (x0 x1 x2 x3 x4 x5 : A) (x6 : W1) (x7 : W2) (x8 : W3) (x9 : W1) (x10 : W2) (x11 : W3)
    (x12 : W1) (x13 : W2) (x14 : W3) (x15 : W1) (x16 : W2) (x17 : W3) :
    val_main_v68 (F := Ideal) x0 x1 x2 x3 x4 x5 x6 x7 x8 x9 x10 x11 x12 x13 x14 x15 x16 x17
      = Spec.result x0 x1 x2 x3 x4 x5 x6 x7 x8 x9 x10 x11 x12 x13 x14 x15 x16 x17 := by
  funext j
  obtain ⟨e, p, q, rfl⟩ : ∃ (e : Fin 4) (p q : Fin 3000), j = ix3 e p q := ⟨j 0, j 1, j 2, eq_ix3 j⟩
  have hi : ∀ (e : Fin 4) (b : Fin S1x3000x3000.rank), b.cast (rfl : S1x3000x3000.rank = S4x3000x3000.rank) ≠ (0 : Fin S4x3000x3000.rank) →
      ((ix3 (0 : Fin 1) p q : S1x3000x3000.Idx) b).val = ((ix3 e p q : S4x3000x3000.Idx) (b.cast rfl)).val := fun e b hb => by
    match b with
    | ⟨0, _⟩ => exact absurd rfl hb
    | ⟨1, _⟩ => rfl
    | ⟨2, _⟩ => rfl
  unfold val_main_v68
  match e with
  | ⟨0, _⟩ =>
    refine (concatenate_apply_piece (0 : Fin S4x3000x3000.rank) _ _ _ 0 (by show 0 < 4; omega) S1x3000x3000
      (val_main_v64 (F := Ideal) x0 x2 x6 x7 x8) rfl rfl 0 rfl (ix3 (0 : Fin 1) p q) (hi _) rfl).trans ?_
    rw [slab_apply]; rfl
  | ⟨1, _⟩ =>
    refine (concatenate_apply_piece (0 : Fin S4x3000x3000.rank) _ _ _ 1 (by show 1 < 4; omega) S1x3000x3000
      (val_main_v65 (F := Ideal) x1 x3 x9 x10 x11) rfl rfl 1 rfl (ix3 (0 : Fin 1) p q) (hi _) rfl).trans ?_
    rw [slab1_eq, slab_apply]; rfl
  | ⟨2, _⟩ =>
    refine (concatenate_apply_piece (0 : Fin S4x3000x3000.rank) _ _ _ 2 (by show 2 < 4; omega) S1x3000x3000
      (val_main_v66 (F := Ideal) x0 x4 x12 x13 x14) rfl rfl 2 rfl (ix3 (0 : Fin 1) p q) (hi _) rfl).trans ?_
    rw [slab2_eq, slab_apply]; rfl
  | ⟨3, _⟩ =>
    refine (concatenate_apply_piece (0 : Fin S4x3000x3000.rank) _ _ _ 3 (by show 3 < 4; omega) S1x3000x3000
      (val_main_v67 (F := Ideal) x1 x5 x15 x16 x17) rfl rfl 3 rfl (ix3 (0 : Fin 1) p q) (hi _) rfl).trans ?_
    rw [slab3_eq, slab_apply]; rfl

/-! ## The reference's run, with its result named by the specification -/

/-- Every execution of the reference ends with the result buffer at the specification's function of the argument
    arrays, the arguments unchanged. -/
theorem run' (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v68) = Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans ((val_main_v68_eq m c).trans (ref_result _ _ _ _ _ _ _ _ _ _ _ _ _ _ _ _ _ _)), (h c).2⟩)
    (Cert.ReferenceIdeal.Value.run (F := Ideal) m ρ)

end Cert.ReferenceIdeal.RefValue

end
-- ==== Proof.lean ====
/-
  Four three-layer graph encoders and their reconstructed adjacencies: the tiled kernel program against its plain
  reference, at the ideal instance (floats are extended reals, every operation exact, a change of format the identity).
  Both programs compute, for each of the four encoders, the embedding
      z = adj · ((adj · tanh ((adj · tanh (x · w1)) · w2)) · w3)
  and then the logistic function of the Gram matrix z zᵀ, stacked along a leading axis. The kernel program reaches it
  differently: it projects each input once against the two first-layer weight matrices set side by side and later reads
  the column block it needs (a column block of a product against a side-by-side matrix is the product against the piece,
  and tanh acts entry by entry); it widens the last weight matrix with 64 zero columns, so that every later product
  carries 64 zero columns (x · 0 = 0 on the extended reals, also at the infinities) and the Gram sum over 128 columns is
  the sum over the first 64; it keeps a narrower-format copy of each adjacency (the identity here); and it computes every
  product row block by row block (the blocks tile the arrays; the last region's right-hand blocks overhang the array by
  72 columns, which its clipped write-backs never move). A sum is the same in any order and grouping on the extended
  reals, so no finiteness of the inputs is used. The frames: every region only reads its input arrays and no host
  operation writes an argument. At the word level the last region's output is left unnamed (its products read staging
  columns past the array's end), which the frame does not need.
-/
import proofs.«161112_j49297634623838_2_alg».proof.Defs
import proofs.«161112_j49297634623838_2_alg».proof.Proof.Gen.Kernel
import proofs.«161112_j49297634623838_2_alg».proof.Proof.Gen.KernelIdeal
import proofs.«161112_j49297634623838_2_alg».proof.Proof.Gen.ReferenceIdeal
import proofs.«161112_j49297634623838_2_alg».proof.Proof.Gen.Pre_finite_inputs
import proofs.«161112_j49297634623838_2_alg».proof.Proof.KB.Frame
import proofs.«161112_j49297634623838_2_alg».proof.Proof.KI.Frame
import proofs.«161112_j49297634623838_2_alg».proof.Proof.KI.Run
import proofs.«161112_j49297634623838_2_alg».proof.Proof.KI.Reg14I
import proofs.«161112_j49297634623838_2_alg».proof.Proof.KI.Value
import proofs.«161112_j49297634623838_2_alg».proof.Proof.RefValue
import Idealize.ShloMosaic.Adequacy
import Idealize.ShloMosaic.Init

noncomputable section

namespace Cert.Proof

open Idealize.ShloMosaic Idealize.SL.Sem

/-- The specification's result depends only on the eighteen arrays. -/
theorem result_congr {x1 x1' : Cert.Spec.Mat 3000 3000} {x2 x2' : Cert.Spec.Mat 3000 3000} {a1 a1' : Cert.Spec.Mat 3000 3000} {a2 a2' : Cert.Spec.Mat 3000 3000} {a3 a3' : Cert.Spec.Mat 3000 3000} {a4 a4' : Cert.Spec.Mat 3000 3000} {wf11 wf11' : Cert.Spec.Mat 3000 256} {wf12 wf12' : Cert.Spec.Mat 256 128} {wf13 wf13' : Cert.Spec.Mat 128 64} {wf21 wf21' : Cert.Spec.Mat 3000 256} {wf22 wf22' : Cert.Spec.Mat 256 128} {wf23 wf23' : Cert.Spec.Mat 128 64} {ws11 ws11' : Cert.Spec.Mat 3000 256} {ws12 ws12' : Cert.Spec.Mat 256 128} {ws13 ws13' : Cert.Spec.Mat 128 64} {ws21 ws21' : Cert.Spec.Mat 3000 256} {ws22 ws22' : Cert.Spec.Mat 256 128} {ws23 ws23' : Cert.Spec.Mat 128 64}
    (h0 : x1 = x1') (h1 : x2 = x2') (h2 : a1 = a1') (h3 : a2 = a2') (h4 : a3 = a3') (h5 : a4 = a4') (h6 : wf11 = wf11') (h7 : wf12 = wf12') (h8 : wf13 = wf13') (h9 : wf21 = wf21') (h10 : wf22 = wf22') (h11 : wf23 = wf23') (h12 : ws11 = ws11') (h13 : ws12 = ws12') (h14 : ws13 = ws13') (h15 : ws21 = ws21') (h16 : ws22 = ws22') (h17 : ws23 = ws23') :
    Cert.Spec.result x1 x2 a1 a2 a3 a4 wf11 wf12 wf13 wf21 wf22 wf23 ws11 ws12 ws13 ws21 ws22 ws23 = Cert.Spec.result x1' x2' a1' a2' a3' a4' wf11' wf12' wf13' wf21' wf22' wf23' ws11' ws12' ws13' ws21' ws22' ws23' := by
  subst h0 h1 h2 h3 h4 h5 h6 h7 h8 h9 h10 h11 h12 h13 h14 h15 h16 h17
  rfl

/-- The word-level program runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m Cert.KernelIdeal.Hand.colLocal14_ideal ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run' m ρ)

/-- Both idealized programs end with the specification's stack of reconstructed adjacencies of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun _ h c => ⟨(h c).1.trans ((Cert.KernelIdeal.Hand.V25_main_v26 m c).trans (Cert.KernelIdeal.Hand.value m c)), (h c).2⟩)
      (Cert.KernelIdeal.Hand.run m Cert.KernelIdeal.Hand.colLocal14_ideal ρ)
  · refine (θ_run Cert.ReferenceIdeal.defs _ _).mono (fun _ h c => ⟨(h c).1.trans ?_, (h c).2⟩)
      (Cert.ReferenceIdeal.RefValue.run' m' ρ')
    obtain ⟨e0, e1, e2, e3, e4, e5, e6, e7, e8, e9, e10, e11, e12, e13, e14, e15, e16, e17⟩ := hagree c
    exact result_congr e0 e1 e2 e3 e4 e5 e6 e7 e8 e9 e10 e11 e12 e13 e14 e15 e16 e17

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
